-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v271)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v271) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v316) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x64 : Shape := ⟨2, ![50000, 64]⟩
abbrev S2x800000 : Shape := ⟨2, ![2, 800000]⟩
abbrev S8x64x64 : Shape := ⟨3, ![8, 64, 64]⟩
abbrev S64 : Shape := ⟨1, ![64]⟩
abbrev S8x64x10 : Shape := ⟨3, ![8, 64, 10]⟩
abbrev S10 : Shape := ⟨1, ![10]⟩
abbrev S_ : Shape := ⟨0, ![]⟩

class Facts : Prop where
  bcast_S_S50000x64 : S_.BroadcastsInDim S50000x64 (![] : Fin 0 → Fin S50000x64.rank)
  reducesTo_S50000x64_S_d0_1 : S50000x64.ReducesTo [0, 1] S_
  h_S_ : 0 < S_.numel
  bcast_S_S8x64x64 : S_.BroadcastsInDim S8x64x64 (![] : Fin 0 → Fin S8x64x64.rank)
  reducesTo_S8x64x64_S_d0_1_2 : S8x64x64.ReducesTo [0, 1, 2] S_
  bcast_S_S64 : S_.BroadcastsInDim S64 (![] : Fin 0 → Fin S64.rank)
  reducesTo_S64_S_d0 : S64.ReducesTo [0] S_
  bcast_S_S8x64x10 : S_.BroadcastsInDim S8x64x10 (![] : Fin 0 → Fin S8x64x10.rank)
  reducesTo_S8x64x10_S_d0_1_2 : S8x64x10.ReducesTo [0, 1, 2] S_
  bcast_S_S10 : S_.BroadcastsInDim S10 (![] : Fin 0 → Fin S10.rank)
  reducesTo_S10_S_d0 : S10.ReducesTo [0] S_

variable [Facts]

def fn_part1 {F : FTy → Type} [FloatOps F] (main_arg5 : FVec F S10 .f32) (main_v13 : IVec S_ 1) (main_v16 : IVec S8x64x10 1) : IVec S_ 1 :=
  let main_c_5 : IVec S_ 1 := constantI S_ 1 1#1
  let main_v17 : IVec S_ 1 := (fun x v => Host.reduce IntOp.andi x v reducesTo_S8x64x10_S_d0_1_2 h_S_) main_v16 main_c_5
  let main_v18 : IVec S_ 1 := andi main_v13 main_v17
  let main_v19 : FVec F S10 .f32 := Host.absf main_arg5
  let main_cst_6 : FVec F S_ .f32 := constant S_ .f32 0x7F800000#32
  let main_v20 : FVec F S10 .f32 := broadcastInDim S10 ![] bcast_S_S10 main_cst_6
  let main_v21 : IVec S10 1 := cmpf .olt main_v19 main_v20
  let main_c_7 : IVec S_ 1 := constantI S_ 1 1#1
  let main_v22 : IVec S_ 1 := (fun x v => Host.reduce IntOp.andi x v reducesTo_S10_S_d0 h_S_) main_v21 main_c_7
  let main_v23 : IVec S_ 1 := andi main_v18 main_v22
  main_v23

def fn {F : FTy → Type} [FloatOps F] (main_arg0 : FVec F S50000x64 .f32) (main_arg1 : IVec S2x800000 32) (main_arg2 : FVec F S8x64x64 .f32) (main_arg3 : FVec F S64 .f32) (main_arg4 : FVec F S8x64x10 .f32) (main_arg5 : FVec F S10 .f32) : IVec S_ 1 :=
  let main_v0 : FVec F S50000x64 .f32 := Host.absf main_arg0
  let main_cst : FVec F S_ .f32 := constant S_ .f32 0x7F800000#32
  let main_v1 : FVec F S50000x64 .f32 := broadcastInDim S50000x64 ![] bcast_S_S50000x64 main_cst
  let main_v2 : IVec S50000x64 1 := cmpf .olt main_v0 main_v1
  let main_c : IVec S_ 1 := constantI S_ 1 1#1
  let main_v3 : IVec S_ 1 := (fun x v => Host.reduce IntOp.andi x v reducesTo_S50000x64_S_d0_1 h_S_) main_v2 main_c
  let main_v4 : FVec F S8x64x64 .f32 := Host.absf main_arg2
  let main_cst_0 : FVec F S_ .f32 := constant S_ .f32 0x7F800000#32
  let main_v5 : FVec F S8x64x64 .f32 := broadcastInDim S8x64x64 ![] bcast_S_S8x64x64 main_cst_0
  let main_v6 : IVec S8x64x64 1 := cmpf .olt main_v4 main_v5
  let main_c_1 : IVec S_ 1 := constantI S_ 1 1#1
  let main_v7 : IVec S_ 1 := (fun x v => Host.reduce IntOp.andi x v reducesTo_S8x64x64_S_d0_1_2 h_S_) main_v6 main_c_1
  let main_v8 : IVec S_ 1 := andi main_v3 main_v7
  let main_v9 : FVec F S64 .f32 := Host.absf main_arg3
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S8x64x10 .f32 := Host.absf main_arg4
  let main_cst_4 : FVec F S_ .f32 := constant S_ .f32 0x7F800000#32
  let main_v15 : FVec F S8x64x10 .f32 := broadcastInDim S8x64x10 ![] bcast_S_S8x64x10 main_cst_4
  let main_v16 : IVec S8x64x10 1 := cmpf .olt main_v14 main_v15
  fn_part1 (F := F) main_arg5 main_v13 main_v16
-- ==== Kernel.lean ====
abbrev S50000x64 : Shape := ⟨2, ![50000, 64]⟩
abbrev S2x800000 : Shape := ⟨2, ![2, 800000]⟩
abbrev S8x64x64 : Shape := ⟨3, ![8, 64, 64]⟩
abbrev S64 : Shape := ⟨1, ![64]⟩
abbrev S8x64x10 : Shape := ⟨3, ![8, 64, 10]⟩
abbrev S10 : Shape := ⟨1, ![10]⟩
abbrev S1x800000 : Shape := ⟨2, ![1, 800000]⟩
abbrev S800000 : Shape := ⟨1, ![800000]⟩
abbrev S_ : Shape := ⟨0, ![]⟩
abbrev S50000 : Shape := ⟨1, ![50000]⟩
abbrev S800000x1 : Shape := ⟨2, ![800000, 1]⟩
abbrev S800000x64 : Shape := ⟨2, ![800000, 64]⟩
abbrev S1x50000x64 : Shape := ⟨3, ![1, 50000, 64]⟩
abbrev S8x50000x64 : Shape := ⟨3, ![8, 50000, 64]⟩
abbrev S8x5000x64 : Shape := ⟨3, ![8, 5000, 64]⟩
abbrev S5000x64 : Shape := ⟨2, ![5000, 64]⟩
abbrev S1x5000x64 : Shape := ⟨3, ![1, 5000, 64]⟩
abbrev S1x64x64 : Shape := ⟨3, ![1, 64, 64]⟩
abbrev S64x64 : Shape := ⟨2, ![64, 64]⟩
abbrev S1x64 : Shape := ⟨2, ![1, 64]⟩
abbrev S50000x10 : Shape := ⟨2, ![50000, 10]⟩
abbrev S5000x10 : Shape := ⟨2, ![5000, 10]⟩
abbrev S1x64x10 : Shape := ⟨3, ![1, 64, 10]⟩
abbrev S64x10 : Shape := ⟨2, ![64, 10]⟩
abbrev S1x10 : Shape := ⟨2, ![1, 10]⟩

abbrev nBuf : Space → Nat
  | .hbm => 343
  | .vmem => 14
  | .smem => 0
  | _ => 0

abbrev hbmTy0_0 (i : Nat) : BufTy := match i % 128 with
  | 0 => ⟨S50000x64, .f32⟩
  | 1 => ⟨S2x800000, .i32⟩
  | 2 => ⟨S8x64x64, .f32⟩
  | 3 => ⟨S64, .f32⟩
  | 4 => ⟨S8x64x10, .f32⟩
  | 5 => ⟨S10, .f32⟩
  | 6 => ⟨S1x800000, .i32⟩
  | 7 => ⟨S800000, .i32⟩
  | 8 => ⟨S1x800000, .i32⟩
  | 9 => ⟨S800000, .i32⟩
  | 10 => ⟨S_, .f32⟩
  | 11 => ⟨S800000, .f32⟩
  | 12 => ⟨S_, .f32⟩
  | 13 => ⟨S50000, .f32⟩
  | 14 => ⟨S800000x1, .i32⟩
  | 15 => ⟨S50000, .f32⟩
  | 16 => ⟨S_, .f32⟩
  | 17 => ⟨S50000, .f32⟩
  | 18 => ⟨S50000, .i1⟩
  | 19 => ⟨S_, .f32⟩
  | 20 => ⟨S50000, .f32⟩
  | 21 => ⟨S50000, .f32⟩
  | 22 => ⟨S50000, .f32⟩
  | 23 => ⟨S_, .f32⟩
  | 24 => ⟨S_, .f32⟩
  | 25 => ⟨S50000, .f32⟩
  | 26 => ⟨S50000, .f32⟩
  | 27 => ⟨S_, .i32⟩
  | 28 => ⟨S800000, .i32⟩
  | 29 => ⟨S800000, .i1⟩
  | 30 => ⟨S_, .i32⟩
  | 31 => ⟨S800000, .i32⟩
  | 32 => ⟨S800000, .i32⟩
  | 33 => ⟨S800000, .i32⟩
  | 34 => ⟨S800000x1, .i32⟩
  | 35 => ⟨S800000, .f32⟩
  | 36 => ⟨S800000, .f32⟩
  | 37 => ⟨S_, .i32⟩
  | 38 => ⟨S800000, .i32⟩
  | 39 => ⟨S800000, .i1⟩
  | 40 => ⟨S_, .i32⟩
  | 41 => ⟨S800000, .i32⟩
  | 42 => ⟨S800000, .i32⟩
  | 43 => ⟨S800000, .i32⟩
  | 44 => ⟨S800000x1, .i32⟩
  | 45 => ⟨S800000, .f32⟩
  | 46 => ⟨S800000, .f32⟩
  | 47 => ⟨S800000x1, .f32⟩
  | 48 => ⟨S_, .i32⟩
  | 49 => ⟨S800000, .i32⟩
  | 50 => ⟨S800000, .i1⟩
  | 51 => ⟨S_, .i32⟩
  | 52 => ⟨S800000, .i32⟩
  | 53 => ⟨S800000, .i32⟩
  | 54 => ⟨S800000, .i32⟩
  | 55 => ⟨S800000x1, .i32⟩
  | 56 => ⟨S800000x64, .f32⟩
  | 57 => ⟨S800000x64, .f32⟩
  | 58 => ⟨S800000x64, .f32⟩
  | 59 => ⟨S_, .f32⟩
  | 60 => ⟨S50000x64, .f32⟩
  | 61 => ⟨S800000x1, .i32⟩
  | 62 => ⟨S50000x64, .f32⟩
  | 63 => ⟨S800000x1, .f32⟩
  | 64 => ⟨S_, .i32⟩
  | 65 => ⟨S800000, .i32⟩
  | 66 => ⟨S800000, .i1⟩
  | 67 => ⟨S_, .i32⟩
  | 68 => ⟨S800000, .i32⟩
  | 69 => ⟨S800000, .i32⟩
  | 70 => ⟨S800000, .i32⟩
  | 71 => ⟨S800000x1, .i32⟩
  | 72 => ⟨S800000x64, .f32⟩
  | 73 => ⟨S800000x64, .f32⟩
  | 74 => ⟨S800000x64, .f32⟩
  | 75 => ⟨S_, .f32⟩
  | 76 => ⟨S50000x64, .f32⟩
  | 77 => ⟨S800000x1, .i32⟩
  | 78 => ⟨S50000x64, .f32⟩
  | 79 => ⟨S_, .f32⟩
  | 80 => ⟨S50000x64, .f32⟩
  | 81 => ⟨S50000x64, .f32⟩
  | 82 => ⟨S50000x64, .f32⟩
  | 83 => ⟨S800000x1, .f32⟩
  | 84 => ⟨S_, .i32⟩
  | 85 => ⟨S800000, .i32⟩
  | 86 => ⟨S800000, .i1⟩
  | 87 => ⟨S_, .i32⟩
  | 88 => ⟨S800000, .i32⟩
  | 89 => ⟨S800000, .i32⟩
  | 90 => ⟨S800000, .i32⟩
  | 91 => ⟨S800000x1, .i32⟩
  | 92 => ⟨S800000x64, .f32⟩
  | 93 => ⟨S800000x64, .f32⟩
  | 94 => ⟨S800000x64, .f32⟩
  | 95 => ⟨S_, .f32⟩
  | 96 => ⟨S50000x64, .f32⟩
  | 97 => ⟨S800000x1, .i32⟩
  | 98 => ⟨S50000x64, .f32⟩
  | 99 => ⟨S_, .f32⟩
  | 100 => ⟨S50000x64, .f32⟩
  | 101 => ⟨S50000x64, .f32⟩
  | 102 => ⟨S50000x64, .f32⟩
  | 103 => ⟨S800000x1, .f32⟩
  | 104 => ⟨S_, .i32⟩
  | 105 => ⟨S800000, .i32⟩
  | 106 => ⟨S800000, .i1⟩
  | 107 => ⟨S_, .i32⟩
  | 108 => ⟨S800000, .i32⟩
  | 109 => ⟨S800000, .i32⟩
  | 110 => ⟨S800000, .i32⟩
  | 111 => ⟨S800000x1, .i32⟩
  | 112 => ⟨S800000x64, .f32⟩
  | 113 => ⟨S800000x64, .f32⟩
  | 114 => ⟨S800000x64, .f32⟩
  | 115 => ⟨S_, .f32⟩
  | 116 => ⟨S50000x64, .f32⟩
  | 117 => ⟨S800000x1, .i32⟩
  | 118 => ⟨S50000x64, .f32⟩
  | 119 => ⟨S_, .f32⟩
  | 120 => ⟨S50000x64, .f32⟩
  | 121 => ⟨S50000x64, .f32⟩
  | 122 => ⟨S50000x64, .f32⟩
  | 123 => ⟨S800000x1, .f32⟩
  | 124 => ⟨S_, .i32⟩
  | 125 => ⟨S800000, .i32⟩
  | 126 => ⟨S800000, .i1⟩
  | 127 => ⟨S_, .i32⟩
  | _ => ⟨S50000x64, .f32⟩

abbrev hbmTy0_1 (i : Nat) : BufTy := match i % 128 with
  | 0 => ⟨S800000, .i32⟩
  | 1 => ⟨S800000, .i32⟩
  | 2 => ⟨S800000, .i32⟩
  | 3 => ⟨S800000x1, .i32⟩
  | 4 => ⟨S800000x64, .f32⟩
  | 5 => ⟨S800000x64, .f32⟩
  | 6 => ⟨S800000x64, .f32⟩
  | 7 => ⟨S_, .f32⟩
  | 8 => ⟨S50000x64, .f32⟩
  | 9 => ⟨S800000x1, .i32⟩
  | 10 => ⟨S50000x64, .f32⟩
  | 11 => ⟨S_, .f32⟩
  | 12 => ⟨S50000x64, .f32⟩
  | 13 => ⟨S50000x64, .f32⟩
  | 14 => ⟨S50000x64, .f32⟩
  | 15 => ⟨S800000x1, .f32⟩
  | 16 => ⟨S_, .i32⟩
  | 17 => ⟨S800000, .i32⟩
  | 18 => ⟨S800000, .i1⟩
  | 19 => ⟨S_, .i32⟩
  | 20 => ⟨S800000, .i32⟩
  | 21 => ⟨S800000, .i32⟩
  | 22 => ⟨S800000, .i32⟩
  | 23 => ⟨S800000x1, .i32⟩
  | 24 => ⟨S800000x64, .f32⟩
  | 25 => ⟨S800000x64, .f32⟩
  | 26 => ⟨S800000x64, .f32⟩
  | 27 => ⟨S_, .f32⟩
  | 28 => ⟨S50000x64, .f32⟩
  | 29 => ⟨S800000x1, .i32⟩
  | 30 => ⟨S50000x64, .f32⟩
  | 31 => ⟨S_, .f32⟩
  | 32 => ⟨S50000x64, .f32⟩
  | 33 => ⟨S50000x64, .f32⟩
  | 34 => ⟨S50000x64, .f32⟩
  | 35 => ⟨S800000x1, .f32⟩
  | 36 => ⟨S_, .i32⟩
  | 37 => ⟨S800000, .i32⟩
  | 38 => ⟨S800000, .i1⟩
  | 39 => ⟨S_, .i32⟩
  | 40 => ⟨S800000, .i32⟩
  | 41 => ⟨S800000, .i32⟩
  | 42 => ⟨S800000, .i32⟩
  | 43 => ⟨S800000x1, .i32⟩
  | 44 => ⟨S800000x64, .f32⟩
  | 45 => ⟨S800000x64, .f32⟩
  | 46 => ⟨S800000x64, .f32⟩
  | 47 => ⟨S_, .f32⟩
  | 48 => ⟨S50000x64, .f32⟩
  | 49 => ⟨S800000x1, .i32⟩
  | 50 => ⟨S50000x64, .f32⟩
  | 51 => ⟨S_, .f32⟩
  | 52 => ⟨S50000x64, .f32⟩
  | 53 => ⟨S50000x64, .f32⟩
  | 54 => ⟨S50000x64, .f32⟩
  | 55 => ⟨S1x50000x64, .f32⟩
  | 56 => ⟨S1x50000x64, .f32⟩
  | 57 => ⟨S1x50000x64, .f32⟩
  | 58 => ⟨S1x50000x64, .f32⟩
  | 59 => ⟨S1x50000x64, .f32⟩
  | 60 => ⟨S1x50000x64, .f32⟩
  | 61 => ⟨S1x50000x64, .f32⟩
  | 62 => ⟨S1x50000x64, .f32⟩
  | 63 => ⟨S8x50000x64, .f32⟩
  | 64 => ⟨S8x50000x64, .bf16⟩
  | 65 => ⟨S8x64x64, .bf16⟩
  | 66 => ⟨S50000x64, .f32⟩
  | 67 => ⟨S800000x1, .f32⟩
  | 68 => ⟨S_, .i32⟩
  | 69 => ⟨S800000, .i32⟩
  | 70 => ⟨S800000, .i1⟩
  | 71 => ⟨S_, .i32⟩
  | 72 => ⟨S800000, .i32⟩
  | 73 => ⟨S800000, .i32⟩
  | 74 => ⟨S800000, .i32⟩
  | 75 => ⟨S800000x1, .i32⟩
  | 76 => ⟨S800000x64, .f32⟩
  | 77 => ⟨S800000x64, .f32⟩
  | 78 => ⟨S800000x64, .f32⟩
  | 79 => ⟨S_, .f32⟩
  | 80 => ⟨S50000x64, .f32⟩
  | 81 => ⟨S800000x1, .i32⟩
  | 82 => ⟨S50000x64, .f32⟩
  | 83 => ⟨S800000x1, .f32⟩
  | 84 => ⟨S_, .i32⟩
  | 85 => ⟨S800000, .i32⟩
  | 86 => ⟨S800000, .i1⟩
  | 87 => ⟨S_, .i32⟩
  | 88 => ⟨S800000, .i32⟩
  | 89 => ⟨S800000, .i32⟩
  | 90 => ⟨S800000, .i32⟩
  | 91 => ⟨S800000x1, .i32⟩
  | 92 => ⟨S800000x64, .f32⟩
  | 93 => ⟨S800000x64, .f32⟩
  | 94 => ⟨S800000x64, .f32⟩
  | 95 => ⟨S_, .f32⟩
  | 96 => ⟨S50000x64, .f32⟩
  | 97 => ⟨S800000x1, .i32⟩
  | 98 => ⟨S50000x64, .f32⟩
  | 99 => ⟨S_, .f32⟩
  | 100 => ⟨S50000x64, .f32⟩
  | 101 => ⟨S50000x64, .f32⟩
  | 102 => ⟨S50000x64, .f32⟩
  | 103 => ⟨S800000x1, .f32⟩
  | 104 => ⟨S_, .i32⟩
  | 105 => ⟨S800000, .i32⟩
  | 106 => ⟨S800000, .i1⟩
  | 107 => ⟨S_, .i32⟩
  | 108 => ⟨S800000, .i32⟩
  | 109 => ⟨S800000, .i32⟩
  | 110 => ⟨S800000, .i32⟩
  | 111 => ⟨S800000x1, .i32⟩
  | 112 => ⟨S800000x64, .f32⟩
  | 113 => ⟨S800000x64, .f32⟩
  | 114 => ⟨S800000x64, .f32⟩
  | 115 => ⟨S_, .f32⟩
  | 116 => ⟨S50000x64, .f32⟩
  | 117 => ⟨S800000x1, .i32⟩
  | 118 => ⟨S50000x64, .f32⟩
  | 119 => ⟨S_, .f32⟩
  | 120 => ⟨S50000x64, .f32⟩
  | 121 => ⟨S50000x64, .f32⟩
  | 122 => ⟨S50000x64, .f32⟩
  | 123 => ⟨S800000x1, .f32⟩
  | 124 => ⟨S_, .i32⟩
  | 125 => ⟨S800000, .i32⟩
  | 126 => ⟨S800000, .i1⟩
  | 127 => ⟨S_, .i32⟩
  | _ => ⟨S50000x64, .f32⟩

abbrev hbmTy0_2 (i : Nat) : BufTy := match i % 128 with
  | 0 => ⟨S800000, .i32⟩
  | 1 => ⟨S800000, .i32⟩
  | 2 => ⟨S800000, .i32⟩
  | 3 => ⟨S800000x1, .i32⟩
  | 4 => ⟨S800000x64, .f32⟩
  | 5 => ⟨S800000x64, .f32⟩
  | 6 => ⟨S800000x64, .f32⟩
  | 7 => ⟨S_, .f32⟩
  | 8 => ⟨S50000x64, .f32⟩
  | 9 => ⟨S800000x1, .i32⟩
  | 10 => ⟨S50000x64, .f32⟩
  | 11 => ⟨S_, .f32⟩
  | 12 => ⟨S50000x64, .f32⟩
  | 13 => ⟨S50000x64, .f32⟩
  | 14 => ⟨S50000x64, .f32⟩
  | 15 => ⟨S800000x1, .f32⟩
  | 16 => ⟨S_, .i32⟩
  | 17 => ⟨S800000, .i32⟩
  | 18 => ⟨S800000, .i1⟩
  | 19 => ⟨S_, .i32⟩
  | 20 => ⟨S800000, .i32⟩
  | 21 => ⟨S800000, .i32⟩
  | 22 => ⟨S800000, .i32⟩
  | 23 => ⟨S800000x1, .i32⟩
  | 24 => ⟨S800000x64, .f32⟩
  | 25 => ⟨S800000x64, .f32⟩
  | 26 => ⟨S800000x64, .f32⟩
  | 27 => ⟨S_, .f32⟩
  | 28 => ⟨S50000x64, .f32⟩
  | 29 => ⟨S800000x1, .i32⟩
  | 30 => ⟨S50000x64, .f32⟩
  | 31 => ⟨S_, .f32⟩
  | 32 => ⟨S50000x64, .f32⟩
  | 33 => ⟨S50000x64, .f32⟩
  | 34 => ⟨S50000x64, .f32⟩
  | 35 => ⟨S800000x1, .f32⟩
  | 36 => ⟨S_, .i32⟩
  | 37 => ⟨S800000, .i32⟩
  | 38 => ⟨S800000, .i1⟩
  | 39 => ⟨S_, .i32⟩
  | 40 => ⟨S800000, .i32⟩
  | 41 => ⟨S800000, .i32⟩
  | 42 => ⟨S800000, .i32⟩
  | 43 => ⟨S800000x1, .i32⟩
  | 44 => ⟨S800000x64, .f32⟩
  | 45 => ⟨S800000x64, .f32⟩
  | 46 => ⟨S800000x64, .f32⟩
  | 47 => ⟨S_, .f32⟩
  | 48 => ⟨S50000x64, .f32⟩
  | 49 => ⟨S800000x1, .i32⟩
  | 50 => ⟨S50000x64, .f32⟩
  | 51 => ⟨S_, .f32⟩
  | 52 => ⟨S50000x64, .f32⟩
  | 53 => ⟨S50000x64, .f32⟩
  | 54 => ⟨S50000x64, .f32⟩
  | 55 => ⟨S800000x1, .f32⟩
  | 56 => ⟨S_, .i32⟩
  | 57 => ⟨S800000, .i32⟩
  | 58 => ⟨S800000, .i1⟩
  | 59 => ⟨S_, .i32⟩
  | 60 => ⟨S800000, .i32⟩
  | 61 => ⟨S800000, .i32⟩
  | 62 => ⟨S800000, .i32⟩
  | 63 => ⟨S800000x1, .i32⟩
  | 64 => ⟨S800000x64, .f32⟩
  | 65 => ⟨S800000x64, .f32⟩
  | 66 => ⟨S800000x64, .f32⟩
  | 67 => ⟨S_, .f32⟩
  | 68 => ⟨S50000x64, .f32⟩
  | 69 => ⟨S800000x1, .i32⟩
  | 70 => ⟨S50000x64, .f32⟩
  | 71 => ⟨S_, .f32⟩
  | 72 => ⟨S50000x64, .f32⟩
  | 73 => ⟨S50000x64, .f32⟩
  | 74 => ⟨S50000x64, .f32⟩
  | 75 => ⟨S1x50000x64, .f32⟩
  | 76 => ⟨S1x50000x64, .f32⟩
  | 77 => ⟨S1x50000x64, .f32⟩
  | 78 => ⟨S1x50000x64, .f32⟩
  | 79 => ⟨S1x50000x64, .f32⟩
  | 80 => ⟨S1x50000x64, .f32⟩
  | 81 => ⟨S1x50000x64, .f32⟩
  | 82 => ⟨S1x50000x64, .f32⟩
  | 83 => ⟨S8x50000x64, .f32⟩
  | 84 => ⟨S8x50000x64, .bf16⟩
  | 85 => ⟨S8x64x10, .bf16⟩
  | 86 => ⟨S50000x10, .f32⟩
  | _ => ⟨S50000x64, .f32⟩

abbrev hbmTy (i : Nat) : BufTy := match i / 128 with
  | 0 => hbmTy0_0 i
  | 1 => hbmTy0_1 i
  | 2 => hbmTy0_2 i
  | _ => ⟨S50000x64, .f32⟩

abbrev bufTy : (tb : Table) → Fin (tcTables nBuf tb) → BufTy
  | .hbm, ⟨i, _⟩ => hbmTy i
  | .local _ .vmem, ⟨0, _⟩ => ⟨S8x5000x64, .bf16⟩
  | .local _ .vmem, ⟨1, _⟩ => ⟨S8x5000x64, .bf16⟩
  | .local _ .vmem, ⟨2, _⟩ => ⟨S8x64x64, .bf16⟩
  | .local _ .vmem, ⟨3, _⟩ => ⟨S64, .f32⟩
  | .local _ .vmem, ⟨4, _⟩ => ⟨S5000x64, .f32⟩
  | .local _ .vmem, ⟨5, _⟩ => ⟨S5000x64, .f32⟩
  | .local _ .vmem, ⟨6, _⟩ => ⟨S5000x64, .f32⟩
  | .local _ .vmem, ⟨7, _⟩ => ⟨S8x5000x64, .bf16⟩
  | .local _ .vmem, ⟨8, _⟩ => ⟨S8x5000x64, .bf16⟩
  | .local _ .vmem, ⟨9, _⟩ => ⟨S8x64x10, .bf16⟩
  | .local _ .vmem, ⟨10, _⟩ => ⟨S10, .f32⟩
  | .local _ .vmem, ⟨11, _⟩ => ⟨S5000x10, .f32⟩
  | .local _ .vmem, ⟨12, _⟩ => ⟨S5000x10, .f32⟩
  | .local _ .vmem, ⟨13, _⟩ => ⟨S5000x10, .f32⟩
  | _, _ => ⟨S50000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_cst : Ref sig .tc := ⟨.hbm, 10, rfl⟩
abbrev main_v4 : Ref sig .tc := ⟨.hbm, 11, rfl⟩
abbrev main_cst_0 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_cst_1 : Ref sig .tc := ⟨.hbm, 16, rfl⟩
abbrev main_v8 : Ref sig .tc := ⟨.hbm, 17, rfl⟩
abbrev main_v9 : Ref sig .tc := ⟨.hbm, 18, rfl⟩
abbrev main_cst_2 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_cst_3 : Ref sig .tc := ⟨.hbm, 23, rfl⟩
abbrev main_call0_v0 : Ref sig .tc := ⟨.hbm, 24, rfl⟩
abbrev main_call0_v1 : Ref sig .tc := ⟨.hbm, 25, rfl⟩
abbrev main_v13 : Ref sig .tc := ⟨.hbm, 26, rfl⟩
abbrev main_c : Ref sig .tc := ⟨.hbm, 27, rfl⟩
abbrev main_v14 : Ref sig .tc := ⟨.hbm, 28, rfl⟩
abbrev main_v15 : Ref sig .tc := ⟨.hbm, 29, rfl⟩
abbrev main_c_4 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_c_5 : Ref sig .tc := ⟨.hbm, 37, rfl⟩
abbrev main_v22 : Ref sig .tc := ⟨.hbm, 38, rfl⟩
abbrev main_v23 : Ref sig .tc := ⟨.hbm, 39, rfl⟩
abbrev main_c_6 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_c_7 : Ref sig .tc := ⟨.hbm, 48, rfl⟩
abbrev main_v31 : Ref sig .tc := ⟨.hbm, 49, rfl⟩
abbrev main_v32 : Ref sig .tc := ⟨.hbm, 50, rfl⟩
abbrev main_c_8 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_cst_9 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_c_10 : Ref sig .tc := ⟨.hbm, 64, rfl⟩
abbrev main_v44 : Ref sig .tc := ⟨.hbm, 65, rfl⟩
abbrev main_v45 : Ref sig .tc := ⟨.hbm, 66, rfl⟩
abbrev main_c_11 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_cst_12 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_cst_13 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev main_c_14 : Ref sig .tc := ⟨.hbm, 84, rfl⟩
abbrev main_v60 : Ref sig .tc := ⟨.hbm, 85, rfl⟩
abbrev main_v61 : Ref sig .tc := ⟨.hbm, 86, rfl⟩
abbrev main_c_15 : Ref sig .tc := ⟨.hbm, 87, rfl⟩
abbrev main_v62 : Ref sig .tc := ⟨.hbm, 88, rfl⟩
abbrev main_v63 : Ref sig .tc := ⟨.hbm, 89, rfl⟩
abbrev main_v64 : Ref sig .tc := ⟨.hbm, 90, rfl⟩
abbrev main_v65 : Ref sig .tc := ⟨.hbm, 91, rfl⟩
abbrev main_v66 : Ref sig .tc := ⟨.hbm, 92, rfl⟩
abbrev main_v67 : Ref sig .tc := ⟨.hbm, 93, rfl⟩
abbrev main_v68 : Ref sig .tc := ⟨.hbm, 94, rfl⟩
abbrev main_cst_16 : Ref sig .tc := ⟨.hbm, 95, rfl⟩
abbrev main_v69 : Ref sig .tc := ⟨.hbm, 96, rfl⟩
abbrev main_v70 : Ref sig .tc := ⟨.hbm, 97, rfl⟩
abbrev main_v71 : Ref sig .tc := ⟨.hbm, 98, rfl⟩
abbrev main_cst_17 : Ref sig .tc := ⟨.hbm, 99, rfl⟩
abbrev main_v72 : Ref sig .tc := ⟨.hbm, 100, rfl⟩
abbrev main_v73 : Ref sig .tc := ⟨.hbm, 101, rfl⟩
abbrev main_v74 : Ref sig .tc := ⟨.hbm, 102, rfl⟩
abbrev main_v75 : Ref sig .tc := ⟨.hbm, 103, rfl⟩
abbrev main_c_18 : Ref sig .tc := ⟨.hbm, 104, rfl⟩
abbrev main_v76 : Ref sig .tc := ⟨.hbm, 105, rfl⟩
abbrev main_v77 : Ref sig .tc := ⟨.hbm, 106, rfl⟩
abbrev main_c_19 : Ref sig .tc := ⟨.hbm, 107, rfl⟩
abbrev main_v78 : Ref sig .tc := ⟨.hbm, 108, rfl⟩
abbrev main_v79 : Ref sig .tc := ⟨.hbm, 109, rfl⟩
abbrev main_v80 : Ref sig .tc := ⟨.hbm, 110, rfl⟩
abbrev main_v81 : Ref sig .tc := ⟨.hbm, 111, rfl⟩
abbrev main_v82 : Ref sig .tc := ⟨.hbm, 112, rfl⟩
abbrev main_v83 : Ref sig .tc := ⟨.hbm, 113, rfl⟩
abbrev main_v84 : Ref sig .tc := ⟨.hbm, 114, rfl⟩
abbrev main_cst_20 : Ref sig .tc := ⟨.hbm, 115, rfl⟩
abbrev main_v85 : Ref sig .tc := ⟨.hbm, 116, rfl⟩
abbrev main_v86 : Ref sig .tc := ⟨.hbm, 117, rfl⟩
abbrev main_v87 : Ref sig .tc := ⟨.hbm, 118, rfl⟩
abbrev main_cst_21 : Ref sig .tc := ⟨.hbm, 119, rfl⟩
abbrev main_v88 : Ref sig .tc := ⟨.hbm, 120, rfl⟩
abbrev main_v89 : Ref sig .tc := ⟨.hbm, 121, rfl⟩
abbrev main_v90 : Ref sig .tc := ⟨.hbm, 122, rfl⟩
abbrev main_v91 : Ref sig .tc := ⟨.hbm, 123, rfl⟩
abbrev main_c_22 : Ref sig .tc := ⟨.hbm, 124, rfl⟩
abbrev main_v92 : Ref sig .tc := ⟨.hbm, 125, rfl⟩
abbrev main_v93 : Ref sig .tc := ⟨.hbm, 126, rfl⟩
abbrev main_c_23 : Ref sig .tc := ⟨.hbm, 127, rfl⟩
abbrev main_v94 : Ref sig .tc := ⟨.hbm, 128, rfl⟩
abbrev main_v95 : Ref sig .tc := ⟨.hbm, 129, rfl⟩
abbrev main_v96 : Ref sig .tc := ⟨.hbm, 130, rfl⟩
abbrev main_v97 : Ref sig .tc := ⟨.hbm, 131, rfl⟩
abbrev main_v98 : Ref sig .tc := ⟨.hbm, 132, rfl⟩
abbrev main_v99 : Ref sig .tc := ⟨.hbm, 133, rfl⟩
abbrev main_v100 : Ref sig .tc := ⟨.hbm, 134, rfl⟩
abbrev main_cst_24 : Ref sig .tc := ⟨.hbm, 135, rfl⟩
abbrev main_v101 : Ref sig .tc := ⟨.hbm, 136, rfl⟩
abbrev main_v102 : Ref sig .tc := ⟨.hbm, 137, rfl⟩
abbrev main_v103 : Ref sig .tc := ⟨.hbm, 138, rfl⟩
abbrev main_cst_25 : Ref sig .tc := ⟨.hbm, 139, rfl⟩
abbrev main_v104 : Ref sig .tc := ⟨.hbm, 140, rfl⟩
abbrev main_v105 : Ref sig .tc := ⟨.hbm, 141, rfl⟩
abbrev main_v106 : Ref sig .tc := ⟨.hbm, 142, rfl⟩
abbrev main_v107 : Ref sig .tc := ⟨.hbm, 143, rfl⟩
abbrev main_c_26 : Ref sig .tc := ⟨.hbm, 144, rfl⟩
abbrev main_v108 : Ref sig .tc := ⟨.hbm, 145, rfl⟩
abbrev main_v109 : Ref sig .tc := ⟨.hbm, 146, rfl⟩
abbrev main_c_27 : Ref sig .tc := ⟨.hbm, 147, rfl⟩
abbrev main_v110 : Ref sig .tc := ⟨.hbm, 148, rfl⟩
abbrev main_v111 : Ref sig .tc := ⟨.hbm, 149, rfl⟩
abbrev main_v112 : Ref sig .tc := ⟨.hbm, 150, rfl⟩
abbrev main_v113 : Ref sig .tc := ⟨.hbm, 151, rfl⟩
abbrev main_v114 : Ref sig .tc := ⟨.hbm, 152, rfl⟩
abbrev main_v115 : Ref sig .tc := ⟨.hbm, 153, rfl⟩
abbrev main_v116 : Ref sig .tc := ⟨.hbm, 154, rfl⟩
abbrev main_cst_28 : Ref sig .tc := ⟨.hbm, 155, rfl⟩
abbrev main_v117 : Ref sig .tc := ⟨.hbm, 156, rfl⟩
abbrev main_v118 : Ref sig .tc := ⟨.hbm, 157, rfl⟩
abbrev main_v119 : Ref sig .tc := ⟨.hbm, 158, rfl⟩
abbrev main_cst_29 : Ref sig .tc := ⟨.hbm, 159, rfl⟩
abbrev main_v120 : Ref sig .tc := ⟨.hbm, 160, rfl⟩
abbrev main_v121 : Ref sig .tc := ⟨.hbm, 161, rfl⟩
abbrev main_v122 : Ref sig .tc := ⟨.hbm, 162, rfl⟩
abbrev main_v123 : Ref sig .tc := ⟨.hbm, 163, rfl⟩
abbrev main_c_30 : Ref sig .tc := ⟨.hbm, 164, rfl⟩
abbrev main_v124 : Ref sig .tc := ⟨.hbm, 165, rfl⟩
abbrev main_v125 : Ref sig .tc := ⟨.hbm, 166, rfl⟩
abbrev main_c_31 : Ref sig .tc := ⟨.hbm, 167, rfl⟩
abbrev main_v126 : Ref sig .tc := ⟨.hbm, 168, rfl⟩
abbrev main_v127 : Ref sig .tc := ⟨.hbm, 169, rfl⟩
abbrev main_v128 : Ref sig .tc := ⟨.hbm, 170, rfl⟩
abbrev main_v129 : Ref sig .tc := ⟨.hbm, 171, rfl⟩
abbrev main_v130 : Ref sig .tc := ⟨.hbm, 172, rfl⟩
abbrev main_v131 : Ref sig .tc := ⟨.hbm, 173, rfl⟩
abbrev main_v132 : Ref sig .tc := ⟨.hbm, 174, rfl⟩
abbrev main_cst_32 : Ref sig .tc := ⟨.hbm, 175, rfl⟩
abbrev main_v133 : Ref sig .tc := ⟨.hbm, 176, rfl⟩
abbrev main_v134 : Ref sig .tc := ⟨.hbm, 177, rfl⟩
abbrev main_v135 : Ref sig .tc := ⟨.hbm, 178, rfl⟩
abbrev main_cst_33 : Ref sig .tc := ⟨.hbm, 179, rfl⟩
abbrev main_v136 : Ref sig .tc := ⟨.hbm, 180, rfl⟩
abbrev main_v137 : Ref sig .tc := ⟨.hbm, 181, rfl⟩
abbrev main_v138 : Ref sig .tc := ⟨.hbm, 182, rfl⟩
abbrev main_v139 : Ref sig .tc := ⟨.hbm, 183, rfl⟩
abbrev main_v140 : Ref sig .tc := ⟨.hbm, 184, rfl⟩
abbrev main_v141 : Ref sig .tc := ⟨.hbm, 185, rfl⟩
abbrev main_v142 : Ref sig .tc := ⟨.hbm, 186, rfl⟩
abbrev main_v143 : Ref sig .tc := ⟨.hbm, 187, rfl⟩
abbrev main_v144 : Ref sig .tc := ⟨.hbm, 188, rfl⟩
abbrev main_v145 : Ref sig .tc := ⟨.hbm, 189, rfl⟩
abbrev main_v146 : Ref sig .tc := ⟨.hbm, 190, rfl⟩
abbrev main_v147 : Ref sig .tc := ⟨.hbm, 191, rfl⟩
abbrev main_v148 : Ref sig .tc := ⟨.hbm, 192, rfl⟩
abbrev main_v149 : Ref sig .tc := ⟨.hbm, 193, rfl⟩
abbrev main_v150 : Ref sig .tc := ⟨.hbm, 194, rfl⟩
abbrev main_v151 : Ref sig .tc := ⟨.hbm, 195, rfl⟩
abbrev main_c_34 : Ref sig .tc := ⟨.hbm, 196, rfl⟩
abbrev main_v152 : Ref sig .tc := ⟨.hbm, 197, rfl⟩
abbrev main_v153 : Ref sig .tc := ⟨.hbm, 198, rfl⟩
abbrev main_c_35 : Ref sig .tc := ⟨.hbm, 199, rfl⟩
abbrev main_v154 : Ref sig .tc := ⟨.hbm, 200, rfl⟩
abbrev main_v155 : Ref sig .tc := ⟨.hbm, 201, rfl⟩
abbrev main_v156 : Ref sig .tc := ⟨.hbm, 202, rfl⟩
abbrev main_v157 : Ref sig .tc := ⟨.hbm, 203, rfl⟩
abbrev main_v158 : Ref sig .tc := ⟨.hbm, 204, rfl⟩
abbrev main_v159 : Ref sig .tc := ⟨.hbm, 205, rfl⟩
abbrev main_v160 : Ref sig .tc := ⟨.hbm, 206, rfl⟩
abbrev main_cst_36 : Ref sig .tc := ⟨.hbm, 207, rfl⟩
abbrev main_v161 : Ref sig .tc := ⟨.hbm, 208, rfl⟩
abbrev main_v162 : Ref sig .tc := ⟨.hbm, 209, rfl⟩
abbrev main_v163 : Ref sig .tc := ⟨.hbm, 210, rfl⟩
abbrev main_v164 : Ref sig .tc := ⟨.hbm, 211, rfl⟩
abbrev main_c_37 : Ref sig .tc := ⟨.hbm, 212, rfl⟩
abbrev main_v165 : Ref sig .tc := ⟨.hbm, 213, rfl⟩
abbrev main_v166 : Ref sig .tc := ⟨.hbm, 214, rfl⟩
abbrev main_c_38 : Ref sig .tc := ⟨.hbm, 215, rfl⟩
abbrev main_v167 : Ref sig .tc := ⟨.hbm, 216, rfl⟩
abbrev main_v168 : Ref sig .tc := ⟨.hbm, 217, rfl⟩
abbrev main_v169 : Ref sig .tc := ⟨.hbm, 218, rfl⟩
abbrev main_v170 : Ref sig .tc := ⟨.hbm, 219, rfl⟩
abbrev main_v171 : Ref sig .tc := ⟨.hbm, 220, rfl⟩
abbrev main_v172 : Ref sig .tc := ⟨.hbm, 221, rfl⟩
abbrev main_v173 : Ref sig .tc := ⟨.hbm, 222, rfl⟩
abbrev main_cst_39 : Ref sig .tc := ⟨.hbm, 223, rfl⟩
abbrev main_v174 : Ref sig .tc := ⟨.hbm, 224, rfl⟩
abbrev main_v175 : Ref sig .tc := ⟨.hbm, 225, rfl⟩
abbrev main_v176 : Ref sig .tc := ⟨.hbm, 226, rfl⟩
abbrev main_cst_40 : Ref sig .tc := ⟨.hbm, 227, rfl⟩
abbrev main_v177 : Ref sig .tc := ⟨.hbm, 228, rfl⟩
abbrev main_v178 : Ref sig .tc := ⟨.hbm, 229, rfl⟩
abbrev main_v179 : Ref sig .tc := ⟨.hbm, 230, rfl⟩
abbrev main_v180 : Ref sig .tc := ⟨.hbm, 231, rfl⟩
abbrev main_c_41 : Ref sig .tc := ⟨.hbm, 232, rfl⟩
abbrev main_v181 : Ref sig .tc := ⟨.hbm, 233, rfl⟩
abbrev main_v182 : Ref sig .tc := ⟨.hbm, 234, rfl⟩
abbrev main_c_42 : Ref sig .tc := ⟨.hbm, 235, rfl⟩
abbrev main_v183 : Ref sig .tc := ⟨.hbm, 236, rfl⟩
abbrev main_v184 : Ref sig .tc := ⟨.hbm, 237, rfl⟩
abbrev main_v185 : Ref sig .tc := ⟨.hbm, 238, rfl⟩
abbrev main_v186 : Ref sig .tc := ⟨.hbm, 239, rfl⟩
abbrev main_v187 : Ref sig .tc := ⟨.hbm, 240, rfl⟩
abbrev main_v188 : Ref sig .tc := ⟨.hbm, 241, rfl⟩
abbrev main_v189 : Ref sig .tc := ⟨.hbm, 242, rfl⟩
abbrev main_cst_43 : Ref sig .tc := ⟨.hbm, 243, rfl⟩
abbrev main_v190 : Ref sig .tc := ⟨.hbm, 244, rfl⟩
abbrev main_v191 : Ref sig .tc := ⟨.hbm, 245, rfl⟩
abbrev main_v192 : Ref sig .tc := ⟨.hbm, 246, rfl⟩
abbrev main_cst_44 : Ref sig .tc := ⟨.hbm, 247, rfl⟩
abbrev main_v193 : Ref sig .tc := ⟨.hbm, 248, rfl⟩
abbrev main_v194 : Ref sig .tc := ⟨.hbm, 249, rfl⟩
abbrev main_v195 : Ref sig .tc := ⟨.hbm, 250, rfl⟩
abbrev main_v196 : Ref sig .tc := ⟨.hbm, 251, rfl⟩
abbrev main_c_45 : Ref sig .tc := ⟨.hbm, 252, rfl⟩
abbrev main_v197 : Ref sig .tc := ⟨.hbm, 253, rfl⟩
abbrev main_v198 : Ref sig .tc := ⟨.hbm, 254, rfl⟩
abbrev main_c_46 : Ref sig .tc := ⟨.hbm, 255, rfl⟩
abbrev main_v199 : Ref sig .tc := ⟨.hbm, 256, rfl⟩
abbrev main_v200 : Ref sig .tc := ⟨.hbm, 257, rfl⟩
abbrev main_v201 : Ref sig .tc := ⟨.hbm, 258, rfl⟩
abbrev main_v202 : Ref sig .tc := ⟨.hbm, 259, rfl⟩
abbrev main_v203 : Ref sig .tc := ⟨.hbm, 260, rfl⟩
abbrev main_v204 : Ref sig .tc := ⟨.hbm, 261, rfl⟩
abbrev main_v205 : Ref sig .tc := ⟨.hbm, 262, rfl⟩
abbrev main_cst_47 : Ref sig .tc := ⟨.hbm, 263, rfl⟩
abbrev main_v206 : Ref sig .tc := ⟨.hbm, 264, rfl⟩
abbrev main_v207 : Ref sig .tc := ⟨.hbm, 265, rfl⟩
abbrev main_v208 : Ref sig .tc := ⟨.hbm, 266, rfl⟩
abbrev main_cst_48 : Ref sig .tc := ⟨.hbm, 267, rfl⟩
abbrev main_v209 : Ref sig .tc := ⟨.hbm, 268, rfl⟩
abbrev main_v210 : Ref sig .tc := ⟨.hbm, 269, rfl⟩
abbrev main_v211 : Ref sig .tc := ⟨.hbm, 270, rfl⟩
abbrev main_v212 : Ref sig .tc := ⟨.hbm, 271, rfl⟩
abbrev main_c_49 : Ref sig .tc := ⟨.hbm, 272, rfl⟩
abbrev main_v213 : Ref sig .tc := ⟨.hbm, 273, rfl⟩
abbrev main_v214 : Ref sig .tc := ⟨.hbm, 274, rfl⟩
abbrev main_c_50 : Ref sig .tc := ⟨.hbm, 275, rfl⟩
abbrev main_v215 : Ref sig .tc := ⟨.hbm, 276, rfl⟩
abbrev main_v216 : Ref sig .tc := ⟨.hbm, 277, rfl⟩
abbrev main_v217 : Ref sig .tc := ⟨.hbm, 278, rfl⟩
abbrev main_v218 : Ref sig .tc := ⟨.hbm, 279, rfl⟩
abbrev main_v219 : Ref sig .tc := ⟨.hbm, 280, rfl⟩
abbrev main_v220 : Ref sig .tc := ⟨.hbm, 281, rfl⟩
abbrev main_v221 : Ref sig .tc := ⟨.hbm, 282, rfl⟩
abbrev main_cst_51 : Ref sig .tc := ⟨.hbm, 283, rfl⟩
abbrev main_v222 : Ref sig .tc := ⟨.hbm, 284, rfl⟩
abbrev main_v223 : Ref sig .tc := ⟨.hbm, 285, rfl⟩
abbrev main_v224 : Ref sig .tc := ⟨.hbm, 286, rfl⟩
abbrev main_cst_52 : Ref sig .tc := ⟨.hbm, 287, rfl⟩
abbrev main_v225 : Ref sig .tc := ⟨.hbm, 288, rfl⟩
abbrev main_v226 : Ref sig .tc := ⟨.hbm, 289, rfl⟩
abbrev main_v227 : Ref sig .tc := ⟨.hbm, 290, rfl⟩
abbrev main_v228 : Ref sig .tc := ⟨.hbm, 291, rfl⟩
abbrev main_c_53 : Ref sig .tc := ⟨.hbm, 292, rfl⟩
abbrev main_v229 : Ref sig .tc := ⟨.hbm, 293, rfl⟩
abbrev main_v230 : Ref sig .tc := ⟨.hbm, 294, rfl⟩
abbrev main_c_54 : Ref sig .tc := ⟨.hbm, 295, rfl⟩
abbrev main_v231 : Ref sig .tc := ⟨.hbm, 296, rfl⟩
abbrev main_v232 : Ref sig .tc := ⟨.hbm, 297, rfl⟩
abbrev main_v233 : Ref sig .tc := ⟨.hbm, 298, rfl⟩
abbrev main_v234 : Ref sig .tc := ⟨.hbm, 299, rfl⟩
abbrev main_v235 : Ref sig .tc := ⟨.hbm, 300, rfl⟩
abbrev main_v236 : Ref sig .tc := ⟨.hbm, 301, rfl⟩
abbrev main_v237 : Ref sig .tc := ⟨.hbm, 302, rfl⟩
abbrev main_cst_55 : Ref sig .tc := ⟨.hbm, 303, rfl⟩
abbrev main_v238 : Ref sig .tc := ⟨.hbm, 304, rfl⟩
abbrev main_v239 : Ref sig .tc := ⟨.hbm, 305, rfl⟩
abbrev main_v240 : Ref sig .tc := ⟨.hbm, 306, rfl⟩
abbrev main_cst_56 : Ref sig .tc := ⟨.hbm, 307, rfl⟩
abbrev main_v241 : Ref sig .tc := ⟨.hbm, 308, rfl⟩
abbrev main_v242 : Ref sig .tc := ⟨.hbm, 309, rfl⟩
abbrev main_v243 : Ref sig .tc := ⟨.hbm, 310, rfl⟩
abbrev main_v244 : Ref sig .tc := ⟨.hbm, 311, rfl⟩
abbrev main_c_57 : Ref sig .tc := ⟨.hbm, 312, rfl⟩
abbrev main_v245 : Ref sig .tc := ⟨.hbm, 313, rfl⟩
abbrev main_v246 : Ref sig .tc := ⟨.hbm, 314, rfl⟩
abbrev main_c_58 : Ref sig .tc := ⟨.hbm, 315, rfl⟩
abbrev main_v247 : Ref sig .tc := ⟨.hbm, 316, rfl⟩
abbrev main_v248 : Ref sig .tc := ⟨.hbm, 317, rfl⟩
abbrev main_v249 : Ref sig .tc := ⟨.hbm, 318, rfl⟩
abbrev main_v250 : Ref sig .tc := ⟨.hbm, 319, rfl⟩
abbrev main_v251 : Ref sig .tc := ⟨.hbm, 320, rfl⟩
abbrev main_v252 : Ref sig .tc := ⟨.hbm, 321, rfl⟩
abbrev main_v253 : Ref sig .tc := ⟨.hbm, 322, rfl⟩
abbrev main_cst_59 : Ref sig .tc := ⟨.hbm, 323, rfl⟩
abbrev main_v254 : Ref sig .tc := ⟨.hbm, 324, rfl⟩
abbrev main_v255 : Ref sig .tc := ⟨.hbm, 325, rfl⟩
abbrev main_v256 : Ref sig .tc := ⟨.hbm, 326, rfl⟩
abbrev main_cst_60 : Ref sig .tc := ⟨.hbm, 327, rfl⟩
abbrev main_v257 : Ref sig .tc := ⟨.hbm, 328, rfl⟩
abbrev main_v258 : Ref sig .tc := ⟨.hbm, 329, rfl⟩
abbrev main_v259 : Ref sig .tc := ⟨.hbm, 330, rfl⟩
abbrev main_v260 : Ref sig .tc := ⟨.hbm, 331, rfl⟩
abbrev main_v261 : Ref sig .tc := ⟨.hbm, 332, rfl⟩
abbrev main_v262 : Ref sig .tc := ⟨.hbm, 333, rfl⟩
abbrev main_v263 : Ref sig .tc := ⟨.hbm, 334, rfl⟩
abbrev main_v264 : Ref sig .tc := ⟨.hbm, 335, rfl⟩
abbrev main_v265 : Ref sig .tc := ⟨.hbm, 336, rfl⟩
abbrev main_v266 : Ref sig .tc := ⟨.hbm, 337, rfl⟩
abbrev main_v267 : Ref sig .tc := ⟨.hbm, 338, rfl⟩
abbrev main_v268 : Ref sig .tc := ⟨.hbm, 339, rfl⟩
abbrev main_v269 : Ref sig .tc := ⟨.hbm, 340, rfl⟩
abbrev main_v270 : Ref sig .tc := ⟨.hbm, 341, rfl⟩
abbrev main_v271 : Ref sig .tc := ⟨.hbm, 342, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_scratch0 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg2_0 : Ref sig .tc := ⟨.vmem, 10, rfl⟩
abbrev cc1_stg3_0 : Ref sig .tc := ⟨.vmem, 11, rfl⟩
abbrev cc1_stg3_1 : Ref sig .tc := ⟨.vmem, 12, rfl⟩
abbrev cc1_scratch0 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem2_0 : DmaSem sig := 9
abbrev cc1_sem3_0 : DmaSem sig := 10
abbrev cc1_sem3_1 : DmaSem sig := 11

abbrev nD : Nat := 1
abbrev τ : Topo := Topo.v7x

variable {F : FTy → Type} [FloatOps F]

abbrev grid0 : Pipeline.Grid := ⟨1, ![10], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8x5000x64 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S8x64x64 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S5000x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![10], ![false]⟩

def cc1_transform_0 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc1_transform_1 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc1_transform_2 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S8x5000x64 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S8x64x10 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S10 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S5000x10 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S_S50000 : S_.BroadcastsInDim S50000 (![] : Fin 0 → Fin S50000.rank)
  bcast_S800000_S800000x1_0 : S800000.BroadcastsInDim S800000x1 (![0] : Fin 1 → Fin S800000x1.rank)
  bcast_S800000x1_S800000x64_0_1 : S800000x1.BroadcastsInDim S800000x64 (![0, 1] : Fin 2 → Fin S800000x64.rank)
  bcast_S_S50000x64 : S_.BroadcastsInDim S50000x64 (![] : Fin 0 → Fin S50000x64.rank)
  bcast_S50000x64_S1x50000x64_1_2 : S50000x64.BroadcastsInDim S1x50000x64 (![1, 2] : Fin 2 → Fin S1x50000x64.rank)
  concatenates_S1x50000x64_S1x50000x64_S1x50000x64_S1x50000x64_S1x50000x64_S1x50000x64_S1x50000x64_S1x50000x64_S8x50000x64_d0 : Shape.Concatenates [S1x50000x64, S1x50000x64, S1x50000x64, S1x50000x64, S1x50000x64, S1x50000x64, S1x50000x64, S1x50000x64] S8x50000x64 0
  bitsLt_bf16_f32 : FTy.bits .bf16 < FTy.bits .f32
  inb_S5000x64_S5000x64_0_0 : ∀ a, (![0, 0] : Fin 2 → Nat) a + S5000x64.size a ≤ S5000x64.size a
  h_S5000x64 : 0 < S5000x64.numel
  shapeCasts_S5000x64_S5000x64 : S5000x64.ShapeCasts S5000x64
  inb_S8x5000x64_S1x5000x64_0_0_0 : ∀ a, (![0, 0, 0] : Fin 3 → Nat) a + S1x5000x64.size a ≤ S8x5000x64.size a
  h_S1x5000x64 : 0 < S1x5000x64.numel
  shapeCasts_S1x5000x64_S5000x64 : S1x5000x64.ShapeCasts S5000x64
  inb_S8x64x64_S1x64x64_0_0_0 : ∀ a, (![0, 0, 0] : Fin 3 → Nat) a + S1x64x64.size a ≤ S8x64x64.size a
  h_S1x64x64 : 0 < S1x64x64.numel
  shapeCasts_S1x64x64_S64x64 : S1x64x64.ShapeCasts S64x64
  inb_S8x5000x64_S1x5000x64_1_0_0 : ∀ a, (![1, 0, 0] : Fin 3 → Nat) a + S1x5000x64.size a ≤ S8x5000x64.size a
  inb_S8x64x64_S1x64x64_1_0_0 : ∀ a, (![1, 0, 0] : Fin 3 → Nat) a + S1x64x64.size a ≤ S8x64x64.size a
  inb_S8x5000x64_S1x5000x64_2_0_0 : ∀ a, (![2, 0, 0] : Fin 3 → Nat) a + S1x5000x64.size a ≤ S8x5000x64.size a
  inb_S8x64x64_S1x64x64_2_0_0 : ∀ a, (![2, 0, 0] : Fin 3 → Nat) a + S1x64x64.size a ≤ S8x64x64.size a
  inb_S8x5000x64_S1x5000x64_3_0_0 : ∀ a, (![3, 0, 0] : Fin 3 → Nat) a + S1x5000x64.size a ≤ S8x5000x64.size a
  inb_S8x64x64_S1x64x64_3_0_0 : ∀ a, (![3, 0, 0] : Fin 3 → Nat) a + S1x64x64.size a ≤ S8x64x64.size a
  inb_S8x5000x64_S1x5000x64_4_0_0 : ∀ a, (![4, 0, 0] : Fin 3 → Nat) a + S1x5000x64.size a ≤ S8x5000x64.size a
  inb_S8x64x64_S1x64x64_4_0_0 : ∀ a, (![4, 0, 0] : Fin 3 → Nat) a + S1x64x64.size a ≤ S8x64x64.size a
  inb_S8x5000x64_S1x5000x64_5_0_0 : ∀ a, (![5, 0, 0] : Fin 3 → Nat) a + S1x5000x64.size a ≤ S8x5000x64.size a
  inb_S8x64x64_S1x64x64_5_0_0 : ∀ a, (![5, 0, 0] : Fin 3 → Nat) a + S1x64x64.size a ≤ S8x64x64.size a
  inb_S8x5000x64_S1x5000x64_6_0_0 : ∀ a, (![6, 0, 0] : Fin 3 → Nat) a + S1x5000x64.size a ≤ S8x5000x64.size a
  inb_S8x64x64_S1x64x64_6_0_0 : ∀ a, (![6, 0, 0] : Fin 3 → Nat) a + S1x64x64.size a ≤ S8x64x64.size a
  inb_S8x5000x64_S1x5000x64_7_0_0 : ∀ a, (![7, 0, 0] : Fin 3 → Nat) a + S1x5000x64.size a ≤ S8x5000x64.size a
  inb_S8x64x64_S1x64x64_7_0_0 : ∀ a, (![7, 0, 0] : Fin 3 → Nat) a + S1x64x64.size a ≤ S8x64x64.size a
  inb_S64_S64_0 : ∀ a, (![0] : Fin 1 → Nat) a + S64.size a ≤ S64.size a
  h_S64 : 0 < S64.numel
  shapeCasts_S64_S1x64 : S64.ShapeCasts S1x64
  broadcasts_S1x64_S5000x64 : S1x64.Broadcasts S5000x64
  inb_S5000x10_S5000x10_0_0 : ∀ a, (![0, 0] : Fin 2 → Nat) a + S5000x10.size a ≤ S5000x10.size a
  h_S5000x10 : 0 < S5000x10.numel
  shapeCasts_S5000x10_S5000x10 : S5000x10.ShapeCasts S5000x10
  inb_S8x64x10_S1x64x10_0_0_0 : ∀ a, (![0, 0, 0] : Fin 3 → Nat) a + S1x64x10.size a ≤ S8x64x10.size a
  h_S1x64x10 : 0 < S1x64x10.numel
  shapeCasts_S1x64x10_S64x10 : S1x64x10.ShapeCasts S64x10
  inb_S8x64x10_S1x64x10_1_0_0 : ∀ a, (![1, 0, 0] : Fin 3 → Nat) a + S1x64x10.size a ≤ S8x64x10.size a
  inb_S8x64x10_S1x64x10_2_0_0 : ∀ a, (![2, 0, 0] : Fin 3 → Nat) a + S1x64x10.size a ≤ S8x64x10.size a
  inb_S8x64x10_S1x64x10_3_0_0 : ∀ a, (![3, 0, 0] : Fin 3 → Nat) a + S1x64x10.size a ≤ S8x64x10.size a
  inb_S8x64x10_S1x64x10_4_0_0 : ∀ a, (![4, 0, 0] : Fin 3 → Nat) a + S1x64x10.size a ≤ S8x64x10.size a
  inb_S8x64x10_S1x64x10_5_0_0 : ∀ a, (![5, 0, 0] : Fin 3 → Nat) a + S1x64x10.size a ≤ S8x64x10.size a
  inb_S8x64x10_S1x64x10_6_0_0 : ∀ a, (![6, 0, 0] : Fin 3 → Nat) a + S1x64x10.size a ≤ S8x64x10.size a
  inb_S8x64x10_S1x64x10_7_0_0 : ∀ a, (![7, 0, 0] : Fin 3 → Nat) a + S1x64x10.size a ≤ S8x64x10.size a
  inb_S10_S10_0 : ∀ a, (![0] : Fin 1 → Nat) a + S10.size a ≤ S10.size a
  h_S10 : 0 < S10.numel
  shapeCasts_S10_S1x10 : S10.ShapeCasts S1x10
  broadcasts_S1x10_S5000x10 : S1x10.Broadcasts S5000x10
  scatter_S50000_S800000x1_S800000_n_0_0_1_wf : ScatterDims.WF S50000 S800000x1 S800000 [] [0] [0] 1
  gather_S50000_S800000x1_S800000_n_0_n_n_0_1_1_wf : GatherDims.WF S50000 S800000x1 S800000 [] [0] [] [0] [] 1 ![1]
  gather_S50000x64_S800000x1_S800000x64_1_0_n_n_0_1_164_wf : GatherDims.WF S50000x64 S800000x1 S800000x64 [1] [0] [] [0] [] 1 ![1, 64]
  scatter_S50000x64_S800000x1_S800000x64_1_0_0_1_wf : ScatterDims.WF S50000x64 S800000x1 S800000x64 [1] [0] [0] 1
  dot_S5000x64_S64x64_S5000x64_1_0_0_1_n_n_wf : DotDims.WF S5000x64 S64x64 S5000x64 [1] [0] [0] [1] [] []
  dot_S5000x64_S64x10_S5000x10_1_0_0_1_n_n_wf : DotDims.WF S5000x64 S64x10 S5000x10 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8x5000x64.size a ≤ S8x50000x64.size a
  hwx0_0 : ∀ i : grid0.Coords, EltTy.bits .bf16 = 32 ∨ (Rect.block (s := S8x50000x64) S8x5000x64.size (cc0_transform_0 i) (hinb0_0 i)).WholeWords (EltTy.packing .bf16)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S8x64x64.size a ≤ S8x64x64.size a
  hwx0_1 : ∀ i : grid0.Coords, EltTy.bits .bf16 = 32 ∨ (Rect.block (s := S8x64x64) S8x64x64.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S64.size a ≤ S64.size a
  hwx0_2 : ∀ i : grid0.Coords, EltTy.bits .f32 = 32 ∨ (Rect.block (s := S64) S64.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S5000x64.size a ≤ S50000x64.size a
  hwx0_3 : ∀ i : grid0.Coords, EltTy.bits .f32 = 32 ∨ (Rect.block (s := S50000x64) S5000x64.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S8x5000x64.size a ≤ S8x50000x64.size a
  hwx1_0 : ∀ i : grid1.Coords, EltTy.bits .bf16 = 32 ∨ (Rect.block (s := S8x50000x64) S8x5000x64.size (cc1_transform_0 i) (hinb1_0 i)).WholeWords (EltTy.packing .bf16)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S8x64x10.size a ≤ S8x64x10.size a
  hwx1_1 : ∀ i : grid1.Coords, EltTy.bits .bf16 = 32 ∨ (Rect.block (s := S8x64x10) S8x64x10.size (cc1_transform_1 i) (hinb1_1 i)).WholeWords (EltTy.packing .bf16)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S10.size a ≤ S10.size a
  hwx1_2 : ∀ i : grid1.Coords, EltTy.bits .f32 = 32 ∨ (Rect.block (s := S10) S10.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S5000x10.size a ≤ S50000x10.size a
  hwx1_3 : ∀ i : grid1.Coords, EltTy.bits .f32 = 32 ∨ (Rect.block (s := S50000x10) S5000x10.size (cc1_transform_3 i) (hinb1_3 i)).WholeWords (EltTy.packing .f32)

variable [Facts₀]

def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def gather_S50000_S800000x1_S800000_n_0_n_n_0_1_1 : GatherDims S50000 S800000x1 S800000 where
  offsetDims := []
  collapsedSliceDims := [0]
  operandBatchingDims := []
  startIndicesBatchingDims := []
  startIndexMap := [0]
  indexVectorDim := 1
  sliceSizes := ![1]
  wf := gather_S50000_S800000x1_S800000_n_0_n_n_0_1_1_wf
def gather_S50000x64_S800000x1_S800000x64_1_0_n_n_0_1_164 : GatherDims S50000x64 S800000x1 S800000x64 where
  offsetDims := [1]
  collapsedSliceDims := [0]
  operandBatchingDims := []
  startIndicesBatchingDims := []
  startIndexMap := [0]
  indexVectorDim := 1
  sliceSizes := ![1, 64]
  wf := gather_S50000x64_S800000x1_S800000x64_1_0_n_n_0_1_164_wf
def scatter_S50000x64_S800000x1_S800000x64_1_0_0_1 : ScatterDims S50000x64 S800000x1 S800000x64 where
  updateWindowDims := [1]
  insertedWindowDims := [0]
  scatterDimsToOperandDims := [0]
  indexVectorDim := 1
  wf := scatter_S50000x64_S800000x1_S800000x64_1_0_0_1_wf
def dot_S5000x64_S64x64_S5000x64_1_0_0_1_n_n : DotDims S5000x64 S64x64 S5000x64 where
  lhsContracting := [1]
  rhsContracting := [0]
  lhsNonContracting := [0]
  rhsNonContracting := [1]
  lhsBatch := []
  rhsBatch := []
  wf := dot_S5000x64_S64x64_S5000x64_1_0_0_1_n_n_wf
def dot_S5000x64_S64x10_S5000x10_1_0_0_1_n_n : DotDims S5000x64 S64x10 S5000x10 where
  lhsContracting := [1]
  rhsContracting := [0]
  lhsNonContracting := [0]
  rhsNonContracting := [1]
  lhsBatch := []
  rhsBatch := []
  wf := dot_S5000x64_S64x10_S5000x10_1_0_0_1_n_n_wf

abbrev win0_0 : Pipeline.Window sig grid0 :=
  Pipeline.Window.ofSpec (Memref.whole main_v148) S8x5000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v149) S8x64x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg3) S64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v150) S5000x64.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v269) S8x5000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v270) S8x64x10.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_arg5) S10.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v271) S5000x10.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

class Facts : Prop extends Facts₀ where

variable [Facts]
-- ==== ReferenceIdeal.lean ====
abbrev S50000x64 : Shape := ⟨2, ![50000, 64]⟩
abbrev S2x800000 : Shape := ⟨2, ![2, 800000]⟩
abbrev S8x64x64 : Shape := ⟨3, ![8, 64, 64]⟩
abbrev S64 : Shape := ⟨1, ![64]⟩
abbrev S8x64x10 : Shape := ⟨3, ![8, 64, 10]⟩
abbrev S10 : Shape := ⟨1, ![10]⟩
abbrev S1x800000 : Shape := ⟨2, ![1, 800000]⟩
abbrev S800000 : Shape := ⟨1, ![800000]⟩
abbrev S_ : Shape := ⟨0, ![]⟩
abbrev S50000 : Shape := ⟨1, ![50000]⟩
abbrev S800000x1 : Shape := ⟨2, ![800000, 1]⟩
abbrev S1x64x64 : Shape := ⟨3, ![1, 64, 64]⟩
abbrev S64x64 : Shape := ⟨2, ![64, 64]⟩
abbrev S800000x64 : Shape := ⟨2, ![800000, 64]⟩
abbrev S1x64 : Shape := ⟨2, ![1, 64]⟩
abbrev S1x64x10 : Shape := ⟨3, ![1, 64, 10]⟩
abbrev S64x10 : Shape := ⟨2, ![64, 10]⟩
abbrev S50000x10 : Shape := ⟨2, ![50000, 10]⟩
abbrev S1x10 : Shape := ⟨2, ![1, 10]⟩

abbrev nBuf : Space → Nat
  | .hbm => 390
  | .vmem => 0
  | .smem => 0
  | _ => 0

abbrev hbmTy0_0 (i : Nat) : BufTy := match i % 128 with
  | 0 => ⟨S50000x64, .f32⟩
  | 1 => ⟨S2x800000, .i32⟩
  | 2 => ⟨S8x64x64, .f32⟩
  | 3 => ⟨S64, .f32⟩
  | 4 => ⟨S8x64x10, .f32⟩
  | 5 => ⟨S10, .f32⟩
  | 6 => ⟨S1x800000, .i32⟩
  | 7 => ⟨S800000, .i32⟩
  | 8 => ⟨S1x800000, .i32⟩
  | 9 => ⟨S800000, .i32⟩
  | 10 => ⟨S_, .f32⟩
  | 11 => ⟨S800000, .f32⟩
  | 12 => ⟨S_, .f32⟩
  | 13 => ⟨S50000, .f32⟩
  | 14 => ⟨S800000x1, .i32⟩
  | 15 => ⟨S50000, .f32⟩
  | 16 => ⟨S_, .f32⟩
  | 17 => ⟨S50000, .f32⟩
  | 18 => ⟨S50000, .i1⟩
  | 19 => ⟨S_, .f32⟩
  | 20 => ⟨S50000, .f32⟩
  | 21 => ⟨S50000, .f32⟩
  | 22 => ⟨S50000, .f32⟩
  | 23 => ⟨S_, .f32⟩
  | 24 => ⟨S_, .f32⟩
  | 25 => ⟨S50000, .f32⟩
  | 26 => ⟨S50000, .f32⟩
  | 27 => ⟨S_, .i32⟩
  | 28 => ⟨S800000, .i32⟩
  | 29 => ⟨S800000, .i1⟩
  | 30 => ⟨S_, .i32⟩
  | 31 => ⟨S800000, .i32⟩
  | 32 => ⟨S800000, .i32⟩
  | 33 => ⟨S800000, .i32⟩
  | 34 => ⟨S800000x1, .i32⟩
  | 35 => ⟨S800000, .f32⟩
  | 36 => ⟨S800000, .f32⟩
  | 37 => ⟨S_, .i32⟩
  | 38 => ⟨S800000, .i32⟩
  | 39 => ⟨S800000, .i1⟩
  | 40 => ⟨S_, .i32⟩
  | 41 => ⟨S800000, .i32⟩
  | 42 => ⟨S800000, .i32⟩
  | 43 => ⟨S800000, .i32⟩
  | 44 => ⟨S800000x1, .i32⟩
  | 45 => ⟨S800000, .f32⟩
  | 46 => ⟨S800000, .f32⟩
  | 47 => ⟨S1x64x64, .f32⟩
  | 48 => ⟨S64x64, .f32⟩
  | 49 => ⟨S50000x64, .f32⟩
  | 50 => ⟨S800000x1, .f32⟩
  | 51 => ⟨S_, .i32⟩
  | 52 => ⟨S800000, .i32⟩
  | 53 => ⟨S800000, .i1⟩
  | 54 => ⟨S_, .i32⟩
  | 55 => ⟨S800000, .i32⟩
  | 56 => ⟨S800000, .i32⟩
  | 57 => ⟨S800000, .i32⟩
  | 58 => ⟨S800000x1, .i32⟩
  | 59 => ⟨S800000x64, .f32⟩
  | 60 => ⟨S800000x64, .f32⟩
  | 61 => ⟨S800000x64, .f32⟩
  | 62 => ⟨S_, .f32⟩
  | 63 => ⟨S50000x64, .f32⟩
  | 64 => ⟨S800000x1, .i32⟩
  | 65 => ⟨S50000x64, .f32⟩
  | 66 => ⟨S1x64x64, .f32⟩
  | 67 => ⟨S64x64, .f32⟩
  | 68 => ⟨S50000x64, .f32⟩
  | 69 => ⟨S50000x64, .f32⟩
  | 70 => ⟨S800000x1, .f32⟩
  | 71 => ⟨S_, .i32⟩
  | 72 => ⟨S800000, .i32⟩
  | 73 => ⟨S800000, .i1⟩
  | 74 => ⟨S_, .i32⟩
  | 75 => ⟨S800000, .i32⟩
  | 76 => ⟨S800000, .i32⟩
  | 77 => ⟨S800000, .i32⟩
  | 78 => ⟨S800000x1, .i32⟩
  | 79 => ⟨S800000x64, .f32⟩
  | 80 => ⟨S800000x64, .f32⟩
  | 81 => ⟨S800000x64, .f32⟩
  | 82 => ⟨S_, .f32⟩
  | 83 => ⟨S50000x64, .f32⟩
  | 84 => ⟨S800000x1, .i32⟩
  | 85 => ⟨S50000x64, .f32⟩
  | 86 => ⟨S_, .f32⟩
  | 87 => ⟨S50000x64, .f32⟩
  | 88 => ⟨S50000x64, .f32⟩
  | 89 => ⟨S50000x64, .f32⟩
  | 90 => ⟨S1x64x64, .f32⟩
  | 91 => ⟨S64x64, .f32⟩
  | 92 => ⟨S50000x64, .f32⟩
  | 93 => ⟨S50000x64, .f32⟩
  | 94 => ⟨S800000x1, .f32⟩
  | 95 => ⟨S_, .i32⟩
  | 96 => ⟨S800000, .i32⟩
  | 97 => ⟨S800000, .i1⟩
  | 98 => ⟨S_, .i32⟩
  | 99 => ⟨S800000, .i32⟩
  | 100 => ⟨S800000, .i32⟩
  | 101 => ⟨S800000, .i32⟩
  | 102 => ⟨S800000x1, .i32⟩
  | 103 => ⟨S800000x64, .f32⟩
  | 104 => ⟨S800000x64, .f32⟩
  | 105 => ⟨S800000x64, .f32⟩
  | 106 => ⟨S_, .f32⟩
  | 107 => ⟨S50000x64, .f32⟩
  | 108 => ⟨S800000x1, .i32⟩
  | 109 => ⟨S50000x64, .f32⟩
  | 110 => ⟨S_, .f32⟩
  | 111 => ⟨S50000x64, .f32⟩
  | 112 => ⟨S50000x64, .f32⟩
  | 113 => ⟨S50000x64, .f32⟩
  | 114 => ⟨S1x64x64, .f32⟩
  | 115 => ⟨S64x64, .f32⟩
  | 116 => ⟨S50000x64, .f32⟩
  | 117 => ⟨S50000x64, .f32⟩
  | 118 => ⟨S800000x1, .f32⟩
  | 119 => ⟨S_, .i32⟩
  | 120 => ⟨S800000, .i32⟩
  | 121 => ⟨S800000, .i1⟩
  | 122 => ⟨S_, .i32⟩
  | 123 => ⟨S800000, .i32⟩
  | 124 => ⟨S800000, .i32⟩
  | 125 => ⟨S800000, .i32⟩
  | 126 => ⟨S800000x1, .i32⟩
  | 127 => ⟨S800000x64, .f32⟩
  | _ => ⟨S50000x64, .f32⟩

abbrev hbmTy0_1 (i : Nat) : BufTy := match i % 128 with
  | 0 => ⟨S800000x64, .f32⟩
  | 1 => ⟨S800000x64, .f32⟩
  | 2 => ⟨S_, .f32⟩
  | 3 => ⟨S50000x64, .f32⟩
  | 4 => ⟨S800000x1, .i32⟩
  | 5 => ⟨S50000x64, .f32⟩
  | 6 => ⟨S_, .f32⟩
  | 7 => ⟨S50000x64, .f32⟩
  | 8 => ⟨S50000x64, .f32⟩
  | 9 => ⟨S50000x64, .f32⟩
  | 10 => ⟨S1x64x64, .f32⟩
  | 11 => ⟨S64x64, .f32⟩
  | 12 => ⟨S50000x64, .f32⟩
  | 13 => ⟨S50000x64, .f32⟩
  | 14 => ⟨S800000x1, .f32⟩
  | 15 => ⟨S_, .i32⟩
  | 16 => ⟨S800000, .i32⟩
  | 17 => ⟨S800000, .i1⟩
  | 18 => ⟨S_, .i32⟩
  | 19 => ⟨S800000, .i32⟩
  | 20 => ⟨S800000, .i32⟩
  | 21 => ⟨S800000, .i32⟩
  | 22 => ⟨S800000x1, .i32⟩
  | 23 => ⟨S800000x64, .f32⟩
  | 24 => ⟨S800000x64, .f32⟩
  | 25 => ⟨S800000x64, .f32⟩
  | 26 => ⟨S_, .f32⟩
  | 27 => ⟨S50000x64, .f32⟩
  | 28 => ⟨S800000x1, .i32⟩
  | 29 => ⟨S50000x64, .f32⟩
  | 30 => ⟨S_, .f32⟩
  | 31 => ⟨S50000x64, .f32⟩
  | 32 => ⟨S50000x64, .f32⟩
  | 33 => ⟨S50000x64, .f32⟩
  | 34 => ⟨S1x64x64, .f32⟩
  | 35 => ⟨S64x64, .f32⟩
  | 36 => ⟨S50000x64, .f32⟩
  | 37 => ⟨S50000x64, .f32⟩
  | 38 => ⟨S800000x1, .f32⟩
  | 39 => ⟨S_, .i32⟩
  | 40 => ⟨S800000, .i32⟩
  | 41 => ⟨S800000, .i1⟩
  | 42 => ⟨S_, .i32⟩
  | 43 => ⟨S800000, .i32⟩
  | 44 => ⟨S800000, .i32⟩
  | 45 => ⟨S800000, .i32⟩
  | 46 => ⟨S800000x1, .i32⟩
  | 47 => ⟨S800000x64, .f32⟩
  | 48 => ⟨S800000x64, .f32⟩
  | 49 => ⟨S800000x64, .f32⟩
  | 50 => ⟨S_, .f32⟩
  | 51 => ⟨S50000x64, .f32⟩
  | 52 => ⟨S800000x1, .i32⟩
  | 53 => ⟨S50000x64, .f32⟩
  | 54 => ⟨S_, .f32⟩
  | 55 => ⟨S50000x64, .f32⟩
  | 56 => ⟨S50000x64, .f32⟩
  | 57 => ⟨S50000x64, .f32⟩
  | 58 => ⟨S1x64x64, .f32⟩
  | 59 => ⟨S64x64, .f32⟩
  | 60 => ⟨S50000x64, .f32⟩
  | 61 => ⟨S50000x64, .f32⟩
  | 62 => ⟨S800000x1, .f32⟩
  | 63 => ⟨S_, .i32⟩
  | 64 => ⟨S800000, .i32⟩
  | 65 => ⟨S800000, .i1⟩
  | 66 => ⟨S_, .i32⟩
  | 67 => ⟨S800000, .i32⟩
  | 68 => ⟨S800000, .i32⟩
  | 69 => ⟨S800000, .i32⟩
  | 70 => ⟨S800000x1, .i32⟩
  | 71 => ⟨S800000x64, .f32⟩
  | 72 => ⟨S800000x64, .f32⟩
  | 73 => ⟨S800000x64, .f32⟩
  | 74 => ⟨S_, .f32⟩
  | 75 => ⟨S50000x64, .f32⟩
  | 76 => ⟨S800000x1, .i32⟩
  | 77 => ⟨S50000x64, .f32⟩
  | 78 => ⟨S_, .f32⟩
  | 79 => ⟨S50000x64, .f32⟩
  | 80 => ⟨S50000x64, .f32⟩
  | 81 => ⟨S50000x64, .f32⟩
  | 82 => ⟨S1x64x64, .f32⟩
  | 83 => ⟨S64x64, .f32⟩
  | 84 => ⟨S50000x64, .f32⟩
  | 85 => ⟨S50000x64, .f32⟩
  | 86 => ⟨S1x64, .f32⟩
  | 87 => ⟨S50000x64, .f32⟩
  | 88 => ⟨S50000x64, .f32⟩
  | 89 => ⟨S_, .f32⟩
  | 90 => ⟨S50000x64, .f32⟩
  | 91 => ⟨S50000x64, .f32⟩
  | 92 => ⟨S1x64x10, .f32⟩
  | 93 => ⟨S64x10, .f32⟩
  | 94 => ⟨S50000x10, .f32⟩
  | 95 => ⟨S800000x1, .f32⟩
  | 96 => ⟨S_, .i32⟩
  | 97 => ⟨S800000, .i32⟩
  | 98 => ⟨S800000, .i1⟩
  | 99 => ⟨S_, .i32⟩
  | 100 => ⟨S800000, .i32⟩
  | 101 => ⟨S800000, .i32⟩
  | 102 => ⟨S800000, .i32⟩
  | 103 => ⟨S800000x1, .i32⟩
  | 104 => ⟨S800000x64, .f32⟩
  | 105 => ⟨S800000x64, .f32⟩
  | 106 => ⟨S800000x64, .f32⟩
  | 107 => ⟨S_, .f32⟩
  | 108 => ⟨S50000x64, .f32⟩
  | 109 => ⟨S800000x1, .i32⟩
  | 110 => ⟨S50000x64, .f32⟩
  | 111 => ⟨S1x64x10, .f32⟩
  | 112 => ⟨S64x10, .f32⟩
  | 113 => ⟨S50000x10, .f32⟩
  | 114 => ⟨S50000x10, .f32⟩
  | 115 => ⟨S800000x1, .f32⟩
  | 116 => ⟨S_, .i32⟩
  | 117 => ⟨S800000, .i32⟩
  | 118 => ⟨S800000, .i1⟩
  | 119 => ⟨S_, .i32⟩
  | 120 => ⟨S800000, .i32⟩
  | 121 => ⟨S800000, .i32⟩
  | 122 => ⟨S800000, .i32⟩
  | 123 => ⟨S800000x1, .i32⟩
  | 124 => ⟨S800000x64, .f32⟩
  | 125 => ⟨S800000x64, .f32⟩
  | 126 => ⟨S800000x64, .f32⟩
  | 127 => ⟨S_, .f32⟩
  | _ => ⟨S50000x64, .f32⟩

abbrev hbmTy0_2 (i : Nat) : BufTy := match i % 128 with
  | 0 => ⟨S50000x64, .f32⟩
  | 1 => ⟨S800000x1, .i32⟩
  | 2 => ⟨S50000x64, .f32⟩
  | 3 => ⟨S_, .f32⟩
  | 4 => ⟨S50000x64, .f32⟩
  | 5 => ⟨S50000x64, .f32⟩
  | 6 => ⟨S50000x64, .f32⟩
  | 7 => ⟨S1x64x10, .f32⟩
  | 8 => ⟨S64x10, .f32⟩
  | 9 => ⟨S50000x10, .f32⟩
  | 10 => ⟨S50000x10, .f32⟩
  | 11 => ⟨S800000x1, .f32⟩
  | 12 => ⟨S_, .i32⟩
  | 13 => ⟨S800000, .i32⟩
  | 14 => ⟨S800000, .i1⟩
  | 15 => ⟨S_, .i32⟩
  | 16 => ⟨S800000, .i32⟩
  | 17 => ⟨S800000, .i32⟩
  | 18 => ⟨S800000, .i32⟩
  | 19 => ⟨S800000x1, .i32⟩
  | 20 => ⟨S800000x64, .f32⟩
  | 21 => ⟨S800000x64, .f32⟩
  | 22 => ⟨S800000x64, .f32⟩
  | 23 => ⟨S_, .f32⟩
  | 24 => ⟨S50000x64, .f32⟩
  | 25 => ⟨S800000x1, .i32⟩
  | 26 => ⟨S50000x64, .f32⟩
  | 27 => ⟨S_, .f32⟩
  | 28 => ⟨S50000x64, .f32⟩
  | 29 => ⟨S50000x64, .f32⟩
  | 30 => ⟨S50000x64, .f32⟩
  | 31 => ⟨S1x64x10, .f32⟩
  | 32 => ⟨S64x10, .f32⟩
  | 33 => ⟨S50000x10, .f32⟩
  | 34 => ⟨S50000x10, .f32⟩
  | 35 => ⟨S800000x1, .f32⟩
  | 36 => ⟨S_, .i32⟩
  | 37 => ⟨S800000, .i32⟩
  | 38 => ⟨S800000, .i1⟩
  | 39 => ⟨S_, .i32⟩
  | 40 => ⟨S800000, .i32⟩
  | 41 => ⟨S800000, .i32⟩
  | 42 => ⟨S800000, .i32⟩
  | 43 => ⟨S800000x1, .i32⟩
  | 44 => ⟨S800000x64, .f32⟩
  | 45 => ⟨S800000x64, .f32⟩
  | 46 => ⟨S800000x64, .f32⟩
  | 47 => ⟨S_, .f32⟩
  | 48 => ⟨S50000x64, .f32⟩
  | 49 => ⟨S800000x1, .i32⟩
  | 50 => ⟨S50000x64, .f32⟩
  | 51 => ⟨S_, .f32⟩
  | 52 => ⟨S50000x64, .f32⟩
  | 53 => ⟨S50000x64, .f32⟩
  | 54 => ⟨S50000x64, .f32⟩
  | 55 => ⟨S1x64x10, .f32⟩
  | 56 => ⟨S64x10, .f32⟩
  | 57 => ⟨S50000x10, .f32⟩
  | 58 => ⟨S50000x10, .f32⟩
  | 59 => ⟨S800000x1, .f32⟩
  | 60 => ⟨S_, .i32⟩
  | 61 => ⟨S800000, .i32⟩
  | 62 => ⟨S800000, .i1⟩
  | 63 => ⟨S_, .i32⟩
  | 64 => ⟨S800000, .i32⟩
  | 65 => ⟨S800000, .i32⟩
  | 66 => ⟨S800000, .i32⟩
  | 67 => ⟨S800000x1, .i32⟩
  | 68 => ⟨S800000x64, .f32⟩
  | 69 => ⟨S800000x64, .f32⟩
  | 70 => ⟨S800000x64, .f32⟩
  | 71 => ⟨S_, .f32⟩
  | 72 => ⟨S50000x64, .f32⟩
  | 73 => ⟨S800000x1, .i32⟩
  | 74 => ⟨S50000x64, .f32⟩
  | 75 => ⟨S_, .f32⟩
  | 76 => ⟨S50000x64, .f32⟩
  | 77 => ⟨S50000x64, .f32⟩
  | 78 => ⟨S50000x64, .f32⟩
  | 79 => ⟨S1x64x10, .f32⟩
  | 80 => ⟨S64x10, .f32⟩
  | 81 => ⟨S50000x10, .f32⟩
  | 82 => ⟨S50000x10, .f32⟩
  | 83 => ⟨S800000x1, .f32⟩
  | 84 => ⟨S_, .i32⟩
  | 85 => ⟨S800000, .i32⟩
  | 86 => ⟨S800000, .i1⟩
  | 87 => ⟨S_, .i32⟩
  | 88 => ⟨S800000, .i32⟩
  | 89 => ⟨S800000, .i32⟩
  | 90 => ⟨S800000, .i32⟩
  | 91 => ⟨S800000x1, .i32⟩
  | 92 => ⟨S800000x64, .f32⟩
  | 93 => ⟨S800000x64, .f32⟩
  | 94 => ⟨S800000x64, .f32⟩
  | 95 => ⟨S_, .f32⟩
  | 96 => ⟨S50000x64, .f32⟩
  | 97 => ⟨S800000x1, .i32⟩
  | 98 => ⟨S50000x64, .f32⟩
  | 99 => ⟨S_, .f32⟩
  | 100 => ⟨S50000x64, .f32⟩
  | 101 => ⟨S50000x64, .f32⟩
  | 102 => ⟨S50000x64, .f32⟩
  | 103 => ⟨S1x64x10, .f32⟩
  | 104 => ⟨S64x10, .f32⟩
  | 105 => ⟨S50000x10, .f32⟩
  | 106 => ⟨S50000x10, .f32⟩
  | 107 => ⟨S800000x1, .f32⟩
  | 108 => ⟨S_, .i32⟩
  | 109 => ⟨S800000, .i32⟩
  | 110 => ⟨S800000, .i1⟩
  | 111 => ⟨S_, .i32⟩
  | 112 => ⟨S800000, .i32⟩
  | 113 => ⟨S800000, .i32⟩
  | 114 => ⟨S800000, .i32⟩
  | 115 => ⟨S800000x1, .i32⟩
  | 116 => ⟨S800000x64, .f32⟩
  | 117 => ⟨S800000x64, .f32⟩
  | 118 => ⟨S800000x64, .f32⟩
  | 119 => ⟨S_, .f32⟩
  | 120 => ⟨S50000x64, .f32⟩
  | 121 => ⟨S800000x1, .i32⟩
  | 122 => ⟨S50000x64, .f32⟩
  | 123 => ⟨S_, .f32⟩
  | 124 => ⟨S50000x64, .f32⟩
  | 125 => ⟨S50000x64, .f32⟩
  | 126 => ⟨S50000x64, .f32⟩
  | 127 => ⟨S1x64x10, .f32⟩
  | _ => ⟨S50000x64, .f32⟩

abbrev hbmTy0_3 (i : Nat) : BufTy := match i % 128 with
  | 0 => ⟨S64x10, .f32⟩
  | 1 => ⟨S50000x10, .f32⟩
  | 2 => ⟨S50000x10, .f32⟩
  | 3 => ⟨S1x10, .f32⟩
  | 4 => ⟨S50000x10, .f32⟩
  | 5 => ⟨S50000x10, .f32⟩
  | _ => ⟨S50000x64, .f32⟩

abbrev hbmTy (i : Nat) : BufTy := match i / 128 with
  | 0 => hbmTy0_0 i
  | 1 => hbmTy0_1 i
  | 2 => hbmTy0_2 i
  | 3 => hbmTy0_3 i
  | _ => ⟨S50000x64, .f32⟩

abbrev bufTy : (tb : Table) → Fin (tcTables nBuf tb) → BufTy
  | .hbm, ⟨i, _⟩ => hbmTy i
  | _, _ => ⟨S50000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_cst : Ref sig .tc := ⟨.hbm, 10, rfl⟩
abbrev main_v4 : Ref sig .tc := ⟨.hbm, 11, rfl⟩
abbrev main_cst_0 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_cst_1 : Ref sig .tc := ⟨.hbm, 16, rfl⟩
abbrev main_v8 : Ref sig .tc := ⟨.hbm, 17, rfl⟩
abbrev main_v9 : Ref sig .tc := ⟨.hbm, 18, rfl⟩
abbrev main_cst_2 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_cst_3 : Ref sig .tc := ⟨.hbm, 23, rfl⟩
abbrev main_call0_v0 : Ref sig .tc := ⟨.hbm, 24, rfl⟩
abbrev main_call0_v1 : Ref sig .tc := ⟨.hbm, 25, rfl⟩
abbrev main_v13 : Ref sig .tc := ⟨.hbm, 26, rfl⟩
abbrev main_c : Ref sig .tc := ⟨.hbm, 27, rfl⟩
abbrev main_v14 : Ref sig .tc := ⟨.hbm, 28, rfl⟩
abbrev main_v15 : Ref sig .tc := ⟨.hbm, 29, rfl⟩
abbrev main_c_4 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_c_5 : Ref sig .tc := ⟨.hbm, 37, rfl⟩
abbrev main_v22 : Ref sig .tc := ⟨.hbm, 38, rfl⟩
abbrev main_v23 : Ref sig .tc := ⟨.hbm, 39, rfl⟩
abbrev main_c_6 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_c_7 : Ref sig .tc := ⟨.hbm, 51, rfl⟩
abbrev main_v34 : Ref sig .tc := ⟨.hbm, 52, rfl⟩
abbrev main_v35 : Ref sig .tc := ⟨.hbm, 53, rfl⟩
abbrev main_c_8 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_cst_9 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_c_10 : Ref sig .tc := ⟨.hbm, 71, rfl⟩
abbrev main_v51 : Ref sig .tc := ⟨.hbm, 72, rfl⟩
abbrev main_v52 : Ref sig .tc := ⟨.hbm, 73, rfl⟩
abbrev main_c_11 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_cst_12 : Ref sig .tc := ⟨.hbm, 82, rfl⟩
abbrev main_v60 : Ref sig .tc := ⟨.hbm, 83, rfl⟩
abbrev main_v61 : Ref sig .tc := ⟨.hbm, 84, rfl⟩
abbrev main_v62 : Ref sig .tc := ⟨.hbm, 85, rfl⟩
abbrev main_cst_13 : Ref sig .tc := ⟨.hbm, 86, rfl⟩
abbrev main_v63 : Ref sig .tc := ⟨.hbm, 87, rfl⟩
abbrev main_v64 : Ref sig .tc := ⟨.hbm, 88, rfl⟩
abbrev main_v65 : Ref sig .tc := ⟨.hbm, 89, rfl⟩
abbrev main_v66 : Ref sig .tc := ⟨.hbm, 90, rfl⟩
abbrev main_v67 : Ref sig .tc := ⟨.hbm, 91, rfl⟩
abbrev main_v68 : Ref sig .tc := ⟨.hbm, 92, rfl⟩
abbrev main_v69 : Ref sig .tc := ⟨.hbm, 93, rfl⟩
abbrev main_v70 : Ref sig .tc := ⟨.hbm, 94, rfl⟩
abbrev main_c_14 : Ref sig .tc := ⟨.hbm, 95, rfl⟩
abbrev main_v71 : Ref sig .tc := ⟨.hbm, 96, rfl⟩
abbrev main_v72 : Ref sig .tc := ⟨.hbm, 97, rfl⟩
abbrev main_c_15 : Ref sig .tc := ⟨.hbm, 98, rfl⟩
abbrev main_v73 : Ref sig .tc := ⟨.hbm, 99, rfl⟩
abbrev main_v74 : Ref sig .tc := ⟨.hbm, 100, rfl⟩
abbrev main_v75 : Ref sig .tc := ⟨.hbm, 101, rfl⟩
abbrev main_v76 : Ref sig .tc := ⟨.hbm, 102, rfl⟩
abbrev main_v77 : Ref sig .tc := ⟨.hbm, 103, rfl⟩
abbrev main_v78 : Ref sig .tc := ⟨.hbm, 104, rfl⟩
abbrev main_v79 : Ref sig .tc := ⟨.hbm, 105, rfl⟩
abbrev main_cst_16 : Ref sig .tc := ⟨.hbm, 106, rfl⟩
abbrev main_v80 : Ref sig .tc := ⟨.hbm, 107, rfl⟩
abbrev main_v81 : Ref sig .tc := ⟨.hbm, 108, rfl⟩
abbrev main_v82 : Ref sig .tc := ⟨.hbm, 109, rfl⟩
abbrev main_cst_17 : Ref sig .tc := ⟨.hbm, 110, rfl⟩
abbrev main_v83 : Ref sig .tc := ⟨.hbm, 111, rfl⟩
abbrev main_v84 : Ref sig .tc := ⟨.hbm, 112, rfl⟩
abbrev main_v85 : Ref sig .tc := ⟨.hbm, 113, rfl⟩
abbrev main_v86 : Ref sig .tc := ⟨.hbm, 114, rfl⟩
abbrev main_v87 : Ref sig .tc := ⟨.hbm, 115, rfl⟩
abbrev main_v88 : Ref sig .tc := ⟨.hbm, 116, rfl⟩
abbrev main_v89 : Ref sig .tc := ⟨.hbm, 117, rfl⟩
abbrev main_v90 : Ref sig .tc := ⟨.hbm, 118, rfl⟩
abbrev main_c_18 : Ref sig .tc := ⟨.hbm, 119, rfl⟩
abbrev main_v91 : Ref sig .tc := ⟨.hbm, 120, rfl⟩
abbrev main_v92 : Ref sig .tc := ⟨.hbm, 121, rfl⟩
abbrev main_c_19 : Ref sig .tc := ⟨.hbm, 122, rfl⟩
abbrev main_v93 : Ref sig .tc := ⟨.hbm, 123, rfl⟩
abbrev main_v94 : Ref sig .tc := ⟨.hbm, 124, rfl⟩
abbrev main_v95 : Ref sig .tc := ⟨.hbm, 125, rfl⟩
abbrev main_v96 : Ref sig .tc := ⟨.hbm, 126, rfl⟩
abbrev main_v97 : Ref sig .tc := ⟨.hbm, 127, rfl⟩
abbrev main_v98 : Ref sig .tc := ⟨.hbm, 128, rfl⟩
abbrev main_v99 : Ref sig .tc := ⟨.hbm, 129, rfl⟩
abbrev main_cst_20 : Ref sig .tc := ⟨.hbm, 130, rfl⟩
abbrev main_v100 : Ref sig .tc := ⟨.hbm, 131, rfl⟩
abbrev main_v101 : Ref sig .tc := ⟨.hbm, 132, rfl⟩
abbrev main_v102 : Ref sig .tc := ⟨.hbm, 133, rfl⟩
abbrev main_cst_21 : Ref sig .tc := ⟨.hbm, 134, rfl⟩
abbrev main_v103 : Ref sig .tc := ⟨.hbm, 135, rfl⟩
abbrev main_v104 : Ref sig .tc := ⟨.hbm, 136, rfl⟩
abbrev main_v105 : Ref sig .tc := ⟨.hbm, 137, rfl⟩
abbrev main_v106 : Ref sig .tc := ⟨.hbm, 138, rfl⟩
abbrev main_v107 : Ref sig .tc := ⟨.hbm, 139, rfl⟩
abbrev main_v108 : Ref sig .tc := ⟨.hbm, 140, rfl⟩
abbrev main_v109 : Ref sig .tc := ⟨.hbm, 141, rfl⟩
abbrev main_v110 : Ref sig .tc := ⟨.hbm, 142, rfl⟩
abbrev main_c_22 : Ref sig .tc := ⟨.hbm, 143, rfl⟩
abbrev main_v111 : Ref sig .tc := ⟨.hbm, 144, rfl⟩
abbrev main_v112 : Ref sig .tc := ⟨.hbm, 145, rfl⟩
abbrev main_c_23 : Ref sig .tc := ⟨.hbm, 146, rfl⟩
abbrev main_v113 : Ref sig .tc := ⟨.hbm, 147, rfl⟩
abbrev main_v114 : Ref sig .tc := ⟨.hbm, 148, rfl⟩
abbrev main_v115 : Ref sig .tc := ⟨.hbm, 149, rfl⟩
abbrev main_v116 : Ref sig .tc := ⟨.hbm, 150, rfl⟩
abbrev main_v117 : Ref sig .tc := ⟨.hbm, 151, rfl⟩
abbrev main_v118 : Ref sig .tc := ⟨.hbm, 152, rfl⟩
abbrev main_v119 : Ref sig .tc := ⟨.hbm, 153, rfl⟩
abbrev main_cst_24 : Ref sig .tc := ⟨.hbm, 154, rfl⟩
abbrev main_v120 : Ref sig .tc := ⟨.hbm, 155, rfl⟩
abbrev main_v121 : Ref sig .tc := ⟨.hbm, 156, rfl⟩
abbrev main_v122 : Ref sig .tc := ⟨.hbm, 157, rfl⟩
abbrev main_cst_25 : Ref sig .tc := ⟨.hbm, 158, rfl⟩
abbrev main_v123 : Ref sig .tc := ⟨.hbm, 159, rfl⟩
abbrev main_v124 : Ref sig .tc := ⟨.hbm, 160, rfl⟩
abbrev main_v125 : Ref sig .tc := ⟨.hbm, 161, rfl⟩
abbrev main_v126 : Ref sig .tc := ⟨.hbm, 162, rfl⟩
abbrev main_v127 : Ref sig .tc := ⟨.hbm, 163, rfl⟩
abbrev main_v128 : Ref sig .tc := ⟨.hbm, 164, rfl⟩
abbrev main_v129 : Ref sig .tc := ⟨.hbm, 165, rfl⟩
abbrev main_v130 : Ref sig .tc := ⟨.hbm, 166, rfl⟩
abbrev main_c_26 : Ref sig .tc := ⟨.hbm, 167, rfl⟩
abbrev main_v131 : Ref sig .tc := ⟨.hbm, 168, rfl⟩
abbrev main_v132 : Ref sig .tc := ⟨.hbm, 169, rfl⟩
abbrev main_c_27 : Ref sig .tc := ⟨.hbm, 170, rfl⟩
abbrev main_v133 : Ref sig .tc := ⟨.hbm, 171, rfl⟩
abbrev main_v134 : Ref sig .tc := ⟨.hbm, 172, rfl⟩
abbrev main_v135 : Ref sig .tc := ⟨.hbm, 173, rfl⟩
abbrev main_v136 : Ref sig .tc := ⟨.hbm, 174, rfl⟩
abbrev main_v137 : Ref sig .tc := ⟨.hbm, 175, rfl⟩
abbrev main_v138 : Ref sig .tc := ⟨.hbm, 176, rfl⟩
abbrev main_v139 : Ref sig .tc := ⟨.hbm, 177, rfl⟩
abbrev main_cst_28 : Ref sig .tc := ⟨.hbm, 178, rfl⟩
abbrev main_v140 : Ref sig .tc := ⟨.hbm, 179, rfl⟩
abbrev main_v141 : Ref sig .tc := ⟨.hbm, 180, rfl⟩
abbrev main_v142 : Ref sig .tc := ⟨.hbm, 181, rfl⟩
abbrev main_cst_29 : Ref sig .tc := ⟨.hbm, 182, rfl⟩
abbrev main_v143 : Ref sig .tc := ⟨.hbm, 183, rfl⟩
abbrev main_v144 : Ref sig .tc := ⟨.hbm, 184, rfl⟩
abbrev main_v145 : Ref sig .tc := ⟨.hbm, 185, rfl⟩
abbrev main_v146 : Ref sig .tc := ⟨.hbm, 186, rfl⟩
abbrev main_v147 : Ref sig .tc := ⟨.hbm, 187, rfl⟩
abbrev main_v148 : Ref sig .tc := ⟨.hbm, 188, rfl⟩
abbrev main_v149 : Ref sig .tc := ⟨.hbm, 189, rfl⟩
abbrev main_v150 : Ref sig .tc := ⟨.hbm, 190, rfl⟩
abbrev main_c_30 : Ref sig .tc := ⟨.hbm, 191, rfl⟩
abbrev main_v151 : Ref sig .tc := ⟨.hbm, 192, rfl⟩
abbrev main_v152 : Ref sig .tc := ⟨.hbm, 193, rfl⟩
abbrev main_c_31 : Ref sig .tc := ⟨.hbm, 194, rfl⟩
abbrev main_v153 : Ref sig .tc := ⟨.hbm, 195, rfl⟩
abbrev main_v154 : Ref sig .tc := ⟨.hbm, 196, rfl⟩
abbrev main_v155 : Ref sig .tc := ⟨.hbm, 197, rfl⟩
abbrev main_v156 : Ref sig .tc := ⟨.hbm, 198, rfl⟩
abbrev main_v157 : Ref sig .tc := ⟨.hbm, 199, rfl⟩
abbrev main_v158 : Ref sig .tc := ⟨.hbm, 200, rfl⟩
abbrev main_v159 : Ref sig .tc := ⟨.hbm, 201, rfl⟩
abbrev main_cst_32 : Ref sig .tc := ⟨.hbm, 202, rfl⟩
abbrev main_v160 : Ref sig .tc := ⟨.hbm, 203, rfl⟩
abbrev main_v161 : Ref sig .tc := ⟨.hbm, 204, rfl⟩
abbrev main_v162 : Ref sig .tc := ⟨.hbm, 205, rfl⟩
abbrev main_cst_33 : Ref sig .tc := ⟨.hbm, 206, rfl⟩
abbrev main_v163 : Ref sig .tc := ⟨.hbm, 207, rfl⟩
abbrev main_v164 : Ref sig .tc := ⟨.hbm, 208, rfl⟩
abbrev main_v165 : Ref sig .tc := ⟨.hbm, 209, rfl⟩
abbrev main_v166 : Ref sig .tc := ⟨.hbm, 210, rfl⟩
abbrev main_v167 : Ref sig .tc := ⟨.hbm, 211, rfl⟩
abbrev main_v168 : Ref sig .tc := ⟨.hbm, 212, rfl⟩
abbrev main_v169 : Ref sig .tc := ⟨.hbm, 213, rfl⟩
abbrev main_v170 : Ref sig .tc := ⟨.hbm, 214, rfl⟩
abbrev main_v171 : Ref sig .tc := ⟨.hbm, 215, rfl⟩
abbrev main_v172 : Ref sig .tc := ⟨.hbm, 216, rfl⟩
abbrev main_call1_cst : Ref sig .tc := ⟨.hbm, 217, rfl⟩
abbrev main_call1_v0 : Ref sig .tc := ⟨.hbm, 218, rfl⟩
abbrev main_v173 : Ref sig .tc := ⟨.hbm, 219, rfl⟩
abbrev main_v174 : Ref sig .tc := ⟨.hbm, 220, rfl⟩
abbrev main_v175 : Ref sig .tc := ⟨.hbm, 221, rfl⟩
abbrev main_v176 : Ref sig .tc := ⟨.hbm, 222, rfl⟩
abbrev main_v177 : Ref sig .tc := ⟨.hbm, 223, rfl⟩
abbrev main_c_34 : Ref sig .tc := ⟨.hbm, 224, rfl⟩
abbrev main_v178 : Ref sig .tc := ⟨.hbm, 225, rfl⟩
abbrev main_v179 : Ref sig .tc := ⟨.hbm, 226, rfl⟩
abbrev main_c_35 : Ref sig .tc := ⟨.hbm, 227, rfl⟩
abbrev main_v180 : Ref sig .tc := ⟨.hbm, 228, rfl⟩
abbrev main_v181 : Ref sig .tc := ⟨.hbm, 229, rfl⟩
abbrev main_v182 : Ref sig .tc := ⟨.hbm, 230, rfl⟩
abbrev main_v183 : Ref sig .tc := ⟨.hbm, 231, rfl⟩
abbrev main_v184 : Ref sig .tc := ⟨.hbm, 232, rfl⟩
abbrev main_v185 : Ref sig .tc := ⟨.hbm, 233, rfl⟩
abbrev main_v186 : Ref sig .tc := ⟨.hbm, 234, rfl⟩
abbrev main_cst_36 : Ref sig .tc := ⟨.hbm, 235, rfl⟩
abbrev main_v187 : Ref sig .tc := ⟨.hbm, 236, rfl⟩
abbrev main_v188 : Ref sig .tc := ⟨.hbm, 237, rfl⟩
abbrev main_v189 : Ref sig .tc := ⟨.hbm, 238, rfl⟩
abbrev main_v190 : Ref sig .tc := ⟨.hbm, 239, rfl⟩
abbrev main_v191 : Ref sig .tc := ⟨.hbm, 240, rfl⟩
abbrev main_v192 : Ref sig .tc := ⟨.hbm, 241, rfl⟩
abbrev main_v193 : Ref sig .tc := ⟨.hbm, 242, rfl⟩
abbrev main_v194 : Ref sig .tc := ⟨.hbm, 243, rfl⟩
abbrev main_c_37 : Ref sig .tc := ⟨.hbm, 244, rfl⟩
abbrev main_v195 : Ref sig .tc := ⟨.hbm, 245, rfl⟩
abbrev main_v196 : Ref sig .tc := ⟨.hbm, 246, rfl⟩
abbrev main_c_38 : Ref sig .tc := ⟨.hbm, 247, rfl⟩
abbrev main_v197 : Ref sig .tc := ⟨.hbm, 248, rfl⟩
abbrev main_v198 : Ref sig .tc := ⟨.hbm, 249, rfl⟩
abbrev main_v199 : Ref sig .tc := ⟨.hbm, 250, rfl⟩
abbrev main_v200 : Ref sig .tc := ⟨.hbm, 251, rfl⟩
abbrev main_v201 : Ref sig .tc := ⟨.hbm, 252, rfl⟩
abbrev main_v202 : Ref sig .tc := ⟨.hbm, 253, rfl⟩
abbrev main_v203 : Ref sig .tc := ⟨.hbm, 254, rfl⟩
abbrev main_cst_39 : Ref sig .tc := ⟨.hbm, 255, rfl⟩
abbrev main_v204 : Ref sig .tc := ⟨.hbm, 256, rfl⟩
abbrev main_v205 : Ref sig .tc := ⟨.hbm, 257, rfl⟩
abbrev main_v206 : Ref sig .tc := ⟨.hbm, 258, rfl⟩
abbrev main_cst_40 : Ref sig .tc := ⟨.hbm, 259, rfl⟩
abbrev main_v207 : Ref sig .tc := ⟨.hbm, 260, rfl⟩
abbrev main_v208 : Ref sig .tc := ⟨.hbm, 261, rfl⟩
abbrev main_v209 : Ref sig .tc := ⟨.hbm, 262, rfl⟩
abbrev main_v210 : Ref sig .tc := ⟨.hbm, 263, rfl⟩
abbrev main_v211 : Ref sig .tc := ⟨.hbm, 264, rfl⟩
abbrev main_v212 : Ref sig .tc := ⟨.hbm, 265, rfl⟩
abbrev main_v213 : Ref sig .tc := ⟨.hbm, 266, rfl⟩
abbrev main_v214 : Ref sig .tc := ⟨.hbm, 267, rfl⟩
abbrev main_c_41 : Ref sig .tc := ⟨.hbm, 268, rfl⟩
abbrev main_v215 : Ref sig .tc := ⟨.hbm, 269, rfl⟩
abbrev main_v216 : Ref sig .tc := ⟨.hbm, 270, rfl⟩
abbrev main_c_42 : Ref sig .tc := ⟨.hbm, 271, rfl⟩
abbrev main_v217 : Ref sig .tc := ⟨.hbm, 272, rfl⟩
abbrev main_v218 : Ref sig .tc := ⟨.hbm, 273, rfl⟩
abbrev main_v219 : Ref sig .tc := ⟨.hbm, 274, rfl⟩
abbrev main_v220 : Ref sig .tc := ⟨.hbm, 275, rfl⟩
abbrev main_v221 : Ref sig .tc := ⟨.hbm, 276, rfl⟩
abbrev main_v222 : Ref sig .tc := ⟨.hbm, 277, rfl⟩
abbrev main_v223 : Ref sig .tc := ⟨.hbm, 278, rfl⟩
abbrev main_cst_43 : Ref sig .tc := ⟨.hbm, 279, rfl⟩
abbrev main_v224 : Ref sig .tc := ⟨.hbm, 280, rfl⟩
abbrev main_v225 : Ref sig .tc := ⟨.hbm, 281, rfl⟩
abbrev main_v226 : Ref sig .tc := ⟨.hbm, 282, rfl⟩
abbrev main_cst_44 : Ref sig .tc := ⟨.hbm, 283, rfl⟩
abbrev main_v227 : Ref sig .tc := ⟨.hbm, 284, rfl⟩
abbrev main_v228 : Ref sig .tc := ⟨.hbm, 285, rfl⟩
abbrev main_v229 : Ref sig .tc := ⟨.hbm, 286, rfl⟩
abbrev main_v230 : Ref sig .tc := ⟨.hbm, 287, rfl⟩
abbrev main_v231 : Ref sig .tc := ⟨.hbm, 288, rfl⟩
abbrev main_v232 : Ref sig .tc := ⟨.hbm, 289, rfl⟩
abbrev main_v233 : Ref sig .tc := ⟨.hbm, 290, rfl⟩
abbrev main_v234 : Ref sig .tc := ⟨.hbm, 291, rfl⟩
abbrev main_c_45 : Ref sig .tc := ⟨.hbm, 292, rfl⟩
abbrev main_v235 : Ref sig .tc := ⟨.hbm, 293, rfl⟩
abbrev main_v236 : Ref sig .tc := ⟨.hbm, 294, rfl⟩
abbrev main_c_46 : Ref sig .tc := ⟨.hbm, 295, rfl⟩
abbrev main_v237 : Ref sig .tc := ⟨.hbm, 296, rfl⟩
abbrev main_v238 : Ref sig .tc := ⟨.hbm, 297, rfl⟩
abbrev main_v239 : Ref sig .tc := ⟨.hbm, 298, rfl⟩
abbrev main_v240 : Ref sig .tc := ⟨.hbm, 299, rfl⟩
abbrev main_v241 : Ref sig .tc := ⟨.hbm, 300, rfl⟩
abbrev main_v242 : Ref sig .tc := ⟨.hbm, 301, rfl⟩
abbrev main_v243 : Ref sig .tc := ⟨.hbm, 302, rfl⟩
abbrev main_cst_47 : Ref sig .tc := ⟨.hbm, 303, rfl⟩
abbrev main_v244 : Ref sig .tc := ⟨.hbm, 304, rfl⟩
abbrev main_v245 : Ref sig .tc := ⟨.hbm, 305, rfl⟩
abbrev main_v246 : Ref sig .tc := ⟨.hbm, 306, rfl⟩
abbrev main_cst_48 : Ref sig .tc := ⟨.hbm, 307, rfl⟩
abbrev main_v247 : Ref sig .tc := ⟨.hbm, 308, rfl⟩
abbrev main_v248 : Ref sig .tc := ⟨.hbm, 309, rfl⟩
abbrev main_v249 : Ref sig .tc := ⟨.hbm, 310, rfl⟩
abbrev main_v250 : Ref sig .tc := ⟨.hbm, 311, rfl⟩
abbrev main_v251 : Ref sig .tc := ⟨.hbm, 312, rfl⟩
abbrev main_v252 : Ref sig .tc := ⟨.hbm, 313, rfl⟩
abbrev main_v253 : Ref sig .tc := ⟨.hbm, 314, rfl⟩
abbrev main_v254 : Ref sig .tc := ⟨.hbm, 315, rfl⟩
abbrev main_c_49 : Ref sig .tc := ⟨.hbm, 316, rfl⟩
abbrev main_v255 : Ref sig .tc := ⟨.hbm, 317, rfl⟩
abbrev main_v256 : Ref sig .tc := ⟨.hbm, 318, rfl⟩
abbrev main_c_50 : Ref sig .tc := ⟨.hbm, 319, rfl⟩
abbrev main_v257 : Ref sig .tc := ⟨.hbm, 320, rfl⟩
abbrev main_v258 : Ref sig .tc := ⟨.hbm, 321, rfl⟩
abbrev main_v259 : Ref sig .tc := ⟨.hbm, 322, rfl⟩
abbrev main_v260 : Ref sig .tc := ⟨.hbm, 323, rfl⟩
abbrev main_v261 : Ref sig .tc := ⟨.hbm, 324, rfl⟩
abbrev main_v262 : Ref sig .tc := ⟨.hbm, 325, rfl⟩
abbrev main_v263 : Ref sig .tc := ⟨.hbm, 326, rfl⟩
abbrev main_cst_51 : Ref sig .tc := ⟨.hbm, 327, rfl⟩
abbrev main_v264 : Ref sig .tc := ⟨.hbm, 328, rfl⟩
abbrev main_v265 : Ref sig .tc := ⟨.hbm, 329, rfl⟩
abbrev main_v266 : Ref sig .tc := ⟨.hbm, 330, rfl⟩
abbrev main_cst_52 : Ref sig .tc := ⟨.hbm, 331, rfl⟩
abbrev main_v267 : Ref sig .tc := ⟨.hbm, 332, rfl⟩
abbrev main_v268 : Ref sig .tc := ⟨.hbm, 333, rfl⟩
abbrev main_v269 : Ref sig .tc := ⟨.hbm, 334, rfl⟩
abbrev main_v270 : Ref sig .tc := ⟨.hbm, 335, rfl⟩
abbrev main_v271 : Ref sig .tc := ⟨.hbm, 336, rfl⟩
abbrev main_v272 : Ref sig .tc := ⟨.hbm, 337, rfl⟩
abbrev main_v273 : Ref sig .tc := ⟨.hbm, 338, rfl⟩
abbrev main_v274 : Ref sig .tc := ⟨.hbm, 339, rfl⟩
abbrev main_c_53 : Ref sig .tc := ⟨.hbm, 340, rfl⟩
abbrev main_v275 : Ref sig .tc := ⟨.hbm, 341, rfl⟩
abbrev main_v276 : Ref sig .tc := ⟨.hbm, 342, rfl⟩
abbrev main_c_54 : Ref sig .tc := ⟨.hbm, 343, rfl⟩
abbrev main_v277 : Ref sig .tc := ⟨.hbm, 344, rfl⟩
abbrev main_v278 : Ref sig .tc := ⟨.hbm, 345, rfl⟩
abbrev main_v279 : Ref sig .tc := ⟨.hbm, 346, rfl⟩
abbrev main_v280 : Ref sig .tc := ⟨.hbm, 347, rfl⟩
abbrev main_v281 : Ref sig .tc := ⟨.hbm, 348, rfl⟩
abbrev main_v282 : Ref sig .tc := ⟨.hbm, 349, rfl⟩
abbrev main_v283 : Ref sig .tc := ⟨.hbm, 350, rfl⟩
abbrev main_cst_55 : Ref sig .tc := ⟨.hbm, 351, rfl⟩
abbrev main_v284 : Ref sig .tc := ⟨.hbm, 352, rfl⟩
abbrev main_v285 : Ref sig .tc := ⟨.hbm, 353, rfl⟩
abbrev main_v286 : Ref sig .tc := ⟨.hbm, 354, rfl⟩
abbrev main_cst_56 : Ref sig .tc := ⟨.hbm, 355, rfl⟩
abbrev main_v287 : Ref sig .tc := ⟨.hbm, 356, rfl⟩
abbrev main_v288 : Ref sig .tc := ⟨.hbm, 357, rfl⟩
abbrev main_v289 : Ref sig .tc := ⟨.hbm, 358, rfl⟩
abbrev main_v290 : Ref sig .tc := ⟨.hbm, 359, rfl⟩
abbrev main_v291 : Ref sig .tc := ⟨.hbm, 360, rfl⟩
abbrev main_v292 : Ref sig .tc := ⟨.hbm, 361, rfl⟩
abbrev main_v293 : Ref sig .tc := ⟨.hbm, 362, rfl⟩
abbrev main_v294 : Ref sig .tc := ⟨.hbm, 363, rfl⟩
abbrev main_c_57 : Ref sig .tc := ⟨.hbm, 364, rfl⟩
abbrev main_v295 : Ref sig .tc := ⟨.hbm, 365, rfl⟩
abbrev main_v296 : Ref sig .tc := ⟨.hbm, 366, rfl⟩
abbrev main_c_58 : Ref sig .tc := ⟨.hbm, 367, rfl⟩
abbrev main_v297 : Ref sig .tc := ⟨.hbm, 368, rfl⟩
abbrev main_v298 : Ref sig .tc := ⟨.hbm, 369, rfl⟩
abbrev main_v299 : Ref sig .tc := ⟨.hbm, 370, rfl⟩
abbrev main_v300 : Ref sig .tc := ⟨.hbm, 371, rfl⟩
abbrev main_v301 : Ref sig .tc := ⟨.hbm, 372, rfl⟩
abbrev main_v302 : Ref sig .tc := ⟨.hbm, 373, rfl⟩
abbrev main_v303 : Ref sig .tc := ⟨.hbm, 374, rfl⟩
abbrev main_cst_59 : Ref sig .tc := ⟨.hbm, 375, rfl⟩
abbrev main_v304 : Ref sig .tc := ⟨.hbm, 376, rfl⟩
abbrev main_v305 : Ref sig .tc := ⟨.hbm, 377, rfl⟩
abbrev main_v306 : Ref sig .tc := ⟨.hbm, 378, rfl⟩
abbrev main_cst_60 : Ref sig .tc := ⟨.hbm, 379, rfl⟩
abbrev main_v307 : Ref sig .tc := ⟨.hbm, 380, rfl⟩
abbrev main_v308 : Ref sig .tc := ⟨.hbm, 381, rfl⟩
abbrev main_v309 : Ref sig .tc := ⟨.hbm, 382, rfl⟩
abbrev main_v310 : Ref sig .tc := ⟨.hbm, 383, rfl⟩
abbrev main_v311 : Ref sig .tc := ⟨.hbm, 384, rfl⟩
abbrev main_v312 : Ref sig .tc := ⟨.hbm, 385, rfl⟩
abbrev main_v313 : Ref sig .tc := ⟨.hbm, 386, rfl⟩
abbrev main_v314 : Ref sig .tc := ⟨.hbm, 387, rfl⟩
abbrev main_v315 : Ref sig .tc := ⟨.hbm, 388, rfl⟩
abbrev main_v316 : Ref sig .tc := ⟨.hbm, 389, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S_S50000 : S_.BroadcastsInDim S50000 (![] : Fin 0 → Fin S50000.rank)
  bcast_S800000_S800000x1_0 : S800000.BroadcastsInDim S800000x1 (![0] : Fin 1 → Fin S800000x1.rank)
  slices_S8x64x64_S1x64x64_0_0_0 : S8x64x64.Slices ![0, 0, 0] S1x64x64
  shapeCasts_S1x64x64_S64x64 : S1x64x64.ShapeCasts S64x64
  bcast_S800000x1_S800000x64_0_1 : S800000x1.BroadcastsInDim S800000x64 (![0, 1] : Fin 2 → Fin S800000x64.rank)
  bcast_S_S50000x64 : S_.BroadcastsInDim S50000x64 (![] : Fin 0 → Fin S50000x64.rank)
  slices_S8x64x64_S1x64x64_1_0_0 : S8x64x64.Slices ![1, 0, 0] S1x64x64
  slices_S8x64x64_S1x64x64_2_0_0 : S8x64x64.Slices ![2, 0, 0] S1x64x64
  slices_S8x64x64_S1x64x64_3_0_0 : S8x64x64.Slices ![3, 0, 0] S1x64x64
  slices_S8x64x64_S1x64x64_4_0_0 : S8x64x64.Slices ![4, 0, 0] S1x64x64
  slices_S8x64x64_S1x64x64_5_0_0 : S8x64x64.Slices ![5, 0, 0] S1x64x64
  slices_S8x64x64_S1x64x64_6_0_0 : S8x64x64.Slices ![6, 0, 0] S1x64x64
  slices_S8x64x64_S1x64x64_7_0_0 : S8x64x64.Slices ![7, 0, 0] S1x64x64
  bcast_S64_S1x64_1 : S64.BroadcastsInDim S1x64 (![1] : Fin 1 → Fin S1x64.rank)
  bcast_S1x64_S50000x64_0_1 : S1x64.BroadcastsInDim S50000x64 (![0, 1] : Fin 2 → Fin S50000x64.rank)
  slices_S8x64x10_S1x64x10_0_0_0 : S8x64x10.Slices ![0, 0, 0] S1x64x10
  shapeCasts_S1x64x10_S64x10 : S1x64x10.ShapeCasts S64x10
  slices_S8x64x10_S1x64x10_1_0_0 : S8x64x10.Slices ![1, 0, 0] S1x64x10
  slices_S8x64x10_S1x64x10_2_0_0 : S8x64x10.Slices ![2, 0, 0] S1x64x10
  slices_S8x64x10_S1x64x10_3_0_0 : S8x64x10.Slices ![3, 0, 0] S1x64x10
  slices_S8x64x10_S1x64x10_4_0_0 : S8x64x10.Slices ![4, 0, 0] S1x64x10
  slices_S8x64x10_S1x64x10_5_0_0 : S8x64x10.Slices ![5, 0, 0] S1x64x10
  slices_S8x64x10_S1x64x10_6_0_0 : S8x64x10.Slices ![6, 0, 0] S1x64x10
  slices_S8x64x10_S1x64x10_7_0_0 : S8x64x10.Slices ![7, 0, 0] S1x64x10
  bcast_S10_S1x10_1 : S10.BroadcastsInDim S1x10 (![1] : Fin 1 → Fin S1x10.rank)
  bcast_S1x10_S50000x10_0_1 : S1x10.BroadcastsInDim S50000x10 (![0, 1] : Fin 2 → Fin S50000x10.rank)
  scatter_S50000_S800000x1_S800000_n_0_0_1_wf : ScatterDims.WF S50000 S800000x1 S800000 [] [0] [0] 1
  gather_S50000_S800000x1_S800000_n_0_n_n_0_1_1_wf : GatherDims.WF S50000 S800000x1 S800000 [] [0] [] [0] [] 1 ![1]
  dot_S50000x64_S64x64_S50000x64_1_0_0_1_n_n_wf : DotDims.WF S50000x64 S64x64 S50000x64 [1] [0] [0] [1] [] []
  gather_S50000x64_S800000x1_S800000x64_1_0_n_n_0_1_164_wf : GatherDims.WF S50000x64 S800000x1 S800000x64 [1] [0] [] [0] [] 1 ![1, 64]
  scatter_S50000x64_S800000x1_S800000x64_1_0_0_1_wf : ScatterDims.WF S50000x64 S800000x1 S800000x64 [1] [0] [0] 1
  dot_S50000x64_S64x10_S50000x10_1_0_0_1_n_n_wf : DotDims.WF S50000x64 S64x10 S50000x10 [1] [0] [0] [1] [] []

variable [Facts₀]

def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def gather_S50000_S800000x1_S800000_n_0_n_n_0_1_1 : GatherDims S50000 S800000x1 S800000 where
  offsetDims := []
  collapsedSliceDims := [0]
  operandBatchingDims := []
  startIndicesBatchingDims := []
  startIndexMap := [0]
  indexVectorDim := 1
  sliceSizes := ![1]
  wf := gather_S50000_S800000x1_S800000_n_0_n_n_0_1_1_wf
def dot_S50000x64_S64x64_S50000x64_1_0_0_1_n_n : DotDims S50000x64 S64x64 S50000x64 where
  lhsContracting := [1]
  rhsContracting := [0]
  lhsNonContracting := [0]
  rhsNonContracting := [1]
  lhsBatch := []
  rhsBatch := []
  wf := dot_S50000x64_S64x64_S50000x64_1_0_0_1_n_n_wf
def gather_S50000x64_S800000x1_S800000x64_1_0_n_n_0_1_164 : GatherDims S50000x64 S800000x1 S800000x64 where
  offsetDims := [1]
  collapsedSliceDims := [0]
  operandBatchingDims := []
  startIndicesBatchingDims := []
  startIndexMap := [0]
  indexVectorDim := 1
  sliceSizes := ![1, 64]
  wf := gather_S50000x64_S800000x1_S800000x64_1_0_n_n_0_1_164_wf
def scatter_S50000x64_S800000x1_S800000x64_1_0_0_1 : ScatterDims S50000x64 S800000x1 S800000x64 where
  updateWindowDims := [1]
  insertedWindowDims := [0]
  scatterDimsToOperandDims := [0]
  indexVectorDim := 1
  wf := scatter_S50000x64_S800000x1_S800000x64_1_0_0_1_wf
def dot_S50000x64_S64x10_S50000x10_1_0_0_1_n_n : DotDims S50000x64 S64x10 S50000x10 where
  lhsContracting := [1]
  rhsContracting := [0]
  lhsNonContracting := [0]
  rhsNonContracting := [1]
  lhsBatch := []
  rhsBatch := []
  wf := dot_S50000x64_S64x10_S50000x10_1_0_0_1_n_n_wf

class Facts : Prop extends Facts₀ where

variable [Facts]
-- ==== Proof.K.Run0.lean ====
/-
  The body of the fused projection kernel of layer 1, run once on whole staging buffers.

  The body zeroes its accumulator, adds to it the eight products (basis k) · (weight k), adds the bias row, clamps at zero
  and stores the result into the output block.  Every store covers its whole buffer, so what the output block and the
  accumulator hold afterwards is a list of stored pieces, each a whole-buffer store; the inputs are only read.
-/
import proofs.«145562_j85014582657503_2_alg».proof.Proof.Gen.Kernel.Launch
import proofs.«145562_j85014582657503_2_alg».proof.Proof.Gen.Kernel.Skeleton
import proofs.«145562_j85014582657503_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- What the body's stores leave in the output block (`L3`) and in the accumulator (`LS`), as pieces, last first, with the
    proof that on whole staging buffers — the three inputs at their contents, the output block and the accumulator at
    anything — the body runs to the continuation holding the inputs as they were and the two written buffers with their
    pieces written. -/
noncomputable def kernelRun0 (c : Dev nD) (i : grid0.Coords)
    (arg1 : Memref sig .tc .vmem S8x5000x64 .bf16) (harg1 : arg1.IsWhole) (arg2 : Memref sig .tc .vmem S8x64x64 .bf16) (harg2 : arg2.IsWhole)
    (arg3 : Memref sig .tc .vmem S64 .f32) (harg3 : arg3.IsWhole) (arg4 : Memref sig .tc .vmem S5000x64 .f32) (harg4 : arg4.IsWhole)
    (arg5 : Memref sig .tc .vmem S5000x64 .f32) (harg5 : arg5.IsWhole)
    (x0 : Vec F S8x5000x64 .bf16) (x1 : Vec F S8x64x64 .bf16) (x2 : Vec F S64 .f32) :
    Σ' (L3 : List (View.Piece (Elt F) S5000x64 .f32)), { LS : List (View.Piece (Elt F) S5000x64 .f32) //
      ∀ (E : Set ℕ) (K : PUnit → sProp 𝕄),
        iprop(owns (c : Thread nD τ) arg1 fullShare x0 ∗ owns (c : Thread nD τ) arg2 fullShare x1 ∗ owns (c : Thread nD τ) arg3 fullShare x2
            ∗ (∃ d, owns (c : Thread nD τ) arg4 fullShare d) ∗ (∃ d, owns (c : Thread nD τ) arg5 fullShare d)
            ∗ (iprop(owns (c : Thread nD τ) arg1 fullShare x0 ∗ owns (c : Thread nD τ) arg2 fullShare x1 ∗ owns (c : Thread nD τ) arg3 fullShare x2
                ∗ (∃ f, arg4.view.loc (c : Thread nD τ) ↦[arg4.view.set]{fullShare} arg4.view.writes (Elt F) f L3)
                ∗ (∃ f, arg5.view.loc (c : Thread nD τ) ↦[arg5.view.set]{fullShare} arg5.view.writes (Elt F) f LS)) -∗ K ⟨⟩))
          ⊢ wp frame (wpE (defs₀ (F := F)) Variants.none c none) E (cc0__fused_matmul_kernel i arg1 harg1 arg2 harg2 arg3 harg3 arg4 harg4 arg5 harg5) K } := by
  refine ⟨?_, ?_, fun E K => ?run⟩
  case run =>
    simp only [cc0__fused_matmul_kernel_eq_skeleton]; unfold cc0__fused_matmul_kernel_skel
    unfold owns
    iintro ⟨⟨%f0, %hf0, H0⟩, ⟨%f1, %hf1, H1⟩, ⟨%f2, %hf2, H2⟩, ⟨%d3, %f3, -, H3⟩, ⟨%d4, %f4, -, H4⟩, Hk⟩
    obtain rfl := harg1.eq_unread hf0; obtain rfl := harg2.eq_unread hf1; obtain rfl := harg3.eq_unread hf2
    sl_exec
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]; · iexists _; iexact H3
    iexists _; iexact H4

end Cert.Kernel.Hand

end
-- ==== Proof.K.Run1.lean ====
/-
  The body of the fused projection kernel of layer 2, run once on whole staging buffers.

  The body zeroes its accumulator, adds to it the eight products (basis k) · (weight k), adds the bias row
  and stores the result into the output block.  Every store covers its whole buffer, so what the output block and the
  accumulator hold afterwards is a list of stored pieces, each a whole-buffer store; the inputs are only read.
-/
import proofs.«145562_j85014582657503_2_alg».proof.Proof.Gen.Kernel.Launch
import proofs.«145562_j85014582657503_2_alg».proof.Proof.Gen.Kernel.Skeleton
import proofs.«145562_j85014582657503_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- What the body's stores leave in the output block (`L3`) and in the accumulator (`LS`), as pieces, last first, with the
    proof that on whole staging buffers — the three inputs at their contents, the output block and the accumulator at
    anything — the body runs to the continuation holding the inputs as they were and the two written buffers with their
    pieces written. -/
noncomputable def kernelRun1 (c : Dev nD) (i : grid1.Coords)
    (arg1 : Memref sig .tc .vmem S8x5000x64 .bf16) (harg1 : arg1.IsWhole) (arg2 : Memref sig .tc .vmem S8x64x10 .bf16) (harg2 : arg2.IsWhole)
    (arg3 : Memref sig .tc .vmem S10 .f32) (harg3 : arg3.IsWhole) (arg4 : Memref sig .tc .vmem S5000x10 .f32) (harg4 : arg4.IsWhole)
    (arg5 : Memref sig .tc .vmem S5000x10 .f32) (harg5 : arg5.IsWhole)
    (x0 : Vec F S8x5000x64 .bf16) (x1 : Vec F S8x64x10 .bf16) (x2 : Vec F S10 .f32) :
    Σ' (L3 : List (View.Piece (Elt F) S5000x10 .f32)), { LS : List (View.Piece (Elt F) S5000x10 .f32) //
      ∀ (E : Set ℕ) (K : PUnit → sProp 𝕄),
        iprop(owns (c : Thread nD τ) arg1 fullShare x0 ∗ owns (c : Thread nD τ) arg2 fullShare x1 ∗ owns (c : Thread nD τ) arg3 fullShare x2
            ∗ (∃ d, owns (c : Thread nD τ) arg4 fullShare d) ∗ (∃ d, owns (c : Thread nD τ) arg5 fullShare d)
            ∗ (iprop(owns (c : Thread nD τ) arg1 fullShare x0 ∗ owns (c : Thread nD τ) arg2 fullShare x1 ∗ owns (c : Thread nD τ) arg3 fullShare x2
                ∗ (∃ f, arg4.view.loc (c : Thread nD τ) ↦[arg4.view.set]{fullShare} arg4.view.writes (Elt F) f L3)
                ∗ (∃ f, arg5.view.loc (c : Thread nD τ) ↦[arg5.view.set]{fullShare} arg5.view.writes (Elt F) f LS)) -∗ K ⟨⟩))
          ⊢ wp frame (wpE (defs₀ (F := F)) Variants.none c none) E (cc1__fused_matmul_kernel i arg1 harg1 arg2 harg2 arg3 harg3 arg4 harg4 arg5 harg5) K } := by
  refine ⟨?_, ?_, fun E K => ?run⟩
  case run =>
    simp only [cc1__fused_matmul_kernel_eq_skeleton]; unfold cc1__fused_matmul_kernel_skel
    unfold owns
    iintro ⟨⟨%f0, %hf0, H0⟩, ⟨%f1, %hf1, H1⟩, ⟨%f2, %hf2, H2⟩, ⟨%d3, %f3, -, H3⟩, ⟨%d4, %f4, -, H4⟩, Hk⟩
    obtain rfl := harg1.eq_unread hf0; obtain rfl := harg2.eq_unread hf1; obtain rfl := harg3.eq_unread hf2
    sl_exec
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]; · iexists _; iexact H3
    iexists _; iexact H4

end Cert.Kernel.Hand

end
-- ==== Proof.K.Frame.lean ====
/-
  The frame of the two-layer network's program: it runs to the end, faults nowhere, and leaves its argument arrays
  as launched; and every unscoped buffer ends at a named content.

  The program is: three stretches of host operations (the normalisation, the eight Chebyshev bases of layer 1 stacked,
  the weights rounded), the first projection kernel over a grid of ten row blocks, a stretch of host operations (the
  eight bases of layer 2 from the hidden features, stacked), and the second projection kernel.  The buffer contents
  at each boundary are a fold from the launch memory: a host stretch applies its operations; a kernel region leaves its
  input arrays as entered and its output array at the blocks its grid points wrote back.  No host operation and no
  region writes an argument array, so the fold at an argument walks back to the launch memory.
-/
import proofs.«145562_j85014582657503_2_alg».proof.Proof.Gen.Kernel.Launch
import proofs.«145562_j85014582657503_2_alg».proof.Proof.Gen.Kernel.Skeleton
import proofs.«145562_j85014582657503_2_alg».proof.Proof.Gen.Kernel.Points
import proofs.«145562_j85014582657503_2_alg».proof.Proof.K.Run0
import proofs.«145562_j85014582657503_2_alg».proof.Proof.K.Run1
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-- A whole buffer held at some contents is owned at what those contents read as. -/
theorem owns_of_pointsTo {s : Shape} {e : EltTy} (c : Dev nD) (M : Memref sig .tc .vmem s e) (f : M.view.ty.Contents (Elt F)) :
    (M.view.loc (c : Thread nD τ) ↦[M.view.set]{fullShare} f : sProp 𝕄) ⊢ iprop(∃ d, owns (c : Thread nD τ) M fullShare d) := by
  unfold owns
  iintro H
  iexists (M.view.read (Elt F) f); iexists f
  isplitr
  · ipureintro; rfl
  · iexact H

section Regions
-- the TensorCore's buffer contents when a region is entered: the parameter each region's half is stated at
variable (V : (c : Dev nD) → (b : Ref sig .tc) → Buf (Elt F) ((c : Thread nD τ).loc b))

/-! # Region 0: the projection kernel of layer 1, entered at buffer contents `V` -/

/-- Window `w`'s block at grid point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's current staging buffer holds its block at every point, whether the point fetches it or not
    (a window whose block index does not move is fetched once and stays). -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-- One staging buffer of the output window, through which its contents are stated (the choice does not matter). -/
abbrev VO0 : View sig .tc .vmem S5000x64 .f32 := (Memref.whole cc0_stg3_0 : Memref sig .tc .vmem S5000x64 .f32).view
/-- Each window's current staging buffer at point `t`, and its wholeness. -/
abbrev ms0_0 (t : Fin cfg0.N) : Memref sig .tc .vmem S8x5000x64 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S8x64x64 .bf16 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S64 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S5000x64 .f32 := win0_3.stage (cfg0.slots t 3)
abbrev hs0_3 (t : Fin cfg0.N) : (ms0_3 t).IsWhole := hstage0_3 ((cfg0.slots t 3).cast nbuf0_3)
/-- The accumulator: a whole buffer of the kernel's own. -/
abbrev scM0 : Memref sig .tc .vmem S5000x64 .f32 := Memref.whole cc0_scratch0

/-- The region's invariant: the accumulator owned at some contents, the other kernel's scoped buffers (never touched
    here) each whole at some contents, and the generator register at some state. -/
theorem PhiA0_eq (c : Dev nD) :
    (Pipeline.ΦA spec0 c : sProp 𝕄)
      = iprop(((∃ d, owns (c : Thread nD τ) scM0 fullShare d) ∗ (∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg3_1), ((c : Thread nD τ).loc cc1_stg3_1) ↦{fullShare} f) ∗ (∃ f : Buf (Elt F) ((c : Thread nD τ).loc cc1_scratch0), ((c : Thread nD τ).loc cc1_scratch0) ↦{fullShare} f)) ∗ (∃ r, prngReg c r)) := by
  unfold Pipeline.ΦA; rw [scopedRest0_eq]; simp only [scM0, owns_whole]; try rfl

/-- The pieces the body stores into the output block tile it, so they cover it. -/
theorem cover0 (c : Dev nD) (i : grid0.Coords)
    (arg1 : Memref sig .tc .vmem S8x5000x64 .bf16) (harg1 : arg1.IsWhole) (arg2 : Memref sig .tc .vmem S8x64x64 .bf16) (harg2 : arg2.IsWhole)
    (arg3 : Memref sig .tc .vmem S64 .f32) (harg3 : arg3.IsWhole) (arg4 : Memref sig .tc .vmem S5000x64 .f32) (harg4 : arg4.IsWhole)
    (arg5 : Memref sig .tc .vmem S5000x64 .f32) (harg5 : arg5.IsWhole)
    (x0 : Vec F S8x5000x64 .bf16) (x1 : Vec F S8x64x64 .bf16) (x2 : Vec F S64 .f32) (y : S5000x64.Idx) :
    ∃ pc ∈ (kernelRun0 c i arg1 harg1 arg2 harg2 arg3 harg3 arg4 harg4 arg5 harg5 x0 x1 x2).1, y ∈ pc.1.set :=
  View.cover_of_tiledL (kernelRun0 c i arg1 harg1 arg2 harg2 arg3 harg3 arg4 harg4 arg5 harg5 x0 x1 x2).1 S5000x64.size (by sl_kernel_rfl) y

/-- What the body leaves in the output block: its pieces read back. -/
def out0 (c : Dev nD) (i : grid0.Coords)
    (arg1 : Memref sig .tc .vmem S8x5000x64 .bf16) (harg1 : arg1.IsWhole) (arg2 : Memref sig .tc .vmem S8x64x64 .bf16) (harg2 : arg2.IsWhole)
    (arg3 : Memref sig .tc .vmem S64 .f32) (harg3 : arg3.IsWhole) (arg4 : Memref sig .tc .vmem S5000x64 .f32) (harg4 : arg4.IsWhole)
    (arg5 : Memref sig .tc .vmem S5000x64 .f32) (harg5 : arg5.IsWhole)
    (x0 : Vec F S8x5000x64 .bf16) (x1 : Vec F S8x64x64 .bf16) (x2 : Vec F S64 .f32) : Vec F S5000x64 .f32 :=
  VO0.read (Elt F) (VO0.writes (Elt F) VO0.junk (kernelRun0 c i arg1 harg1 arg2 harg2 arg3 harg3 arg4 harg4 arg5 harg5 x0 x1 x2).1)

/-- The output block after the body at point `t`, from the three input blocks there. -/
def outAt0 (c : Dev nD) (t : Fin cfg0.N) : Vec F S5000x64 .f32 :=
  out0 c (grid0.coords t) (ms0_0 t) (hs0_0 t) (ms0_1 t) (hs0_1 t) (ms0_2 t) (hs0_2 t) (ms0_3 t) (hs0_3 t) scM0 (Memref.isWhole_whole _)
    (iblk0 V c 0 t) (iblk0 V c 1 t) (iblk0 V c 2 t)

/-- The proof data of the region on core `c`: the arrays as the region finds them; after the body at point `t` each
    input's buffer at its block and the output's at `outAt0`; the invariant the accumulator at anything and the
    generator register; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => outAt0 V c t
  Φ _ := Pipeline.ΦA spec0 c
  q _ := fullShare
  owed _ := 0

theorem A_eq0 (c : Dev nD) (w : Fin cfg0.W) : (dat0 V c).A w = V c (Pipeline.arrRef spec0 w) := by
  dsimp only [dat0]
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = outAt0 V c t := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t))

set_option maxHeartbeats 2000000 in
/-- The body at any point: the inputs' buffers hold their blocks, so the run applies; the invariant hands the body the
    accumulator at anything and takes it back at anything; the core owes nothing throughout. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_3,
    show (dat0 V c).Φ t.castSucc = Pipeline.ΦA spec0 c from rfl, PhiA0_eq]
  unfold outAt0 out0
  iintro ⟨⟨⟨HS, R1, R2, R3, R4, R5, R6, R7⟩, Hg⟩, Ho, ⟨%d0, H0⟩, ⟨%d1, H1⟩, ⟨%d2, H2⟩, ⟨%d3, H3⟩⟩
  iapply ((kernelRun0 c (grid0.coords t) _ _ _ _ _ _ _ _ _ _ (iblk0 V c 0 t) (iblk0 V c 1 t) (iblk0 V c 2 t)).2.2 Set.univ _)
  isplitl [H0]; · iexact H0
  isplitl [H1]; · iexact H1
  isplitl [H2]; · iexact H2
  isplitl [H3]; · iexists _; iexact H3
  isplitl [HS]; · iexact HS
  iintro ⟨H0, H1, H2, ⟨%e3, H3⟩, ⟨%es, HS⟩⟩
  isplitl [HS R1 R2 R3 R4 R5 R6 R7 Hg]
  · isplitl [HS R1 R2 R3 R4 R5 R6 R7]
    · isplitl [HS]
      · iapply (owns_of_pointsTo c _ _); iexact HS
      isplitl [R1]; · iexact R1
      isplitl [R2]; · iexact R2
      isplitl [R3]; · iexact R3
      isplitl [R4]; · iexact R4
      isplitl [R5]; · iexact R5
      isplitl [R6]; · iexact R6
      iexact R7
    iexact Hg
  isplitl [Ho]; · iexact Ho
  isplitl [H0]; · iexact H0
  isplitl [H1]; · iexact H1
  isplitl [H2]; · iexact H2
  unfold owns; iexists _; isplitr
  swap; · iexact H3
  ipureintro; exact View.read_writes_of_cover _ _ _ _ _ (cover0 c _ _ _ _ _ _ _ _ _ _ _ _ _ _)

/-- The body obligation, at every point. -/
theorem body_obligation0 (c : Dev nD) : BodyObligation (dat0 (F := F) V c) (defs₀ (F := F)) Variants.none () Set.univ := fun t => by
  rw [bigSep_W0, bigSep_W0]
  exact sound_body0 V c t

/-! # Region 1: the projection kernel of layer 2, entered at buffer contents `V` -/

/-- Window `w`'s block at grid point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's current staging buffer holds its block at every point, whether the point fetches it or not
    (a window whose block index does not move is fetched once and stays). -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- One staging buffer of the output window, through which its contents are stated (the choice does not matter). -/
abbrev VO1 : View sig .tc .vmem S5000x10 .f32 := (Memref.whole cc1_stg3_0 : Memref sig .tc .vmem S5000x10 .f32).view
/-- Each window's current staging buffer at point `t`, and its wholeness. -/
abbrev ms1_0 (t : Fin cfg1.N) : Memref sig .tc .vmem S8x5000x64 .bf16 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S8x64x10 .bf16 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S10 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S5000x10 .f32 := win1_3.stage (cfg1.slots t 3)
abbrev hs1_3 (t : Fin cfg1.N) : (ms1_3 t).IsWhole := hstage1_3 ((cfg1.slots t 3).cast nbuf1_3)
/-- The accumulator: a whole buffer of the kernel's own. -/
abbrev scM1 : Memref sig .tc .vmem S5000x10 .f32 := Memref.whole cc1_scratch0

/-- The region's invariant: the accumulator owned at some contents, the other kernel's scoped buffers (never touched
    here) each whole at some contents, and the generator register at some state. -/
theorem PhiA1_eq (c : Dev nD) :
    (Pipeline.ΦA spec1 c : sProp 𝕄)
      = iprop(((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f) ∗ (∃ f : Buf (Elt F) ((c : Thread nD τ).loc cc0_scratch0), ((c : Thread nD τ).loc cc0_scratch0) ↦{fullShare} f) ∗ (∃ d, owns (c : Thread nD τ) scM1 fullShare d)) ∗ (∃ r, prngReg c r)) := by
  unfold Pipeline.ΦA; rw [scopedRest1_eq]; simp only [scM1, owns_whole]; try rfl

/-- The pieces the body stores into the output block tile it, so they cover it. -/
theorem cover1 (c : Dev nD) (i : grid1.Coords)
    (arg1 : Memref sig .tc .vmem S8x5000x64 .bf16) (harg1 : arg1.IsWhole) (arg2 : Memref sig .tc .vmem S8x64x10 .bf16) (harg2 : arg2.IsWhole)
    (arg3 : Memref sig .tc .vmem S10 .f32) (harg3 : arg3.IsWhole) (arg4 : Memref sig .tc .vmem S5000x10 .f32) (harg4 : arg4.IsWhole)
    (arg5 : Memref sig .tc .vmem S5000x10 .f32) (harg5 : arg5.IsWhole)
    (x0 : Vec F S8x5000x64 .bf16) (x1 : Vec F S8x64x10 .bf16) (x2 : Vec F S10 .f32) (y : S5000x10.Idx) :
    ∃ pc ∈ (kernelRun1 c i arg1 harg1 arg2 harg2 arg3 harg3 arg4 harg4 arg5 harg5 x0 x1 x2).1, y ∈ pc.1.set :=
  View.cover_of_tiledL (kernelRun1 c i arg1 harg1 arg2 harg2 arg3 harg3 arg4 harg4 arg5 harg5 x0 x1 x2).1 S5000x10.size (by sl_kernel_rfl) y

/-- What the body leaves in the output block: its pieces read back. -/
def out1 (c : Dev nD) (i : grid1.Coords)
    (arg1 : Memref sig .tc .vmem S8x5000x64 .bf16) (harg1 : arg1.IsWhole) (arg2 : Memref sig .tc .vmem S8x64x10 .bf16) (harg2 : arg2.IsWhole)
    (arg3 : Memref sig .tc .vmem S10 .f32) (harg3 : arg3.IsWhole) (arg4 : Memref sig .tc .vmem S5000x10 .f32) (harg4 : arg4.IsWhole)
    (arg5 : Memref sig .tc .vmem S5000x10 .f32) (harg5 : arg5.IsWhole)
    (x0 : Vec F S8x5000x64 .bf16) (x1 : Vec F S8x64x10 .bf16) (x2 : Vec F S10 .f32) : Vec F S5000x10 .f32 :=
  VO1.read (Elt F) (VO1.writes (Elt F) VO1.junk (kernelRun1 c i arg1 harg1 arg2 harg2 arg3 harg3 arg4 harg4 arg5 harg5 x0 x1 x2).1)

/-- The output block after the body at point `t`, from the three input blocks there. -/
def outAt1 (c : Dev nD) (t : Fin cfg1.N) : Vec F S5000x10 .f32 :=
  out1 c (grid1.coords t) (ms1_0 t) (hs1_0 t) (ms1_1 t) (hs1_1 t) (ms1_2 t) (hs1_2 t) (ms1_3 t) (hs1_3 t) scM1 (Memref.isWhole_whole _)
    (iblk1 V c 0 t) (iblk1 V c 1 t) (iblk1 V c 2 t)

/-- The proof data of the region on core `c`: the arrays as the region finds them; after the body at point `t` each
    input's buffer at its block and the output's at `outAt1`; the invariant the accumulator at anything and the
    generator register; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => outAt1 V c t
  Φ _ := Pipeline.ΦA spec1 c
  q _ := fullShare
  owed _ := 0

theorem A_eq1 (c : Dev nD) (w : Fin cfg1.W) : (dat1 V c).A w = V c (Pipeline.arrRef spec1 w) := by
  dsimp only [dat1]
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = outAt1 V c t := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t))

set_option maxHeartbeats 2000000 in
/-- The body at any point: the inputs' buffers hold their blocks, so the run applies; the invariant hands the body the
    accumulator at anything and takes it back at anything; the core owes nothing throughout. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).Φ t.succ = (dat1 V c).Φ t.castSucc from rfl,
    show (dat1 V c).owesAt () t.succ = (dat1 V c).owesAt () t.castSucc from rfl,
    after1_0, after1_1, after1_2, after1_3,
    show (dat1 V c).Φ t.castSucc = Pipeline.ΦA spec1 c from rfl, PhiA1_eq]
  unfold outAt1 out1
  iintro ⟨⟨⟨R1, R2, R3, R4, R5, R6, R7, HS⟩, Hg⟩, Ho, ⟨%d0, H0⟩, ⟨%d1, H1⟩, ⟨%d2, H2⟩, ⟨%d3, H3⟩⟩
  iapply ((kernelRun1 c (grid1.coords t) _ _ _ _ _ _ _ _ _ _ (iblk1 V c 0 t) (iblk1 V c 1 t) (iblk1 V c 2 t)).2.2 Set.univ _)
  isplitl [H0]; · iexact H0
  isplitl [H1]; · iexact H1
  isplitl [H2]; · iexact H2
  isplitl [H3]; · iexists _; iexact H3
  isplitl [HS]; · iexact HS
  iintro ⟨H0, H1, H2, ⟨%e3, H3⟩, ⟨%es, HS⟩⟩
  isplitl [HS R1 R2 R3 R4 R5 R6 R7 Hg]
  · isplitl [HS R1 R2 R3 R4 R5 R6 R7]
    · isplitl [R1]; · iexact R1
      isplitl [R2]; · iexact R2
      isplitl [R3]; · iexact R3
      isplitl [R4]; · iexact R4
      isplitl [R5]; · iexact R5
      isplitl [R6]; · iexact R6
      isplitl [R7]; · iexact R7
      iapply (owns_of_pointsTo c _ _); iexact HS
    iexact Hg
  isplitl [Ho]; · iexact Ho
  isplitl [H0]; · iexact H0
  isplitl [H1]; · iexact H1
  isplitl [H2]; · iexact H2
  unfold owns; iexists _; isplitr
  swap; · iexact H3
  ipureintro; exact View.read_writes_of_cover _ _ _ _ _ (cover1 c _ _ _ _ _ _ _ _ _ _ _ _ _ _)

/-- The body obligation, at every point. -/
theorem body_obligation1 (c : Dev nD) : BodyObligation (dat1 (F := F) V c) (defs₀ (F := F)) Variants.none () Set.univ := fun t => by
  rw [bigSep_W1, bigSep_W1]
  exact sound_body1 V c t

end Regions

/-! # The run: the program's segments from the launch to the return -/

/-- Core `c`'s buffers at launch. -/
abbrev W0 : Dev nD → Valuation τ sig (Elt F) := fun c b => (s₀ m ρ).mem ((c : Dev nD), b)
/-- After the first stretch of host operations, -/
abbrev W1 : Dev nD → Valuation τ sig (Elt F) := fun c => StableHlo.after hostOps0 (W0 m ρ c)
/-- after the select function's three operations, -/
abbrev W2 : Dev nD → Valuation τ sig (Elt F) := fun c => StableHlo.after hostOps0_1 (W1 m ρ c)
/-- and after the long stretch that ends in the stacked bases of layer 1: region 0's entry. -/
abbrev W3 : Dev nD → Valuation τ sig (Elt F) := fun c => StableHlo.after hostOps0_2 (W2 m ρ c)
abbrev V3 : (c : Dev nD) → (b : Ref sig .tc) → Buf (Elt F) ((c : Thread nD τ).loc b) := fun c b => W3 m ρ c b
/-- At region 0's exit: its arrays at what the pipeline leaves (the inputs as entered, the output's write-backs folded),
    every other buffer as entered. -/
def W4 (c : Dev nD) : Valuation τ sig (Elt F) :=
  Pipeline.withArrays spec0 c (W3 m ρ c) fun w => (dat0 (V3 m ρ) c).arrAt w cfg0.N
theorem W4_arr (c : Dev nD) (w : Fin cfg0.W) :
    W4 m ρ c (Proc.devRef .tc (Pipeline.arrRef spec0 w)) = (dat0 (V3 m ρ) c).arrAt w cfg0.N := by
  unfold W4; exact Pipeline.withArrays_arr spec0 launch0.win.arr_inj c _ _ w
theorem W4_of_ne (c : Dev nD) (b : Ref sig .tc) (hb : ∀ w, Pipeline.arrRef spec0 w ≠ b) :
    W4 m ρ c (Proc.devRef .tc b) = W3 m ρ c (Proc.devRef .tc b) := by
  unfold W4; exact Pipeline.withArrays_of_ne spec0 c _ _ b hb
abbrev V4 : (c : Dev nD) → (b : Ref sig .tc) → Buf (Elt F) ((c : Thread nD τ).loc b) := fun c b => W4 m ρ c b
theorem hF0 (c : Dev nD) (w : Fin cfg0.W) : (dat0 (V3 m ρ) c).arrAt w cfg0.N = V4 m ρ c (Pipeline.arrRef spec0 w) :=
  (W4_arr m ρ c w).symm
theorem hrest0 (c : Dev nD) : ∀ b, b ∉ Finset.univ.image (Pipeline.arrRef spec0) → V4 m ρ c b = V3 m ρ c b :=
  fun b hb => W4_of_ne m ρ c b fun w e => hb (Finset.mem_image.mpr ⟨w, Finset.mem_univ _, e⟩)

/-- After the stretch that ends in the stacked bases of layer 2: region 1's entry. -/
abbrev W5 : Dev nD → Valuation τ sig (Elt F) := fun c => StableHlo.after hostOps1 (W4 m ρ c)
abbrev V5 : (c : Dev nD) → (b : Ref sig .tc) → Buf (Elt F) ((c : Thread nD τ).loc b) := fun c b => W5 m ρ c b
/-- At region 1's exit. -/
def W6 (c : Dev nD) : Valuation τ sig (Elt F) :=
  Pipeline.withArrays spec1 c (W5 m ρ c) fun w => (dat1 (V5 m ρ) c).arrAt w cfg1.N
theorem W6_arr (c : Dev nD) (w : Fin cfg1.W) :
    W6 m ρ c (Proc.devRef .tc (Pipeline.arrRef spec1 w)) = (dat1 (V5 m ρ) c).arrAt w cfg1.N := by
  unfold W6; exact Pipeline.withArrays_arr spec1 launch1.win.arr_inj c _ _ w
theorem W6_of_ne (c : Dev nD) (b : Ref sig .tc) (hb : ∀ w, Pipeline.arrRef spec1 w ≠ b) :
    W6 m ρ c (Proc.devRef .tc b) = W5 m ρ c (Proc.devRef .tc b) := by
  unfold W6; exact Pipeline.withArrays_of_ne spec1 c _ _ b hb
abbrev V6 : (c : Dev nD) → (b : Ref sig .tc) → Buf (Elt F) ((c : Thread nD τ).loc b) := fun c b => W6 m ρ c b
theorem hF1 (c : Dev nD) (w : Fin cfg1.W) : (dat1 (V5 m ρ) c).arrAt w cfg1.N = V6 m ρ c (Pipeline.arrRef spec1 w) :=
  (W6_arr m ρ c w).symm
theorem hrest1 (c : Dev nD) : ∀ b, b ∉ Finset.univ.image (Pipeline.arrRef spec1) → V6 m ρ c b = V5 m ρ c b :=
  fun b hb => W6_of_ne m ρ c b fun w e => hb (Finset.mem_image.mpr ⟨w, Finset.mem_univ _, e⟩)

/-! ### The arguments end as launched -/

/-- The six argument references. -/
abbrev argRefs : List (Ref sig .tc) := [main_arg0, main_arg1, main_arg2, main_arg3, main_arg4, main_arg5]

set_option maxHeartbeats 16000000 in
/-- No host operation writes an argument: each stretch leaves an argument's buffer as it found it. -/
theorem W1_arg (c : Dev nD) (b : Ref sig .tc) (hb : b ∈ argRefs) : W1 m ρ c (Proc.devRef .tc b) = W0 m ρ c (Proc.devRef .tc b) := by
  simp only [argRefs, List.mem_cons, List.mem_nil_iff, or_false] at hb
  rcases hb with rfl | rfl | rfl | rfl | rfl | rfl <;>
  exact StableHlo.after_of_forall_not_mem _ _ (List.forall_iff_forall_mem.mp (by
    simp only [hostOps0, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))
set_option maxHeartbeats 16000000 in
theorem W2_arg (c : Dev nD) (b : Ref sig .tc) (hb : b ∈ argRefs) : W2 m ρ c (Proc.devRef .tc b) = W1 m ρ c (Proc.devRef .tc b) := by
  simp only [argRefs, List.mem_cons, List.mem_nil_iff, or_false] at hb
  rcases hb with rfl | rfl | rfl | rfl | rfl | rfl <;>
  exact StableHlo.after_of_forall_not_mem _ _ (List.forall_iff_forall_mem.mp (by
    simp only [hostOps0_1, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))
set_option maxHeartbeats 16000000 in
theorem W3_arg (c : Dev nD) (b : Ref sig .tc) (hb : b ∈ argRefs) : W3 m ρ c (Proc.devRef .tc b) = W2 m ρ c (Proc.devRef .tc b) := by
  simp only [argRefs, List.mem_cons, List.mem_nil_iff, or_false] at hb
  rcases hb with rfl | rfl | rfl | rfl | rfl | rfl <;>
  exact StableHlo.after_of_forall_not_mem _ _ (List.forall_iff_forall_mem.mp (by
    simp only [hostOps0_2, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))
set_option maxHeartbeats 16000000 in
theorem W5_arg (c : Dev nD) (b : Ref sig .tc) (hb : b ∈ argRefs) : W5 m ρ c (Proc.devRef .tc b) = W4 m ρ c (Proc.devRef .tc b) := by
  simp only [argRefs, List.mem_cons, List.mem_nil_iff, or_false] at hb
  rcases hb with rfl | rfl | rfl | rfl | rfl | rfl <;>
  exact StableHlo.after_of_forall_not_mem _ _ (List.forall_iff_forall_mem.mp (by
    simp only [hostOps1, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))
/-- A region leaves an argument as entered: it is either no array of the region, or an input window's array. -/
theorem W4_arg (c : Dev nD) (b : Ref sig .tc) (hb : b ∈ argRefs) : W4 m ρ c (Proc.devRef .tc b) = W3 m ρ c (Proc.devRef .tc b) := by
  simp only [argRefs, List.mem_cons, List.mem_nil_iff, or_false] at hb
  rcases hb with rfl | rfl | rfl | rfl | rfl | rfl
  · exact W4_of_ne m ρ c _ (by decide)
  · exact W4_of_ne m ρ c _ (by decide)
  · exact W4_of_ne m ρ c _ (by decide)
  · exact (W4_arr m ρ c 2).trans (((dat0 (V3 m ρ) c).arrAt_in 2 rfl _).trans (A_eq0 (V3 m ρ) c 2))
  · exact W4_of_ne m ρ c _ (by decide)
  · exact W4_of_ne m ρ c _ (by decide)
theorem W6_arg (c : Dev nD) (b : Ref sig .tc) (hb : b ∈ argRefs) : W6 m ρ c (Proc.devRef .tc b) = W5 m ρ c (Proc.devRef .tc b) := by
  simp only [argRefs, List.mem_cons, List.mem_nil_iff, or_false] at hb
  rcases hb with rfl | rfl | rfl | rfl | rfl | rfl
  · exact W6_of_ne m ρ c _ (by decide)
  · exact W6_of_ne m ρ c _ (by decide)
  · exact W6_of_ne m ρ c _ (by decide)
  · exact W6_of_ne m ρ c _ (by decide)
  · exact W6_of_ne m ρ c _ (by decide)
  · exact (W6_arr m ρ c 2).trans (((dat1 (V5 m ρ) c).arrAt_in 2 rfl _).trans (A_eq1 (V5 m ρ) c 2))
/-- Every argument's buffer at the end holds its launch contents. -/
theorem W6_arg_launch (c : Dev nD) (b : Ref sig .tc) (hb : b ∈ argRefs) : W6 m ρ c (Proc.devRef .tc b) = m ((c : Thread nD τ).loc b) :=
  (W6_arg m ρ c b hb).trans <| (W5_arg m ρ c b hb).trans <| (W4_arg m ρ c b hb).trans <| (W3_arg m ρ c b hb).trans <|
    (W2_arg m ρ c b hb).trans <| (W1_arg m ρ c b hb).trans rfl

/-! ## The proof data family and the thread state -/

/-- No pipeline has a prefetched table. -/
abbrev adm : (p : Fin 2) → (pcfgs (F := F) p).Adm := fun p => (cfgs p).toPCfg_adm
/-- Every pipeline's proof data, each at its region's entry contents. -/
def pdats : (p : Fin 2) → (c : Dev nD) → Dat τ (Elt F) Unit ℕ (UR sig nD τ) ℕ (Pipeline.pin (pcfgs (F := F)) adm p) c
  | ⟨0, _⟩ => fun c => dat0 (V3 m ρ) c
  | ⟨1, _⟩ => fun c => dat1 (V5 m ρ) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the core's generator register at some state and its dues, none. -/
abbrev R (c : Dev nD) : sProp 𝕄 := iprop((∃ r, prngReg c r) ∗ ∃ W, owes (c : Thread nD τ) (0 : CellTallies nD τ sig Unit) W)
/-- A host stretch as a segment over the unscoped references from the contents `W`. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- No host operation allocates a buffer. -/
theorem hostOps0_fresh : (hostOps0 : List (HloOp τ sig (Elt F))).Forall fun op => op.fresh = ∅ := by
  simp only [List.Forall]; repeat' constructor
theorem hostOps0_1_fresh : (hostOps0_1 : List (HloOp τ sig (Elt F))).Forall fun op => op.fresh = ∅ := by
  simp only [List.Forall]; repeat' constructor
theorem hostOps0_2_fresh : (hostOps0_2 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor
/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the dues: every unscoped buffer at the last boundary's contents, the generator register at some state. -/
abbrev Tₙ (c : Dev nD) : sProp 𝕄 := iprop(StableHlo.held (c : Thread nD τ) (Pipeline.ucRefs τ sig) (W6 m ρ c) ∗ ∃ r, prngReg c r)

/-! ## The regions as segments -/

set_option backward.isDefEq.respectTransparency.types false in
/-- Region 0 over the thread state: entered from every unscoped buffer at `W3`, left at `W4`: its arrays split
    out of the unscoped buffers and put back at the exit contents; the generator register into the invariant and out;
    nothing owed; no semaphore of the kernel's own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V3 m ρ) c).loose
  hwaits := Pipeline.hwaits_of_owed_zero _ _ _ _ L lv 0 fun _ _ => rfl
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop(∃ r, prngReg c r)
  Y c := iprop(∃ r, prngReg c r)
  Z c := Pipeline.unscopedRest (Ix := Unit) (Name := ℕ) (U := UR sig nD τ) (Lvl := ℕ) spec0 c (V3 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V3 m ρ c) (V4 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state: entered from every unscoped buffer at `W5`, left at `W6`: its arrays split
    out of the unscoped buffers and put back at the exit contents; the generator register into the invariant and out;
    nothing owed; no semaphore of the kernel's own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V5 m ρ) c).loose
  hwaits := Pipeline.hwaits_of_owed_zero _ _ _ _ L lv 1 fun _ _ => rfl
  pre c := iprop(StableHlo.held (c : Thread nD τ) (Pipeline.ucRefs τ sig) (W5 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V5 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V5 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V5 m ρ c) (V6 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## The program as segments, and the launch -/

/-- The program's six segments in order. -/
abbrev segs : List (Pipeline.Seg (pcfgs (F := F)) adm (pdats m ρ) () defs₀ 𝒱₀ L lv) :=
  [ .host (hseg hostOps0 hostOps0_sub hostOps0_fresh (W0 m ρ)),
    .host (hseg hostOps0_1 hostOps0_1_sub hostOps0_1_fresh (W1 m ρ)),
    .host (hseg hostOps0_2 hostOps0_2_sub hostOps0_2_fresh (W2 m ρ)),
    .region (reg0 m ρ),
    .host (hseg hostOps1 hostOps1_sub hostOps1_fresh (W4 m ρ)),
    .region (reg1 m ρ) ]

set_option backward.isDefEq.respectTransparency.types false in
/-- THE RUN: from any memory with zero counters, every weakly fair execution of the program on the TensorCores
    terminates, nothing faulting, and in every final state every unscoped buffer holds the last boundary's contents. -/
theorem run_main : θ_run defs (onTc (τ := τ) (main (F := F))) ⟨m, fun _ => 0, ρ⟩ (fun r => ∀ c : Dev nD,
      ∀ b ∈ Pipeline.ucRefs τ sig, r.2.mem (((c : Thread nD τ)).1, b) = W6 m ρ c b) :=
  Pipeline.θ_run_regions_kit (pcfgs (F := F)) adm (pdats m ρ) () cellOf_inj emb₁ defs₀ 𝒱₀ L lv m ρ main (segs m ρ)
    (fun c Q => by
      rewrite [main_chain c, Pipeline.Seg.run_eq_chain,
        show (segs m ρ).map Pipeline.Seg.prog = [
          StableHlo.seq hostOps0,
          StableHlo.seq hostOps0_1,
          StableHlo.seq hostOps0_2,
          Prog.lift (.customCall (Pipeline.entry 0) ()),
          StableHlo.seq hostOps1,
          Prog.lift (.customCall (Pipeline.entry 1) ()) ] from rfl]
      exact .rfl)
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun s h c => h c)

/-- THE FRAME: the program runs and every argument array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun r h c =>
    ⟨(h c _ (mem_uc main_arg0 (by decide))).trans (W6_arg_launch m ρ c main_arg0 (by decide)),
     (h c _ (mem_uc main_arg1 (by decide))).trans (W6_arg_launch m ρ c main_arg1 (by decide)),
     (h c _ (mem_uc main_arg2 (by decide))).trans (W6_arg_launch m ρ c main_arg2 (by decide)),
     (h c _ (mem_uc main_arg3 (by decide))).trans (W6_arg_launch m ρ c main_arg3 (by decide)),
     (h c _ (mem_uc main_arg4 (by decide))).trans (W6_arg_launch m ρ c main_arg4 (by decide)),
     (h c _ (mem_uc main_arg5 (by decide))).trans (W6_arg_launch m ρ c main_arg5 (by decide))⟩) (run_main m ρ)

end Cert.Kernel.Hand

end
-- ==== Proof.KI.Run0.lean ====
/-
  The body of the fused projection kernel of layer 1, run once on whole staging buffers.

  The body zeroes its accumulator, adds to it the eight products (basis k) · (weight k), adds the bias row, clamps at zero
  and stores the result into the output block.  Every store covers its whole buffer, so what the output block and the
  accumulator hold afterwards is a list of stored pieces, each a whole-buffer store; the inputs are only read.
-/
import proofs.«145562_j85014582657503_2_alg».proof.Proof.Gen.KernelIdeal.Launch
import proofs.«145562_j85014582657503_2_alg».proof.Proof.Gen.KernelIdeal.Skeleton
import proofs.«145562_j85014582657503_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- What the body's stores leave in the output block (`L3`) and in the accumulator (`LS`), as pieces, last first, with the
    proof that on whole staging buffers — the three inputs at their contents, the output block and the accumulator at
    anything — the body runs to the continuation holding the inputs as they were and the two written buffers with their
    pieces written. -/
noncomputable def kernelRun0 (c : Dev nD) (i : grid0.Coords)
    (arg1 : Memref sig .tc .vmem S8x5000x64 .bf16) (harg1 : arg1.IsWhole) (arg2 : Memref sig .tc .vmem S8x64x64 .bf16) (harg2 : arg2.IsWhole)
    (arg3 : Memref sig .tc .vmem S64 .f32) (harg3 : arg3.IsWhole) (arg4 : Memref sig .tc .vmem S5000x64 .f32) (harg4 : arg4.IsWhole)
    (arg5 : Memref sig .tc .vmem S5000x64 .f32) (harg5 : arg5.IsWhole)
    (x0 : Vec F S8x5000x64 .bf16) (x1 : Vec F S8x64x64 .bf16) (x2 : Vec F S64 .f32) :
    Σ' (L3 : List (View.Piece (Elt F) S5000x64 .f32)), { LS : List (View.Piece (Elt F) S5000x64 .f32) //
      ∀ (E : Set ℕ) (K : PUnit → sProp 𝕄),
        iprop(owns (c : Thread nD τ) arg1 fullShare x0 ∗ owns (c : Thread nD τ) arg2 fullShare x1 ∗ owns (c : Thread nD τ) arg3 fullShare x2
            ∗ (∃ d, owns (c : Thread nD τ) arg4 fullShare d) ∗ (∃ d, owns (c : Thread nD τ) arg5 fullShare d)
            ∗ (iprop(owns (c : Thread nD τ) arg1 fullShare x0 ∗ owns (c : Thread nD τ) arg2 fullShare x1 ∗ owns (c : Thread nD τ) arg3 fullShare x2
                ∗ (∃ f, arg4.view.loc (c : Thread nD τ) ↦[arg4.view.set]{fullShare} arg4.view.writes (Elt F) f L3)
                ∗ (∃ f, arg5.view.loc (c : Thread nD τ) ↦[arg5.view.set]{fullShare} arg5.view.writes (Elt F) f LS)) -∗ K ⟨⟩))
          ⊢ wp frame (wpE (defs₀ (F := F)) Variants.none c none) E (cc0__fused_matmul_kernel i arg1 harg1 arg2 harg2 arg3 harg3 arg4 harg4 arg5 harg5) K } := by
  refine ⟨?_, ?_, fun E K => ?run⟩
  case run =>
    simp only [cc0__fused_matmul_kernel_eq_skeleton]; unfold cc0__fused_matmul_kernel_skel
    unfold owns
    iintro ⟨⟨%f0, %hf0, H0⟩, ⟨%f1, %hf1, H1⟩, ⟨%f2, %hf2, H2⟩, ⟨%d3, %f3, -, H3⟩, ⟨%d4, %f4, -, H4⟩, Hk⟩
    obtain rfl := harg1.eq_unread hf0; obtain rfl := harg2.eq_unread hf1; obtain rfl := harg3.eq_unread hf2
    sl_exec
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]; · iexists _; iexact H3
    iexists _; iexact H4

end Cert.KernelIdeal.Hand

end
-- ==== Proof.KI.Run1.lean ====
/-
  The body of the fused projection kernel of layer 2, run once on whole staging buffers.

  The body zeroes its accumulator, adds to it the eight products (basis k) · (weight k), adds the bias row
  and stores the result into the output block.  Every store covers its whole buffer, so what the output block and the
  accumulator hold afterwards is a list of stored pieces, each a whole-buffer store; the inputs are only read.
-/
import proofs.«145562_j85014582657503_2_alg».proof.Proof.Gen.KernelIdeal.Launch
import proofs.«145562_j85014582657503_2_alg».proof.Proof.Gen.KernelIdeal.Skeleton
import proofs.«145562_j85014582657503_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- What the body's stores leave in the output block (`L3`) and in the accumulator (`LS`), as pieces, last first, with the
    proof that on whole staging buffers — the three inputs at their contents, the output block and the accumulator at
    anything — the body runs to the continuation holding the inputs as they were and the two written buffers with their
    pieces written. -/
noncomputable def kernelRun1 (c : Dev nD) (i : grid1.Coords)
    (arg1 : Memref sig .tc .vmem S8x5000x64 .bf16) (harg1 : arg1.IsWhole) (arg2 : Memref sig .tc .vmem S8x64x10 .bf16) (harg2 : arg2.IsWhole)
    (arg3 : Memref sig .tc .vmem S10 .f32) (harg3 : arg3.IsWhole) (arg4 : Memref sig .tc .vmem S5000x10 .f32) (harg4 : arg4.IsWhole)
    (arg5 : Memref sig .tc .vmem S5000x10 .f32) (harg5 : arg5.IsWhole)
    (x0 : Vec F S8x5000x64 .bf16) (x1 : Vec F S8x64x10 .bf16) (x2 : Vec F S10 .f32) :
    Σ' (L3 : List (View.Piece (Elt F) S5000x10 .f32)), { LS : List (View.Piece (Elt F) S5000x10 .f32) //
      ∀ (E : Set ℕ) (K : PUnit → sProp 𝕄),
        iprop(owns (c : Thread nD τ) arg1 fullShare x0 ∗ owns (c : Thread nD τ) arg2 fullShare x1 ∗ owns (c : Thread nD τ) arg3 fullShare x2
            ∗ (∃ d, owns (c : Thread nD τ) arg4 fullShare d) ∗ (∃ d, owns (c : Thread nD τ) arg5 fullShare d)
            ∗ (iprop(owns (c : Thread nD τ) arg1 fullShare x0 ∗ owns (c : Thread nD τ) arg2 fullShare x1 ∗ owns (c : Thread nD τ) arg3 fullShare x2
                ∗ (∃ f, arg4.view.loc (c : Thread nD τ) ↦[arg4.view.set]{fullShare} arg4.view.writes (Elt F) f L3)
                ∗ (∃ f, arg5.view.loc (c : Thread nD τ) ↦[arg5.view.set]{fullShare} arg5.view.writes (Elt F) f LS)) -∗ K ⟨⟩))
          ⊢ wp frame (wpE (defs₀ (F := F)) Variants.none c none) E (cc1__fused_matmul_kernel i arg1 harg1 arg2 harg2 arg3 harg3 arg4 harg4 arg5 harg5) K } := by
  refine ⟨?_, ?_, fun E K => ?run⟩
  case run =>
    simp only [cc1__fused_matmul_kernel_eq_skeleton]; unfold cc1__fused_matmul_kernel_skel
    unfold owns
    iintro ⟨⟨%f0, %hf0, H0⟩, ⟨%f1, %hf1, H1⟩, ⟨%f2, %hf2, H2⟩, ⟨%d3, %f3, -, H3⟩, ⟨%d4, %f4, -, H4⟩, Hk⟩
    obtain rfl := harg1.eq_unread hf0; obtain rfl := harg2.eq_unread hf1; obtain rfl := harg3.eq_unread hf2
    sl_exec
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]; · iexists _; iexact H3
    iexists _; iexact H4

end Cert.KernelIdeal.Hand

end
-- ==== Proof.KI.Frame.lean ====
/-
  The frame of the two-layer network's program: it runs to the end, faults nowhere, and leaves its argument arrays
  as launched; and every unscoped buffer ends at a named content.

  The program is: three stretches of host operations (the normalisation, the eight Chebyshev bases of layer 1 stacked,
  the weights rounded), the first projection kernel over a grid of ten row blocks, a stretch of host operations (the
  eight bases of layer 2 from the hidden features, stacked), and the second projection kernel.  The buffer contents
  at each boundary are a fold from the launch memory: a host stretch applies its operations; a kernel region leaves its
  input arrays as entered and its output array at the blocks its grid points wrote back.  No host operation and no
  region writes an argument array, so the fold at an argument walks back to the launch memory.
-/
import proofs.«145562_j85014582657503_2_alg».proof.Proof.Gen.KernelIdeal.Launch
import proofs.«145562_j85014582657503_2_alg».proof.Proof.Gen.KernelIdeal.Skeleton
import proofs.«145562_j85014582657503_2_alg».proof.Proof.Gen.KernelIdeal.Points
import proofs.«145562_j85014582657503_2_alg».proof.Proof.KI.Run0
import proofs.«145562_j85014582657503_2_alg».proof.Proof.KI.Run1
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-- A whole buffer held at some contents is owned at what those contents read as. -/
theorem owns_of_pointsTo {s : Shape} {e : EltTy} (c : Dev nD) (M : Memref sig .tc .vmem s e) (f : M.view.ty.Contents (Elt F)) :
    (M.view.loc (c : Thread nD τ) ↦[M.view.set]{fullShare} f : sProp 𝕄) ⊢ iprop(∃ d, owns (c : Thread nD τ) M fullShare d) := by
  unfold owns
  iintro H
  iexists (M.view.read (Elt F) f); iexists f
  isplitr
  · ipureintro; rfl
  · iexact H

section Regions
-- the TensorCore's buffer contents when a region is entered: the parameter each region's half is stated at
variable (V : (c : Dev nD) → (b : Ref sig .tc) → Buf (Elt F) ((c : Thread nD τ).loc b))

/-! # Region 0: the projection kernel of layer 1, entered at buffer contents `V` -/

/-- Window `w`'s block at grid point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's current staging buffer holds its block at every point, whether the point fetches it or not
    (a window whose block index does not move is fetched once and stays). -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-- One staging buffer of the output window, through which its contents are stated (the choice does not matter). -/
abbrev VO0 : View sig .tc .vmem S5000x64 .f32 := (Memref.whole cc0_stg3_0 : Memref sig .tc .vmem S5000x64 .f32).view
/-- Each window's current staging buffer at point `t`, and its wholeness. -/
abbrev ms0_0 (t : Fin cfg0.N) : Memref sig .tc .vmem S8x5000x64 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S8x64x64 .bf16 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S64 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S5000x64 .f32 := win0_3.stage (cfg0.slots t 3)
abbrev hs0_3 (t : Fin cfg0.N) : (ms0_3 t).IsWhole := hstage0_3 ((cfg0.slots t 3).cast nbuf0_3)
/-- The accumulator: a whole buffer of the kernel's own. -/
abbrev scM0 : Memref sig .tc .vmem S5000x64 .f32 := Memref.whole cc0_scratch0

/-- The region's invariant: the accumulator owned at some contents, the other kernel's scoped buffers (never touched
    here) each whole at some contents, and the generator register at some state. -/
theorem PhiA0_eq (c : Dev nD) :
    (Pipeline.ΦA spec0 c : sProp 𝕄)
      = iprop(((∃ d, owns (c : Thread nD τ) scM0 fullShare d) ∗ (∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg3_1), ((c : Thread nD τ).loc cc1_stg3_1) ↦{fullShare} f) ∗ (∃ f : Buf (Elt F) ((c : Thread nD τ).loc cc1_scratch0), ((c : Thread nD τ).loc cc1_scratch0) ↦{fullShare} f)) ∗ (∃ r, prngReg c r)) := by
  unfold Pipeline.ΦA; rw [scopedRest0_eq]; simp only [scM0, owns_whole]; try rfl

/-- The pieces the body stores into the output block tile it, so they cover it. -/
theorem cover0 (c : Dev nD) (i : grid0.Coords)
    (arg1 : Memref sig .tc .vmem S8x5000x64 .bf16) (harg1 : arg1.IsWhole) (arg2 : Memref sig .tc .vmem S8x64x64 .bf16) (harg2 : arg2.IsWhole)
    (arg3 : Memref sig .tc .vmem S64 .f32) (harg3 : arg3.IsWhole) (arg4 : Memref sig .tc .vmem S5000x64 .f32) (harg4 : arg4.IsWhole)
    (arg5 : Memref sig .tc .vmem S5000x64 .f32) (harg5 : arg5.IsWhole)
    (x0 : Vec F S8x5000x64 .bf16) (x1 : Vec F S8x64x64 .bf16) (x2 : Vec F S64 .f32) (y : S5000x64.Idx) :
    ∃ pc ∈ (kernelRun0 c i arg1 harg1 arg2 harg2 arg3 harg3 arg4 harg4 arg5 harg5 x0 x1 x2).1, y ∈ pc.1.set :=
  View.cover_of_tiledL (kernelRun0 c i arg1 harg1 arg2 harg2 arg3 harg3 arg4 harg4 arg5 harg5 x0 x1 x2).1 S5000x64.size (by sl_kernel_rfl) y

/-- What the body leaves in the output block: its pieces read back. -/
def out0 (c : Dev nD) (i : grid0.Coords)
    (arg1 : Memref sig .tc .vmem S8x5000x64 .bf16) (harg1 : arg1.IsWhole) (arg2 : Memref sig .tc .vmem S8x64x64 .bf16) (harg2 : arg2.IsWhole)
    (arg3 : Memref sig .tc .vmem S64 .f32) (harg3 : arg3.IsWhole) (arg4 : Memref sig .tc .vmem S5000x64 .f32) (harg4 : arg4.IsWhole)
    (arg5 : Memref sig .tc .vmem S5000x64 .f32) (harg5 : arg5.IsWhole)
    (x0 : Vec F S8x5000x64 .bf16) (x1 : Vec F S8x64x64 .bf16) (x2 : Vec F S64 .f32) : Vec F S5000x64 .f32 :=
  VO0.read (Elt F) (VO0.writes (Elt F) VO0.junk (kernelRun0 c i arg1 harg1 arg2 harg2 arg3 harg3 arg4 harg4 arg5 harg5 x0 x1 x2).1)

/-- The output block after the body at point `t`, from the three input blocks there. -/
def outAt0 (c : Dev nD) (t : Fin cfg0.N) : Vec F S5000x64 .f32 :=
  out0 c (grid0.coords t) (ms0_0 t) (hs0_0 t) (ms0_1 t) (hs0_1 t) (ms0_2 t) (hs0_2 t) (ms0_3 t) (hs0_3 t) scM0 (Memref.isWhole_whole _)
    (iblk0 V c 0 t) (iblk0 V c 1 t) (iblk0 V c 2 t)

/-- The proof data of the region on core `c`: the arrays as the region finds them; after the body at point `t` each
    input's buffer at its block and the output's at `outAt0`; the invariant the accumulator at anything and the
    generator register; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => outAt0 V c t
  Φ _ := Pipeline.ΦA spec0 c
  q _ := fullShare
  owed _ := 0

theorem A_eq0 (c : Dev nD) (w : Fin cfg0.W) : (dat0 V c).A w = V c (Pipeline.arrRef spec0 w) := by
  dsimp only [dat0]
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = outAt0 V c t := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t))

set_option maxHeartbeats 2000000 in
/-- The body at any point: the inputs' buffers hold their blocks, so the run applies; the invariant hands the body the
    accumulator at anything and takes it back at anything; the core owes nothing throughout. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_3,
    show (dat0 V c).Φ t.castSucc = Pipeline.ΦA spec0 c from rfl, PhiA0_eq]
  unfold outAt0 out0
  iintro ⟨⟨⟨HS, R1, R2, R3, R4, R5, R6, R7⟩, Hg⟩, Ho, ⟨%d0, H0⟩, ⟨%d1, H1⟩, ⟨%d2, H2⟩, ⟨%d3, H3⟩⟩
  iapply ((kernelRun0 c (grid0.coords t) _ _ _ _ _ _ _ _ _ _ (iblk0 V c 0 t) (iblk0 V c 1 t) (iblk0 V c 2 t)).2.2 Set.univ _)
  isplitl [H0]; · iexact H0
  isplitl [H1]; · iexact H1
  isplitl [H2]; · iexact H2
  isplitl [H3]; · iexists _; iexact H3
  isplitl [HS]; · iexact HS
  iintro ⟨H0, H1, H2, ⟨%e3, H3⟩, ⟨%es, HS⟩⟩
  isplitl [HS R1 R2 R3 R4 R5 R6 R7 Hg]
  · isplitl [HS R1 R2 R3 R4 R5 R6 R7]
    · isplitl [HS]
      · iapply (owns_of_pointsTo c _ _); iexact HS
      isplitl [R1]; · iexact R1
      isplitl [R2]; · iexact R2
      isplitl [R3]; · iexact R3
      isplitl [R4]; · iexact R4
      isplitl [R5]; · iexact R5
      isplitl [R6]; · iexact R6
      iexact R7
    iexact Hg
  isplitl [Ho]; · iexact Ho
  isplitl [H0]; · iexact H0
  isplitl [H1]; · iexact H1
  isplitl [H2]; · iexact H2
  unfold owns; iexists _; isplitr
  swap; · iexact H3
  ipureintro; exact View.read_writes_of_cover _ _ _ _ _ (cover0 c _ _ _ _ _ _ _ _ _ _ _ _ _ _)

/-- The body obligation, at every point. -/
theorem body_obligation0 (c : Dev nD) : BodyObligation (dat0 (F := F) V c) (defs₀ (F := F)) Variants.none () Set.univ := fun t => by
  rw [bigSep_W0, bigSep_W0]
  exact sound_body0 V c t

/-! # Region 1: the projection kernel of layer 2, entered at buffer contents `V` -/

/-- Window `w`'s block at grid point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's current staging buffer holds its block at every point, whether the point fetches it or not
    (a window whose block index does not move is fetched once and stays). -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- One staging buffer of the output window, through which its contents are stated (the choice does not matter). -/
abbrev VO1 : View sig .tc .vmem S5000x10 .f32 := (Memref.whole cc1_stg3_0 : Memref sig .tc .vmem S5000x10 .f32).view
/-- Each window's current staging buffer at point `t`, and its wholeness. -/
abbrev ms1_0 (t : Fin cfg1.N) : Memref sig .tc .vmem S8x5000x64 .bf16 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S8x64x10 .bf16 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S10 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S5000x10 .f32 := win1_3.stage (cfg1.slots t 3)
abbrev hs1_3 (t : Fin cfg1.N) : (ms1_3 t).IsWhole := hstage1_3 ((cfg1.slots t 3).cast nbuf1_3)
/-- The accumulator: a whole buffer of the kernel's own. -/
abbrev scM1 : Memref sig .tc .vmem S5000x10 .f32 := Memref.whole cc1_scratch0

/-- The region's invariant: the accumulator owned at some contents, the other kernel's scoped buffers (never touched
    here) each whole at some contents, and the generator register at some state. -/
theorem PhiA1_eq (c : Dev nD) :
    (Pipeline.ΦA spec1 c : sProp 𝕄)
      = iprop(((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f) ∗ (∃ f : Buf (Elt F) ((c : Thread nD τ).loc cc0_scratch0), ((c : Thread nD τ).loc cc0_scratch0) ↦{fullShare} f) ∗ (∃ d, owns (c : Thread nD τ) scM1 fullShare d)) ∗ (∃ r, prngReg c r)) := by
  unfold Pipeline.ΦA; rw [scopedRest1_eq]; simp only [scM1, owns_whole]; try rfl

/-- The pieces the body stores into the output block tile it, so they cover it. -/
theorem cover1 (c : Dev nD) (i : grid1.Coords)
    (arg1 : Memref sig .tc .vmem S8x5000x64 .bf16) (harg1 : arg1.IsWhole) (arg2 : Memref sig .tc .vmem S8x64x10 .bf16) (harg2 : arg2.IsWhole)
    (arg3 : Memref sig .tc .vmem S10 .f32) (harg3 : arg3.IsWhole) (arg4 : Memref sig .tc .vmem S5000x10 .f32) (harg4 : arg4.IsWhole)
    (arg5 : Memref sig .tc .vmem S5000x10 .f32) (harg5 : arg5.IsWhole)
    (x0 : Vec F S8x5000x64 .bf16) (x1 : Vec F S8x64x10 .bf16) (x2 : Vec F S10 .f32) (y : S5000x10.Idx) :
    ∃ pc ∈ (kernelRun1 c i arg1 harg1 arg2 harg2 arg3 harg3 arg4 harg4 arg5 harg5 x0 x1 x2).1, y ∈ pc.1.set :=
  View.cover_of_tiledL (kernelRun1 c i arg1 harg1 arg2 harg2 arg3 harg3 arg4 harg4 arg5 harg5 x0 x1 x2).1 S5000x10.size (by sl_kernel_rfl) y

/-- What the body leaves in the output block: its pieces read back. -/
def out1 (c : Dev nD) (i : grid1.Coords)
    (arg1 : Memref sig .tc .vmem S8x5000x64 .bf16) (harg1 : arg1.IsWhole) (arg2 : Memref sig .tc .vmem S8x64x10 .bf16) (harg2 : arg2.IsWhole)
    (arg3 : Memref sig .tc .vmem S10 .f32) (harg3 : arg3.IsWhole) (arg4 : Memref sig .tc .vmem S5000x10 .f32) (harg4 : arg4.IsWhole)
    (arg5 : Memref sig .tc .vmem S5000x10 .f32) (harg5 : arg5.IsWhole)
    (x0 : Vec F S8x5000x64 .bf16) (x1 : Vec F S8x64x10 .bf16) (x2 : Vec F S10 .f32) : Vec F S5000x10 .f32 :=
  VO1.read (Elt F) (VO1.writes (Elt F) VO1.junk (kernelRun1 c i arg1 harg1 arg2 harg2 arg3 harg3 arg4 harg4 arg5 harg5 x0 x1 x2).1)

/-- The output block after the body at point `t`, from the three input blocks there. -/
def outAt1 (c : Dev nD) (t : Fin cfg1.N) : Vec F S5000x10 .f32 :=
  out1 c (grid1.coords t) (ms1_0 t) (hs1_0 t) (ms1_1 t) (hs1_1 t) (ms1_2 t) (hs1_2 t) (ms1_3 t) (hs1_3 t) scM1 (Memref.isWhole_whole _)
    (iblk1 V c 0 t) (iblk1 V c 1 t) (iblk1 V c 2 t)

/-- The proof data of the region on core `c`: the arrays as the region finds them; after the body at point `t` each
    input's buffer at its block and the output's at `outAt1`; the invariant the accumulator at anything and the
    generator register; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => outAt1 V c t
  Φ _ := Pipeline.ΦA spec1 c
  q _ := fullShare
  owed _ := 0

theorem A_eq1 (c : Dev nD) (w : Fin cfg1.W) : (dat1 V c).A w = V c (Pipeline.arrRef spec1 w) := by
  dsimp only [dat1]
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = outAt1 V c t := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t))

set_option maxHeartbeats 2000000 in
/-- The body at any point: the inputs' buffers hold their blocks, so the run applies; the invariant hands the body the
    accumulator at anything and takes it back at anything; the core owes nothing throughout. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).Φ t.succ = (dat1 V c).Φ t.castSucc from rfl,
    show (dat1 V c).owesAt () t.succ = (dat1 V c).owesAt () t.castSucc from rfl,
    after1_0, after1_1, after1_2, after1_3,
    show (dat1 V c).Φ t.castSucc = Pipeline.ΦA spec1 c from rfl, PhiA1_eq]
  unfold outAt1 out1
  iintro ⟨⟨⟨R1, R2, R3, R4, R5, R6, R7, HS⟩, Hg⟩, Ho, ⟨%d0, H0⟩, ⟨%d1, H1⟩, ⟨%d2, H2⟩, ⟨%d3, H3⟩⟩
  iapply ((kernelRun1 c (grid1.coords t) _ _ _ _ _ _ _ _ _ _ (iblk1 V c 0 t) (iblk1 V c 1 t) (iblk1 V c 2 t)).2.2 Set.univ _)
  isplitl [H0]; · iexact H0
  isplitl [H1]; · iexact H1
  isplitl [H2]; · iexact H2
  isplitl [H3]; · iexists _; iexact H3
  isplitl [HS]; · iexact HS
  iintro ⟨H0, H1, H2, ⟨%e3, H3⟩, ⟨%es, HS⟩⟩
  isplitl [HS R1 R2 R3 R4 R5 R6 R7 Hg]
  · isplitl [HS R1 R2 R3 R4 R5 R6 R7]
    · isplitl [R1]; · iexact R1
      isplitl [R2]; · iexact R2
      isplitl [R3]; · iexact R3
      isplitl [R4]; · iexact R4
      isplitl [R5]; · iexact R5
      isplitl [R6]; · iexact R6
      isplitl [R7]; · iexact R7
      iapply (owns_of_pointsTo c _ _); iexact HS
    iexact Hg
  isplitl [Ho]; · iexact Ho
  isplitl [H0]; · iexact H0
  isplitl [H1]; · iexact H1
  isplitl [H2]; · iexact H2
  unfold owns; iexists _; isplitr
  swap; · iexact H3
  ipureintro; exact View.read_writes_of_cover _ _ _ _ _ (cover1 c _ _ _ _ _ _ _ _ _ _ _ _ _ _)

/-- The body obligation, at every point. -/
theorem body_obligation1 (c : Dev nD) : BodyObligation (dat1 (F := F) V c) (defs₀ (F := F)) Variants.none () Set.univ := fun t => by
  rw [bigSep_W1, bigSep_W1]
  exact sound_body1 V c t

end Regions

/-! # The run: the program's segments from the launch to the return -/

/-- Core `c`'s buffers at launch. -/
abbrev W0 : Dev nD → Valuation τ sig (Elt F) := fun c b => (s₀ m ρ).mem ((c : Dev nD), b)
/-- After the first stretch of host operations, -/
abbrev W1 : Dev nD → Valuation τ sig (Elt F) := fun c => StableHlo.after hostOps0 (W0 m ρ c)
/-- after the select function's three operations, -/
abbrev W2 : Dev nD → Valuation τ sig (Elt F) := fun c => StableHlo.after hostOps0_1 (W1 m ρ c)
/-- and after the long stretch that ends in the stacked bases of layer 1: region 0's entry. -/
abbrev W3 : Dev nD → Valuation τ sig (Elt F) := fun c => StableHlo.after hostOps0_2 (W2 m ρ c)
abbrev V3 : (c : Dev nD) → (b : Ref sig .tc) → Buf (Elt F) ((c : Thread nD τ).loc b) := fun c b => W3 m ρ c b
/-- At region 0's exit: its arrays at what the pipeline leaves (the inputs as entered, the output's write-backs folded),
    every other buffer as entered. -/
def W4 (c : Dev nD) : Valuation τ sig (Elt F) :=
  Pipeline.withArrays spec0 c (W3 m ρ c) fun w => (dat0 (V3 m ρ) c).arrAt w cfg0.N
theorem W4_arr (c : Dev nD) (w : Fin cfg0.W) :
    W4 m ρ c (Proc.devRef .tc (Pipeline.arrRef spec0 w)) = (dat0 (V3 m ρ) c).arrAt w cfg0.N := by
  unfold W4; exact Pipeline.withArrays_arr spec0 launch0.win.arr_inj c _ _ w
theorem W4_of_ne (c : Dev nD) (b : Ref sig .tc) (hb : ∀ w, Pipeline.arrRef spec0 w ≠ b) :
    W4 m ρ c (Proc.devRef .tc b) = W3 m ρ c (Proc.devRef .tc b) := by
  unfold W4; exact Pipeline.withArrays_of_ne spec0 c _ _ b hb
abbrev V4 : (c : Dev nD) → (b : Ref sig .tc) → Buf (Elt F) ((c : Thread nD τ).loc b) := fun c b => W4 m ρ c b
theorem hF0 (c : Dev nD) (w : Fin cfg0.W) : (dat0 (V3 m ρ) c).arrAt w cfg0.N = V4 m ρ c (Pipeline.arrRef spec0 w) :=
  (W4_arr m ρ c w).symm
theorem hrest0 (c : Dev nD) : ∀ b, b ∉ Finset.univ.image (Pipeline.arrRef spec0) → V4 m ρ c b = V3 m ρ c b :=
  fun b hb => W4_of_ne m ρ c b fun w e => hb (Finset.mem_image.mpr ⟨w, Finset.mem_univ _, e⟩)

/-- After the stretch that ends in the stacked bases of layer 2: region 1's entry. -/
abbrev W5 : Dev nD → Valuation τ sig (Elt F) := fun c => StableHlo.after hostOps1 (W4 m ρ c)
abbrev V5 : (c : Dev nD) → (b : Ref sig .tc) → Buf (Elt F) ((c : Thread nD τ).loc b) := fun c b => W5 m ρ c b
/-- At region 1's exit. -/
def W6 (c : Dev nD) : Valuation τ sig (Elt F) :=
  Pipeline.withArrays spec1 c (W5 m ρ c) fun w => (dat1 (V5 m ρ) c).arrAt w cfg1.N
theorem W6_arr (c : Dev nD) (w : Fin cfg1.W) :
    W6 m ρ c (Proc.devRef .tc (Pipeline.arrRef spec1 w)) = (dat1 (V5 m ρ) c).arrAt w cfg1.N := by
  unfold W6; exact Pipeline.withArrays_arr spec1 launch1.win.arr_inj c _ _ w
theorem W6_of_ne (c : Dev nD) (b : Ref sig .tc) (hb : ∀ w, Pipeline.arrRef spec1 w ≠ b) :
    W6 m ρ c (Proc.devRef .tc b) = W5 m ρ c (Proc.devRef .tc b) := by
  unfold W6; exact Pipeline.withArrays_of_ne spec1 c _ _ b hb
abbrev V6 : (c : Dev nD) → (b : Ref sig .tc) → Buf (Elt F) ((c : Thread nD τ).loc b) := fun c b => W6 m ρ c b
theorem hF1 (c : Dev nD) (w : Fin cfg1.W) : (dat1 (V5 m ρ) c).arrAt w cfg1.N = V6 m ρ c (Pipeline.arrRef spec1 w) :=
  (W6_arr m ρ c w).symm
theorem hrest1 (c : Dev nD) : ∀ b, b ∉ Finset.univ.image (Pipeline.arrRef spec1) → V6 m ρ c b = V5 m ρ c b :=
  fun b hb => W6_of_ne m ρ c b fun w e => hb (Finset.mem_image.mpr ⟨w, Finset.mem_univ _, e⟩)

/-! ### The arguments end as launched -/

/-- The six argument references. -/
abbrev argRefs : List (Ref sig .tc) := [main_arg0, main_arg1, main_arg2, main_arg3, main_arg4, main_arg5]

set_option maxHeartbeats 16000000 in
/-- No host operation writes an argument: each stretch leaves an argument's buffer as it found it. -/
theorem W1_arg (c : Dev nD) (b : Ref sig .tc) (hb : b ∈ argRefs) : W1 m ρ c (Proc.devRef .tc b) = W0 m ρ c (Proc.devRef .tc b) := by
  simp only [argRefs, List.mem_cons, List.mem_nil_iff, or_false] at hb
  rcases hb with rfl | rfl | rfl | rfl | rfl | rfl <;>
  exact StableHlo.after_of_forall_not_mem _ _ (List.forall_iff_forall_mem.mp (by
    simp only [hostOps0, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))
set_option maxHeartbeats 16000000 in
theorem W2_arg (c : Dev nD) (b : Ref sig .tc) (hb : b ∈ argRefs) : W2 m ρ c (Proc.devRef .tc b) = W1 m ρ c (Proc.devRef .tc b) := by
  simp only [argRefs, List.mem_cons, List.mem_nil_iff, or_false] at hb
  rcases hb with rfl | rfl | rfl | rfl | rfl | rfl <;>
  exact StableHlo.after_of_forall_not_mem _ _ (List.forall_iff_forall_mem.mp (by
    simp only [hostOps0_1, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))
set_option maxHeartbeats 16000000 in
theorem W3_arg (c : Dev nD) (b : Ref sig .tc) (hb : b ∈ argRefs) : W3 m ρ c (Proc.devRef .tc b) = W2 m ρ c (Proc.devRef .tc b) := by
  simp only [argRefs, List.mem_cons, List.mem_nil_iff, or_false] at hb
  rcases hb with rfl | rfl | rfl | rfl | rfl | rfl <;>
  exact StableHlo.after_of_forall_not_mem _ _ (List.forall_iff_forall_mem.mp (by
    simp only [hostOps0_2, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))
set_option maxHeartbeats 16000000 in
theorem W5_arg (c : Dev nD) (b : Ref sig .tc) (hb : b ∈ argRefs) : W5 m ρ c (Proc.devRef .tc b) = W4 m ρ c (Proc.devRef .tc b) := by
  simp only [argRefs, List.mem_cons, List.mem_nil_iff, or_false] at hb
  rcases hb with rfl | rfl | rfl | rfl | rfl | rfl <;>
  exact StableHlo.after_of_forall_not_mem _ _ (List.forall_iff_forall_mem.mp (by
    simp only [hostOps1, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))
/-- A region leaves an argument as entered: it is either no array of the region, or an input window's array. -/
theorem W4_arg (c : Dev nD) (b : Ref sig .tc) (hb : b ∈ argRefs) : W4 m ρ c (Proc.devRef .tc b) = W3 m ρ c (Proc.devRef .tc b) := by
  simp only [argRefs, List.mem_cons, List.mem_nil_iff, or_false] at hb
  rcases hb with rfl | rfl | rfl | rfl | rfl | rfl
  · exact W4_of_ne m ρ c _ (by decide)
  · exact W4_of_ne m ρ c _ (by decide)
  · exact W4_of_ne m ρ c _ (by decide)
  · exact (W4_arr m ρ c 2).trans (((dat0 (V3 m ρ) c).arrAt_in 2 rfl _).trans (A_eq0 (V3 m ρ) c 2))
  · exact W4_of_ne m ρ c _ (by decide)
  · exact W4_of_ne m ρ c _ (by decide)
theorem W6_arg (c : Dev nD) (b : Ref sig .tc) (hb : b ∈ argRefs) : W6 m ρ c (Proc.devRef .tc b) = W5 m ρ c (Proc.devRef .tc b) := by
  simp only [argRefs, List.mem_cons, List.mem_nil_iff, or_false] at hb
  rcases hb with rfl | rfl | rfl | rfl | rfl | rfl
  · exact W6_of_ne m ρ c _ (by decide)
  · exact W6_of_ne m ρ c _ (by decide)
  · exact W6_of_ne m ρ c _ (by decide)
  · exact W6_of_ne m ρ c _ (by decide)
  · exact W6_of_ne m ρ c _ (by decide)
  · exact (W6_arr m ρ c 2).trans (((dat1 (V5 m ρ) c).arrAt_in 2 rfl _).trans (A_eq1 (V5 m ρ) c 2))
/-- Every argument's buffer at the end holds its launch contents. -/
theorem W6_arg_launch (c : Dev nD) (b : Ref sig .tc) (hb : b ∈ argRefs) : W6 m ρ c (Proc.devRef .tc b) = m ((c : Thread nD τ).loc b) :=
  (W6_arg m ρ c b hb).trans <| (W5_arg m ρ c b hb).trans <| (W4_arg m ρ c b hb).trans <| (W3_arg m ρ c b hb).trans <|
    (W2_arg m ρ c b hb).trans <| (W1_arg m ρ c b hb).trans rfl

/-! ## The proof data family and the thread state -/

/-- No pipeline has a prefetched table. -/
abbrev adm : (p : Fin 2) → (pcfgs (F := F) p).Adm := fun p => (cfgs p).toPCfg_adm
/-- Every pipeline's proof data, each at its region's entry contents. -/
def pdats : (p : Fin 2) → (c : Dev nD) → Dat τ (Elt F) Unit ℕ (UR sig nD τ) ℕ (Pipeline.pin (pcfgs (F := F)) adm p) c
  | ⟨0, _⟩ => fun c => dat0 (V3 m ρ) c
  | ⟨1, _⟩ => fun c => dat1 (V5 m ρ) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the core's generator register at some state and its dues, none. -/
abbrev R (c : Dev nD) : sProp 𝕄 := iprop((∃ r, prngReg c r) ∗ ∃ W, owes (c : Thread nD τ) (0 : CellTallies nD τ sig Unit) W)
/-- A host stretch as a segment over the unscoped references from the contents `W`. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- No host operation allocates a buffer. -/
theorem hostOps0_fresh : (hostOps0 : List (HloOp τ sig (Elt F))).Forall fun op => op.fresh = ∅ := by
  simp only [List.Forall]; repeat' constructor
theorem hostOps0_1_fresh : (hostOps0_1 : List (HloOp τ sig (Elt F))).Forall fun op => op.fresh = ∅ := by
  simp only [List.Forall]; repeat' constructor
theorem hostOps0_2_fresh : (hostOps0_2 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor
/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the dues: every unscoped buffer at the last boundary's contents, the generator register at some state. -/
abbrev Tₙ (c : Dev nD) : sProp 𝕄 := iprop(StableHlo.held (c : Thread nD τ) (Pipeline.ucRefs τ sig) (W6 m ρ c) ∗ ∃ r, prngReg c r)

/-! ## The regions as segments -/

set_option backward.isDefEq.respectTransparency.types false in
/-- Region 0 over the thread state: entered from every unscoped buffer at `W3`, left at `W4`: its arrays split
    out of the unscoped buffers and put back at the exit contents; the generator register into the invariant and out;
    nothing owed; no semaphore of the kernel's own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V3 m ρ) c).loose
  hwaits := Pipeline.hwaits_of_owed_zero _ _ _ _ L lv 0 fun _ _ => rfl
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop(∃ r, prngReg c r)
  Y c := iprop(∃ r, prngReg c r)
  Z c := Pipeline.unscopedRest (Ix := Unit) (Name := ℕ) (U := UR sig nD τ) (Lvl := ℕ) spec0 c (V3 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V3 m ρ c) (V4 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state: entered from every unscoped buffer at `W5`, left at `W6`: its arrays split
    out of the unscoped buffers and put back at the exit contents; the generator register into the invariant and out;
    nothing owed; no semaphore of the kernel's own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V5 m ρ) c).loose
  hwaits := Pipeline.hwaits_of_owed_zero _ _ _ _ L lv 1 fun _ _ => rfl
  pre c := iprop(StableHlo.held (c : Thread nD τ) (Pipeline.ucRefs τ sig) (W5 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V5 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V5 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V5 m ρ c) (V6 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## The program as segments, and the launch -/

/-- The program's six segments in order. -/
abbrev segs : List (Pipeline.Seg (pcfgs (F := F)) adm (pdats m ρ) () defs₀ 𝒱₀ L lv) :=
  [ .host (hseg hostOps0 hostOps0_sub hostOps0_fresh (W0 m ρ)),
    .host (hseg hostOps0_1 hostOps0_1_sub hostOps0_1_fresh (W1 m ρ)),
    .host (hseg hostOps0_2 hostOps0_2_sub hostOps0_2_fresh (W2 m ρ)),
    .region (reg0 m ρ),
    .host (hseg hostOps1 hostOps1_sub hostOps1_fresh (W4 m ρ)),
    .region (reg1 m ρ) ]

set_option backward.isDefEq.respectTransparency.types false in
/-- THE RUN: from any memory with zero counters, every weakly fair execution of the program on the TensorCores
    terminates, nothing faulting, and in every final state every unscoped buffer holds the last boundary's contents. -/
theorem run_main : θ_run defs (onTc (τ := τ) (main (F := F))) ⟨m, fun _ => 0, ρ⟩ (fun r => ∀ c : Dev nD,
      ∀ b ∈ Pipeline.ucRefs τ sig, r.2.mem (((c : Thread nD τ)).1, b) = W6 m ρ c b) :=
  Pipeline.θ_run_regions_kit (pcfgs (F := F)) adm (pdats m ρ) () cellOf_inj emb₁ defs₀ 𝒱₀ L lv m ρ main (segs m ρ)
    (fun c Q => by
      rewrite [main_chain c, Pipeline.Seg.run_eq_chain,
        show (segs m ρ).map Pipeline.Seg.prog = [
          StableHlo.seq hostOps0,
          StableHlo.seq hostOps0_1,
          StableHlo.seq hostOps0_2,
          Prog.lift (.customCall (Pipeline.entry 0) ()),
          StableHlo.seq hostOps1,
          Prog.lift (.customCall (Pipeline.entry 1) ()) ] from rfl]
      exact .rfl)
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun s h c => h c)

/-- THE FRAME: the program runs and every argument array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun r h c =>
    ⟨(h c _ (mem_uc main_arg0 (by decide))).trans (W6_arg_launch m ρ c main_arg0 (by decide)),
     (h c _ (mem_uc main_arg1 (by decide))).trans (W6_arg_launch m ρ c main_arg1 (by decide)),
     (h c _ (mem_uc main_arg2 (by decide))).trans (W6_arg_launch m ρ c main_arg2 (by decide)),
     (h c _ (mem_uc main_arg3 (by decide))).trans (W6_arg_launch m ρ c main_arg3 (by decide)),
     (h c _ (mem_uc main_arg4 (by decide))).trans (W6_arg_launch m ρ c main_arg4 (by decide)),
     (h c _ (mem_uc main_arg5 (by decide))).trans (W6_arg_launch m ρ c main_arg5 (by decide))⟩) (run_main m ρ)

end Cert.KernelIdeal.Hand

end
-- ==== Proof.KI.Body.lean ====
/-
  The two projection kernels' bodies, each as ONE pure function of its three input blocks (the stacked bases' block,
  the stacked weights, the bias): the chain of the body's stored values with every accumulator load replaced by the
  value stored just before it.
-/
import proofs.«145562_j85014582657503_2_alg».proof.Proof.Gen.KernelIdeal.Skeleton
import Idealize.ShloMosaic.Lib.Pipeline.FrameBody

noncomputable section

namespace Cert.KernelIdeal.Hand

open Cert.KernelIdeal Cert.KernelIdeal.Gen Idealize.ShloMosaic

variable {F : FTy → Type} [FloatOps F]

/-- The body of the layer-1 kernel as one function of its three input blocks: the accumulator zeroed, the eight products
    added one after the other, the bias row added, the result clamped at zero. -/
def body0 (x0 : Vec F S8x5000x64 .bf16) (x1 : Vec F S8x64x64 .bf16) (x2 : Vec F S64 .f32) : FVec F S5000x64 .f32 :=
  k0_pay2 (k0_pay1 (k0_pay11 (k0_pay10 (k0_pay9 (k0_pay8 (k0_pay7 (k0_pay6 (k0_pay5 (k0_pay4 (k0_pay3 (F := F)) (View.ld x0 (Rect.unit (s := S8x5000x64) ![0, 0, 0] S1x5000x64.size inb_S8x5000x64_S1x5000x64_0_0_0)) (View.ld x1 (Rect.unit (s := S8x64x64) ![0, 0, 0] S1x64x64.size inb_S8x64x64_S1x64x64_0_0_0)))
      (View.ld x0 (Rect.unit (s := S8x5000x64) ![1, 0, 0] S1x5000x64.size inb_S8x5000x64_S1x5000x64_1_0_0)) (View.ld x1 (Rect.unit (s := S8x64x64) ![1, 0, 0] S1x64x64.size inb_S8x64x64_S1x64x64_1_0_0)))
      (View.ld x0 (Rect.unit (s := S8x5000x64) ![2, 0, 0] S1x5000x64.size inb_S8x5000x64_S1x5000x64_2_0_0)) (View.ld x1 (Rect.unit (s := S8x64x64) ![2, 0, 0] S1x64x64.size inb_S8x64x64_S1x64x64_2_0_0)))
      (View.ld x0 (Rect.unit (s := S8x5000x64) ![3, 0, 0] S1x5000x64.size inb_S8x5000x64_S1x5000x64_3_0_0)) (View.ld x1 (Rect.unit (s := S8x64x64) ![3, 0, 0] S1x64x64.size inb_S8x64x64_S1x64x64_3_0_0)))
      (View.ld x0 (Rect.unit (s := S8x5000x64) ![4, 0, 0] S1x5000x64.size inb_S8x5000x64_S1x5000x64_4_0_0)) (View.ld x1 (Rect.unit (s := S8x64x64) ![4, 0, 0] S1x64x64.size inb_S8x64x64_S1x64x64_4_0_0)))
      (View.ld x0 (Rect.unit (s := S8x5000x64) ![5, 0, 0] S1x5000x64.size inb_S8x5000x64_S1x5000x64_5_0_0)) (View.ld x1 (Rect.unit (s := S8x64x64) ![5, 0, 0] S1x64x64.size inb_S8x64x64_S1x64x64_5_0_0)))
      (View.ld x0 (Rect.unit (s := S8x5000x64) ![6, 0, 0] S1x5000x64.size inb_S8x5000x64_S1x5000x64_6_0_0)) (View.ld x1 (Rect.unit (s := S8x64x64) ![6, 0, 0] S1x64x64.size inb_S8x64x64_S1x64x64_6_0_0)))
      (View.ld x0 (Rect.unit (s := S8x5000x64) ![7, 0, 0] S1x5000x64.size inb_S8x5000x64_S1x5000x64_7_0_0)) (View.ld x1 (Rect.unit (s := S8x64x64) ![7, 0, 0] S1x64x64.size inb_S8x64x64_S1x64x64_7_0_0))))
    (View.ld x2 (Rect.unit (s := S64) ![0] S64.size inb_S64_S64_0))

/-- The body of the layer-2 kernel as one function of its three input blocks: the accumulator zeroed, the eight products
    added one after the other, the bias row added. -/
def body1 (x0 : Vec F S8x5000x64 .bf16) (x1 : Vec F S8x64x10 .bf16) (x2 : Vec F S10 .f32) : FVec F S5000x10 .f32 :=
  k1_pay2 (k1_pay1 (k1_pay11 (k1_pay10 (k1_pay9 (k1_pay8 (k1_pay7 (k1_pay6 (k1_pay5 (k1_pay4 (k1_pay3 (F := F)) (View.ld x0 (Rect.unit (s := S8x5000x64) ![0, 0, 0] S1x5000x64.size inb_S8x5000x64_S1x5000x64_0_0_0)) (View.ld x1 (Rect.unit (s := S8x64x10) ![0, 0, 0] S1x64x10.size inb_S8x64x10_S1x64x10_0_0_0)))
      (View.ld x0 (Rect.unit (s := S8x5000x64) ![1, 0, 0] S1x5000x64.size inb_S8x5000x64_S1x5000x64_1_0_0)) (View.ld x1 (Rect.unit (s := S8x64x10) ![1, 0, 0] S1x64x10.size inb_S8x64x10_S1x64x10_1_0_0)))
      (View.ld x0 (Rect.unit (s := S8x5000x64) ![2, 0, 0] S1x5000x64.size inb_S8x5000x64_S1x5000x64_2_0_0)) (View.ld x1 (Rect.unit (s := S8x64x10) ![2, 0, 0] S1x64x10.size inb_S8x64x10_S1x64x10_2_0_0)))
      (View.ld x0 (Rect.unit (s := S8x5000x64) ![3, 0, 0] S1x5000x64.size inb_S8x5000x64_S1x5000x64_3_0_0)) (View.ld x1 (Rect.unit (s := S8x64x10) ![3, 0, 0] S1x64x10.size inb_S8x64x10_S1x64x10_3_0_0)))
      (View.ld x0 (Rect.unit (s := S8x5000x64) ![4, 0, 0] S1x5000x64.size inb_S8x5000x64_S1x5000x64_4_0_0)) (View.ld x1 (Rect.unit (s := S8x64x10) ![4, 0, 0] S1x64x10.size inb_S8x64x10_S1x64x10_4_0_0)))
      (View.ld x0 (Rect.unit (s := S8x5000x64) ![5, 0, 0] S1x5000x64.size inb_S8x5000x64_S1x5000x64_5_0_0)) (View.ld x1 (Rect.unit (s := S8x64x10) ![5, 0, 0] S1x64x10.size inb_S8x64x10_S1x64x10_5_0_0)))
      (View.ld x0 (Rect.unit (s := S8x5000x64) ![6, 0, 0] S1x5000x64.size inb_S8x5000x64_S1x5000x64_6_0_0)) (View.ld x1 (Rect.unit (s := S8x64x10) ![6, 0, 0] S1x64x10.size inb_S8x64x10_S1x64x10_6_0_0)))
      (View.ld x0 (Rect.unit (s := S8x5000x64) ![7, 0, 0] S1x5000x64.size inb_S8x5000x64_S1x5000x64_7_0_0)) (View.ld x1 (Rect.unit (s := S8x64x10) ![7, 0, 0] S1x64x10.size inb_S8x64x10_S1x64x10_7_0_0))))
    (View.ld x2 (Rect.unit (s := S10) ![0] S10.size inb_S10_S10_0))

end Cert.KernelIdeal.Hand

end
-- ==== Proof.Bridge.Spec.lean ====
/-
  One Chebyshev graph-convolution layer, read at an entry, on the extended reals.

  A layer takes the eight Chebyshev bases `T k` (each an `N × 64` array), the eight weight matrices `W k`
  (each `64 × C`) and a bias row `b`, and returns at node `n` and output feature `f`
      (∑ k, ∑ j, T k n j * W k j f) + b f.
  Both programs compute this: one accumulates the eight matrix products into a zeroed buffer and adds the bias,
  the other adds the eight products left to right and then the bias.  Addition on the extended reals is
  commutative and associative and `0` is neutral, so the two orders agree with no finiteness hypothesis.
-/
import Mathlib.Data.EReal.Basic
import Mathlib.Algebra.BigOperators.Fin

noncomputable section

namespace Cert.Spec

open scoped BigOperators

/-- The layer's value at node `n`, output feature `f`. -/
def layer {N C : ℕ} (T : Fin 8 → Fin N → Fin 64 → EReal) (W : Fin 8 → Fin 64 → Fin C → EReal)
    (b : Fin C → EReal) (n : Fin N) (f : Fin C) : EReal :=
  (∑ k : Fin 8, ∑ j : Fin 64, T k n j * W k j f) + b f

/-- Eight terms added left to right are their sum over `Fin 8`. -/
theorem sum8_left (a : Fin 8 → EReal) :
    a 0 + a 1 + a 2 + a 3 + a 4 + a 5 + a 6 + a 7 = ∑ k : Fin 8, a k := by
  simp only [Fin.sum_univ_eight]

/-- Eight terms accumulated onto zero, one after the other, are their sum over `Fin 8`. -/
theorem sum8_acc (a : Fin 8 → EReal) :
    0 + a 0 + a 1 + a 2 + a 3 + a 4 + a 5 + a 6 + a 7 = ∑ k : Fin 8, a k := by
  simp only [Fin.sum_univ_eight, zero_add]

end Cert.Spec

end
-- ==== Proof.LibMatmul.lean ====
/-
  A matrix product read at an entry.

  At the exact instance a matrix-unit product into a zero accumulator is, entry by entry, the textbook contraction:
  for an M x K left operand and a K x N right operand, entry (p, q) is the sum over k of lhs(p, k) * rhs(k, q)
  (`matmul_zero_plain_apply`); when the right operand is given as N x K and contracted along its second axis
  (a product with the transpose), entry (p, q) is the sum over k of lhs(p, k) * rhs(q, k) (`matmul_zero_nt_apply`).
  The dimension records are the ones with exactly those contracting and free axes and no batch axis.
-/
import Idealize.ShloMosaic.PureOps.Ideal.Laws
import Idealize.ShloMosaic.Lib.ValueIdx

noncomputable section

namespace Cert.MatmulAt

open Idealize.ShloMosaic Idealize.ShloMosaic.ValueIdx

/-- Rows times columns: contract the left operand's second axis with the right operand's first. -/
abbrev plainDims {M K N : ℕ} (wf : DotDims.WF ⟨2, ![M, K]⟩ ⟨2, ![K, N]⟩ ⟨2, ![M, N]⟩ [1] [0] [0] [1] [] []) :
    DotDims ⟨2, ![M, K]⟩ ⟨2, ![K, N]⟩ ⟨2, ![M, N]⟩ where
  lhsContracting := [1]
  rhsContracting := [0]
  lhsNonContracting := [0]
  rhsNonContracting := [1]
  lhsBatch := []
  rhsBatch := []
  wf := wf

/-- Rows times rows: contract the second axis of both operands. -/
abbrev ntDims {M K N : ℕ} (wf : DotDims.WF ⟨2, ![M, K]⟩ ⟨2, ![N, K]⟩ ⟨2, ![M, N]⟩ [1] [1] [0] [0] [] []) :
    DotDims ⟨2, ![M, K]⟩ ⟨2, ![N, K]⟩ ⟨2, ![M, N]⟩ where
  lhsContracting := [1]
  rhsContracting := [1]
  lhsNonContracting := [0]
  rhsNonContracting := [0]
  lhsBatch := []
  rhsBatch := []
  wf := wf

theorem matmul_zero_plain_apply {M K N : ℕ} {φ₁ φ₂ : FTy}
    (wf : DotDims.WF ⟨2, ![M, K]⟩ ⟨2, ![K, N]⟩ ⟨2, ![M, N]⟩ [1] [0] [0] [1] [] [])
    (prec : Option ContractPrecision)
    (lhs : FVec Ideal ⟨2, ![M, K]⟩ φ₁) (rhs : FVec Ideal ⟨2, ![K, N]⟩ φ₂) (p : Fin M) (q : Fin N) :
    matmul (plainDims wf) prec lhs rhs (constant (F := Ideal) ⟨2, ![M, N]⟩ .f32 0x00000000#32) (ix2 p q)
      = ∑ k : Fin K, lhs (ix2 p k) * rhs (ix2 k q) := by
  simp only [matmul]
  rw [Ideal.matmul_constant_zero_apply, ← Equiv.sum_comp (contrEquiv1 (plainDims wf) K rfl rfl).symm]
  refine Finset.sum_congr rfl fun k _ => ?_
  have hk := contrEquiv1_symm_val (plainDims wf) K rfl rfl k
  have el : (plainDims wf).lhsIdx (ix2 p q) ((contrEquiv1 (plainDims wf) K rfl rfl).symm k) = ix2 p k :=
    funext fun a => Fin.ext (by
      match a with
      | ⟨0, _⟩ =>
        unfold DotDims.lhsIdx
        split
        · rename_i hb; exact absurd hb List.not_mem_nil
        · split
          · rfl
          · rename_i hn; exact absurd (List.mem_singleton_self _) hn
      | ⟨1, _⟩ => exact ((plainDims wf).lhsIdx_val_of_single rfl _ _).trans hk)
  have er : (plainDims wf).rhsIdx (ix2 p q) ((contrEquiv1 (plainDims wf) K rfl rfl).symm k) = ix2 k q :=
    funext fun a => Fin.ext (by
      match a with
      | ⟨0, _⟩ => exact ((plainDims wf).rhsIdx_val_of_single rfl _ _).trans hk
      | ⟨1, _⟩ =>
        unfold DotDims.rhsIdx
        split
        · rename_i hb; exact absurd hb List.not_mem_nil
        · split
          · rfl
          · rename_i hn; exact absurd (List.mem_singleton_self _) hn)
  rw [el, er]

theorem matmul_zero_nt_apply {M K N : ℕ} {φ₁ φ₂ : FTy}
    (wf : DotDims.WF ⟨2, ![M, K]⟩ ⟨2, ![N, K]⟩ ⟨2, ![M, N]⟩ [1] [1] [0] [0] [] [])
    (prec : Option ContractPrecision)
    (lhs : FVec Ideal ⟨2, ![M, K]⟩ φ₁) (rhs : FVec Ideal ⟨2, ![N, K]⟩ φ₂) (p : Fin M) (q : Fin N) :
    matmul (ntDims wf) prec lhs rhs (constant (F := Ideal) ⟨2, ![M, N]⟩ .f32 0x00000000#32) (ix2 p q)
      = ∑ k : Fin K, lhs (ix2 p k) * rhs (ix2 q k) := by
  simp only [matmul]
  rw [Ideal.matmul_constant_zero_apply, ← Equiv.sum_comp (contrEquiv1 (ntDims wf) K rfl rfl).symm]
  refine Finset.sum_congr rfl fun k _ => ?_
  have hk := contrEquiv1_symm_val (ntDims wf) K rfl rfl k
  have el : (ntDims wf).lhsIdx (ix2 p q) ((contrEquiv1 (ntDims wf) K rfl rfl).symm k) = ix2 p k :=
    funext fun a => Fin.ext (by
      match a with
      | ⟨0, _⟩ =>
        unfold DotDims.lhsIdx
        split
        · rename_i hb; exact absurd hb List.not_mem_nil
        · split
          · rfl
          · rename_i hn; exact absurd (List.mem_singleton_self _) hn
      | ⟨1, _⟩ => exact ((ntDims wf).lhsIdx_val_of_single rfl _ _).trans hk)
  have er : (ntDims wf).rhsIdx (ix2 p q) ((contrEquiv1 (ntDims wf) K rfl rfl).symm k) = ix2 q k :=
    funext fun a => Fin.ext (by
      match a with
      | ⟨0, _⟩ =>
        unfold DotDims.rhsIdx
        split
        · rename_i hb; exact absurd hb List.not_mem_nil
        · split
          · rfl
          · rename_i hn; exact absurd (List.mem_singleton_self _) hn
      | ⟨1, _⟩ => exact ((ntDims wf).rhsIdx_val_of_single rfl _ _).trans hk)
  rw [el, er]

end Cert.MatmulAt

end
-- ==== Proof.KI.PayloadAt.lean ====
/-
  The two projection kernels' bodies read at an entry, at the exact instance (every float an extended real, every
  change of format the identity).

  Each body zeroes an accumulator, adds eight matrix products to it one after the other, adds a bias row, and (layer 1
  only) clamps at zero.  Product `k` multiplies slab `k` of the stacked bases (a 5000 × 64 matrix) by slab `k` of the
  stacked weights (a 64 × C matrix), so its entry `(p, q)` is the sum over `j` of `x0 (k, p, j) * x1 (k, j, q)`.  The
  accumulation is `0 + t 0 + t 1 + … + t 7`, which is the sum of the `t k` over `k`; with the bias added this is the
  layer's value `Cert.Spec.layer` at `(p, q)`.

  The steps: one lemma per stored value of the body (the zeroed accumulator, each of the eight accumulation steps, the
  copy, the bias step), stated over arbitrary operands; two lemmas saying where the index of a loaded block sits in the
  array it was loaded from; then the chain.
-/
import proofs.«145562_j85014582657503_2_alg».proof.Proof.KI.Body
import proofs.«145562_j85014582657503_2_alg».proof.Proof.Bridge.Spec
import proofs.«145562_j85014582657503_2_alg».proof.Proof.LibMatmul
import Idealize.ShloMosaic.Lib.ValueIdx
import Idealize.ShloMosaic.Lib.Pipeline.Value
import Idealize.ShloMosaic.Lib.ValueLayout
import Idealize.ShloMosaic.PureOps.Ideal.Laws

noncomputable section

namespace Cert.KernelIdeal.Hand

open Cert.KernelIdeal Cert.KernelIdeal.Gen Idealize.ShloMosaic Idealize.ShloMosaic.ValueIdx
open scoped BigOperators

/-! ## Layer 1 (64 output features, clamped at zero) -/

/-- One product of the accumulation, read at an entry: the slab `x` (its unit axis dropped) times the slab `w`
    (its unit axis dropped) into a zero accumulator is, at `(p, q)`, the sum over `j` of `x (0, p, j) * w (0, j, q)`. -/
theorem product64_apply (x : Vec Ideal S1x5000x64 .bf16) (w : Vec Ideal S1x64x64 .bf16) (p : Fin 5000) (q : Fin 64) :
    matmul (F := Ideal) dot_S5000x64_S64x64_S5000x64_1_0_0_1_n_n none
        (shapeCast S5000x64 x Facts₀.shapeCasts_S1x5000x64_S5000x64 : FVec Ideal S5000x64 .bf16)
        (shapeCast S64x64 w Facts₀.shapeCasts_S1x64x64_S64x64 : FVec Ideal S64x64 .bf16)
        (constant S5000x64 .f32 0x00000000#32) (ix2 p q)
      = ∑ j : Fin 64, x (ix3 0 p j) * w (ix3 0 j q) := by
  refine (Cert.MatmulAt.matmul_zero_plain_apply (M := 5000) (K := 64) (N := 64)
    Facts₀.dot_S5000x64_S64x64_S5000x64_1_0_0_1_n_n_wf none _ _ p q).trans ?_
  refine Finset.sum_congr rfl fun j _ => ?_
  rw [shapeCast_1ab_ab_apply, shapeCast_1ab_ab_apply]

theorem acc0_step4 (acc : Vec Ideal S5000x64 .f32) (x : Vec Ideal S1x5000x64 .bf16) (w : Vec Ideal S1x64x64 .bf16)
    (p : Fin 5000) (q : Fin 64) :
    k0_pay4 (F := Ideal) acc x w (ix2 p q) = acc (ix2 p q) + ∑ j : Fin 64, x (ix3 0 p j) * w (ix3 0 j q) := by
  unfold k0_pay4
  simp only [shapeCast_self]
  exact congrArg (acc (ix2 p q) + ·) (product64_apply x w p q)

theorem acc0_step5 (acc : Vec Ideal S5000x64 .f32) (x : Vec Ideal S1x5000x64 .bf16) (w : Vec Ideal S1x64x64 .bf16)
    (p : Fin 5000) (q : Fin 64) :
    k0_pay5 (F := Ideal) acc x w (ix2 p q) = acc (ix2 p q) + ∑ j : Fin 64, x (ix3 0 p j) * w (ix3 0 j q) := by
  unfold k0_pay5
  simp only [shapeCast_self]
  exact congrArg (acc (ix2 p q) + ·) (product64_apply x w p q)

theorem acc0_step6 (acc : Vec Ideal S5000x64 .f32) (x : Vec Ideal S1x5000x64 .bf16) (w : Vec Ideal S1x64x64 .bf16)
    (p : Fin 5000) (q : Fin 64) :
    k0_pay6 (F := Ideal) acc x w (ix2 p q) = acc (ix2 p q) + ∑ j : Fin 64, x (ix3 0 p j) * w (ix3 0 j q) := by
  unfold k0_pay6
  simp only [shapeCast_self]
  exact congrArg (acc (ix2 p q) + ·) (product64_apply x w p q)

theorem acc0_step7 (acc : Vec Ideal S5000x64 .f32) (x : Vec Ideal S1x5000x64 .bf16) (w : Vec Ideal S1x64x64 .bf16)
    (p : Fin 5000) (q : Fin 64) :
    k0_pay7 (F := Ideal) acc x w (ix2 p q) = acc (ix2 p q) + ∑ j : Fin 64, x (ix3 0 p j) * w (ix3 0 j q) := by
  unfold k0_pay7
  simp only [shapeCast_self]
  exact congrArg (acc (ix2 p q) + ·) (product64_apply x w p q)

theorem acc0_step8 (acc : Vec Ideal S5000x64 .f32) (x : Vec Ideal S1x5000x64 .bf16) (w : Vec Ideal S1x64x64 .bf16)
    (p : Fin 5000) (q : Fin 64) :
    k0_pay8 (F := Ideal) acc x w (ix2 p q) = acc (ix2 p q) + ∑ j : Fin 64, x (ix3 0 p j) * w (ix3 0 j q) := by
  unfold k0_pay8
  simp only [shapeCast_self]
  exact congrArg (acc (ix2 p q) + ·) (product64_apply x w p q)

theorem acc0_step9 (acc : Vec Ideal S5000x64 .f32) (x : Vec Ideal S1x5000x64 .bf16) (w : Vec Ideal S1x64x64 .bf16)
    (p : Fin 5000) (q : Fin 64) :
    k0_pay9 (F := Ideal) acc x w (ix2 p q) = acc (ix2 p q) + ∑ j : Fin 64, x (ix3 0 p j) * w (ix3 0 j q) := by
  unfold k0_pay9
  simp only [shapeCast_self]
  exact congrArg (acc (ix2 p q) + ·) (product64_apply x w p q)

theorem acc0_step10 (acc : Vec Ideal S5000x64 .f32) (x : Vec Ideal S1x5000x64 .bf16) (w : Vec Ideal S1x64x64 .bf16)
    (p : Fin 5000) (q : Fin 64) :
    k0_pay10 (F := Ideal) acc x w (ix2 p q) = acc (ix2 p q) + ∑ j : Fin 64, x (ix3 0 p j) * w (ix3 0 j q) := by
  unfold k0_pay10
  simp only [shapeCast_self]
  exact congrArg (acc (ix2 p q) + ·) (product64_apply x w p q)

theorem acc0_step11 (acc : Vec Ideal S5000x64 .f32) (x : Vec Ideal S1x5000x64 .bf16) (w : Vec Ideal S1x64x64 .bf16)
    (p : Fin 5000) (q : Fin 64) :
    k0_pay11 (F := Ideal) acc x w (ix2 p q) = acc (ix2 p q) + ∑ j : Fin 64, x (ix3 0 p j) * w (ix3 0 j q) := by
  unfold k0_pay11
  exact congrArg (acc (ix2 p q) + ·) (product64_apply x w p q)

/-- The zeroed accumulator. -/
theorem zero0_apply (p : Fin 5000) (q : Fin 64) : k0_pay3 (F := Ideal) (ix2 p q) = 0 := by
  unfold k0_pay3
  simp only [shapeCast_self]
  exact Ideal.ofBits_zero_f32

/-- The accumulator read back unchanged. -/
theorem copy0_eq (v : FVec Ideal S5000x64 .f32) : k0_pay1 (F := Ideal) v = v := by
  unfold k0_pay1
  exact shapeCast_self v _

/-- The bias row added to every row and the result clamped at zero. -/
theorem bias0_apply (acc : Vec Ideal S5000x64 .f32) (b : Vec Ideal S64 .f32) (p : Fin 5000) (q : Fin 64) :
    k0_pay2 (F := Ideal) acc b (ix2 p q) = max (acc (ix2 p q) + b (ix1 q)) 0 := by
  have hb : broadcastTo S5000x64 (shapeCast S1x64 b Facts₀.shapeCasts_S64_S1x64) Facts₀.broadcasts_S1x64_S5000x64 (ix2 p q)
      = b (ix1 q) :=
    (broadcastTo_1b_ab_apply _ _ p q).trans (shapeCast_a_1a_apply b _ 0 q)
  unfold k0_pay2
  exact congrArg₂ max (congrArg (acc (ix2 p q) + ·) hb) Ideal.ofBits_zero_f32

/-! ## Layer 2 (10 output features) -/

/-- One product of the accumulation, read at an entry: the slab `x` (its unit axis dropped) times the slab `w`
    (its unit axis dropped) into a zero accumulator is, at `(p, q)`, the sum over `j` of `x (0, p, j) * w (0, j, q)`. -/
theorem product10_apply (x : Vec Ideal S1x5000x64 .bf16) (w : Vec Ideal S1x64x10 .bf16) (p : Fin 5000) (q : Fin 10) :
    matmul (F := Ideal) dot_S5000x64_S64x10_S5000x10_1_0_0_1_n_n none
        (shapeCast S5000x64 x Facts₀.shapeCasts_S1x5000x64_S5000x64 : FVec Ideal S5000x64 .bf16)
        (shapeCast S64x10 w Facts₀.shapeCasts_S1x64x10_S64x10 : FVec Ideal S64x10 .bf16)
        (constant S5000x10 .f32 0x00000000#32) (ix2 p q)
      = ∑ j : Fin 64, x (ix3 0 p j) * w (ix3 0 j q) := by
  refine (Cert.MatmulAt.matmul_zero_plain_apply (M := 5000) (K := 64) (N := 10)
    Facts₀.dot_S5000x64_S64x10_S5000x10_1_0_0_1_n_n_wf none _ _ p q).trans ?_
  refine Finset.sum_congr rfl fun j _ => ?_
  rw [shapeCast_1ab_ab_apply, shapeCast_1ab_ab_apply]

theorem acc1_step4 (acc : Vec Ideal S5000x10 .f32) (x : Vec Ideal S1x5000x64 .bf16) (w : Vec Ideal S1x64x10 .bf16)
    (p : Fin 5000) (q : Fin 10) :
    k1_pay4 (F := Ideal) acc x w (ix2 p q) = acc (ix2 p q) + ∑ j : Fin 64, x (ix3 0 p j) * w (ix3 0 j q) := by
  unfold k1_pay4
  simp only [shapeCast_self]
  exact congrArg (acc (ix2 p q) + ·) (product10_apply x w p q)

theorem acc1_step5 (acc : Vec Ideal S5000x10 .f32) (x : Vec Ideal S1x5000x64 .bf16) (w : Vec Ideal S1x64x10 .bf16)
    (p : Fin 5000) (q : Fin 10) :
    k1_pay5 (F := Ideal) acc x w (ix2 p q) = acc (ix2 p q) + ∑ j : Fin 64, x (ix3 0 p j) * w (ix3 0 j q) := by
  unfold k1_pay5
  simp only [shapeCast_self]
  exact congrArg (acc (ix2 p q) + ·) (product10_apply x w p q)

theorem acc1_step6 (acc : Vec Ideal S5000x10 .f32) (x : Vec Ideal S1x5000x64 .bf16) (w : Vec Ideal S1x64x10 .bf16)
    (p : Fin 5000) (q : Fin 10) :
    k1_pay6 (F := Ideal) acc x w (ix2 p q) = acc (ix2 p q) + ∑ j : Fin 64, x (ix3 0 p j) * w (ix3 0 j q) := by
  unfold k1_pay6
  simp only [shapeCast_self]
  exact congrArg (acc (ix2 p q) + ·) (product10_apply x w p q)

theorem acc1_step7 (acc : Vec Ideal S5000x10 .f32) (x : Vec Ideal S1x5000x64 .bf16) (w : Vec Ideal S1x64x10 .bf16)
    (p : Fin 5000) (q : Fin 10) :
    k1_pay7 (F := Ideal) acc x w (ix2 p q) = acc (ix2 p q) + ∑ j : Fin 64, x (ix3 0 p j) * w (ix3 0 j q) := by
  unfold k1_pay7
  simp only [shapeCast_self]
  exact congrArg (acc (ix2 p q) + ·) (product10_apply x w p q)

theorem acc1_step8 (acc : Vec Ideal S5000x10 .f32) (x : Vec Ideal S1x5000x64 .bf16) (w : Vec Ideal S1x64x10 .bf16)
    (p : Fin 5000) (q : Fin 10) :
    k1_pay8 (F := Ideal) acc x w (ix2 p q) = acc (ix2 p q) + ∑ j : Fin 64, x (ix3 0 p j) * w (ix3 0 j q) := by
  unfold k1_pay8
  simp only [shapeCast_self]
  exact congrArg (acc (ix2 p q) + ·) (product10_apply x w p q)

theorem acc1_step9 (acc : Vec Ideal S5000x10 .f32) (x : Vec Ideal S1x5000x64 .bf16) (w : Vec Ideal S1x64x10 .bf16)
    (p : Fin 5000) (q : Fin 10) :
    k1_pay9 (F := Ideal) acc x w (ix2 p q) = acc (ix2 p q) + ∑ j : Fin 64, x (ix3 0 p j) * w (ix3 0 j q) := by
  unfold k1_pay9
  simp only [shapeCast_self]
  exact congrArg (acc (ix2 p q) + ·) (product10_apply x w p q)

theorem acc1_step10 (acc : Vec Ideal S5000x10 .f32) (x : Vec Ideal S1x5000x64 .bf16) (w : Vec Ideal S1x64x10 .bf16)
    (p : Fin 5000) (q : Fin 10) :
    k1_pay10 (F := Ideal) acc x w (ix2 p q) = acc (ix2 p q) + ∑ j : Fin 64, x (ix3 0 p j) * w (ix3 0 j q) := by
  unfold k1_pay10
  simp only [shapeCast_self]
  exact congrArg (acc (ix2 p q) + ·) (product10_apply x w p q)

theorem acc1_step11 (acc : Vec Ideal S5000x10 .f32) (x : Vec Ideal S1x5000x64 .bf16) (w : Vec Ideal S1x64x10 .bf16)
    (p : Fin 5000) (q : Fin 10) :
    k1_pay11 (F := Ideal) acc x w (ix2 p q) = acc (ix2 p q) + ∑ j : Fin 64, x (ix3 0 p j) * w (ix3 0 j q) := by
  unfold k1_pay11
  exact congrArg (acc (ix2 p q) + ·) (product10_apply x w p q)

/-- The zeroed accumulator. -/
theorem zero1_apply (p : Fin 5000) (q : Fin 10) : k1_pay3 (F := Ideal) (ix2 p q) = 0 := by
  unfold k1_pay3
  simp only [shapeCast_self]
  exact Ideal.ofBits_zero_f32

/-- The accumulator read back unchanged. -/
theorem copy1_eq (v : FVec Ideal S5000x10 .f32) : k1_pay1 (F := Ideal) v = v := by
  unfold k1_pay1
  exact shapeCast_self v _

/-- The bias row added to every row. -/
theorem bias1_apply (acc : Vec Ideal S5000x10 .f32) (b : Vec Ideal S10 .f32) (p : Fin 5000) (q : Fin 10) :
    k1_pay2 (F := Ideal) acc b (ix2 p q) = acc (ix2 p q) + b (ix1 q) := by
  have hb : broadcastTo S5000x10 (shapeCast S1x10 b Facts₀.shapeCasts_S10_S1x10) Facts₀.broadcasts_S1x10_S5000x10 (ix2 p q)
      = b (ix1 q) :=
    (broadcastTo_1b_ab_apply _ _ p q).trans (shapeCast_a_1a_apply b _ 0 q)
  unfold k1_pay2
  exact congrArg (acc (ix2 p q) + ·) hb

/-! ## The loads -/

/-- Slab `k` of a stack of `n` matrices, loaded as a `1 × m × l` block: the block's index `(0, p, j)` sits at
    `(k, p, j)` of the stack. -/
theorem slab_idx {n m l : ℕ} (k : ℕ)
    (inb : ∀ a, (![k, 0, 0] : Fin 3 → Nat) a + (![1, m, l] : Fin 3 → Nat) a ≤ (⟨3, ![n, m, l]⟩ : Shape).size a)
    (p : Fin m) (j : Fin l) :
    (Rect.unit (s := ⟨3, ![n, m, l]⟩) ![k, 0, 0] ![1, m, l] inb).toLoadRect.idx (ix3 (0 : Fin 1) p j)
      = ix3 (⟨k, Nat.lt_of_succ_le (inb 0)⟩ : Fin n) p j := by
  refine funext fun a => Fin.ext ?_
  match a with
  | ⟨0, _⟩ => show k + 1 * 0 = k; omega
  | ⟨1, _⟩ => show 0 + 1 * p.val = p.val; omega
  | ⟨2, _⟩ => show 0 + 1 * j.val = j.val; omega

/-- A whole row loaded from offset zero: index `q` of the load is index `q` of the row. -/
theorem row_idx {n : ℕ}
    (inb : ∀ a, (![0] : Fin 1 → Nat) a + (![n] : Fin 1 → Nat) a ≤ (⟨1, ![n]⟩ : Shape).size a) (q : Fin n) :
    (Rect.unit (s := ⟨1, ![n]⟩) ![0] ![n] inb).toLoadRect.idx (ix1 q) = ix1 q := by
  refine funext fun a => Fin.ext ?_
  match a with
  | ⟨0, _⟩ => show 0 + 1 * q.val = q.val; omega

/-! ## The bodies at an entry -/

/-- The layer-1 body at an entry: the eight products accumulated onto zero and the bias, clamped at zero. -/
theorem body0_apply (x0 : Vec Ideal S8x5000x64 .bf16) (x1 : Vec Ideal S8x64x64 .bf16) (x2 : Vec Ideal S64 .f32)
    (p : Fin 5000) (q : Fin 64) :
    body0 (F := Ideal) x0 x1 x2 (ValueIdx.ix2 p q)
      = max (Cert.Spec.layer (fun k n j => x0 (ValueIdx.ix3 k n j)) (fun k j f => x1 (ValueIdx.ix3 k j f))
          (fun f => x2 (ValueIdx.ix1 f)) p q) 0 := by
  unfold body0
  rw [bias0_apply, copy0_eq, acc0_step11, acc0_step10, acc0_step9, acc0_step8, acc0_step7, acc0_step6,
    acc0_step5, acc0_step4, zero0_apply]
  simp only [View.ld, slab_idx, row_idx]
  unfold Cert.Spec.layer
  beta_reduce
  refine congrArg (max · 0) (congrArg (· + x2 (ix1 q)) ?_)
  exact Cert.Spec.sum8_acc (fun k => ∑ j : Fin 64, x0 (ix3 k p j) * x1 (ix3 k j q))

/-- The layer-2 body at an entry: the eight products accumulated onto zero and the bias. -/
theorem body1_apply (x0 : Vec Ideal S8x5000x64 .bf16) (x1 : Vec Ideal S8x64x10 .bf16) (x2 : Vec Ideal S10 .f32)
    (p : Fin 5000) (q : Fin 10) :
    body1 (F := Ideal) x0 x1 x2 (ValueIdx.ix2 p q)
      = Cert.Spec.layer (fun k n j => x0 (ValueIdx.ix3 k n j)) (fun k j f => x1 (ValueIdx.ix3 k j f))
          (fun f => x2 (ValueIdx.ix1 f)) p q := by
  unfold body1
  rw [bias1_apply, copy1_eq, acc1_step11, acc1_step10, acc1_step9, acc1_step8, acc1_step7, acc1_step6,
    acc1_step5, acc1_step4, zero1_apply]
  simp only [View.ld, slab_idx, row_idx]
  unfold Cert.Spec.layer
  beta_reduce
  refine congrArg (· + x2 (ix1 q)) ?_
  exact Cert.Spec.sum8_acc (fun k => ∑ j : Fin 64, x0 (ix3 k p j) * x1 (ix3 k j q))

end Cert.KernelIdeal.Hand

end
-- ==== Proof.KI.Final.lean ====
/-
  From the blocks to the arrays: what each projection kernel's region leaves in its output array.

  The grid has ten points; at point `t` the pipeline hands the body rows `5000 t … 5000 t + 4999` of every slab of the
  stacked bases, the whole stack of weights and the whole bias row, and writes the body's output block back to rows
  `5000 t … 5000 t + 4999` of the output array.  The body's output block is the body's function of its three input
  blocks (the one store's payload, with every load of the accumulator replaced by what was stored just before); at
  an entry that function is the layer's value `Cert.Spec.layer` on the blocks (clamped at zero for layer 1); a
  block's entry is the array's entry at block index × block size + the coordinate inside the block; and the ten row
  blocks cover the 50000 rows.  So the output array ends holding the layer's value on the arrays the region found.
-/
import proofs.«145562_j85014582657503_2_alg».proof.Proof.KI.Frame
import proofs.«145562_j85014582657503_2_alg».proof.Proof.KI.PayloadAt
import Idealize.ShloMosaic.Lib.Pipeline.Value
import Idealize.ShloMosaic.Lib.ValueIdx

set_option maxRecDepth 16384

noncomputable section

namespace Cert.KernelIdeal.Hand

open Cert.KernelIdeal Cert.KernelIdeal.Gen
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open scoped BigOperators

/-! ## What the body leaves in the output block is the body's function of its three input blocks -/

/-- Zero offsets on both axes of a matrix, however spelt. -/
theorem offsets_zero2 : (![0, 0] : Fin 2 → Nat) = fun _ => 0 := funext fun a => by fin_cases a <;> rfl

section Generic
variable {F : FTy → Type} [FloatOps F]

theorem out0_eq (c : Dev nD) (i : grid0.Coords)
    (arg1 : Memref sig .tc .vmem S8x5000x64 .bf16) (harg1 : arg1.IsWhole) (arg2 : Memref sig .tc .vmem S8x64x64 .bf16) (harg2 : arg2.IsWhole)
    (arg3 : Memref sig .tc .vmem S64 .f32) (harg3 : arg3.IsWhole) (arg4 : Memref sig .tc .vmem S5000x64 .f32) (harg4 : arg4.IsWhole)
    (arg5 : Memref sig .tc .vmem S5000x64 .f32) (harg5 : arg5.IsWhole)
    (x0 : Vec F S8x5000x64 .bf16) (x1 : Vec F S8x64x64 .bf16) (x2 : Vec F S64 .f32) :
    out0 c i arg1 harg1 arg2 harg2 arg3 harg3 arg4 harg4 arg5 harg5 x0 x1 x2 = body0 x0 x1 x2 := by
  unfold out0
  rw [View.read_writes_eq_canon _ _ _ (cover0 c i arg1 harg1 arg2 harg2 arg3 harg3 arg4 harg4 arg5 harg5 x0 x1 x2)]
  unfold kernelRun0
  dsimp only
  sl_unfold_words
  rw [View.canon_unit_zero offsets_zero2]
  simp only [View.readCov_cons_toLoadRect, View.readAt_eq_ld, Memref.IsWhole.read_unread]
  rfl

theorem out1_eq (c : Dev nD) (i : grid1.Coords)
    (arg1 : Memref sig .tc .vmem S8x5000x64 .bf16) (harg1 : arg1.IsWhole) (arg2 : Memref sig .tc .vmem S8x64x10 .bf16) (harg2 : arg2.IsWhole)
    (arg3 : Memref sig .tc .vmem S10 .f32) (harg3 : arg3.IsWhole) (arg4 : Memref sig .tc .vmem S5000x10 .f32) (harg4 : arg4.IsWhole)
    (arg5 : Memref sig .tc .vmem S5000x10 .f32) (harg5 : arg5.IsWhole)
    (x0 : Vec F S8x5000x64 .bf16) (x1 : Vec F S8x64x10 .bf16) (x2 : Vec F S10 .f32) :
    out1 c i arg1 harg1 arg2 harg2 arg3 harg3 arg4 harg4 arg5 harg5 x0 x1 x2 = body1 x0 x1 x2 := by
  unfold out1
  rw [View.read_writes_eq_canon _ _ _ (cover1 c i arg1 harg1 arg2 harg2 arg3 harg3 arg4 harg4 arg5 harg5 x0 x1 x2)]
  unfold kernelRun1
  dsimp only
  sl_unfold_words
  rw [View.canon_unit_zero offsets_zero2]
  simp only [View.readCov_cons_toLoadRect, View.readAt_eq_ld, Memref.IsWhole.read_unread]
  rfl

end Generic

/-! ## The two layers as functions of whole arrays -/

/-- Layer 1 of the whole stacked bases `S`, the stacked weights `W` and the bias `b`, clamped at zero, at every
    entry of the 50000 × 64 result. -/
def G0 (S : (⟨S8x50000x64, .bf16⟩ : BufTy).Contents (Elt Ideal)) (W : (⟨S8x64x64, .bf16⟩ : BufTy).Contents (Elt Ideal))
    (b : (⟨S64, .f32⟩ : BufTy).Contents (Elt Ideal)) : (⟨S50000x64, .f32⟩ : BufTy).Contents (Elt Ideal) :=
  fun i => max (Cert.Spec.layer (fun k n j => S (ix3 k n j)) (fun k j f => W (ix3 k j f)) (fun f => b (ix1 f))
    (⟨(i 0).val, (i 0).isLt⟩ : Fin 50000) (⟨(i 1).val, (i 1).isLt⟩ : Fin 64)) 0

/-- Layer 2 likewise, with no clamp, at every entry of the 50000 × 10 result. -/
def G1 (S : (⟨S8x50000x64, .bf16⟩ : BufTy).Contents (Elt Ideal)) (W : (⟨S8x64x10, .bf16⟩ : BufTy).Contents (Elt Ideal))
    (b : (⟨S10, .f32⟩ : BufTy).Contents (Elt Ideal)) : (⟨S50000x10, .f32⟩ : BufTy).Contents (Elt Ideal) :=
  fun i => Cert.Spec.layer (fun k n j => S (ix3 k n j)) (fun k j f => W (ix3 k j f)) (fun f => b (ix1 f))
    (⟨(i 0).val, (i 0).isLt⟩ : Fin 50000) (⟨(i 1).val, (i 1).isLt⟩ : Fin 10)

theorem G0_apply (S : (⟨S8x50000x64, .bf16⟩ : BufTy).Contents (Elt Ideal)) (W : (⟨S8x64x64, .bf16⟩ : BufTy).Contents (Elt Ideal))
    (b : (⟨S64, .f32⟩ : BufTy).Contents (Elt Ideal)) (n : Fin 50000) (f : Fin 64) :
    G0 S W b (ix2 n f) = max (Cert.Spec.layer (fun k n j => S (ix3 k n j)) (fun k j f => W (ix3 k j f))
      (fun f => b (ix1 f)) n f) 0 := rfl

theorem G1_apply (S : (⟨S8x50000x64, .bf16⟩ : BufTy).Contents (Elt Ideal)) (W : (⟨S8x64x10, .bf16⟩ : BufTy).Contents (Elt Ideal))
    (b : (⟨S10, .f32⟩ : BufTy).Contents (Elt Ideal)) (n : Fin 50000) (f : Fin 10) :
    G1 S W b (ix2 n f) = Cert.Spec.layer (fun k n j => S (ix3 k n j)) (fun k j f => W (ix3 k j f))
      (fun f => b (ix1 f)) n f := rfl

/-- The layer's value at an entry depends only on the row of the bases, the column of the weights and the bias entry
    it reads. -/
theorem layer_congr {N N' C : ℕ} (T : Fin 8 → Fin N → Fin 64 → EReal) (T' : Fin 8 → Fin N' → Fin 64 → EReal)
    (W W' : Fin 8 → Fin 64 → Fin C → EReal) (b b' : Fin C → EReal) (n : Fin N) (n' : Fin N') (f : Fin C)
    (hT : ∀ k j, T k n j = T' k n' j) (hW : ∀ k j, W k j f = W' k j f) (hb : b f = b' f) :
    Cert.Spec.layer T W b n f = Cert.Spec.layer T' W' b' n' f := by
  unfold Cert.Spec.layer
  rw [hb]
  refine congrArg (· + b' f) ?_
  exact Finset.sum_congr rfl fun k _ => Finset.sum_congr rfl fun j _ => by rw [hT, hW]

section Closed
-- the TensorCore's buffer contents when a region is entered
variable (V : (c : Dev nD) → (b : Ref sig .tc) → Buf (Elt Ideal) ((c : Thread nD τ).loc b))

/-! ## Region 0: from the blocks to the array -/

/-- The printed block-index maps over the grid: the stacked bases move one row block per point, the weights and the bias
    stay, the output moves with the bases. -/
theorem idx_facts0 : ∀ t : Fin cfg0.N,
    win0_0.index t (0 : Fin 3) = 0 ∧ win0_0.index t (1 : Fin 3) = t.val ∧ win0_0.index t (2 : Fin 3) = 0
    ∧ win0_1.index t (0 : Fin 3) = 0 ∧ win0_1.index t (1 : Fin 3) = 0 ∧ win0_1.index t (2 : Fin 3) = 0
    ∧ win0_2.index t (0 : Fin 1) = 0
    ∧ win0_3.index t (0 : Fin 2) = t.val ∧ win0_3.index t (1 : Fin 2) = 0 :=
  (by decide +kernel : ∀ t : Fin grid0.N, _)

/-- The bases' block at point `t` is rows `5000 t … 5000 t + 4999` of every slab of the stacked bases. -/
theorem basesBlock0_apply (c : Dev nD) (t : Fin cfg0.N) (k : Fin 8) (p : Fin 5000) (j : Fin 64) (n : Fin 50000)
    (hn : n.val = t.val * 5000 + p.val) :
    (iblk0 V c 0 t : Vec Ideal S8x5000x64 .bf16) (ix3 k p j)
      = (V c main_v148 : S8x50000x64.Idx → Elt Ideal .bf16) (ix3 k n j) := by
  obtain ⟨e0, e1, e2, -⟩ := idx_facts0 t
  unfold iblk0
  rw [View.read_apply]
  show V c main_v148 _ = V c main_v148 _
  refine congrArg _ (funext fun a => Fin.ext ?_)
  match a with
  | ⟨0, _⟩ => show win0_0.index t (0 : Fin 3) * 8 + 1 * k.val = k.val; rw [e0]; omega
  | ⟨1, _⟩ => show win0_0.index t (1 : Fin 3) * 5000 + 1 * p.val = n.val; rw [e1, hn]; omega
  | ⟨2, _⟩ => show win0_0.index t (2 : Fin 3) * 64 + 1 * j.val = j.val; rw [e2]; omega

/-- The weights' block at every point is the whole stack of weights. -/
theorem weightsBlock0_apply (c : Dev nD) (t : Fin cfg0.N) (k : Fin 8) (j : Fin 64) (f : Fin 64) :
    (iblk0 V c 1 t : Vec Ideal S8x64x64 .bf16) (ix3 k j f)
      = (V c main_v149 : S8x64x64.Idx → Elt Ideal .bf16) (ix3 k j f) := by
  obtain ⟨-, -, -, e0, e1, e2, -⟩ := idx_facts0 t
  unfold iblk0
  rw [View.read_apply]
  show V c main_v149 _ = V c main_v149 _
  refine congrArg _ (funext fun a => Fin.ext ?_)
  match a with
  | ⟨0, _⟩ => show win0_1.index t (0 : Fin 3) * 8 + 1 * k.val = k.val; rw [e0]; omega
  | ⟨1, _⟩ => show win0_1.index t (1 : Fin 3) * 64 + 1 * j.val = j.val; rw [e1]; omega
  | ⟨2, _⟩ => show win0_1.index t (2 : Fin 3) * 64 + 1 * f.val = f.val; rw [e2]; omega

/-- The bias block at every point is the whole bias row. -/
theorem biasBlock0_apply (c : Dev nD) (t : Fin cfg0.N) (f : Fin 64) :
    (iblk0 V c 2 t : Vec Ideal S64 .f32) (ix1 f) = (V c main_arg3 : S64.Idx → Elt Ideal .f32) (ix1 f) := by
  obtain ⟨-, -, -, -, -, -, e0, -⟩ := idx_facts0 t
  unfold iblk0
  rw [View.read_apply]
  show V c main_arg3 _ = V c main_arg3 _
  refine congrArg _ (funext fun a => Fin.ext ?_)
  match a with
  | ⟨0, _⟩ => show win0_2.index t (0 : Fin 1) * 64 + 1 * f.val = f.val; rw [e0]; omega

/-- What point `t` writes back is block `t` of the layer's value on the whole arrays. -/
theorem flushed0_eq (c : Dev nD) (t : Fin cfg0.N) :
    (dat0 V c).flushed 3 t
      = ((cfg0.win 3).blk t).view.read (Elt Ideal) (G0 (V c main_v148) (V c main_v149) (V c main_arg3)) := by
  have hN : grid0.N = 10 := N_0
  have ht : t.val < 10 := hN ▸ t.isLt
  obtain ⟨-, -, -, -, -, -, -, e0, e1⟩ := idx_facts0 t
  show (cfg0.win 3).cut (grid0.coords t) ((dat0 V c).after 3 t) = _
  rw [after0_3]
  unfold outAt0
  rw [out0_eq]
  funext y
  obtain ⟨p, q, rfl⟩ : ∃ (p : Fin 5000) (q : Fin 64), y = ix2 p q := ⟨y 0, y 1, eq_ix2 y⟩
  have hx : (cfg0.win 3).xinj (grid0.coords t) (ix2 p q) = ix2 p q := funext fun a => by
    match a with
    | ⟨0, _⟩ => rfl
    | ⟨1, _⟩ => rfl
  have hn : t.val * 5000 + p.val < 50000 := by have := p.isLt; omega
  have he : ((cfg0.win 3).blk t).view.emb (ix2 p q) = ix2 (⟨t.val * 5000 + p.val, hn⟩ : Fin 50000) q :=
    funext fun a => Fin.ext (by
      match a with
      | ⟨0, _⟩ => show win0_3.index t (0 : Fin 2) * 5000 + 1 * p.val = t.val * 5000 + p.val; rw [e0]; omega
      | ⟨1, _⟩ => show win0_3.index t (1 : Fin 2) * 64 + 1 * q.val = q.val; rw [e1]; omega)
  rw [View.read_apply]
  show body0 (iblk0 V c 0 t) (iblk0 V c 1 t) (iblk0 V c 2 t) ((cfg0.win 3).xinj (grid0.coords t) (ix2 p q))
    = G0 (V c main_v148) (V c main_v149) (V c main_arg3) (((cfg0.win 3).blk t).view.emb (ix2 p q))
  rw [hx, he, body0_apply, G0_apply]
  refine congrArg (max · 0) (layer_congr _ _ _ _ _ _ _ _ _ ?_ ?_ ?_)
  · intro k j; exact basesBlock0_apply V c t k p j _ rfl
  · intro k j; exact weightsBlock0_apply V c t k j q
  · exact biasBlock0_apply V c t q

/-- An index of the output array is in point `t`'s block iff each coordinate is in the block's range on its axis. -/
theorem mem_blk0 (t : Fin cfg0.N) (i : S50000x64.Idx) :
    i ∈ ((cfg0.win 3).blk t).view.set ↔ ∀ a : Fin 2, win0_3.index t a * S5000x64.size a ≤ (i a).val
      ∧ (i a).val < win0_3.index t a * S5000x64.size a + S5000x64.size a := by
  show i ∈ ((View.whole main_v150).slice (win0_3.rect t)).set ↔ _
  rw [View.set_slice_whole, Rect.mem_set_unit]
  exact Iff.rfl

/-- Every row of the output array is in some point's block: row `r` in the block of point `r / 5000`. -/
theorem cover_rows0 (i : S50000x64.Idx) :
    ∃ t : Fin cfg0.N, (cfg0.win 3).flush t = true ∧ i ∈ ((cfg0.win 3).blk t).view.set := by
  have hN : grid0.N = 10 := N_0
  have hi0 : (i 0).val < 50000 := (i 0).isLt
  have hi1 : (i 1).val < 64 := (i 1).isLt
  obtain ⟨t, htv⟩ : ∃ t : Fin cfg0.N, t.val = (i 0).val / 5000 :=
    ⟨⟨(i 0).val / 5000, by show _ < grid0.N; omega⟩, rfl⟩
  obtain ⟨-, -, -, -, -, -, -, e0, e1⟩ := idx_facts0 t
  refine ⟨t, flush0_3 t, ?_⟩
  rw [mem_blk0]
  intro a
  match a with
  | ⟨0, _⟩ =>
    show win0_3.index t (0 : Fin 2) * 5000 ≤ (i 0).val ∧ (i 0).val < win0_3.index t (0 : Fin 2) * 5000 + 5000
    rw [e0, htv]; omega
  | ⟨1, _⟩ =>
    show win0_3.index t (1 : Fin 2) * 64 ≤ (i 1).val ∧ (i 1).val < win0_3.index t (1 : Fin 2) * 64 + 64
    rw [e1]; omega

/-- The output array after the region: the layer's value on the arrays the region found. -/
theorem final0 (c : Dev nD) :
    (dat0 V c).arrAt 3 cfg0.N = G0 (V c main_v148) (V c main_v149) (V c main_arg3) :=
  (dat0 V c).arrAt_eq_of_cover 3 _ (fun t _ => flushed0_eq V c t) cover_rows0

/-! ## Region 1: from the blocks to the array -/

/-- The printed block-index maps over the grid: the stacked bases move one row block per point, the weights and the bias
    stay, the output moves with the bases. -/
theorem idx_facts1 : ∀ t : Fin cfg1.N,
    win1_0.index t (0 : Fin 3) = 0 ∧ win1_0.index t (1 : Fin 3) = t.val ∧ win1_0.index t (2 : Fin 3) = 0
    ∧ win1_1.index t (0 : Fin 3) = 0 ∧ win1_1.index t (1 : Fin 3) = 0 ∧ win1_1.index t (2 : Fin 3) = 0
    ∧ win1_2.index t (0 : Fin 1) = 0
    ∧ win1_3.index t (0 : Fin 2) = t.val ∧ win1_3.index t (1 : Fin 2) = 0 :=
  (by decide +kernel : ∀ t : Fin grid1.N, _)

/-- The bases' block at point `t` is rows `5000 t … 5000 t + 4999` of every slab of the stacked bases. -/
theorem basesBlock1_apply (c : Dev nD) (t : Fin cfg1.N) (k : Fin 8) (p : Fin 5000) (j : Fin 64) (n : Fin 50000)
    (hn : n.val = t.val * 5000 + p.val) :
    (iblk1 V c 0 t : Vec Ideal S8x5000x64 .bf16) (ix3 k p j)
      = (V c main_v269 : S8x50000x64.Idx → Elt Ideal .bf16) (ix3 k n j) := by
  obtain ⟨e0, e1, e2, -⟩ := idx_facts1 t
  unfold iblk1
  rw [View.read_apply]
  show V c main_v269 _ = V c main_v269 _
  refine congrArg _ (funext fun a => Fin.ext ?_)
  match a with
  | ⟨0, _⟩ => show win1_0.index t (0 : Fin 3) * 8 + 1 * k.val = k.val; rw [e0]; omega
  | ⟨1, _⟩ => show win1_0.index t (1 : Fin 3) * 5000 + 1 * p.val = n.val; rw [e1, hn]; omega
  | ⟨2, _⟩ => show win1_0.index t (2 : Fin 3) * 64 + 1 * j.val = j.val; rw [e2]; omega

/-- The weights' block at every point is the whole stack of weights. -/
theorem weightsBlock1_apply (c : Dev nD) (t : Fin cfg1.N) (k : Fin 8) (j : Fin 64) (f : Fin 10) :
    (iblk1 V c 1 t : Vec Ideal S8x64x10 .bf16) (ix3 k j f)
      = (V c main_v270 : S8x64x10.Idx → Elt Ideal .bf16) (ix3 k j f) := by
  obtain ⟨-, -, -, e0, e1, e2, -⟩ := idx_facts1 t
  unfold iblk1
  rw [View.read_apply]
  show V c main_v270 _ = V c main_v270 _
  refine congrArg _ (funext fun a => Fin.ext ?_)
  match a with
  | ⟨0, _⟩ => show win1_1.index t (0 : Fin 3) * 8 + 1 * k.val = k.val; rw [e0]; omega
  | ⟨1, _⟩ => show win1_1.index t (1 : Fin 3) * 64 + 1 * j.val = j.val; rw [e1]; omega
  | ⟨2, _⟩ => show win1_1.index t (2 : Fin 3) * 10 + 1 * f.val = f.val; rw [e2]; omega

/-- The bias block at every point is the whole bias row. -/
theorem biasBlock1_apply (c : Dev nD) (t : Fin cfg1.N) (f : Fin 10) :
    (iblk1 V c 2 t : Vec Ideal S10 .f32) (ix1 f) = (V c main_arg5 : S10.Idx → Elt Ideal .f32) (ix1 f) := by
  obtain ⟨-, -, -, -, -, -, e0, -⟩ := idx_facts1 t
  unfold iblk1
  rw [View.read_apply]
  show V c main_arg5 _ = V c main_arg5 _
  refine congrArg _ (funext fun a => Fin.ext ?_)
  match a with
  | ⟨0, _⟩ => show win1_2.index t (0 : Fin 1) * 10 + 1 * f.val = f.val; rw [e0]; omega

/-- What point `t` writes back is block `t` of the layer's value on the whole arrays. -/
theorem flushed1_eq (c : Dev nD) (t : Fin cfg1.N) :
    (dat1 V c).flushed 3 t
      = ((cfg1.win 3).blk t).view.read (Elt Ideal) (G1 (V c main_v269) (V c main_v270) (V c main_arg5)) := by
  have hN : grid1.N = 10 := N_1
  have ht : t.val < 10 := hN ▸ t.isLt
  obtain ⟨-, -, -, -, -, -, -, e0, e1⟩ := idx_facts1 t
  show (cfg1.win 3).cut (grid1.coords t) ((dat1 V c).after 3 t) = _
  rw [after1_3]
  unfold outAt1
  rw [out1_eq]
  funext y
  obtain ⟨p, q, rfl⟩ : ∃ (p : Fin 5000) (q : Fin 10), y = ix2 p q := ⟨y 0, y 1, eq_ix2 y⟩
  have hx : (cfg1.win 3).xinj (grid1.coords t) (ix2 p q) = ix2 p q := funext fun a => by
    match a with
    | ⟨0, _⟩ => rfl
    | ⟨1, _⟩ => rfl
  have hn : t.val * 5000 + p.val < 50000 := by have := p.isLt; omega
  have he : ((cfg1.win 3).blk t).view.emb (ix2 p q) = ix2 (⟨t.val * 5000 + p.val, hn⟩ : Fin 50000) q :=
    funext fun a => Fin.ext (by
      match a with
      | ⟨0, _⟩ => show win1_3.index t (0 : Fin 2) * 5000 + 1 * p.val = t.val * 5000 + p.val; rw [e0]; omega
      | ⟨1, _⟩ => show win1_3.index t (1 : Fin 2) * 10 + 1 * q.val = q.val; rw [e1]; omega)
  rw [View.read_apply]
  show body1 (iblk1 V c 0 t) (iblk1 V c 1 t) (iblk1 V c 2 t) ((cfg1.win 3).xinj (grid1.coords t) (ix2 p q))
    = G1 (V c main_v269) (V c main_v270) (V c main_arg5) (((cfg1.win 3).blk t).view.emb (ix2 p q))
  rw [hx, he, body1_apply, G1_apply]
  refine layer_congr _ _ _ _ _ _ _ _ _ ?_ ?_ ?_
  · intro k j; exact basesBlock1_apply V c t k p j _ rfl
  · intro k j; exact weightsBlock1_apply V c t k j q
  · exact biasBlock1_apply V c t q

/-- An index of the output array is in point `t`'s block iff each coordinate is in the block's range on its axis. -/
theorem mem_blk1 (t : Fin cfg1.N) (i : S50000x10.Idx) :
    i ∈ ((cfg1.win 3).blk t).view.set ↔ ∀ a : Fin 2, win1_3.index t a * S5000x10.size a ≤ (i a).val
      ∧ (i a).val < win1_3.index t a * S5000x10.size a + S5000x10.size a := by
  show i ∈ ((View.whole main_v271).slice (win1_3.rect t)).set ↔ _
  rw [View.set_slice_whole, Rect.mem_set_unit]
  exact Iff.rfl

/-- Every row of the output array is in some point's block: row `r` in the block of point `r / 5000`. -/
theorem cover_rows1 (i : S50000x10.Idx) :
    ∃ t : Fin cfg1.N, (cfg1.win 3).flush t = true ∧ i ∈ ((cfg1.win 3).blk t).view.set := by
  have hN : grid1.N = 10 := N_1
  have hi0 : (i 0).val < 50000 := (i 0).isLt
  have hi1 : (i 1).val < 10 := (i 1).isLt
  obtain ⟨t, htv⟩ : ∃ t : Fin cfg1.N, t.val = (i 0).val / 5000 :=
    ⟨⟨(i 0).val / 5000, by show _ < grid1.N; omega⟩, rfl⟩
  obtain ⟨-, -, -, -, -, -, -, e0, e1⟩ := idx_facts1 t
  refine ⟨t, flush1_3 t, ?_⟩
  rw [mem_blk1]
  intro a
  match a with
  | ⟨0, _⟩ =>
    show win1_3.index t (0 : Fin 2) * 5000 ≤ (i 0).val ∧ (i 0).val < win1_3.index t (0 : Fin 2) * 5000 + 5000
    rw [e0, htv]; omega
  | ⟨1, _⟩ =>
    show win1_3.index t (1 : Fin 2) * 10 ≤ (i 1).val ∧ (i 1).val < win1_3.index t (1 : Fin 2) * 10 + 10
    rw [e1]; omega

/-- The output array after the region: the layer's value on the arrays the region found. -/
theorem final1 (c : Dev nD) :
    (dat1 V c).arrAt 3 cfg1.N = G1 (V c main_v269) (V c main_v270) (V c main_arg5) :=
  (dat1 V c).arrAt_eq_of_cover 3 _ (fun t _ => flushed1_eq V c t) cover_rows1

end Closed

end Cert.KernelIdeal.Hand

end
-- ==== Proof.LibNaryEight.lean ====
/-
  A host operation of exactly eight operands given as a literal family (an eight-way concatenate): its result is its
  function applied to the eight operands, each read at its own reference.
-/
import Idealize.ShloMosaic.Lib.StableHlo.Run

noncomputable section

namespace Cert.NaryEight

open Idealize.ShloMosaic Idealize.ShloMosaic.StableHlo

variable {τ : Topo} {sig : RefSig} {Val : EltTy → Type}
variable {x0 x1 x2 x3 x4 x5 x6 x7 y : Ref sig .tc}

/-- The result of an eight-operand operation, each operand's contents at its own reference. -/
theorem nary8_result
    (f : ((k : Fin 8) → ((![x0, x1, x2, x3, x4, x5, x6, x7] : Fin 8 → Ref sig .tc) k).ty.Contents Val) → y.ty.Contents Val) (hxs hy)
    (F : Valuation τ sig Val) :
    (nary (τ := τ) ![x0, x1, x2, x3, x4, x5, x6, x7] y f hxs hy).result F (Proc.devRef .tc y)
      = f (Fin.cons (F (Proc.devRef .tc x0)) (Fin.cons (F (Proc.devRef .tc x1)) (Fin.cons (F (Proc.devRef .tc x2)) (Fin.cons (F (Proc.devRef .tc x3))
          (Fin.cons (F (Proc.devRef .tc x4)) (Fin.cons (F (Proc.devRef .tc x5)) (Fin.cons (F (Proc.devRef .tc x6)) (Fin.cons (F (Proc.devRef .tc x7)) (fun i => i.elim0))))))))) := by
  rw [nary_result]; congr 1; funext k; fin_cases k <;> rfl

/-- The same with the result reference kept out of the rewriting index. -/
theorem nary8_result'
    (f : ((k : Fin 8) → ((![x0, x1, x2, x3, x4, x5, x6, x7] : Fin 8 → Ref sig .tc) k).ty.Contents Val) → y.ty.Contents Val) (hxs hy)
    (F : Valuation τ sig Val) :
    (nary (τ := τ) ![x0, x1, x2, x3, x4, x5, x6, x7] y f hxs hy).result F (no_index (Proc.devRef .tc y))
      = f (Fin.cons (F (Proc.devRef .tc x0)) (Fin.cons (F (Proc.devRef .tc x1)) (Fin.cons (F (Proc.devRef .tc x2)) (Fin.cons (F (Proc.devRef .tc x3))
          (Fin.cons (F (Proc.devRef .tc x4)) (Fin.cons (F (Proc.devRef .tc x5)) (Fin.cons (F (Proc.devRef .tc x6)) (Fin.cons (F (Proc.devRef .tc x7)) (fun i => i.elim0))))))))) :=
  nary8_result f hxs hy F

/-- An eight-entry family built entry by entry, read at each of its eight places. -/
theorem cons8_0 {α : Fin 8 → Type} (a0 : α 0) (a1 : α 1) (a2 : α 2) (a3 : α 3) (a4 : α 4) (a5 : α 5) (a6 : α 6) (a7 : α 7) :
    (Fin.cons (α := α) a0 (Fin.cons (α := fun i : Fin 7 => α i.succ) a1 (Fin.cons (α := fun i : Fin 6 => α i.succ.succ) a2 (Fin.cons (α := fun i : Fin 5 => α i.succ.succ.succ) a3
      (Fin.cons (α := fun i : Fin 4 => α i.succ.succ.succ.succ) a4 (Fin.cons (α := fun i : Fin 3 => α i.succ.succ.succ.succ.succ) a5
        (Fin.cons (α := fun i : Fin 2 => α i.succ.succ.succ.succ.succ.succ) a6 (Fin.cons (α := fun i : Fin 1 => α i.succ.succ.succ.succ.succ.succ.succ) a7 (fun i => i.elim0)))))))) : (i : Fin 8) → α i) 0 = a0 := rfl
theorem cons8_1 {α : Fin 8 → Type} (a0 : α 0) (a1 : α 1) (a2 : α 2) (a3 : α 3) (a4 : α 4) (a5 : α 5) (a6 : α 6) (a7 : α 7) :
    (Fin.cons (α := α) a0 (Fin.cons (α := fun i : Fin 7 => α i.succ) a1 (Fin.cons (α := fun i : Fin 6 => α i.succ.succ) a2 (Fin.cons (α := fun i : Fin 5 => α i.succ.succ.succ) a3
      (Fin.cons (α := fun i : Fin 4 => α i.succ.succ.succ.succ) a4 (Fin.cons (α := fun i : Fin 3 => α i.succ.succ.succ.succ.succ) a5
        (Fin.cons (α := fun i : Fin 2 => α i.succ.succ.succ.succ.succ.succ) a6 (Fin.cons (α := fun i : Fin 1 => α i.succ.succ.succ.succ.succ.succ.succ) a7 (fun i => i.elim0)))))))) : (i : Fin 8) → α i) 1 = a1 := rfl
theorem cons8_2 {α : Fin 8 → Type} (a0 : α 0) (a1 : α 1) (a2 : α 2) (a3 : α 3) (a4 : α 4) (a5 : α 5) (a6 : α 6) (a7 : α 7) :
    (Fin.cons (α := α) a0 (Fin.cons (α := fun i : Fin 7 => α i.succ) a1 (Fin.cons (α := fun i : Fin 6 => α i.succ.succ) a2 (Fin.cons (α := fun i : Fin 5 => α i.succ.succ.succ) a3
      (Fin.cons (α := fun i : Fin 4 => α i.succ.succ.succ.succ) a4 (Fin.cons (α := fun i : Fin 3 => α i.succ.succ.succ.succ.succ) a5
        (Fin.cons (α := fun i : Fin 2 => α i.succ.succ.succ.succ.succ.succ) a6 (Fin.cons (α := fun i : Fin 1 => α i.succ.succ.succ.succ.succ.succ.succ) a7 (fun i => i.elim0)))))))) : (i : Fin 8) → α i) 2 = a2 := rfl
theorem cons8_3 {α : Fin 8 → Type} (a0 : α 0) (a1 : α 1) (a2 : α 2) (a3 : α 3) (a4 : α 4) (a5 : α 5) (a6 : α 6) (a7 : α 7) :
    (Fin.cons (α := α) a0 (Fin.cons (α := fun i : Fin 7 => α i.succ) a1 (Fin.cons (α := fun i : Fin 6 => α i.succ.succ) a2 (Fin.cons (α := fun i : Fin 5 => α i.succ.succ.succ) a3
      (Fin.cons (α := fun i : Fin 4 => α i.succ.succ.succ.succ) a4 (Fin.cons (α := fun i : Fin 3 => α i.succ.succ.succ.succ.succ) a5
        (Fin.cons (α := fun i : Fin 2 => α i.succ.succ.succ.succ.succ.succ) a6 (Fin.cons (α := fun i : Fin 1 => α i.succ.succ.succ.succ.succ.succ.succ) a7 (fun i => i.elim0)))))))) : (i : Fin 8) → α i) 3 = a3 := rfl
theorem cons8_4 {α : Fin 8 → Type} (a0 : α 0) (a1 : α 1) (a2 : α 2) (a3 : α 3) (a4 : α 4) (a5 : α 5) (a6 : α 6) (a7 : α 7) :
    (Fin.cons (α := α) a0 (Fin.cons (α := fun i : Fin 7 => α i.succ) a1 (Fin.cons (α := fun i : Fin 6 => α i.succ.succ) a2 (Fin.cons (α := fun i : Fin 5 => α i.succ.succ.succ) a3
      (Fin.cons (α := fun i : Fin 4 => α i.succ.succ.succ.succ) a4 (Fin.cons (α := fun i : Fin 3 => α i.succ.succ.succ.succ.succ) a5
        (Fin.cons (α := fun i : Fin 2 => α i.succ.succ.succ.succ.succ.succ) a6 (Fin.cons (α := fun i : Fin 1 => α i.succ.succ.succ.succ.succ.succ.succ) a7 (fun i => i.elim0)))))))) : (i : Fin 8) → α i) 4 = a4 := rfl
theorem cons8_5 {α : Fin 8 → Type} (a0 : α 0) (a1 : α 1) (a2 : α 2) (a3 : α 3) (a4 : α 4) (a5 : α 5) (a6 : α 6) (a7 : α 7) :
    (Fin.cons (α := α) a0 (Fin.cons (α := fun i : Fin 7 => α i.succ) a1 (Fin.cons (α := fun i : Fin 6 => α i.succ.succ) a2 (Fin.cons (α := fun i : Fin 5 => α i.succ.succ.succ) a3
      (Fin.cons (α := fun i : Fin 4 => α i.succ.succ.succ.succ) a4 (Fin.cons (α := fun i : Fin 3 => α i.succ.succ.succ.succ.succ) a5
        (Fin.cons (α := fun i : Fin 2 => α i.succ.succ.succ.succ.succ.succ) a6 (Fin.cons (α := fun i : Fin 1 => α i.succ.succ.succ.succ.succ.succ.succ) a7 (fun i => i.elim0)))))))) : (i : Fin 8) → α i) 5 = a5 := rfl
theorem cons8_6 {α : Fin 8 → Type} (a0 : α 0) (a1 : α 1) (a2 : α 2) (a3 : α 3) (a4 : α 4) (a5 : α 5) (a6 : α 6) (a7 : α 7) :
    (Fin.cons (α := α) a0 (Fin.cons (α := fun i : Fin 7 => α i.succ) a1 (Fin.cons (α := fun i : Fin 6 => α i.succ.succ) a2 (Fin.cons (α := fun i : Fin 5 => α i.succ.succ.succ) a3
      (Fin.cons (α := fun i : Fin 4 => α i.succ.succ.succ.succ) a4 (Fin.cons (α := fun i : Fin 3 => α i.succ.succ.succ.succ.succ) a5
        (Fin.cons (α := fun i : Fin 2 => α i.succ.succ.succ.succ.succ.succ) a6 (Fin.cons (α := fun i : Fin 1 => α i.succ.succ.succ.succ.succ.succ.succ) a7 (fun i => i.elim0)))))))) : (i : Fin 8) → α i) 6 = a6 := rfl
theorem cons8_7 {α : Fin 8 → Type} (a0 : α 0) (a1 : α 1) (a2 : α 2) (a3 : α 3) (a4 : α 4) (a5 : α 5) (a6 : α 6) (a7 : α 7) :
    (Fin.cons (α := α) a0 (Fin.cons (α := fun i : Fin 7 => α i.succ) a1 (Fin.cons (α := fun i : Fin 6 => α i.succ.succ) a2 (Fin.cons (α := fun i : Fin 5 => α i.succ.succ.succ) a3
      (Fin.cons (α := fun i : Fin 4 => α i.succ.succ.succ.succ) a4 (Fin.cons (α := fun i : Fin 3 => α i.succ.succ.succ.succ.succ) a5
        (Fin.cons (α := fun i : Fin 2 => α i.succ.succ.succ.succ.succ.succ) a6 (Fin.cons (α := fun i : Fin 1 => α i.succ.succ.succ.succ.succ.succ.succ) a7 (fun i => i.elim0)))))))) : (i : Fin 8) → α i) 7 = a7 := rfl

/-- The result-rewriting pass over a literal list of host operations, with the eight-operand rule in place of the general one. -/
macro "host_results8" : tactic =>
  `(tactic| (simp (disch := decide) only [after_cons, after_nil,
      nullary_result', unary_result', binary_result', ternary_result', quaternary_result', reshape_result', nary8_result', cons8_0, cons8_1, cons8_2, cons8_3, cons8_4, cons8_5, cons8_6, cons8_7,
      unaryIndexed_result', binaryIndexed_result',
      nullary_result_ne', unary_result_ne', binary_result_ne', ternary_result_ne', quaternary_result_ne', reshape_result_ne',
      nary_result_ne', unaryIndexed_result_ne', binaryIndexed_result_ne']))

end Cert.NaryEight

end
-- ==== Proof.KI.HostSplit.lean ====
/-
  The host stretches before each kernel, cut in two: the operations up to the last Chebyshev basis, and the last eleven
  (each of the eight bases given a leading unit axis, the eight concatenated along it, the stack and the layer's weights
  rounded to the kernel's input format).  After the last eleven the kernel's first operand is the stack of the eight
  bases as they stood before them, and its second operand the rounded weights.
-/
import proofs.«145562_j85014582657503_2_alg».proof.Proof.Gen.KernelIdeal.Launch
import proofs.«145562_j85014582657503_2_alg».proof.Proof.LibNaryEight
import Idealize.ShloMosaic.Lib.Pipeline.Frame
import Idealize.ShloMosaic.Lib.StableHlo.Run

set_option maxRecDepth 16384

noncomputable section

namespace Cert.KernelIdeal.Hand

open Cert.KernelIdeal Cert.KernelIdeal.Gen Cert.NaryEight
open Idealize.ShloMosaic Idealize.ShloMosaic.TcCoe Idealize.SL.Sem Idealize.ShloMosaic.StableHlo

variable {F : FTy → Type} [FloatOps F]

set_option maxHeartbeats 40000000 in
/-- The long stretch before the first kernel, up to the last Chebyshev basis of layer 1, -/
abbrev pre0 : List (HloOp τ sig (Elt F)) :=
  ( StableHlo.nullary main_c (constantI S_ 32 0#32)
  :: StableHlo.unary main_c main_v14 (broadcastInDim S800000 ![] bcast_S_S800000 : (⟨S_, .i32⟩ : BufTy).Contents (Elt F) → (⟨S800000, .i32⟩ : BufTy).Contents (Elt F))
  :: StableHlo.binary main_v1 main_v14 main_v15 (cmpi .slt : (⟨S800000, .i32⟩ : BufTy).Contents (Elt F) → (⟨S800000, .i32⟩ : BufTy).Contents (Elt F) → (⟨S800000, .i1⟩ : BufTy).Contents (Elt F))
  :: StableHlo.nullary main_c_4 (constantI S_ 32 50000#32)
  :: StableHlo.unary main_c_4 main_v16 (broadcastInDim S800000 ![] bcast_S_S800000 : (⟨S_, .i32⟩ : BufTy).Contents (Elt F) → (⟨S800000, .i32⟩ : BufTy).Contents (Elt F))
  :: StableHlo.binary main_v1 main_v16 main_v17 (addi : (⟨S800000, .i32⟩ : BufTy).Contents (Elt F) → (⟨S800000, .i32⟩ : BufTy).Contents (Elt F) → (⟨S800000, .i32⟩ : BufTy).Contents (Elt F))
  :: StableHlo.ternary main_v15 main_v17 main_v1 main_v18 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F))
  :: StableHlo.unary main_v18 main_v19 (broadcastInDim S800000x1 ![0] bcast_S800000_S800000x1_0 : (⟨S800000, .i32⟩ : BufTy).Contents (Elt F) → (⟨S800000x1, .i32⟩ : BufTy).Contents (Elt F))
  :: StableHlo.binary main_v13 main_v19 main_v20 ((fun x i => Host.gather gather_S50000_S800000x1_S800000_n_0_n_n_0_1_1 x i) : (⟨S50000, .f32⟩ : BufTy).Contents (Elt F) → (⟨S800000x1, .i32⟩ : BufTy).Contents (Elt F) → (⟨S800000, .f32⟩ : BufTy).Contents (Elt F))
  :: StableHlo.unary main_v20 main_v21 (Host.negf : (⟨S800000, .f32⟩ : BufTy).Contents (Elt F) → (⟨S800000, .f32⟩ : BufTy).Contents (Elt F))
  :: StableHlo.nullary main_c_5 (constantI S_ 32 0#32)
  :: StableHlo.unary main_c_5 main_v22 (broadcastInDim S800000 ![] bcast_S_S800000 : (⟨S_, .i32⟩ : BufTy).Contents (Elt F) → (⟨S800000, .i32⟩ : BufTy).Contents (Elt F))
  :: StableHlo.binary main_v3 main_v22 main_v23 (cmpi .slt : (⟨S800000, .i32⟩ : BufTy).Contents (Elt F) → (⟨S800000, .i32⟩ : BufTy).Contents (Elt F) → (⟨S800000, .i1⟩ : BufTy).Contents (Elt F))
  :: StableHlo.nullary main_c_6 (constantI S_ 32 50000#32)
  :: StableHlo.unary main_c_6 main_v24 (broadcastInDim S800000 ![] bcast_S_S800000 : (⟨S_, .i32⟩ : BufTy).Contents (Elt F) → (⟨S800000, .i32⟩ : BufTy).Contents (Elt F))
  :: StableHlo.binary main_v3 main_v24 main_v25 (addi : (⟨S800000, .i32⟩ : BufTy).Contents (Elt F) → (⟨S800000, .i32⟩ : BufTy).Contents (Elt F) → (⟨S800000, .i32⟩ : BufTy).Contents (Elt F))
  :: StableHlo.ternary main_v23 main_v25 main_v3 main_v26 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F))
  :: StableHlo.unary main_v26 main_v27 (broadcastInDim S800000x1 ![0] bcast_S800000_S800000x1_0 : (⟨S800000, .i32⟩ : BufTy).Contents (Elt F) → (⟨S800000x1, .i32⟩ : BufTy).Contents (Elt F))
  :: StableHlo.binary main_v13 main_v27 main_v28 ((fun x i => Host.gather gather_S50000_S800000x1_S800000_n_0_n_n_0_1_1 x i) : (⟨S50000, .f32⟩ : BufTy).Contents (Elt F) → (⟨S800000x1, .i32⟩ : BufTy).Contents (Elt F) → (⟨S800000, .f32⟩ : BufTy).Contents (Elt F))
  :: StableHlo.binary main_v21 main_v28 main_v29 (mulf : (⟨S800000, .f32⟩ : BufTy).Contents (Elt F) → (⟨S800000, .f32⟩ : BufTy).Contents (Elt F) → (⟨S800000, .f32⟩ : BufTy).Contents (Elt F))
  :: StableHlo.unary main_v29 main_v30 (broadcastInDim S800000x1 ![0] bcast_S800000_S800000x1_0 : (⟨S800000, .f32⟩ : BufTy).Contents (Elt F) → (⟨S800000x1, .f32⟩ : BufTy).Contents (Elt F))
  :: StableHlo.nullary main_c_7 (constantI S_ 32 0#32)
  :: StableHlo.unary main_c_7 main_v31 (broadcastInDim S800000 ![] bcast_S_S800000 : (⟨S_, .i32⟩ : BufTy).Contents (Elt F) → (⟨S800000, .i32⟩ : BufTy).Contents (Elt F))
  :: StableHlo.binary main_v1 main_v31 main_v32 (cmpi .slt : (⟨S800000, .i32⟩ : BufTy).Contents (Elt F) → (⟨S800000, .i32⟩ : BufTy).Contents (Elt F) → (⟨S800000, .i1⟩ : BufTy).Contents (Elt F))
  :: StableHlo.nullary main_c_8 (constantI S_ 32 50000#32)
  :: StableHlo.unary main_c_8 main_v33 (broadcastInDim S800000 ![] bcast_S_S800000 : (⟨S_, .i32⟩ : BufTy).Contents (Elt F) → (⟨S800000, .i32⟩ : BufTy).Contents (Elt F))
  :: StableHlo.binary main_v1 main_v33 main_v34 (addi : (⟨S800000, .i32⟩ : BufTy).Contents (Elt F) → (⟨S800000, .i32⟩ : BufTy).Contents (Elt F) → (⟨S800000, .i32⟩ : BufTy).Contents (Elt F))
  :: StableHlo.ternary main_v32 main_v34 main_v1 main_v35 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F))
  :: StableHlo.unary main_v35 main_v36 (broadcastInDim S800000x1 ![0] bcast_S800000_S800000x1_0 : (⟨S800000, .i32⟩ : BufTy).Contents (Elt F) → (⟨S800000x1, .i32⟩ : BufTy).Contents (Elt F))
  :: StableHlo.binary main_arg0 main_v36 main_v37 ((fun x i => Host.gather gather_S50000x64_S800000x1_S800000x64_1_0_n_n_0_1_164 x i) : (⟨S50000x64, .f32⟩ : BufTy).Contents (Elt F) → (⟨S800000x1, .i32⟩ : BufTy).Contents (Elt F) → (⟨S800000x64, .f32⟩ : BufTy).Contents (Elt F))
  :: StableHlo.unary main_v30 main_v38 (broadcastInDim S800000x64 ![0, 1] bcast_S800000x1_S800000x64_0_1 : (⟨S800000x1, .f32⟩ : BufTy).Contents (Elt F) → (⟨S800000x64, .f32⟩ : BufTy).Contents (Elt F))
  :: StableHlo.binary main_v38 main_v37 main_v39 (mulf : (⟨S800000x64, .f32⟩ : BufTy).Contents (Elt F) → (⟨S800000x64, .f32⟩ : BufTy).Contents (Elt F) → (⟨S800000x64, .f32⟩ : BufTy).Contents (Elt F))
  :: StableHlo.nullary main_cst_9 (constant S_ .f32 0x00000000#32)
  :: StableHlo.unary main_cst_9 main_v40 (broadcastInDim S50000x64 ![] bcast_S_S50000x64 : (⟨S_, .f32⟩ : BufTy).Contents (Elt F) → (⟨S50000x64, .f32⟩ : BufTy).Contents (Elt F))
  :: StableHlo.unary main_v3 main_v41 (broadcastInDim S800000x1 ![0] bcast_S800000_S800000x1_0 : (⟨S800000, .i32⟩ : BufTy).Contents (Elt F) → (⟨S800000x1, .i32⟩ : BufTy).Contents (Elt F))
  :: StableHlo.ternary main_v40 main_v41 main_v39 main_v42 ((fun x i u => Host.scatterAdd scatter_S50000x64_S800000x1_S800000x64_1_0_0_1 x i u) : (⟨S50000x64, .f32⟩ : BufTy).Contents (Elt F) → (⟨S800000x1, .i32⟩ : BufTy).Contents (Elt F) → (⟨S800000x64, .f32⟩ : BufTy).Contents (Elt F) → (⟨S50000x64, .f32⟩ : BufTy).Contents (Elt F))
  :: StableHlo.unary main_v29 main_v43 (broadcastInDim S800000x1 ![0] bcast_S800000_S800000x1_0 : (⟨S800000, .f32⟩ : BufTy).Contents (Elt F) → (⟨S800000x1, .f32⟩ : BufTy).Contents (Elt F))
  :: StableHlo.nullary main_c_10 (constantI S_ 32 0#32)
  :: StableHlo.unary main_c_10 main_v44 (broadcastInDim S800000 ![] bcast_S_S800000 : (⟨S_, .i32⟩ : BufTy).Contents (Elt F) → (⟨S800000, .i32⟩ : BufTy).Contents (Elt F))
  :: StableHlo.binary main_v1 main_v44 main_v45 (cmpi .slt : (⟨S800000, .i32⟩ : BufTy).Contents (Elt F) → (⟨S800000, .i32⟩ : BufTy).Contents (Elt F) → (⟨S800000, .i1⟩ : BufTy).Contents (Elt F))
  :: StableHlo.nullary main_c_11 (constantI S_ 32 50000#32)
  :: StableHlo.unary main_c_11 main_v46 (broadcastInDim S800000 ![] bcast_S_S800000 : (⟨S_, .i32⟩ : BufTy).Contents (Elt F) → (⟨S800000, .i32⟩ : BufTy).Contents (Elt F))
  :: StableHlo.binary main_v1 main_v46 main_v47 (addi : (⟨S800000, .i32⟩ : BufTy).Contents (Elt F) → (⟨S800000, .i32⟩ : BufTy).Contents (Elt F) → (⟨S800000, .i32⟩ : BufTy).Contents (Elt F))
  :: StableHlo.ternary main_v45 main_v47 main_v1 main_v48 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F))
  :: StableHlo.unary main_v48 main_v49 (broadcastInDim S800000x1 ![0] bcast_S800000_S800000x1_0 : (⟨S800000, .i32⟩ : BufTy).Contents (Elt F) → (⟨S800000x1, .i32⟩ : BufTy).Contents (Elt F))
  :: StableHlo.binary main_v42 main_v49 main_v50 ((fun x i => Host.gather gather_S50000x64_S800000x1_S800000x64_1_0_n_n_0_1_164 x i) : (⟨S50000x64, .f32⟩ : BufTy).Contents (Elt F) → (⟨S800000x1, .i32⟩ : BufTy).Contents (Elt F) → (⟨S800000x64, .f32⟩ : BufTy).Contents (Elt F))
  :: StableHlo.unary main_v43 main_v51 (broadcastInDim S800000x64 ![0, 1] bcast_S800000x1_S800000x64_0_1 : (⟨S800000x1, .f32⟩ : BufTy).Contents (Elt F) → (⟨S800000x64, .f32⟩ : BufTy).Contents (Elt F))
  :: StableHlo.binary main_v51 main_v50 main_v52 (mulf : (⟨S800000x64, .f32⟩ : BufTy).Contents (Elt F) → (⟨S800000x64, .f32⟩ : BufTy).Contents (Elt F) → (⟨S800000x64, .f32⟩ : BufTy).Contents (Elt F))
  :: StableHlo.nullary main_cst_12 (constant S_ .f32 0x00000000#32)
  :: StableHlo.unary main_cst_12 main_v53 (broadcastInDim S50000x64 ![] bcast_S_S50000x64 : (⟨S_, .f32⟩ : BufTy).Contents (Elt F) → (⟨S50000x64, .f32⟩ : BufTy).Contents (Elt F))
  :: StableHlo.unary main_v3 main_v54 (broadcastInDim S800000x1 ![0] bcast_S800000_S800000x1_0 : (⟨S800000, .i32⟩ : BufTy).Contents (Elt F) → (⟨S800000x1, .i32⟩ : BufTy).Contents (Elt F))
  :: StableHlo.ternary main_v53 main_v54 main_v52 main_v55 ((fun x i u => Host.scatterAdd scatter_S50000x64_S800000x1_S800000x64_1_0_0_1 x i u) : (⟨S50000x64, .f32⟩ : BufTy).Contents (Elt F) → (⟨S800000x1, .i32⟩ : BufTy).Contents (Elt F) → (⟨S800000x64, .f32⟩ : BufTy).Contents (Elt F) → (⟨S50000x64, .f32⟩ : BufTy).Contents (Elt F))
  :: StableHlo.nullary main_cst_13 (constant S_ .f32 0x40000000#32)
  :: StableHlo.unary main_cst_13 main_v56 (broadcastInDim S50000x64 ![] bcast_S_S50000x64 : (⟨S_, .f32⟩ : BufTy).Contents (Elt F) → (⟨S50000x64, .f32⟩ : BufTy).Contents (Elt F))
  :: StableHlo.binary main_v56 main_v55 main_v57 (mulf : (⟨S50000x64, .f32⟩ : BufTy).Contents (Elt F) → (⟨S50000x64, .f32⟩ : BufTy).Contents (Elt F) → (⟨S50000x64, .f32⟩ : BufTy).Contents (Elt F))
  :: StableHlo.binary main_v57 main_arg0 main_v58 (subf : (⟨S50000x64, .f32⟩ : BufTy).Contents (Elt F) → (⟨S50000x64, .f32⟩ : BufTy).Contents (Elt F) → (⟨S50000x64, .f32⟩ : BufTy).Contents (Elt F))
  :: StableHlo.unary main_v29 main_v59 (broadcastInDim S800000x1 ![0] bcast_S800000_S800000x1_0 : (⟨S800000, .f32⟩ : BufTy).Contents (Elt F) → (⟨S800000x1, .f32⟩ : BufTy).Contents (Elt F))
  :: StableHlo.nullary main_c_14 (constantI S_ 32 0#32)
  :: StableHlo.unary main_c_14 main_v60 (broadcastInDim S800000 ![] bcast_S_S800000 : (⟨S_, .i32⟩ : BufTy).Contents (Elt F) → (⟨S800000, .i32⟩ : BufTy).Contents (Elt F))
  :: StableHlo.binary main_v1 main_v60 main_v61 (cmpi .slt : (⟨S800000, .i32⟩ : BufTy).Contents (Elt F) → (⟨S800000, .i32⟩ : BufTy).Contents (Elt F) → (⟨S800000, .i1⟩ : BufTy).Contents (Elt F))
  :: StableHlo.nullary main_c_15 (constantI S_ 32 50000#32)
  :: StableHlo.unary main_c_15 main_v62 (broadcastInDim S800000 ![] bcast_S_S800000 : (⟨S_, .i32⟩ : BufTy).Contents (Elt F) → (⟨S800000, .i32⟩ : BufTy).Contents (Elt F))
  :: StableHlo.binary main_v1 main_v62 main_v63 (addi : (⟨S800000, .i32⟩ : BufTy).Contents (Elt F) → (⟨S800000, .i32⟩ : BufTy).Contents (Elt F) → (⟨S800000, .i32⟩ : BufTy).Contents (Elt F))
  :: StableHlo.ternary main_v61 main_v63 main_v1 main_v64 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F))
  :: StableHlo.unary main_v64 main_v65 (broadcastInDim S800000x1 ![0] bcast_S800000_S800000x1_0 : (⟨S800000, .i32⟩ : BufTy).Contents (Elt F) → (⟨S800000x1, .i32⟩ : BufTy).Contents (Elt F))
  :: StableHlo.binary main_v58 main_v65 main_v66 ((fun x i => Host.gather gather_S50000x64_S800000x1_S800000x64_1_0_n_n_0_1_164 x i) : (⟨S50000x64, .f32⟩ : BufTy).Contents (Elt F) → (⟨S800000x1, .i32⟩ : BufTy).Contents (Elt F) → (⟨S800000x64, .f32⟩ : BufTy).Contents (Elt F))
  :: StableHlo.unary main_v59 main_v67 (broadcastInDim S800000x64 ![0, 1] bcast_S800000x1_S800000x64_0_1 : (⟨S800000x1, .f32⟩ : BufTy).Contents (Elt F) → (⟨S800000x64, .f32⟩ : BufTy).Contents (Elt F))
  :: StableHlo.binary main_v67 main_v66 main_v68 (mulf : (⟨S800000x64, .f32⟩ : BufTy).Contents (Elt F) → (⟨S800000x64, .f32⟩ : BufTy).Contents (Elt F) → (⟨S800000x64, .f32⟩ : BufTy).Contents (Elt F))
  :: StableHlo.nullary main_cst_16 (constant S_ .f32 0x00000000#32)
  :: StableHlo.unary main_cst_16 main_v69 (broadcastInDim S50000x64 ![] bcast_S_S50000x64 : (⟨S_, .f32⟩ : BufTy).Contents (Elt F) → (⟨S50000x64, .f32⟩ : BufTy).Contents (Elt F))
  :: StableHlo.unary main_v3 main_v70 (broadcastInDim S800000x1 ![0] bcast_S800000_S800000x1_0 : (⟨S800000, .i32⟩ : BufTy).Contents (Elt F) → (⟨S800000x1, .i32⟩ : BufTy).Contents (Elt F))
  :: StableHlo.ternary main_v69 main_v70 main_v68 main_v71 ((fun x i u => Host.scatterAdd scatter_S50000x64_S800000x1_S800000x64_1_0_0_1 x i u) : (⟨S50000x64, .f32⟩ : BufTy).Contents (Elt F) → (⟨S800000x1, .i32⟩ : BufTy).Contents (Elt F) → (⟨S800000x64, .f32⟩ : BufTy).Contents (Elt F) → (⟨S50000x64, .f32⟩ : BufTy).Contents (Elt F))
  :: StableHlo.nullary main_cst_17 (constant S_ .f32 0x40000000#32)
  :: StableHlo.unary main_cst_17 main_v72 (broadcastInDim S50000x64 ![] bcast_S_S50000x64 : (⟨S_, .f32⟩ : BufTy).Contents (Elt F) → (⟨S50000x64, .f32⟩ : BufTy).Contents (Elt F))
  :: StableHlo.binary main_v72 main_v71 main_v73 (mulf : (⟨S50000x64, .f32⟩ : BufTy).Contents (Elt F) → (⟨S50000x64, .f32⟩ : BufTy).Contents (Elt F) → (⟨S50000x64, .f32⟩ : BufTy).Contents (Elt F))
  :: StableHlo.binary main_v73 main_v42 main_v74 (subf : (⟨S50000x64, .f32⟩ : BufTy).Contents (Elt F) → (⟨S50000x64, .f32⟩ : BufTy).Contents (Elt F) → (⟨S50000x64, .f32⟩ : BufTy).Contents (Elt F))
  :: StableHlo.unary main_v29 main_v75 (broadcastInDim S800000x1 ![0] bcast_S800000_S800000x1_0 : (⟨S800000, .f32⟩ : BufTy).Contents (Elt F) → (⟨S800000x1, .f32⟩ : BufTy).Contents (Elt F))
  :: StableHlo.nullary main_c_18 (constantI S_ 32 0#32)
  :: StableHlo.unary main_c_18 main_v76 (broadcastInDim S800000 ![] bcast_S_S800000 : (⟨S_, .i32⟩ : BufTy).Contents (Elt F) → (⟨S800000, .i32⟩ : BufTy).Contents (Elt F))
  :: StableHlo.binary main_v1 main_v76 main_v77 (cmpi .slt : (⟨S800000, .i32⟩ : BufTy).Contents (Elt F) → (⟨S800000, .i32⟩ : BufTy).Contents (Elt F) → (⟨S800000, .i1⟩ : BufTy).Contents (Elt F))
  :: StableHlo.nullary main_c_19 (constantI S_ 32 50000#32)
  :: StableHlo.unary main_c_19 main_v78 (broadcastInDim S800000 ![] bcast_S_S800000 : (⟨S_, .i32⟩ : BufTy).Contents (Elt F) → (⟨S800000, .i32⟩ : BufTy).Contents (Elt F))
  :: StableHlo.binary main_v1 main_v78 main_v79 (addi : (⟨S800000, .i32⟩ : BufTy).Contents (Elt F) → (⟨S800000, .i32⟩ : BufTy).Contents (Elt F) → (⟨S800000, .i32⟩ : BufTy).Contents (Elt F))
  :: StableHlo.ternary main_v77 main_v79 main_v1 main_v80 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F))
  :: StableHlo.unary main_v80 main_v81 (broadcastInDim S800000x1 ![0] bcast_S800000_S800000x1_0 : (⟨S800000, .i32⟩ : BufTy).Contents (Elt F) → (⟨S800000x1, .i32⟩ : BufTy).Contents (Elt F))
  :: StableHlo.binary main_v74 main_v81 main_v82 ((fun x i => Host.gather gather_S50000x64_S800000x1_S800000x64_1_0_n_n_0_1_164 x i) : (⟨S50000x64, .f32⟩ : BufTy).Contents (Elt F) → (⟨S800000x1, .i32⟩ : BufTy).Contents (Elt F) → (⟨S800000x64, .f32⟩ : BufTy).Contents (Elt F))
  :: StableHlo.unary main_v75 main_v83 (broadcastInDim S800000x64 ![0, 1] bcast_S800000x1_S800000x64_0_1 : (⟨S800000x1, .f32⟩ : BufTy).Contents (Elt F) → (⟨S800000x64, .f32⟩ : BufTy).Contents (Elt F))
  :: StableHlo.binary main_v83 main_v82 main_v84 (mulf : (⟨S800000x64, .f32⟩ : BufTy).Contents (Elt F) → (⟨S800000x64, .f32⟩ : BufTy).Contents (Elt F) → (⟨S800000x64, .f32⟩ : BufTy).Contents (Elt F))
  :: StableHlo.nullary main_cst_20 (constant S_ .f32 0x00000000#32)
  :: StableHlo.unary main_cst_20 main_v85 (broadcastInDim S50000x64 ![] bcast_S_S50000x64 : (⟨S_, .f32⟩ : BufTy).Contents (Elt F) → (⟨S50000x64, .f32⟩ : BufTy).Contents (Elt F))
  :: StableHlo.unary main_v3 main_v86 (broadcastInDim S800000x1 ![0] bcast_S800000_S800000x1_0 : (⟨S800000, .i32⟩ : BufTy).Contents (Elt F) → (⟨S800000x1, .i32⟩ : BufTy).Contents (Elt F))
  :: StableHlo.ternary main_v85 main_v86 main_v84 main_v87 ((fun x i u => Host.scatterAdd scatter_S50000x64_S800000x1_S800000x64_1_0_0_1 x i u) : (⟨S50000x64, .f32⟩ : BufTy).Contents (Elt F) → (⟨S800000x1, .i32⟩ : BufTy).Contents (Elt F) → (⟨S800000x64, .f32⟩ : BufTy).Contents (Elt F) → (⟨S50000x64, .f32⟩ : BufTy).Contents (Elt F))
  :: StableHlo.nullary main_cst_21 (constant S_ .f32 0x40000000#32)
  :: StableHlo.unary main_cst_21 main_v88 (broadcastInDim S50000x64 ![] bcast_S_S50000x64 : (⟨S_, .f32⟩ : BufTy).Contents (Elt F) → (⟨S50000x64, .f32⟩ : BufTy).Contents (Elt F))
  :: StableHlo.binary main_v88 main_v87 main_v89 (mulf : (⟨S50000x64, .f32⟩ : BufTy).Contents (Elt F) → (⟨S50000x64, .f32⟩ : BufTy).Contents (Elt F) → (⟨S50000x64, .f32⟩ : BufTy).Contents (Elt F))
  :: StableHlo.binary main_v89 main_v58 main_v90 (subf : (⟨S50000x64, .f32⟩ : BufTy).Contents (Elt F) → (⟨S50000x64, .f32⟩ : BufTy).Contents (Elt F) → (⟨S50000x64, .f32⟩ : BufTy).Contents (Elt F))
  :: StableHlo.unary main_v29 main_v91 (broadcastInDim S800000x1 ![0] bcast_S800000_S800000x1_0 : (⟨S800000, .f32⟩ : BufTy).Contents (Elt F) → (⟨S800000x1, .f32⟩ : BufTy).Contents (Elt F))
  :: StableHlo.nullary main_c_22 (constantI S_ 32 0#32)
  :: StableHlo.unary main_c_22 main_v92 (broadcastInDim S800000 ![] bcast_S_S800000 : (⟨S_, .i32⟩ : BufTy).Contents (Elt F) → (⟨S800000, .i32⟩ : BufTy).Contents (Elt F))
  :: StableHlo.binary main_v1 main_v92 main_v93 (cmpi .slt : (⟨S800000, .i32⟩ : BufTy).Contents (Elt F) → (⟨S800000, .i32⟩ : BufTy).Contents (Elt F) → (⟨S800000, .i1⟩ : BufTy).Contents (Elt F))
  :: StableHlo.nullary main_c_23 (constantI S_ 32 50000#32)
  :: StableHlo.unary main_c_23 main_v94 (broadcastInDim S800000 ![] bcast_S_S800000 : (⟨S_, .i32⟩ : BufTy).Contents (Elt F) → (⟨S800000, .i32⟩ : BufTy).Contents (Elt F))
  :: StableHlo.binary main_v1 main_v94 main_v95 (addi : (⟨S800000, .i32⟩ : BufTy).Contents (Elt F) → (⟨S800000, .i32⟩ : BufTy).Contents (Elt F) → (⟨S800000, .i32⟩ : BufTy).Contents (Elt F))
  :: StableHlo.ternary main_v93 main_v95 main_v1 main_v96 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F))
  :: StableHlo.unary main_v96 main_v97 (broadcastInDim S800000x1 ![0] bcast_S800000_S800000x1_0 : (⟨S800000, .i32⟩ : BufTy).Contents (Elt F) → (⟨S800000x1, .i32⟩ : BufTy).Contents (Elt F))
  :: StableHlo.binary main_v90 main_v97 main_v98 ((fun x i => Host.gather gather_S50000x64_S800000x1_S800000x64_1_0_n_n_0_1_164 x i) : (⟨S50000x64, .f32⟩ : BufTy).Contents (Elt F) → (⟨S800000x1, .i32⟩ : BufTy).Contents (Elt F) → (⟨S800000x64, .f32⟩ : BufTy).Contents (Elt F))
  :: StableHlo.unary main_v91 main_v99 (broadcastInDim S800000x64 ![0, 1] bcast_S800000x1_S800000x64_0_1 : (⟨S800000x1, .f32⟩ : BufTy).Contents (Elt F) → (⟨S800000x64, .f32⟩ : BufTy).Contents (Elt F))
  :: StableHlo.binary main_v99 main_v98 main_v100 (mulf : (⟨S800000x64, .f32⟩ : BufTy).Contents (Elt F) → (⟨S800000x64, .f32⟩ : BufTy).Contents (Elt F) → (⟨S800000x64, .f32⟩ : BufTy).Contents (Elt F))
  :: StableHlo.nullary main_cst_24 (constant S_ .f32 0x00000000#32)
  :: StableHlo.unary main_cst_24 main_v101 (broadcastInDim S50000x64 ![] bcast_S_S50000x64 : (⟨S_, .f32⟩ : BufTy).Contents (Elt F) → (⟨S50000x64, .f32⟩ : BufTy).Contents (Elt F))
  :: StableHlo.unary main_v3 main_v102 (broadcastInDim S800000x1 ![0] bcast_S800000_S800000x1_0 : (⟨S800000, .i32⟩ : BufTy).Contents (Elt F) → (⟨S800000x1, .i32⟩ : BufTy).Contents (Elt F))
  :: StableHlo.ternary main_v101 main_v102 main_v100 main_v103 ((fun x i u => Host.scatterAdd scatter_S50000x64_S800000x1_S800000x64_1_0_0_1 x i u) : (⟨S50000x64, .f32⟩ : BufTy).Contents (Elt F) → (⟨S800000x1, .i32⟩ : BufTy).Contents (Elt F) → (⟨S800000x64, .f32⟩ : BufTy).Contents (Elt F) → (⟨S50000x64, .f32⟩ : BufTy).Contents (Elt F))
  :: StableHlo.nullary main_cst_25 (constant S_ .f32 0x40000000#32)
  :: StableHlo.unary main_cst_25 main_v104 (broadcastInDim S50000x64 ![] bcast_S_S50000x64 : (⟨S_, .f32⟩ : BufTy).Contents (Elt F) → (⟨S50000x64, .f32⟩ : BufTy).Contents (Elt F))
  :: StableHlo.binary main_v104 main_v103 main_v105 (mulf : (⟨S50000x64, .f32⟩ : BufTy).Contents (Elt F) → (⟨S50000x64, .f32⟩ : BufTy).Contents (Elt F) → (⟨S50000x64, .f32⟩ : BufTy).Contents (Elt F))
  :: StableHlo.binary main_v105 main_v74 main_v106 (subf : (⟨S50000x64, .f32⟩ : BufTy).Contents (Elt F) → (⟨S50000x64, .f32⟩ : BufTy).Contents (Elt F) → (⟨S50000x64, .f32⟩ : BufTy).Contents (Elt F))
  :: StableHlo.unary main_v29 main_v107 (broadcastInDim S800000x1 ![0] bcast_S800000_S800000x1_0 : (⟨S800000, .f32⟩ : BufTy).Contents (Elt F) → (⟨S800000x1, .f32⟩ : BufTy).Contents (Elt F))
  :: StableHlo.nullary main_c_26 (constantI S_ 32 0#32)
  :: StableHlo.unary main_c_26 main_v108 (broadcastInDim S800000 ![] bcast_S_S800000 : (⟨S_, .i32⟩ : BufTy).Contents (Elt F) → (⟨S800000, .i32⟩ : BufTy).Contents (Elt F))
  :: StableHlo.binary main_v1 main_v108 main_v109 (cmpi .slt : (⟨S800000, .i32⟩ : BufTy).Contents (Elt F) → (⟨S800000, .i32⟩ : BufTy).Contents (Elt F) → (⟨S800000, .i1⟩ : BufTy).Contents (Elt F))
  :: StableHlo.nullary main_c_27 (constantI S_ 32 50000#32)
  :: StableHlo.unary main_c_27 main_v110 (broadcastInDim S800000 ![] bcast_S_S800000 : (⟨S_, .i32⟩ : BufTy).Contents (Elt F) → (⟨S800000, .i32⟩ : BufTy).Contents (Elt F))
  :: StableHlo.binary main_v1 main_v110 main_v111 (addi : (⟨S800000, .i32⟩ : BufTy).Contents (Elt F) → (⟨S800000, .i32⟩ : BufTy).Contents (Elt F) → (⟨S800000, .i32⟩ : BufTy).Contents (Elt F))
  :: StableHlo.ternary main_v109 main_v111 main_v1 main_v112 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F))
  :: StableHlo.unary main_v112 main_v113 (broadcastInDim S800000x1 ![0] bcast_S800000_S800000x1_0 : (⟨S800000, .i32⟩ : BufTy).Contents (Elt F) → (⟨S800000x1, .i32⟩ : BufTy).Contents (Elt F))
  :: StableHlo.binary main_v106 main_v113 main_v114 ((fun x i => Host.gather gather_S50000x64_S800000x1_S800000x64_1_0_n_n_0_1_164 x i) : (⟨S50000x64, .f32⟩ : BufTy).Contents (Elt F) → (⟨S800000x1, .i32⟩ : BufTy).Contents (Elt F) → (⟨S800000x64, .f32⟩ : BufTy).Contents (Elt F))
  :: StableHlo.unary main_v107 main_v115 (broadcastInDim S800000x64 ![0, 1] bcast_S800000x1_S800000x64_0_1 : (⟨S800000x1, .f32⟩ : BufTy).Contents (Elt F) → (⟨S800000x64, .f32⟩ : BufTy).Contents (Elt F))
  :: StableHlo.binary main_v115 main_v114 main_v116 (mulf : (⟨S800000x64, .f32⟩ : BufTy).Contents (Elt F) → (⟨S800000x64, .f32⟩ : BufTy).Contents (Elt F) → (⟨S800000x64, .f32⟩ : BufTy).Contents (Elt F))
  :: StableHlo.nullary main_cst_28 (constant S_ .f32 0x00000000#32)
  :: StableHlo.unary main_cst_28 main_v117 (broadcastInDim S50000x64 ![] bcast_S_S50000x64 : (⟨S_, .f32⟩ : BufTy).Contents (Elt F) → (⟨S50000x64, .f32⟩ : BufTy).Contents (Elt F))
  :: StableHlo.unary main_v3 main_v118 (broadcastInDim S800000x1 ![0] bcast_S800000_S800000x1_0 : (⟨S800000, .i32⟩ : BufTy).Contents (Elt F) → (⟨S800000x1, .i32⟩ : BufTy).Contents (Elt F))
  :: StableHlo.ternary main_v117 main_v118 main_v116 main_v119 ((fun x i u => Host.scatterAdd scatter_S50000x64_S800000x1_S800000x64_1_0_0_1 x i u) : (⟨S50000x64, .f32⟩ : BufTy).Contents (Elt F) → (⟨S800000x1, .i32⟩ : BufTy).Contents (Elt F) → (⟨S800000x64, .f32⟩ : BufTy).Contents (Elt F) → (⟨S50000x64, .f32⟩ : BufTy).Contents (Elt F))
  :: StableHlo.nullary main_cst_29 (constant S_ .f32 0x40000000#32)
  :: StableHlo.unary main_cst_29 main_v120 (broadcastInDim S50000x64 ![] bcast_S_S50000x64 : (⟨S_, .f32⟩ : BufTy).Contents (Elt F) → (⟨S50000x64, .f32⟩ : BufTy).Contents (Elt F))
  :: StableHlo.binary main_v120 main_v119 main_v121 (mulf : (⟨S50000x64, .f32⟩ : BufTy).Contents (Elt F) → (⟨S50000x64, .f32⟩ : BufTy).Contents (Elt F) → (⟨S50000x64, .f32⟩ : BufTy).Contents (Elt F))
  :: StableHlo.binary main_v121 main_v90 main_v122 (subf : (⟨S50000x64, .f32⟩ : BufTy).Contents (Elt F) → (⟨S50000x64, .f32⟩ : BufTy).Contents (Elt F) → (⟨S50000x64, .f32⟩ : BufTy).Contents (Elt F))
  :: StableHlo.unary main_v29 main_v123 (broadcastInDim S800000x1 ![0] bcast_S800000_S800000x1_0 : (⟨S800000, .f32⟩ : BufTy).Contents (Elt F) → (⟨S800000x1, .f32⟩ : BufTy).Contents (Elt F))
  :: StableHlo.nullary main_c_30 (constantI S_ 32 0#32)
  :: StableHlo.unary main_c_30 main_v124 (broadcastInDim S800000 ![] bcast_S_S800000 : (⟨S_, .i32⟩ : BufTy).Contents (Elt F) → (⟨S800000, .i32⟩ : BufTy).Contents (Elt F))
  :: StableHlo.binary main_v1 main_v124 main_v125 (cmpi .slt : (⟨S800000, .i32⟩ : BufTy).Contents (Elt F) → (⟨S800000, .i32⟩ : BufTy).Contents (Elt F) → (⟨S800000, .i1⟩ : BufTy).Contents (Elt F))
  :: StableHlo.nullary main_c_31 (constantI S_ 32 50000#32)
  :: StableHlo.unary main_c_31 main_v126 (broadcastInDim S800000 ![] bcast_S_S800000 : (⟨S_, .i32⟩ : BufTy).Contents (Elt F) → (⟨S800000, .i32⟩ : BufTy).Contents (Elt F))
  :: StableHlo.binary main_v1 main_v126 main_v127 (addi : (⟨S800000, .i32⟩ : BufTy).Contents (Elt F) → (⟨S800000, .i32⟩ : BufTy).Contents (Elt F) → (⟨S800000, .i32⟩ : BufTy).Contents (Elt F))
  :: StableHlo.ternary main_v125 main_v127 main_v1 main_v128 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F))
  :: StableHlo.unary main_v128 main_v129 (broadcastInDim S800000x1 ![0] bcast_S800000_S800000x1_0 : (⟨S800000, .i32⟩ : BufTy).Contents (Elt F) → (⟨S800000x1, .i32⟩ : BufTy).Contents (Elt F))
  :: StableHlo.binary main_v122 main_v129 main_v130 ((fun x i => Host.gather gather_S50000x64_S800000x1_S800000x64_1_0_n_n_0_1_164 x i) : (⟨S50000x64, .f32⟩ : BufTy).Contents (Elt F) → (⟨S800000x1, .i32⟩ : BufTy).Contents (Elt F) → (⟨S800000x64, .f32⟩ : BufTy).Contents (Elt F))
  :: StableHlo.unary main_v123 main_v131 (broadcastInDim S800000x64 ![0, 1] bcast_S800000x1_S800000x64_0_1 : (⟨S800000x1, .f32⟩ : BufTy).Contents (Elt F) → (⟨S800000x64, .f32⟩ : BufTy).Contents (Elt F))
  :: StableHlo.binary main_v131 main_v130 main_v132 (mulf : (⟨S800000x64, .f32⟩ : BufTy).Contents (Elt F) → (⟨S800000x64, .f32⟩ : BufTy).Contents (Elt F) → (⟨S800000x64, .f32⟩ : BufTy).Contents (Elt F))
  :: StableHlo.nullary main_cst_32 (constant S_ .f32 0x00000000#32)
  :: StableHlo.unary main_cst_32 main_v133 (broadcastInDim S50000x64 ![] bcast_S_S50000x64 : (⟨S_, .f32⟩ : BufTy).Contents (Elt F) → (⟨S50000x64, .f32⟩ : BufTy).Contents (Elt F))
  :: StableHlo.unary main_v3 main_v134 (broadcastInDim S800000x1 ![0] bcast_S800000_S800000x1_0 : (⟨S800000, .i32⟩ : BufTy).Contents (Elt F) → (⟨S800000x1, .i32⟩ : BufTy).Contents (Elt F))
  :: StableHlo.ternary main_v133 main_v134 main_v132 main_v135 ((fun x i u => Host.scatterAdd scatter_S50000x64_S800000x1_S800000x64_1_0_0_1 x i u) : (⟨S50000x64, .f32⟩ : BufTy).Contents (Elt F) → (⟨S800000x1, .i32⟩ : BufTy).Contents (Elt F) → (⟨S800000x64, .f32⟩ : BufTy).Contents (Elt F) → (⟨S50000x64, .f32⟩ : BufTy).Contents (Elt F))
  :: StableHlo.nullary main_cst_33 (constant S_ .f32 0x40000000#32)
  :: StableHlo.unary main_cst_33 main_v136 (broadcastInDim S50000x64 ![] bcast_S_S50000x64 : (⟨S_, .f32⟩ : BufTy).Contents (Elt F) → (⟨S50000x64, .f32⟩ : BufTy).Contents (Elt F))
  :: StableHlo.binary main_v136 main_v135 main_v137 (mulf : (⟨S50000x64, .f32⟩ : BufTy).Contents (Elt F) → (⟨S50000x64, .f32⟩ : BufTy).Contents (Elt F) → (⟨S50000x64, .f32⟩ : BufTy).Contents (Elt F))
  :: StableHlo.binary main_v137 main_v106 main_v138 (subf : (⟨S50000x64, .f32⟩ : BufTy).Contents (Elt F) → (⟨S50000x64, .f32⟩ : BufTy).Contents (Elt F) → (⟨S50000x64, .f32⟩ : BufTy).Contents (Elt F))
  :: [] )
/-- and its last eleven operations: each basis given a leading unit axis, the eight stacked, the stack and the layer's weights rounded. -/
abbrev tail0 : List (HloOp τ sig (Elt F)) :=
  ( StableHlo.unary main_arg0 main_v139 (broadcastInDim S1x50000x64 ![1, 2] bcast_S50000x64_S1x50000x64_1_2 : (⟨S50000x64, .f32⟩ : BufTy).Contents (Elt F) → (⟨S1x50000x64, .f32⟩ : BufTy).Contents (Elt F))
  :: StableHlo.unary main_v42 main_v140 (broadcastInDim S1x50000x64 ![1, 2] bcast_S50000x64_S1x50000x64_1_2 : (⟨S50000x64, .f32⟩ : BufTy).Contents (Elt F) → (⟨S1x50000x64, .f32⟩ : BufTy).Contents (Elt F))
  :: StableHlo.unary main_v58 main_v141 (broadcastInDim S1x50000x64 ![1, 2] bcast_S50000x64_S1x50000x64_1_2 : (⟨S50000x64, .f32⟩ : BufTy).Contents (Elt F) → (⟨S1x50000x64, .f32⟩ : BufTy).Contents (Elt F))
  :: StableHlo.unary main_v74 main_v142 (broadcastInDim S1x50000x64 ![1, 2] bcast_S50000x64_S1x50000x64_1_2 : (⟨S50000x64, .f32⟩ : BufTy).Contents (Elt F) → (⟨S1x50000x64, .f32⟩ : BufTy).Contents (Elt F))
  :: StableHlo.unary main_v90 main_v143 (broadcastInDim S1x50000x64 ![1, 2] bcast_S50000x64_S1x50000x64_1_2 : (⟨S50000x64, .f32⟩ : BufTy).Contents (Elt F) → (⟨S1x50000x64, .f32⟩ : BufTy).Contents (Elt F))
  :: StableHlo.unary main_v106 main_v144 (broadcastInDim S1x50000x64 ![1, 2] bcast_S50000x64_S1x50000x64_1_2 : (⟨S50000x64, .f32⟩ : BufTy).Contents (Elt F) → (⟨S1x50000x64, .f32⟩ : BufTy).Contents (Elt F))
  :: StableHlo.unary main_v122 main_v145 (broadcastInDim S1x50000x64 ![1, 2] bcast_S50000x64_S1x50000x64_1_2 : (⟨S50000x64, .f32⟩ : BufTy).Contents (Elt F) → (⟨S1x50000x64, .f32⟩ : BufTy).Contents (Elt F))
  :: StableHlo.unary main_v138 main_v146 (broadcastInDim S1x50000x64 ![1, 2] bcast_S50000x64_S1x50000x64_1_2 : (⟨S50000x64, .f32⟩ : BufTy).Contents (Elt F) → (⟨S1x50000x64, .f32⟩ : BufTy).Contents (Elt F))
  :: StableHlo.nary ![main_v139, main_v140, main_v141, main_v142, main_v143, main_v144, main_v145, main_v146] main_v147 (fun u => concatenate S8x50000x64 0 [⟨S1x50000x64, u 0⟩, ⟨S1x50000x64, u 1⟩, ⟨S1x50000x64, u 2⟩, ⟨S1x50000x64, u 3⟩, ⟨S1x50000x64, u 4⟩, ⟨S1x50000x64, u 5⟩, ⟨S1x50000x64, u 6⟩, ⟨S1x50000x64, u 7⟩] concatenates_S1x50000x64_S1x50000x64_S1x50000x64_S1x50000x64_S1x50000x64_S1x50000x64_S1x50000x64_S1x50000x64_S8x50000x64_d0)
  :: StableHlo.unary main_v147 main_v148 ((truncf .bf16 · bitsLt_bf16_f32) : (⟨S8x50000x64, .f32⟩ : BufTy).Contents (Elt F) → (⟨S8x50000x64, .bf16⟩ : BufTy).Contents (Elt F))
  :: StableHlo.unary main_arg2 main_v149 ((truncf .bf16 · bitsLt_bf16_f32) : (⟨S8x64x64, .f32⟩ : BufTy).Contents (Elt F) → (⟨S8x64x64, .bf16⟩ : BufTy).Contents (Elt F))
  :: [] )
set_option maxHeartbeats 40000000 in
theorem hostOps0_2_split : (hostOps0_2 : List (HloOp τ sig (Elt F))) = pre0 ++ tail0 := rfl

set_option maxHeartbeats 40000000 in
/-- The stretch between the kernels, up to the last Chebyshev basis of layer 2, -/
abbrev pre1 : List (HloOp τ sig (Elt F)) :=
  ( StableHlo.unary main_v29 main_v151 (broadcastInDim S800000x1 ![0] bcast_S800000_S800000x1_0 : (⟨S800000, .f32⟩ : BufTy).Contents (Elt F) → (⟨S800000x1, .f32⟩ : BufTy).Contents (Elt F))
  :: StableHlo.nullary main_c_34 (constantI S_ 32 0#32)
  :: StableHlo.unary main_c_34 main_v152 (broadcastInDim S800000 ![] bcast_S_S800000 : (⟨S_, .i32⟩ : BufTy).Contents (Elt F) → (⟨S800000, .i32⟩ : BufTy).Contents (Elt F))
  :: StableHlo.binary main_v1 main_v152 main_v153 (cmpi .slt : (⟨S800000, .i32⟩ : BufTy).Contents (Elt F) → (⟨S800000, .i32⟩ : BufTy).Contents (Elt F) → (⟨S800000, .i1⟩ : BufTy).Contents (Elt F))
  :: StableHlo.nullary main_c_35 (constantI S_ 32 50000#32)
  :: StableHlo.unary main_c_35 main_v154 (broadcastInDim S800000 ![] bcast_S_S800000 : (⟨S_, .i32⟩ : BufTy).Contents (Elt F) → (⟨S800000, .i32⟩ : BufTy).Contents (Elt F))
  :: StableHlo.binary main_v1 main_v154 main_v155 (addi : (⟨S800000, .i32⟩ : BufTy).Contents (Elt F) → (⟨S800000, .i32⟩ : BufTy).Contents (Elt F) → (⟨S800000, .i32⟩ : BufTy).Contents (Elt F))
  :: StableHlo.ternary main_v153 main_v155 main_v1 main_v156 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F))
  :: StableHlo.unary main_v156 main_v157 (broadcastInDim S800000x1 ![0] bcast_S800000_S800000x1_0 : (⟨S800000, .i32⟩ : BufTy).Contents (Elt F) → (⟨S800000x1, .i32⟩ : BufTy).Contents (Elt F))
  :: StableHlo.binary main_v150 main_v157 main_v158 ((fun x i => Host.gather gather_S50000x64_S800000x1_S800000x64_1_0_n_n_0_1_164 x i) : (⟨S50000x64, .f32⟩ : BufTy).Contents (Elt F) → (⟨S800000x1, .i32⟩ : BufTy).Contents (Elt F) → (⟨S800000x64, .f32⟩ : BufTy).Contents (Elt F))
  :: StableHlo.unary main_v151 main_v159 (broadcastInDim S800000x64 ![0, 1] bcast_S800000x1_S800000x64_0_1 : (⟨S800000x1, .f32⟩ : BufTy).Contents (Elt F) → (⟨S800000x64, .f32⟩ : BufTy).Contents (Elt F))
  :: StableHlo.binary main_v159 main_v158 main_v160 (mulf : (⟨S800000x64, .f32⟩ : BufTy).Contents (Elt F) → (⟨S800000x64, .f32⟩ : BufTy).Contents (Elt F) → (⟨S800000x64, .f32⟩ : BufTy).Contents (Elt F))
  :: StableHlo.nullary main_cst_36 (constant S_ .f32 0x00000000#32)
  :: StableHlo.unary main_cst_36 main_v161 (broadcastInDim S50000x64 ![] bcast_S_S50000x64 : (⟨S_, .f32⟩ : BufTy).Contents (Elt F) → (⟨S50000x64, .f32⟩ : BufTy).Contents (Elt F))
  :: StableHlo.unary main_v3 main_v162 (broadcastInDim S800000x1 ![0] bcast_S800000_S800000x1_0 : (⟨S800000, .i32⟩ : BufTy).Contents (Elt F) → (⟨S800000x1, .i32⟩ : BufTy).Contents (Elt F))
  :: StableHlo.ternary main_v161 main_v162 main_v160 main_v163 ((fun x i u => Host.scatterAdd scatter_S50000x64_S800000x1_S800000x64_1_0_0_1 x i u) : (⟨S50000x64, .f32⟩ : BufTy).Contents (Elt F) → (⟨S800000x1, .i32⟩ : BufTy).Contents (Elt F) → (⟨S800000x64, .f32⟩ : BufTy).Contents (Elt F) → (⟨S50000x64, .f32⟩ : BufTy).Contents (Elt F))
  :: StableHlo.unary main_v29 main_v164 (broadcastInDim S800000x1 ![0] bcast_S800000_S800000x1_0 : (⟨S800000, .f32⟩ : BufTy).Contents (Elt F) → (⟨S800000x1, .f32⟩ : BufTy).Contents (Elt F))
  :: StableHlo.nullary main_c_37 (constantI S_ 32 0#32)
  :: StableHlo.unary main_c_37 main_v165 (broadcastInDim S800000 ![] bcast_S_S800000 : (⟨S_, .i32⟩ : BufTy).Contents (Elt F) → (⟨S800000, .i32⟩ : BufTy).Contents (Elt F))
  :: StableHlo.binary main_v1 main_v165 main_v166 (cmpi .slt : (⟨S800000, .i32⟩ : BufTy).Contents (Elt F) → (⟨S800000, .i32⟩ : BufTy).Contents (Elt F) → (⟨S800000, .i1⟩ : BufTy).Contents (Elt F))
  :: StableHlo.nullary main_c_38 (constantI S_ 32 50000#32)
  :: StableHlo.unary main_c_38 main_v167 (broadcastInDim S800000 ![] bcast_S_S800000 : (⟨S_, .i32⟩ : BufTy).Contents (Elt F) → (⟨S800000, .i32⟩ : BufTy).Contents (Elt F))
  :: StableHlo.binary main_v1 main_v167 main_v168 (addi : (⟨S800000, .i32⟩ : BufTy).Contents (Elt F) → (⟨S800000, .i32⟩ : BufTy).Contents (Elt F) → (⟨S800000, .i32⟩ : BufTy).Contents (Elt F))
  :: StableHlo.ternary main_v166 main_v168 main_v1 main_v169 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F))
  :: StableHlo.unary main_v169 main_v170 (broadcastInDim S800000x1 ![0] bcast_S800000_S800000x1_0 : (⟨S800000, .i32⟩ : BufTy).Contents (Elt F) → (⟨S800000x1, .i32⟩ : BufTy).Contents (Elt F))
  :: StableHlo.binary main_v163 main_v170 main_v171 ((fun x i => Host.gather gather_S50000x64_S800000x1_S800000x64_1_0_n_n_0_1_164 x i) : (⟨S50000x64, .f32⟩ : BufTy).Contents (Elt F) → (⟨S800000x1, .i32⟩ : BufTy).Contents (Elt F) → (⟨S800000x64, .f32⟩ : BufTy).Contents (Elt F))
  :: StableHlo.unary main_v164 main_v172 (broadcastInDim S800000x64 ![0, 1] bcast_S800000x1_S800000x64_0_1 : (⟨S800000x1, .f32⟩ : BufTy).Contents (Elt F) → (⟨S800000x64, .f32⟩ : BufTy).Contents (Elt F))
  :: StableHlo.binary main_v172 main_v171 main_v173 (mulf : (⟨S800000x64, .f32⟩ : BufTy).Contents (Elt F) → (⟨S800000x64, .f32⟩ : BufTy).Contents (Elt F) → (⟨S800000x64, .f32⟩ : BufTy).Contents (Elt F))
  :: StableHlo.nullary main_cst_39 (constant S_ .f32 0x00000000#32)
  :: StableHlo.unary main_cst_39 main_v174 (broadcastInDim S50000x64 ![] bcast_S_S50000x64 : (⟨S_, .f32⟩ : BufTy).Contents (Elt F) → (⟨S50000x64, .f32⟩ : BufTy).Contents (Elt F))
  :: StableHlo.unary main_v3 main_v175 (broadcastInDim S800000x1 ![0] bcast_S800000_S800000x1_0 : (⟨S800000, .i32⟩ : BufTy).Contents (Elt F) → (⟨S800000x1, .i32⟩ : BufTy).Contents (Elt F))
  :: StableHlo.ternary main_v174 main_v175 main_v173 main_v176 ((fun x i u => Host.scatterAdd scatter_S50000x64_S800000x1_S800000x64_1_0_0_1 x i u) : (⟨S50000x64, .f32⟩ : BufTy).Contents (Elt F) → (⟨S800000x1, .i32⟩ : BufTy).Contents (Elt F) → (⟨S800000x64, .f32⟩ : BufTy).Contents (Elt F) → (⟨S50000x64, .f32⟩ : BufTy).Contents (Elt F))
  :: StableHlo.nullary main_cst_40 (constant S_ .f32 0x40000000#32)
  :: StableHlo.unary main_cst_40 main_v177 (broadcastInDim S50000x64 ![] bcast_S_S50000x64 : (⟨S_, .f32⟩ : BufTy).Contents (Elt F) → (⟨S50000x64, .f32⟩ : BufTy).Contents (Elt F))
  :: StableHlo.binary main_v177 main_v176 main_v178 (mulf : (⟨S50000x64, .f32⟩ : BufTy).Contents (Elt F) → (⟨S50000x64, .f32⟩ : BufTy).Contents (Elt F) → (⟨S50000x64, .f32⟩ : BufTy).Contents (Elt F))
  :: StableHlo.binary main_v178 main_v150 main_v179 (subf : (⟨S50000x64, .f32⟩ : BufTy).Contents (Elt F) → (⟨S50000x64, .f32⟩ : BufTy).Contents (Elt F) → (⟨S50000x64, .f32⟩ : BufTy).Contents (Elt F))
  :: StableHlo.unary main_v29 main_v180 (broadcastInDim S800000x1 ![0] bcast_S800000_S800000x1_0 : (⟨S800000, .f32⟩ : BufTy).Contents (Elt F) → (⟨S800000x1, .f32⟩ : BufTy).Contents (Elt F))
  :: StableHlo.nullary main_c_41 (constantI S_ 32 0#32)
  :: StableHlo.unary main_c_41 main_v181 (broadcastInDim S800000 ![] bcast_S_S800000 : (⟨S_, .i32⟩ : BufTy).Contents (Elt F) → (⟨S800000, .i32⟩ : BufTy).Contents (Elt F))
  :: StableHlo.binary main_v1 main_v181 main_v182 (cmpi .slt : (⟨S800000, .i32⟩ : BufTy).Contents (Elt F) → (⟨S800000, .i32⟩ : BufTy).Contents (Elt F) → (⟨S800000, .i1⟩ : BufTy).Contents (Elt F))
  :: StableHlo.nullary main_c_42 (constantI S_ 32 50000#32)
  :: StableHlo.unary main_c_42 main_v183 (broadcastInDim S800000 ![] bcast_S_S800000 : (⟨S_, .i32⟩ : BufTy).Contents (Elt F) → (⟨S800000, .i32⟩ : BufTy).Contents (Elt F))
  :: StableHlo.binary main_v1 main_v183 main_v184 (addi : (⟨S800000, .i32⟩ : BufTy).Contents (Elt F) → (⟨S800000, .i32⟩ : BufTy).Contents (Elt F) → (⟨S800000, .i32⟩ : BufTy).Contents (Elt F))
  :: StableHlo.ternary main_v182 main_v184 main_v1 main_v185 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F))
  :: StableHlo.unary main_v185 main_v186 (broadcastInDim S800000x1 ![0] bcast_S800000_S800000x1_0 : (⟨S800000, .i32⟩ : BufTy).Contents (Elt F) → (⟨S800000x1, .i32⟩ : BufTy).Contents (Elt F))
  :: StableHlo.binary main_v179 main_v186 main_v187 ((fun x i => Host.gather gather_S50000x64_S800000x1_S800000x64_1_0_n_n_0_1_164 x i) : (⟨S50000x64, .f32⟩ : BufTy).Contents (Elt F) → (⟨S800000x1, .i32⟩ : BufTy).Contents (Elt F) → (⟨S800000x64, .f32⟩ : BufTy).Contents (Elt F))
  :: StableHlo.unary main_v180 main_v188 (broadcastInDim S800000x64 ![0, 1] bcast_S800000x1_S800000x64_0_1 : (⟨S800000x1, .f32⟩ : BufTy).Contents (Elt F) → (⟨S800000x64, .f32⟩ : BufTy).Contents (Elt F))
  :: StableHlo.binary main_v188 main_v187 main_v189 (mulf : (⟨S800000x64, .f32⟩ : BufTy).Contents (Elt F) → (⟨S800000x64, .f32⟩ : BufTy).Contents (Elt F) → (⟨S800000x64, .f32⟩ : BufTy).Contents (Elt F))
  :: StableHlo.nullary main_cst_43 (constant S_ .f32 0x00000000#32)
  :: StableHlo.unary main_cst_43 main_v190 (broadcastInDim S50000x64 ![] bcast_S_S50000x64 : (⟨S_, .f32⟩ : BufTy).Contents (Elt F) → (⟨S50000x64, .f32⟩ : BufTy).Contents (Elt F))
  :: StableHlo.unary main_v3 main_v191 (broadcastInDim S800000x1 ![0] bcast_S800000_S800000x1_0 : (⟨S800000, .i32⟩ : BufTy).Contents (Elt F) → (⟨S800000x1, .i32⟩ : BufTy).Contents (Elt F))
  :: StableHlo.ternary main_v190 main_v191 main_v189 main_v192 ((fun x i u => Host.scatterAdd scatter_S50000x64_S800000x1_S800000x64_1_0_0_1 x i u) : (⟨S50000x64, .f32⟩ : BufTy).Contents (Elt F) → (⟨S800000x1, .i32⟩ : BufTy).Contents (Elt F) → (⟨S800000x64, .f32⟩ : BufTy).Contents (Elt F) → (⟨S50000x64, .f32⟩ : BufTy).Contents (Elt F))
  :: StableHlo.nullary main_cst_44 (constant S_ .f32 0x40000000#32)
  :: StableHlo.unary main_cst_44 main_v193 (broadcastInDim S50000x64 ![] bcast_S_S50000x64 : (⟨S_, .f32⟩ : BufTy).Contents (Elt F) → (⟨S50000x64, .f32⟩ : BufTy).Contents (Elt F))
  :: StableHlo.binary main_v193 main_v192 main_v194 (mulf : (⟨S50000x64, .f32⟩ : BufTy).Contents (Elt F) → (⟨S50000x64, .f32⟩ : BufTy).Contents (Elt F) → (⟨S50000x64, .f32⟩ : BufTy).Contents (Elt F))
  :: StableHlo.binary main_v194 main_v163 main_v195 (subf : (⟨S50000x64, .f32⟩ : BufTy).Contents (Elt F) → (⟨S50000x64, .f32⟩ : BufTy).Contents (Elt F) → (⟨S50000x64, .f32⟩ : BufTy).Contents (Elt F))
  :: StableHlo.unary main_v29 main_v196 (broadcastInDim S800000x1 ![0] bcast_S800000_S800000x1_0 : (⟨S800000, .f32⟩ : BufTy).Contents (Elt F) → (⟨S800000x1, .f32⟩ : BufTy).Contents (Elt F))
  :: StableHlo.nullary main_c_45 (constantI S_ 32 0#32)
  :: StableHlo.unary main_c_45 main_v197 (broadcastInDim S800000 ![] bcast_S_S800000 : (⟨S_, .i32⟩ : BufTy).Contents (Elt F) → (⟨S800000, .i32⟩ : BufTy).Contents (Elt F))
  :: StableHlo.binary main_v1 main_v197 main_v198 (cmpi .slt : (⟨S800000, .i32⟩ : BufTy).Contents (Elt F) → (⟨S800000, .i32⟩ : BufTy).Contents (Elt F) → (⟨S800000, .i1⟩ : BufTy).Contents (Elt F))
  :: StableHlo.nullary main_c_46 (constantI S_ 32 50000#32)
  :: StableHlo.unary main_c_46 main_v199 (broadcastInDim S800000 ![] bcast_S_S800000 : (⟨S_, .i32⟩ : BufTy).Contents (Elt F) → (⟨S800000, .i32⟩ : BufTy).Contents (Elt F))
  :: StableHlo.binary main_v1 main_v199 main_v200 (addi : (⟨S800000, .i32⟩ : BufTy).Contents (Elt F) → (⟨S800000, .i32⟩ : BufTy).Contents (Elt F) → (⟨S800000, .i32⟩ : BufTy).Contents (Elt F))
  :: StableHlo.ternary main_v198 main_v200 main_v1 main_v201 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F))
  :: StableHlo.unary main_v201 main_v202 (broadcastInDim S800000x1 ![0] bcast_S800000_S800000x1_0 : (⟨S800000, .i32⟩ : BufTy).Contents (Elt F) → (⟨S800000x1, .i32⟩ : BufTy).Contents (Elt F))
  :: StableHlo.binary main_v195 main_v202 main_v203 ((fun x i => Host.gather gather_S50000x64_S800000x1_S800000x64_1_0_n_n_0_1_164 x i) : (⟨S50000x64, .f32⟩ : BufTy).Contents (Elt F) → (⟨S800000x1, .i32⟩ : BufTy).Contents (Elt F) → (⟨S800000x64, .f32⟩ : BufTy).Contents (Elt F))
  :: StableHlo.unary main_v196 main_v204 (broadcastInDim S800000x64 ![0, 1] bcast_S800000x1_S800000x64_0_1 : (⟨S800000x1, .f32⟩ : BufTy).Contents (Elt F) → (⟨S800000x64, .f32⟩ : BufTy).Contents (Elt F))
  :: StableHlo.binary main_v204 main_v203 main_v205 (mulf : (⟨S800000x64, .f32⟩ : BufTy).Contents (Elt F) → (⟨S800000x64, .f32⟩ : BufTy).Contents (Elt F) → (⟨S800000x64, .f32⟩ : BufTy).Contents (Elt F))
  :: StableHlo.nullary main_cst_47 (constant S_ .f32 0x00000000#32)
  :: StableHlo.unary main_cst_47 main_v206 (broadcastInDim S50000x64 ![] bcast_S_S50000x64 : (⟨S_, .f32⟩ : BufTy).Contents (Elt F) → (⟨S50000x64, .f32⟩ : BufTy).Contents (Elt F))
  :: StableHlo.unary main_v3 main_v207 (broadcastInDim S800000x1 ![0] bcast_S800000_S800000x1_0 : (⟨S800000, .i32⟩ : BufTy).Contents (Elt F) → (⟨S800000x1, .i32⟩ : BufTy).Contents (Elt F))
  :: StableHlo.ternary main_v206 main_v207 main_v205 main_v208 ((fun x i u => Host.scatterAdd scatter_S50000x64_S800000x1_S800000x64_1_0_0_1 x i u) : (⟨S50000x64, .f32⟩ : BufTy).Contents (Elt F) → (⟨S800000x1, .i32⟩ : BufTy).Contents (Elt F) → (⟨S800000x64, .f32⟩ : BufTy).Contents (Elt F) → (⟨S50000x64, .f32⟩ : BufTy).Contents (Elt F))
  :: StableHlo.nullary main_cst_48 (constant S_ .f32 0x40000000#32)
  :: StableHlo.unary main_cst_48 main_v209 (broadcastInDim S50000x64 ![] bcast_S_S50000x64 : (⟨S_, .f32⟩ : BufTy).Contents (Elt F) → (⟨S50000x64, .f32⟩ : BufTy).Contents (Elt F))
  :: StableHlo.binary main_v209 main_v208 main_v210 (mulf : (⟨S50000x64, .f32⟩ : BufTy).Contents (Elt F) → (⟨S50000x64, .f32⟩ : BufTy).Contents (Elt F) → (⟨S50000x64, .f32⟩ : BufTy).Contents (Elt F))
  :: StableHlo.binary main_v210 main_v179 main_v211 (subf : (⟨S50000x64, .f32⟩ : BufTy).Contents (Elt F) → (⟨S50000x64, .f32⟩ : BufTy).Contents (Elt F) → (⟨S50000x64, .f32⟩ : BufTy).Contents (Elt F))
  :: StableHlo.unary main_v29 main_v212 (broadcastInDim S800000x1 ![0] bcast_S800000_S800000x1_0 : (⟨S800000, .f32⟩ : BufTy).Contents (Elt F) → (⟨S800000x1, .f32⟩ : BufTy).Contents (Elt F))
  :: StableHlo.nullary main_c_49 (constantI S_ 32 0#32)
  :: StableHlo.unary main_c_49 main_v213 (broadcastInDim S800000 ![] bcast_S_S800000 : (⟨S_, .i32⟩ : BufTy).Contents (Elt F) → (⟨S800000, .i32⟩ : BufTy).Contents (Elt F))
  :: StableHlo.binary main_v1 main_v213 main_v214 (cmpi .slt : (⟨S800000, .i32⟩ : BufTy).Contents (Elt F) → (⟨S800000, .i32⟩ : BufTy).Contents (Elt F) → (⟨S800000, .i1⟩ : BufTy).Contents (Elt F))
  :: StableHlo.nullary main_c_50 (constantI S_ 32 50000#32)
  :: StableHlo.unary main_c_50 main_v215 (broadcastInDim S800000 ![] bcast_S_S800000 : (⟨S_, .i32⟩ : BufTy).Contents (Elt F) → (⟨S800000, .i32⟩ : BufTy).Contents (Elt F))
  :: StableHlo.binary main_v1 main_v215 main_v216 (addi : (⟨S800000, .i32⟩ : BufTy).Contents (Elt F) → (⟨S800000, .i32⟩ : BufTy).Contents (Elt F) → (⟨S800000, .i32⟩ : BufTy).Contents (Elt F))
  :: StableHlo.ternary main_v214 main_v216 main_v1 main_v217 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F))
  :: StableHlo.unary main_v217 main_v218 (broadcastInDim S800000x1 ![0] bcast_S800000_S800000x1_0 : (⟨S800000, .i32⟩ : BufTy).Contents (Elt F) → (⟨S800000x1, .i32⟩ : BufTy).Contents (Elt F))
  :: StableHlo.binary main_v211 main_v218 main_v219 ((fun x i => Host.gather gather_S50000x64_S800000x1_S800000x64_1_0_n_n_0_1_164 x i) : (⟨S50000x64, .f32⟩ : BufTy).Contents (Elt F) → (⟨S800000x1, .i32⟩ : BufTy).Contents (Elt F) → (⟨S800000x64, .f32⟩ : BufTy).Contents (Elt F))
  :: StableHlo.unary main_v212 main_v220 (broadcastInDim S800000x64 ![0, 1] bcast_S800000x1_S800000x64_0_1 : (⟨S800000x1, .f32⟩ : BufTy).Contents (Elt F) → (⟨S800000x64, .f32⟩ : BufTy).Contents (Elt F))
  :: StableHlo.binary main_v220 main_v219 main_v221 (mulf : (⟨S800000x64, .f32⟩ : BufTy).Contents (Elt F) → (⟨S800000x64, .f32⟩ : BufTy).Contents (Elt F) → (⟨S800000x64, .f32⟩ : BufTy).Contents (Elt F))
  :: StableHlo.nullary main_cst_51 (constant S_ .f32 0x00000000#32)
  :: StableHlo.unary main_cst_51 main_v222 (broadcastInDim S50000x64 ![] bcast_S_S50000x64 : (⟨S_, .f32⟩ : BufTy).Contents (Elt F) → (⟨S50000x64, .f32⟩ : BufTy).Contents (Elt F))
  :: StableHlo.unary main_v3 main_v223 (broadcastInDim S800000x1 ![0] bcast_S800000_S800000x1_0 : (⟨S800000, .i32⟩ : BufTy).Contents (Elt F) → (⟨S800000x1, .i32⟩ : BufTy).Contents (Elt F))
  :: StableHlo.ternary main_v222 main_v223 main_v221 main_v224 ((fun x i u => Host.scatterAdd scatter_S50000x64_S800000x1_S800000x64_1_0_0_1 x i u) : (⟨S50000x64, .f32⟩ : BufTy).Contents (Elt F) → (⟨S800000x1, .i32⟩ : BufTy).Contents (Elt F) → (⟨S800000x64, .f32⟩ : BufTy).Contents (Elt F) → (⟨S50000x64, .f32⟩ : BufTy).Contents (Elt F))
  :: StableHlo.nullary main_cst_52 (constant S_ .f32 0x40000000#32)
  :: StableHlo.unary main_cst_52 main_v225 (broadcastInDim S50000x64 ![] bcast_S_S50000x64 : (⟨S_, .f32⟩ : BufTy).Contents (Elt F) → (⟨S50000x64, .f32⟩ : BufTy).Contents (Elt F))
  :: StableHlo.binary main_v225 main_v224 main_v226 (mulf : (⟨S50000x64, .f32⟩ : BufTy).Contents (Elt F) → (⟨S50000x64, .f32⟩ : BufTy).Contents (Elt F) → (⟨S50000x64, .f32⟩ : BufTy).Contents (Elt F))
  :: StableHlo.binary main_v226 main_v195 main_v227 (subf : (⟨S50000x64, .f32⟩ : BufTy).Contents (Elt F) → (⟨S50000x64, .f32⟩ : BufTy).Contents (Elt F) → (⟨S50000x64, .f32⟩ : BufTy).Contents (Elt F))
  :: StableHlo.unary main_v29 main_v228 (broadcastInDim S800000x1 ![0] bcast_S800000_S800000x1_0 : (⟨S800000, .f32⟩ : BufTy).Contents (Elt F) → (⟨S800000x1, .f32⟩ : BufTy).Contents (Elt F))
  :: StableHlo.nullary main_c_53 (constantI S_ 32 0#32)
  :: StableHlo.unary main_c_53 main_v229 (broadcastInDim S800000 ![] bcast_S_S800000 : (⟨S_, .i32⟩ : BufTy).Contents (Elt F) → (⟨S800000, .i32⟩ : BufTy).Contents (Elt F))
  :: StableHlo.binary main_v1 main_v229 main_v230 (cmpi .slt : (⟨S800000, .i32⟩ : BufTy).Contents (Elt F) → (⟨S800000, .i32⟩ : BufTy).Contents (Elt F) → (⟨S800000, .i1⟩ : BufTy).Contents (Elt F))
  :: StableHlo.nullary main_c_54 (constantI S_ 32 50000#32)
  :: StableHlo.unary main_c_54 main_v231 (broadcastInDim S800000 ![] bcast_S_S800000 : (⟨S_, .i32⟩ : BufTy).Contents (Elt F) → (⟨S800000, .i32⟩ : BufTy).Contents (Elt F))
  :: StableHlo.binary main_v1 main_v231 main_v232 (addi : (⟨S800000, .i32⟩ : BufTy).Contents (Elt F) → (⟨S800000, .i32⟩ : BufTy).Contents (Elt F) → (⟨S800000, .i32⟩ : BufTy).Contents (Elt F))
  :: StableHlo.ternary main_v230 main_v232 main_v1 main_v233 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F))
  :: StableHlo.unary main_v233 main_v234 (broadcastInDim S800000x1 ![0] bcast_S800000_S800000x1_0 : (⟨S800000, .i32⟩ : BufTy).Contents (Elt F) → (⟨S800000x1, .i32⟩ : BufTy).Contents (Elt F))
  :: StableHlo.binary main_v227 main_v234 main_v235 ((fun x i => Host.gather gather_S50000x64_S800000x1_S800000x64_1_0_n_n_0_1_164 x i) : (⟨S50000x64, .f32⟩ : BufTy).Contents (Elt F) → (⟨S800000x1, .i32⟩ : BufTy).Contents (Elt F) → (⟨S800000x64, .f32⟩ : BufTy).Contents (Elt F))
  :: StableHlo.unary main_v228 main_v236 (broadcastInDim S800000x64 ![0, 1] bcast_S800000x1_S800000x64_0_1 : (⟨S800000x1, .f32⟩ : BufTy).Contents (Elt F) → (⟨S800000x64, .f32⟩ : BufTy).Contents (Elt F))
  :: StableHlo.binary main_v236 main_v235 main_v237 (mulf : (⟨S800000x64, .f32⟩ : BufTy).Contents (Elt F) → (⟨S800000x64, .f32⟩ : BufTy).Contents (Elt F) → (⟨S800000x64, .f32⟩ : BufTy).Contents (Elt F))
  :: StableHlo.nullary main_cst_55 (constant S_ .f32 0x00000000#32)
  :: StableHlo.unary main_cst_55 main_v238 (broadcastInDim S50000x64 ![] bcast_S_S50000x64 : (⟨S_, .f32⟩ : BufTy).Contents (Elt F) → (⟨S50000x64, .f32⟩ : BufTy).Contents (Elt F))
  :: StableHlo.unary main_v3 main_v239 (broadcastInDim S800000x1 ![0] bcast_S800000_S800000x1_0 : (⟨S800000, .i32⟩ : BufTy).Contents (Elt F) → (⟨S800000x1, .i32⟩ : BufTy).Contents (Elt F))
  :: StableHlo.ternary main_v238 main_v239 main_v237 main_v240 ((fun x i u => Host.scatterAdd scatter_S50000x64_S800000x1_S800000x64_1_0_0_1 x i u) : (⟨S50000x64, .f32⟩ : BufTy).Contents (Elt F) → (⟨S800000x1, .i32⟩ : BufTy).Contents (Elt F) → (⟨S800000x64, .f32⟩ : BufTy).Contents (Elt F) → (⟨S50000x64, .f32⟩ : BufTy).Contents (Elt F))
  :: StableHlo.nullary main_cst_56 (constant S_ .f32 0x40000000#32)
  :: StableHlo.unary main_cst_56 main_v241 (broadcastInDim S50000x64 ![] bcast_S_S50000x64 : (⟨S_, .f32⟩ : BufTy).Contents (Elt F) → (⟨S50000x64, .f32⟩ : BufTy).Contents (Elt F))
  :: StableHlo.binary main_v241 main_v240 main_v242 (mulf : (⟨S50000x64, .f32⟩ : BufTy).Contents (Elt F) → (⟨S50000x64, .f32⟩ : BufTy).Contents (Elt F) → (⟨S50000x64, .f32⟩ : BufTy).Contents (Elt F))
  :: StableHlo.binary main_v242 main_v211 main_v243 (subf : (⟨S50000x64, .f32⟩ : BufTy).Contents (Elt F) → (⟨S50000x64, .f32⟩ : BufTy).Contents (Elt F) → (⟨S50000x64, .f32⟩ : BufTy).Contents (Elt F))
  :: StableHlo.unary main_v29 main_v244 (broadcastInDim S800000x1 ![0] bcast_S800000_S800000x1_0 : (⟨S800000, .f32⟩ : BufTy).Contents (Elt F) → (⟨S800000x1, .f32⟩ : BufTy).Contents (Elt F))
  :: StableHlo.nullary main_c_57 (constantI S_ 32 0#32)
  :: StableHlo.unary main_c_57 main_v245 (broadcastInDim S800000 ![] bcast_S_S800000 : (⟨S_, .i32⟩ : BufTy).Contents (Elt F) → (⟨S800000, .i32⟩ : BufTy).Contents (Elt F))
  :: StableHlo.binary main_v1 main_v245 main_v246 (cmpi .slt : (⟨S800000, .i32⟩ : BufTy).Contents (Elt F) → (⟨S800000, .i32⟩ : BufTy).Contents (Elt F) → (⟨S800000, .i1⟩ : BufTy).Contents (Elt F))
  :: StableHlo.nullary main_c_58 (constantI S_ 32 50000#32)
  :: StableHlo.unary main_c_58 main_v247 (broadcastInDim S800000 ![] bcast_S_S800000 : (⟨S_, .i32⟩ : BufTy).Contents (Elt F) → (⟨S800000, .i32⟩ : BufTy).Contents (Elt F))
  :: StableHlo.binary main_v1 main_v247 main_v248 (addi : (⟨S800000, .i32⟩ : BufTy).Contents (Elt F) → (⟨S800000, .i32⟩ : BufTy).Contents (Elt F) → (⟨S800000, .i32⟩ : BufTy).Contents (Elt F))
  :: StableHlo.ternary main_v246 main_v248 main_v1 main_v249 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F))
  :: StableHlo.unary main_v249 main_v250 (broadcastInDim S800000x1 ![0] bcast_S800000_S800000x1_0 : (⟨S800000, .i32⟩ : BufTy).Contents (Elt F) → (⟨S800000x1, .i32⟩ : BufTy).Contents (Elt F))
  :: StableHlo.binary main_v243 main_v250 main_v251 ((fun x i => Host.gather gather_S50000x64_S800000x1_S800000x64_1_0_n_n_0_1_164 x i) : (⟨S50000x64, .f32⟩ : BufTy).Contents (Elt F) → (⟨S800000x1, .i32⟩ : BufTy).Contents (Elt F) → (⟨S800000x64, .f32⟩ : BufTy).Contents (Elt F))
  :: StableHlo.unary main_v244 main_v252 (broadcastInDim S800000x64 ![0, 1] bcast_S800000x1_S800000x64_0_1 : (⟨S800000x1, .f32⟩ : BufTy).Contents (Elt F) → (⟨S800000x64, .f32⟩ : BufTy).Contents (Elt F))
  :: StableHlo.binary main_v252 main_v251 main_v253 (mulf : (⟨S800000x64, .f32⟩ : BufTy).Contents (Elt F) → (⟨S800000x64, .f32⟩ : BufTy).Contents (Elt F) → (⟨S800000x64, .f32⟩ : BufTy).Contents (Elt F))
  :: StableHlo.nullary main_cst_59 (constant S_ .f32 0x00000000#32)
  :: StableHlo.unary main_cst_59 main_v254 (broadcastInDim S50000x64 ![] bcast_S_S50000x64 : (⟨S_, .f32⟩ : BufTy).Contents (Elt F) → (⟨S50000x64, .f32⟩ : BufTy).Contents (Elt F))
  :: StableHlo.unary main_v3 main_v255 (broadcastInDim S800000x1 ![0] bcast_S800000_S800000x1_0 : (⟨S800000, .i32⟩ : BufTy).Contents (Elt F) → (⟨S800000x1, .i32⟩ : BufTy).Contents (Elt F))
  :: StableHlo.ternary main_v254 main_v255 main_v253 main_v256 ((fun x i u => Host.scatterAdd scatter_S50000x64_S800000x1_S800000x64_1_0_0_1 x i u) : (⟨S50000x64, .f32⟩ : BufTy).Contents (Elt F) → (⟨S800000x1, .i32⟩ : BufTy).Contents (Elt F) → (⟨S800000x64, .f32⟩ : BufTy).Contents (Elt F) → (⟨S50000x64, .f32⟩ : BufTy).Contents (Elt F))
  :: StableHlo.nullary main_cst_60 (constant S_ .f32 0x40000000#32)
  :: StableHlo.unary main_cst_60 main_v257 (broadcastInDim S50000x64 ![] bcast_S_S50000x64 : (⟨S_, .f32⟩ : BufTy).Contents (Elt F) → (⟨S50000x64, .f32⟩ : BufTy).Contents (Elt F))
  :: StableHlo.binary main_v257 main_v256 main_v258 (mulf : (⟨S50000x64, .f32⟩ : BufTy).Contents (Elt F) → (⟨S50000x64, .f32⟩ : BufTy).Contents (Elt F) → (⟨S50000x64, .f32⟩ : BufTy).Contents (Elt F))
  :: StableHlo.binary main_v258 main_v227 main_v259 (subf : (⟨S50000x64, .f32⟩ : BufTy).Contents (Elt F) → (⟨S50000x64, .f32⟩ : BufTy).Contents (Elt F) → (⟨S50000x64, .f32⟩ : BufTy).Contents (Elt F))
  :: [] )
/-- and its last eleven operations. -/
abbrev tail1 : List (HloOp τ sig (Elt F)) :=
  ( StableHlo.unary main_v150 main_v260 (broadcastInDim S1x50000x64 ![1, 2] bcast_S50000x64_S1x50000x64_1_2 : (⟨S50000x64, .f32⟩ : BufTy).Contents (Elt F) → (⟨S1x50000x64, .f32⟩ : BufTy).Contents (Elt F))
  :: StableHlo.unary main_v163 main_v261 (broadcastInDim S1x50000x64 ![1, 2] bcast_S50000x64_S1x50000x64_1_2 : (⟨S50000x64, .f32⟩ : BufTy).Contents (Elt F) → (⟨S1x50000x64, .f32⟩ : BufTy).Contents (Elt F))
  :: StableHlo.unary main_v179 main_v262 (broadcastInDim S1x50000x64 ![1, 2] bcast_S50000x64_S1x50000x64_1_2 : (⟨S50000x64, .f32⟩ : BufTy).Contents (Elt F) → (⟨S1x50000x64, .f32⟩ : BufTy).Contents (Elt F))
  :: StableHlo.unary main_v195 main_v263 (broadcastInDim S1x50000x64 ![1, 2] bcast_S50000x64_S1x50000x64_1_2 : (⟨S50000x64, .f32⟩ : BufTy).Contents (Elt F) → (⟨S1x50000x64, .f32⟩ : BufTy).Contents (Elt F))
  :: StableHlo.unary main_v211 main_v264 (broadcastInDim S1x50000x64 ![1, 2] bcast_S50000x64_S1x50000x64_1_2 : (⟨S50000x64, .f32⟩ : BufTy).Contents (Elt F) → (⟨S1x50000x64, .f32⟩ : BufTy).Contents (Elt F))
  :: StableHlo.unary main_v227 main_v265 (broadcastInDim S1x50000x64 ![1, 2] bcast_S50000x64_S1x50000x64_1_2 : (⟨S50000x64, .f32⟩ : BufTy).Contents (Elt F) → (⟨S1x50000x64, .f32⟩ : BufTy).Contents (Elt F))
  :: StableHlo.unary main_v243 main_v266 (broadcastInDim S1x50000x64 ![1, 2] bcast_S50000x64_S1x50000x64_1_2 : (⟨S50000x64, .f32⟩ : BufTy).Contents (Elt F) → (⟨S1x50000x64, .f32⟩ : BufTy).Contents (Elt F))
  :: StableHlo.unary main_v259 main_v267 (broadcastInDim S1x50000x64 ![1, 2] bcast_S50000x64_S1x50000x64_1_2 : (⟨S50000x64, .f32⟩ : BufTy).Contents (Elt F) → (⟨S1x50000x64, .f32⟩ : BufTy).Contents (Elt F))
  :: StableHlo.nary ![main_v260, main_v261, main_v262, main_v263, main_v264, main_v265, main_v266, main_v267] main_v268 (fun u => concatenate S8x50000x64 0 [⟨S1x50000x64, u 0⟩, ⟨S1x50000x64, u 1⟩, ⟨S1x50000x64, u 2⟩, ⟨S1x50000x64, u 3⟩, ⟨S1x50000x64, u 4⟩, ⟨S1x50000x64, u 5⟩, ⟨S1x50000x64, u 6⟩, ⟨S1x50000x64, u 7⟩] concatenates_S1x50000x64_S1x50000x64_S1x50000x64_S1x50000x64_S1x50000x64_S1x50000x64_S1x50000x64_S1x50000x64_S8x50000x64_d0)
  :: StableHlo.unary main_v268 main_v269 ((truncf .bf16 · bitsLt_bf16_f32) : (⟨S8x50000x64, .f32⟩ : BufTy).Contents (Elt F) → (⟨S8x50000x64, .bf16⟩ : BufTy).Contents (Elt F))
  :: StableHlo.unary main_arg4 main_v270 ((truncf .bf16 · bitsLt_bf16_f32) : (⟨S8x64x10, .f32⟩ : BufTy).Contents (Elt F) → (⟨S8x64x10, .bf16⟩ : BufTy).Contents (Elt F))
  :: [] )
set_option maxHeartbeats 40000000 in
theorem hostOps1_split : (hostOps1 : List (HloOp τ sig (Elt F))) = pre1 ++ tail1 := rfl

/-- Eight node-feature arrays stacked along a new leading axis and rounded to the kernel's input format. -/
def stack8 (t0 t1 t2 t3 t4 t5 t6 t7 : (⟨S50000x64, .f32⟩ : BufTy).Contents (Elt F)) : (⟨S8x50000x64, .bf16⟩ : BufTy).Contents (Elt F) :=
  truncf .bf16 (concatenate S8x50000x64 0 [⟨S1x50000x64, broadcastInDim S1x50000x64 ![1, 2] bcast_S50000x64_S1x50000x64_1_2 t0⟩, ⟨S1x50000x64, broadcastInDim S1x50000x64 ![1, 2] bcast_S50000x64_S1x50000x64_1_2 t1⟩, ⟨S1x50000x64, broadcastInDim S1x50000x64 ![1, 2] bcast_S50000x64_S1x50000x64_1_2 t2⟩, ⟨S1x50000x64, broadcastInDim S1x50000x64 ![1, 2] bcast_S50000x64_S1x50000x64_1_2 t3⟩, ⟨S1x50000x64, broadcastInDim S1x50000x64 ![1, 2] bcast_S50000x64_S1x50000x64_1_2 t4⟩, ⟨S1x50000x64, broadcastInDim S1x50000x64 ![1, 2] bcast_S50000x64_S1x50000x64_1_2 t5⟩, ⟨S1x50000x64, broadcastInDim S1x50000x64 ![1, 2] bcast_S50000x64_S1x50000x64_1_2 t6⟩, ⟨S1x50000x64, broadcastInDim S1x50000x64 ![1, 2] bcast_S50000x64_S1x50000x64_1_2 t7⟩] concatenates_S1x50000x64_S1x50000x64_S1x50000x64_S1x50000x64_S1x50000x64_S1x50000x64_S1x50000x64_S1x50000x64_S8x50000x64_d0) bitsLt_bf16_f32

/-- The rewriting of each operation's result, one (operation, reference) pair at a time, for a short list. -/
macro "tail_results" : tactic =>
  `(tactic| (simp only [after_cons, after_nil]
             repeat (first
               | rw [nary8_result] | rw [unary_result]
               | (rw [unary_result_ne]; rotate_left; decide)
               | (rw [nary_result_ne]; rotate_left; decide))))

set_option maxHeartbeats 8000000 in
/-- After the last eleven operations of the first stretch the kernel's first operand is the stack of the eight bases. -/
theorem tail0_stack (Vp : Valuation τ sig (Elt F)) :
    after tail0 Vp (Proc.devRef .tc main_v148)
      = stack8 (Vp (Proc.devRef .tc main_arg0)) (Vp (Proc.devRef .tc main_v42)) (Vp (Proc.devRef .tc main_v58)) (Vp (Proc.devRef .tc main_v74))
          (Vp (Proc.devRef .tc main_v90)) (Vp (Proc.devRef .tc main_v106)) (Vp (Proc.devRef .tc main_v122)) (Vp (Proc.devRef .tc main_v138)) := by
  tail_results
  try rfl
set_option maxHeartbeats 8000000 in
/-- and its second operand the layer's weights rounded. -/
theorem tail0_weights (Vp : Valuation τ sig (Elt F)) :
    after tail0 Vp (Proc.devRef .tc main_v149) = truncf .bf16 (Vp (Proc.devRef .tc main_arg2)) bitsLt_bf16_f32 := by
  tail_results
  try rfl
set_option maxHeartbeats 8000000 in
theorem tail1_stack (Vp : Valuation τ sig (Elt F)) :
    after tail1 Vp (Proc.devRef .tc main_v269)
      = stack8 (Vp (Proc.devRef .tc main_v150)) (Vp (Proc.devRef .tc main_v163)) (Vp (Proc.devRef .tc main_v179)) (Vp (Proc.devRef .tc main_v195))
          (Vp (Proc.devRef .tc main_v211)) (Vp (Proc.devRef .tc main_v227)) (Vp (Proc.devRef .tc main_v243)) (Vp (Proc.devRef .tc main_v259)) := by
  tail_results
  try rfl
set_option maxHeartbeats 8000000 in
theorem tail1_weights (Vp : Valuation τ sig (Elt F)) :
    after tail1 Vp (Proc.devRef .tc main_v270) = truncf .bf16 (Vp (Proc.devRef .tc main_arg4)) bitsLt_bf16_f32 := by
  tail_results
  try rfl

/-- The buffer contents when the first kernel is entered, from the launch contents `V`, -/
abbrev entry0 (V : Valuation τ sig (Elt F)) : Valuation τ sig (Elt F) := after hostOps0_2 (after hostOps0_1 (after hostOps0 V))
/-- and just before the last eleven operations. -/
abbrev mid0 (V : Valuation τ sig (Elt F)) : Valuation τ sig (Elt F) := after pre0 (after hostOps0_1 (after hostOps0 V))
theorem entry0_eq (V : Valuation τ sig (Elt F)) : entry0 V = after tail0 (mid0 V) := by
  unfold entry0 mid0; rw [hostOps0_2_split, StableHlo.after_append]
/-- The same for the second kernel, from the contents `V4` the first kernel leaves. -/
abbrev entry1 (V4 : Valuation τ sig (Elt F)) : Valuation τ sig (Elt F) := after hostOps1 V4
abbrev mid1 (V4 : Valuation τ sig (Elt F)) : Valuation τ sig (Elt F) := after pre1 V4
theorem entry1_eq (V4 : Valuation τ sig (Elt F)) : entry1 V4 = after tail1 (mid1 V4) := by
  unfold entry1 mid1; rw [hostOps1_split, StableHlo.after_append]

end Cert.KernelIdeal.Hand

end
-- ==== Proof.KI.Chain1a.lean ====
/-
  Layer 1's Chebyshev bases 1–4 in the kernel's program, against the reference's, and the arrays both layers share (edge endpoints, edge weights).
-/
import proofs.«145562_j85014582657503_2_alg».proof.Proof.KI.HostSplit
import proofs.«145562_j85014582657503_2_alg».proof.Proof.RefReadP

set_option maxRecDepth 16384

noncomputable section

namespace Cert.KernelIdeal.Hand

open Cert.KernelIdeal Cert.KernelIdeal.Gen Cert.NaryEight
open Idealize.ShloMosaic Idealize.ShloMosaic.TcCoe Idealize.SL.Sem Idealize.ShloMosaic.StableHlo

variable {F : FTy → Type} [FloatOps F]

set_option maxHeartbeats 8000000 in
/-- The host operations leave the node features as launched. -/
theorem mid0_arg0 (V : Valuation τ sig (Elt F)) : mid0 V (Proc.devRef .tc main_arg0) = V (Proc.devRef .tc main_arg0) := by
  unfold mid0
  host_results8
set_option maxHeartbeats 8000000 in
theorem mid0_arg2 (V : Valuation τ sig (Elt F)) : mid0 V (Proc.devRef .tc main_arg2) = V (Proc.devRef .tc main_arg2) := by
  unfold mid0
  host_results8
set_option maxHeartbeats 8000000 in
theorem entry0_arg3 (V : Valuation τ sig (Elt F)) : entry0 V (Proc.devRef .tc main_arg3) = V (Proc.devRef .tc main_arg3) := by
  unfold entry0
  host_results8
set_option maxHeartbeats 8000000 in
/-- The edge weights, the edges' source nodes and their target nodes, as the first kernel finds them. -/
theorem entry0_norm (V : Valuation τ sig (Elt F)) : entry0 V (Proc.devRef .tc main_v29) = Cert.ReferenceIdeal.ReadP.val_main_v29 (F := F) (V (Proc.devRef .tc main_arg1)) := by
  unfold entry0
  host_results8
  rfl
set_option maxHeartbeats 8000000 in
theorem entry0_src (V : Valuation τ sig (Elt F)) : entry0 V (Proc.devRef .tc main_v1) = Cert.ReferenceIdeal.ReadP.val_main_v1 (F := F) (V (Proc.devRef .tc main_arg1)) := by
  unfold entry0
  host_results8
  rfl
set_option maxHeartbeats 8000000 in
theorem entry0_dst (V : Valuation τ sig (Elt F)) : entry0 V (Proc.devRef .tc main_v3) = Cert.ReferenceIdeal.ReadP.val_main_v3 (F := F) (V (Proc.devRef .tc main_arg1)) := by
  unfold entry0
  host_results8
  rfl
set_option maxHeartbeats 32000000 in
/-- Basis 1 of layer 1, as the kernel's program computes it, is the reference's basis 1: the same operations in the same order. -/
theorem mid0_b1 (V : Valuation τ sig (Elt F)) :
    mid0 V (Proc.devRef .tc main_v42) = Cert.ReferenceIdeal.ReadP.val_main_v45 (F := F) (V (Proc.devRef .tc main_arg0)) (V (Proc.devRef .tc main_arg1)) := by
  unfold mid0
  host_results8
  rfl

set_option maxHeartbeats 32000000 in
/-- Basis 2 of layer 1, as the kernel's program computes it, is the reference's basis 2: the same operations in the same order. -/
theorem mid0_b2 (V : Valuation τ sig (Elt F)) :
    mid0 V (Proc.devRef .tc main_v58) = Cert.ReferenceIdeal.ReadP.val_main_v65 (F := F) (V (Proc.devRef .tc main_arg0)) (V (Proc.devRef .tc main_arg1)) := by
  unfold mid0
  host_results8
  rfl

set_option maxHeartbeats 32000000 in
/-- Basis 3 of layer 1, as the kernel's program computes it, is the reference's basis 3: the same operations in the same order. -/
theorem mid0_b3 (V : Valuation τ sig (Elt F)) :
    mid0 V (Proc.devRef .tc main_v74) = Cert.ReferenceIdeal.ReadP.val_main_v85 (F := F) (V (Proc.devRef .tc main_arg0)) (V (Proc.devRef .tc main_arg1)) := by
  unfold mid0
  host_results8
  rfl

set_option maxHeartbeats 32000000 in
/-- Basis 4 of layer 1, as the kernel's program computes it, is the reference's basis 4: the same operations in the same order. -/
theorem mid0_b4 (V : Valuation τ sig (Elt F)) :
    mid0 V (Proc.devRef .tc main_v90) = Cert.ReferenceIdeal.ReadP.val_main_v105 (F := F) (V (Proc.devRef .tc main_arg0)) (V (Proc.devRef .tc main_arg1)) := by
  unfold mid0
  host_results8
  rfl

end Cert.KernelIdeal.Hand

end
-- ==== Proof.KI.Chain1b.lean ====
/-
  Layer 1's Chebyshev bases 5–7 in the kernel's program, against the reference's.
-/
import proofs.«145562_j85014582657503_2_alg».proof.Proof.KI.HostSplit
import proofs.«145562_j85014582657503_2_alg».proof.Proof.RefReadP

set_option maxRecDepth 16384

noncomputable section

namespace Cert.KernelIdeal.Hand

open Cert.KernelIdeal Cert.KernelIdeal.Gen Cert.NaryEight
open Idealize.ShloMosaic Idealize.ShloMosaic.TcCoe Idealize.SL.Sem Idealize.ShloMosaic.StableHlo

variable {F : FTy → Type} [FloatOps F]
set_option maxHeartbeats 32000000 in
/-- Basis 5 of layer 1, as the kernel's program computes it, is the reference's basis 5: the same operations in the same order. -/
theorem mid0_b5 (V : Valuation τ sig (Elt F)) :
    mid0 V (Proc.devRef .tc main_v106) = Cert.ReferenceIdeal.ReadP.val_main_v125 (F := F) (V (Proc.devRef .tc main_arg0)) (V (Proc.devRef .tc main_arg1)) := by
  unfold mid0
  host_results8
  rfl

set_option maxHeartbeats 32000000 in
/-- Basis 6 of layer 1, as the kernel's program computes it, is the reference's basis 6: the same operations in the same order. -/
theorem mid0_b6 (V : Valuation τ sig (Elt F)) :
    mid0 V (Proc.devRef .tc main_v122) = Cert.ReferenceIdeal.ReadP.val_main_v145 (F := F) (V (Proc.devRef .tc main_arg0)) (V (Proc.devRef .tc main_arg1)) := by
  unfold mid0
  host_results8
  rfl

set_option maxHeartbeats 32000000 in
/-- Basis 7 of layer 1, as the kernel's program computes it, is the reference's basis 7: the same operations in the same order. -/
theorem mid0_b7 (V : Valuation τ sig (Elt F)) :
    mid0 V (Proc.devRef .tc main_v138) = Cert.ReferenceIdeal.ReadP.val_main_v165 (F := F) (V (Proc.devRef .tc main_arg0)) (V (Proc.devRef .tc main_arg1)) := by
  unfold mid0
  host_results8
  rfl

end Cert.KernelIdeal.Hand

end
-- ==== Proof.KI.Chain2Hyp.lean ====
/-
  What the second stretch of host operations assumes of the contents it starts from.
-/
import proofs.«145562_j85014582657503_2_alg».proof.Proof.KI.HostSplit
import proofs.«145562_j85014582657503_2_alg».proof.Proof.RefReadP

set_option maxRecDepth 16384

noncomputable section

namespace Cert.KernelIdeal.Hand

open Cert.KernelIdeal Cert.KernelIdeal.Gen Cert.NaryEight
open Idealize.ShloMosaic Idealize.ShloMosaic.TcCoe Idealize.SL.Sem Idealize.ShloMosaic.StableHlo

variable {F : FTy → Type} [FloatOps F]

/-- What the second stretch of host operations reads of the contents the first kernel leaves: the hidden features, the edge
    weights and the edges' endpoints, each equal to the reference's. -/
structure Entry1Hyp (V4 : Valuation τ sig (Elt F)) (x0 : (⟨S50000x64, .f32⟩ : BufTy).Contents (Elt F)) (x1 : (⟨S2x800000, .i32⟩ : BufTy).Contents (Elt F))
    (x2 : (⟨S8x64x64, .f32⟩ : BufTy).Contents (Elt F)) (x3 : (⟨S64, .f32⟩ : BufTy).Contents (Elt F)) : Prop where
  hid : V4 (Proc.devRef .tc main_v150) = Cert.ReferenceIdeal.ReadP.val_main_v173 (F := F) x0 x1 x2 x3
  norm : V4 (Proc.devRef .tc main_v29) = Cert.ReferenceIdeal.ReadP.val_main_v29 (F := F) x1
  src : V4 (Proc.devRef .tc main_v1) = Cert.ReferenceIdeal.ReadP.val_main_v1 (F := F) x1
  dst : V4 (Proc.devRef .tc main_v3) = Cert.ReferenceIdeal.ReadP.val_main_v3 (F := F) x1

end Cert.KernelIdeal.Hand

end
-- ==== Proof.KI.Chain2a.lean ====
/-
  Layer 2's Chebyshev bases 0–4 in the kernel's program, against the reference's.
-/
import proofs.«145562_j85014582657503_2_alg».proof.Proof.KI.HostSplit
import proofs.«145562_j85014582657503_2_alg».proof.Proof.KI.Chain2Hyp

set_option maxRecDepth 16384

noncomputable section

namespace Cert.KernelIdeal.Hand

open Cert.KernelIdeal Cert.KernelIdeal.Gen Cert.NaryEight
open Idealize.ShloMosaic Idealize.ShloMosaic.TcCoe Idealize.SL.Sem Idealize.ShloMosaic.StableHlo

variable {F : FTy → Type} [FloatOps F]

set_option maxHeartbeats 8000000 in
theorem mid1_hid (V4 : Valuation τ sig (Elt F)) : mid1 V4 (Proc.devRef .tc main_v150) = V4 (Proc.devRef .tc main_v150) := by
  unfold mid1
  host_results8
set_option maxHeartbeats 8000000 in
theorem mid1_arg4 (V4 : Valuation τ sig (Elt F)) : mid1 V4 (Proc.devRef .tc main_arg4) = V4 (Proc.devRef .tc main_arg4) := by
  unfold mid1
  host_results8
set_option maxHeartbeats 8000000 in
theorem entry1_arg5 (V4 : Valuation τ sig (Elt F)) : entry1 V4 (Proc.devRef .tc main_arg5) = V4 (Proc.devRef .tc main_arg5) := by
  unfold entry1
  host_results8
set_option maxHeartbeats 32000000 in
/-- Basis 1 of layer 2 in the kernel's program is the reference's. -/
theorem mid1_b1 (V4 : Valuation τ sig (Elt F)) (x0 : (⟨S50000x64, .f32⟩ : BufTy).Contents (Elt F)) (x1 : (⟨S2x800000, .i32⟩ : BufTy).Contents (Elt F))
    (x2 : (⟨S8x64x64, .f32⟩ : BufTy).Contents (Elt F)) (x3 : (⟨S64, .f32⟩ : BufTy).Contents (Elt F)) (h : Entry1Hyp V4 x0 x1 x2 x3) :
    mid1 V4 (Proc.devRef .tc main_v163) = Cert.ReferenceIdeal.ReadP.val_main_v189 (F := F) x0 x1 x2 x3 := by
  unfold mid1
  host_results8
  simp only [h.hid, h.norm, h.src, h.dst]
  rfl

set_option maxHeartbeats 32000000 in
/-- Basis 2 of layer 2 in the kernel's program is the reference's. -/
theorem mid1_b2 (V4 : Valuation τ sig (Elt F)) (x0 : (⟨S50000x64, .f32⟩ : BufTy).Contents (Elt F)) (x1 : (⟨S2x800000, .i32⟩ : BufTy).Contents (Elt F))
    (x2 : (⟨S8x64x64, .f32⟩ : BufTy).Contents (Elt F)) (x3 : (⟨S64, .f32⟩ : BufTy).Contents (Elt F)) (h : Entry1Hyp V4 x0 x1 x2 x3) :
    mid1 V4 (Proc.devRef .tc main_v179) = Cert.ReferenceIdeal.ReadP.val_main_v209 (F := F) x0 x1 x2 x3 := by
  unfold mid1
  host_results8
  simp only [h.hid, h.norm, h.src, h.dst]
  rfl

set_option maxHeartbeats 32000000 in
/-- Basis 3 of layer 2 in the kernel's program is the reference's. -/
theorem mid1_b3 (V4 : Valuation τ sig (Elt F)) (x0 : (⟨S50000x64, .f32⟩ : BufTy).Contents (Elt F)) (x1 : (⟨S2x800000, .i32⟩ : BufTy).Contents (Elt F))
    (x2 : (⟨S8x64x64, .f32⟩ : BufTy).Contents (Elt F)) (x3 : (⟨S64, .f32⟩ : BufTy).Contents (Elt F)) (h : Entry1Hyp V4 x0 x1 x2 x3) :
    mid1 V4 (Proc.devRef .tc main_v195) = Cert.ReferenceIdeal.ReadP.val_main_v229 (F := F) x0 x1 x2 x3 := by
  unfold mid1
  host_results8
  simp only [h.hid, h.norm, h.src, h.dst]
  rfl

set_option maxHeartbeats 32000000 in
/-- Basis 4 of layer 2 in the kernel's program is the reference's. -/
theorem mid1_b4 (V4 : Valuation τ sig (Elt F)) (x0 : (⟨S50000x64, .f32⟩ : BufTy).Contents (Elt F)) (x1 : (⟨S2x800000, .i32⟩ : BufTy).Contents (Elt F))
    (x2 : (⟨S8x64x64, .f32⟩ : BufTy).Contents (Elt F)) (x3 : (⟨S64, .f32⟩ : BufTy).Contents (Elt F)) (h : Entry1Hyp V4 x0 x1 x2 x3) :
    mid1 V4 (Proc.devRef .tc main_v211) = Cert.ReferenceIdeal.ReadP.val_main_v249 (F := F) x0 x1 x2 x3 := by
  unfold mid1
  host_results8
  simp only [h.hid, h.norm, h.src, h.dst]
  rfl

end Cert.KernelIdeal.Hand

end
-- ==== Proof.KI.Chain2b.lean ====
/-
  Layer 2's Chebyshev bases 5–7 in the kernel's program, against the reference's.
-/
import proofs.«145562_j85014582657503_2_alg».proof.Proof.KI.HostSplit
import proofs.«145562_j85014582657503_2_alg».proof.Proof.KI.Chain2Hyp

set_option maxRecDepth 16384

noncomputable section

namespace Cert.KernelIdeal.Hand

open Cert.KernelIdeal Cert.KernelIdeal.Gen Cert.NaryEight
open Idealize.ShloMosaic Idealize.ShloMosaic.TcCoe Idealize.SL.Sem Idealize.ShloMosaic.StableHlo

variable {F : FTy → Type} [FloatOps F]
set_option maxHeartbeats 32000000 in
/-- Basis 5 of layer 2 in the kernel's program is the reference's. -/
theorem mid1_b5 (V4 : Valuation τ sig (Elt F)) (x0 : (⟨S50000x64, .f32⟩ : BufTy).Contents (Elt F)) (x1 : (⟨S2x800000, .i32⟩ : BufTy).Contents (Elt F))
    (x2 : (⟨S8x64x64, .f32⟩ : BufTy).Contents (Elt F)) (x3 : (⟨S64, .f32⟩ : BufTy).Contents (Elt F)) (h : Entry1Hyp V4 x0 x1 x2 x3) :
    mid1 V4 (Proc.devRef .tc main_v227) = Cert.ReferenceIdeal.ReadP.val_main_v269 (F := F) x0 x1 x2 x3 := by
  unfold mid1
  host_results8
  simp only [h.hid, h.norm, h.src, h.dst]
  rfl

set_option maxHeartbeats 32000000 in
/-- Basis 6 of layer 2 in the kernel's program is the reference's. -/
theorem mid1_b6 (V4 : Valuation τ sig (Elt F)) (x0 : (⟨S50000x64, .f32⟩ : BufTy).Contents (Elt F)) (x1 : (⟨S2x800000, .i32⟩ : BufTy).Contents (Elt F))
    (x2 : (⟨S8x64x64, .f32⟩ : BufTy).Contents (Elt F)) (x3 : (⟨S64, .f32⟩ : BufTy).Contents (Elt F)) (h : Entry1Hyp V4 x0 x1 x2 x3) :
    mid1 V4 (Proc.devRef .tc main_v243) = Cert.ReferenceIdeal.ReadP.val_main_v289 (F := F) x0 x1 x2 x3 := by
  unfold mid1
  host_results8
  simp only [h.hid, h.norm, h.src, h.dst]
  rfl

set_option maxHeartbeats 32000000 in
/-- Basis 7 of layer 2 in the kernel's program is the reference's. -/
theorem mid1_b7 (V4 : Valuation τ sig (Elt F)) (x0 : (⟨S50000x64, .f32⟩ : BufTy).Contents (Elt F)) (x1 : (⟨S2x800000, .i32⟩ : BufTy).Contents (Elt F))
    (x2 : (⟨S8x64x64, .f32⟩ : BufTy).Contents (Elt F)) (x3 : (⟨S64, .f32⟩ : BufTy).Contents (Elt F)) (h : Entry1Hyp V4 x0 x1 x2 x3) :
    mid1 V4 (Proc.devRef .tc main_v259) = Cert.ReferenceIdeal.ReadP.val_main_v309 (F := F) x0 x1 x2 x3 := by
  unfold mid1
  host_results8
  simp only [h.hid, h.norm, h.src, h.dst]
  rfl

end Cert.KernelIdeal.Hand

end
-- ==== Proof.KI.StackAt.lean ====
/-
  The stack of eight node-feature arrays read at an entry: at the exact instance the rounding is the identity, the
  concatenation along the new leading axis picks the array its first coordinate names, and the leading unit axis
  given to that array is forgotten — entry (k, n, j) of the stack is entry (n, j) of array k.
-/
import proofs.«145562_j85014582657503_2_alg».proof.Proof.KI.HostSplit
import Idealize.ShloMosaic.Lib.Pipeline.Value
import Idealize.ShloMosaic.Lib.ValueIdx
import Idealize.ShloMosaic.PureOps.Ideal.Laws

noncomputable section

namespace Cert.KernelIdeal.Hand

open Cert.KernelIdeal Cert.KernelIdeal.Gen
open Idealize.ShloMosaic Idealize.ShloMosaic.ValueIdx

/-- The k-th of eight arrays. -/
def pick8 {α : Type} (t0 t1 t2 t3 t4 t5 t6 t7 : α) : Fin 8 → α
  | ⟨0, _⟩ => t0 | ⟨1, _⟩ => t1 | ⟨2, _⟩ => t2 | ⟨3, _⟩ => t3 | ⟨4, _⟩ => t4 | ⟨5, _⟩ => t5 | ⟨6, _⟩ => t6 | ⟨7, _⟩ => t7
  | ⟨_ + 8, h⟩ => absurd h (Nat.not_lt.2 (Nat.le_add_left _ _))

/-- An array given a leading unit axis, read at an entry. -/
theorem lead_unit_apply (x : (⟨S50000x64, .f32⟩ : BufTy).Contents (Elt Ideal)) (n : Fin 50000) (j : Fin 64) :
    broadcastInDim S1x50000x64 ![1, 2] bcast_S50000x64_S1x50000x64_1_2 x (ix3 0 n j) = x (ix2 n j) :=
  broadcastInDim_apply ![1, 2] bcast_S50000x64_S1x50000x64_1_2 x (ix3 0 n j) (ix2 n j) (fun a => by
    match a with
    | ⟨0, _⟩ => rfl
    | ⟨1, _⟩ => rfl)

/-- Entry (k, n, j) of the stack is entry (n, j) of array k. -/
theorem stack8_apply (t0 t1 t2 t3 t4 t5 t6 t7 : (⟨S50000x64, .f32⟩ : BufTy).Contents (Elt Ideal)) (k : Fin 8) (n : Fin 50000) (j : Fin 64) :
    stack8 (F := Ideal) t0 t1 t2 t3 t4 t5 t6 t7 (ix3 k n j) = pick8 t0 t1 t2 t3 t4 t5 t6 t7 k (ix2 n j) := by
  unfold stack8
  rw [truncf_apply]
  have h := concatenate_ofFn_unit_apply (t := S8x50000x64) (s₁ := S1x50000x64) (0 : Fin 3) (N := 8)
    (fun m : Fin 8 => broadcastInDim S1x50000x64 ![1, 2] bcast_S50000x64_S1x50000x64_1_2 (pick8 t0 t1 t2 t3 t4 t5 t6 t7 m))
    concatenates_S1x50000x64_S1x50000x64_S1x50000x64_S1x50000x64_S1x50000x64_S1x50000x64_S1x50000x64_S1x50000x64_S8x50000x64_d0
    rfl rfl (ix3 k n j) k rfl (ix3 0 n j) (fun b hb => by
      match b with
      | ⟨0, _⟩ => exact absurd rfl hb
      | ⟨1, _⟩ => rfl
      | ⟨2, _⟩ => rfl)
  exact h.trans (lead_unit_apply _ n j)

end Cert.KernelIdeal.Hand

end
-- ==== Proof.Bridge.RefLayers.lean ====
/-
  The reference program, layer by layer, read at an entry.

  Each layer of the reference is eight matrix products `B k · W k` (the base `B k` an `N × 64` array, the weight `W k` the
  `k`-th `64 × C` slab of the layer's weight array), added left to right, plus the bias row; the first layer is followed by
  `max · 0`.  Read at node `n` and output feature `f`, a product is `∑ j, B k n j * W k j f`, the slab `W k` at `(j, f)` is
  the weight array at `(k, j, f)` (a slice of one row followed by a reshape that drops the unit axis: the row-major
  position `j * C + f` splits back into `j` and `f` since `f < C`), and the broadcast bias at `(n, f)` is the bias at `f`.
  The eight terms added left to right are the sum over `Fin 8`, which is the layer of `Cert.Spec`.
-/
import proofs.«145562_j85014582657503_2_alg».proof.Proof.RefReadP
import proofs.«145562_j85014582657503_2_alg».proof.Proof.Bridge.Spec
import Idealize.ShloMosaic.Lib.ValueIdx
import Idealize.ShloMosaic.PureOps.Ideal.Laws

noncomputable section

namespace Cert.Bridge.Ref

open Cert.ReferenceIdeal Cert.ReferenceIdeal.Gen Cert.ReferenceIdeal.ReadP Idealize.ShloMosaic Idealize.ShloMosaic.ValueIdx
open scoped BigOperators
/-- The `0`-th weight slab of layer 1 at `(j, f)` is the weight array at `(0, j, f)`. -/
theorem w1_0 (x2 : (⟨S8x64x64, .f32⟩ : BufTy).Contents (Elt Ideal)) (j : Fin 64) (f : Fin 64) :
    val_main_v31 (F := Ideal) x2 (ix2 j f) = x2 (ix3 (0 : Fin 8) j f) := by
  rw [val_main_v31_apply, val_main_v30_apply]
  congr 1
  funext a
  have hj : j.val < 64 := j.isLt
  have hf : f.val < 64 := f.isLt
  match a with
  | ⟨0, _⟩ => exact Fin.ext (by show 0 = 0; rfl)
  | ⟨1, _⟩ => exact Fin.ext (by show (j.val * 64 + f.val) / 64 % 64 = j.val; omega)
  | ⟨2, _⟩ => exact Fin.ext (by show (j.val * 64 + f.val) % 64 = f.val; omega)

/-- The `1`-th weight slab of layer 1 at `(j, f)` is the weight array at `(1, j, f)`. -/
theorem w1_1 (x2 : (⟨S8x64x64, .f32⟩ : BufTy).Contents (Elt Ideal)) (j : Fin 64) (f : Fin 64) :
    val_main_v47 (F := Ideal) x2 (ix2 j f) = x2 (ix3 (1 : Fin 8) j f) := by
  rw [val_main_v47_apply, val_main_v46_apply]
  congr 1
  funext a
  have hj : j.val < 64 := j.isLt
  have hf : f.val < 64 := f.isLt
  match a with
  | ⟨0, _⟩ => exact Fin.ext (by show 1 + 0 = 1; rfl)
  | ⟨1, _⟩ => exact Fin.ext (by show (j.val * 64 + f.val) / 64 % 64 = j.val; omega)
  | ⟨2, _⟩ => exact Fin.ext (by show (j.val * 64 + f.val) % 64 = f.val; omega)

/-- The `2`-th weight slab of layer 1 at `(j, f)` is the weight array at `(2, j, f)`. -/
theorem w1_2 (x2 : (⟨S8x64x64, .f32⟩ : BufTy).Contents (Elt Ideal)) (j : Fin 64) (f : Fin 64) :
    val_main_v67 (F := Ideal) x2 (ix2 j f) = x2 (ix3 (2 : Fin 8) j f) := by
  rw [val_main_v67_apply, val_main_v66_apply]
  congr 1
  funext a
  have hj : j.val < 64 := j.isLt
  have hf : f.val < 64 := f.isLt
  match a with
  | ⟨0, _⟩ => exact Fin.ext (by show 2 + 0 = 2; rfl)
  | ⟨1, _⟩ => exact Fin.ext (by show (j.val * 64 + f.val) / 64 % 64 = j.val; omega)
  | ⟨2, _⟩ => exact Fin.ext (by show (j.val * 64 + f.val) % 64 = f.val; omega)

/-- The `3`-th weight slab of layer 1 at `(j, f)` is the weight array at `(3, j, f)`. -/
theorem w1_3 (x2 : (⟨S8x64x64, .f32⟩ : BufTy).Contents (Elt Ideal)) (j : Fin 64) (f : Fin 64) :
    val_main_v87 (F := Ideal) x2 (ix2 j f) = x2 (ix3 (3 : Fin 8) j f) := by
  rw [val_main_v87_apply, val_main_v86_apply]
  congr 1
  funext a
  have hj : j.val < 64 := j.isLt
  have hf : f.val < 64 := f.isLt
  match a with
  | ⟨0, _⟩ => exact Fin.ext (by show 3 + 0 = 3; rfl)
  | ⟨1, _⟩ => exact Fin.ext (by show (j.val * 64 + f.val) / 64 % 64 = j.val; omega)
  | ⟨2, _⟩ => exact Fin.ext (by show (j.val * 64 + f.val) % 64 = f.val; omega)

/-- The `4`-th weight slab of layer 1 at `(j, f)` is the weight array at `(4, j, f)`. -/
theorem w1_4 (x2 : (⟨S8x64x64, .f32⟩ : BufTy).Contents (Elt Ideal)) (j : Fin 64) (f : Fin 64) :
    val_main_v107 (F := Ideal) x2 (ix2 j f) = x2 (ix3 (4 : Fin 8) j f) := by
  rw [val_main_v107_apply, val_main_v106_apply]
  congr 1
  funext a
  have hj : j.val < 64 := j.isLt
  have hf : f.val < 64 := f.isLt
  match a with
  | ⟨0, _⟩ => exact Fin.ext (by show 4 + 0 = 4; rfl)
  | ⟨1, _⟩ => exact Fin.ext (by show (j.val * 64 + f.val) / 64 % 64 = j.val; omega)
  | ⟨2, _⟩ => exact Fin.ext (by show (j.val * 64 + f.val) % 64 = f.val; omega)

/-- The `5`-th weight slab of layer 1 at `(j, f)` is the weight array at `(5, j, f)`. -/
theorem w1_5 (x2 : (⟨S8x64x64, .f32⟩ : BufTy).Contents (Elt Ideal)) (j : Fin 64) (f : Fin 64) :
    val_main_v127 (F := Ideal) x2 (ix2 j f) = x2 (ix3 (5 : Fin 8) j f) := by
  rw [val_main_v127_apply, val_main_v126_apply]
  congr 1
  funext a
  have hj : j.val < 64 := j.isLt
  have hf : f.val < 64 := f.isLt
  match a with
  | ⟨0, _⟩ => exact Fin.ext (by show 5 + 0 = 5; rfl)
  | ⟨1, _⟩ => exact Fin.ext (by show (j.val * 64 + f.val) / 64 % 64 = j.val; omega)
  | ⟨2, _⟩ => exact Fin.ext (by show (j.val * 64 + f.val) % 64 = f.val; omega)

/-- The `6`-th weight slab of layer 1 at `(j, f)` is the weight array at `(6, j, f)`. -/
theorem w1_6 (x2 : (⟨S8x64x64, .f32⟩ : BufTy).Contents (Elt Ideal)) (j : Fin 64) (f : Fin 64) :
    val_main_v147 (F := Ideal) x2 (ix2 j f) = x2 (ix3 (6 : Fin 8) j f) := by
  rw [val_main_v147_apply, val_main_v146_apply]
  congr 1
  funext a
  have hj : j.val < 64 := j.isLt
  have hf : f.val < 64 := f.isLt
  match a with
  | ⟨0, _⟩ => exact Fin.ext (by show 6 + 0 = 6; rfl)
  | ⟨1, _⟩ => exact Fin.ext (by show (j.val * 64 + f.val) / 64 % 64 = j.val; omega)
  | ⟨2, _⟩ => exact Fin.ext (by show (j.val * 64 + f.val) % 64 = f.val; omega)

/-- The `7`-th weight slab of layer 1 at `(j, f)` is the weight array at `(7, j, f)`. -/
theorem w1_7 (x2 : (⟨S8x64x64, .f32⟩ : BufTy).Contents (Elt Ideal)) (j : Fin 64) (f : Fin 64) :
    val_main_v167 (F := Ideal) x2 (ix2 j f) = x2 (ix3 (7 : Fin 8) j f) := by
  rw [val_main_v167_apply, val_main_v166_apply]
  congr 1
  funext a
  have hj : j.val < 64 := j.isLt
  have hf : f.val < 64 := f.isLt
  match a with
  | ⟨0, _⟩ => exact Fin.ext (by show 7 + 0 = 7; rfl)
  | ⟨1, _⟩ => exact Fin.ext (by show (j.val * 64 + f.val) / 64 % 64 = j.val; omega)
  | ⟨2, _⟩ => exact Fin.ext (by show (j.val * 64 + f.val) % 64 = f.val; omega)

/-- The `0`-th product of layer 1 at `(n, f)`: the base's row `n` against column `f` of the `0`-th weight slab. -/
theorem p1_0 (x0 : (⟨S50000x64, .f32⟩ : BufTy).Contents (Elt Ideal)) (x2 : (⟨S8x64x64, .f32⟩ : BufTy).Contents (Elt Ideal)) (n : Fin 50000) (f : Fin 64) :
    val_main_v32 (F := Ideal) x0 x2 (ix2 n f)
      = ∑ j : Fin 64, x0 (ix2 n j) * x2 (ix3 (0 : Fin 8) j f) := by
  rw [val_main_v32_apply]
  refine Finset.sum_congr rfl fun j _ => ?_
  have hl : lidx_main_v32 (ix2 n f) j = ix2 n j := by
    funext a; match a with | ⟨0, _⟩ => rfl | ⟨1, _⟩ => rfl
  have hr : ridx_main_v32 (ix2 n f) j = ix2 j f := by
    funext a; match a with | ⟨0, _⟩ => rfl | ⟨1, _⟩ => rfl
  rw [hl, hr, w1_0]

/-- The `1`-th product of layer 1 at `(n, f)`: the base's row `n` against column `f` of the `1`-th weight slab. -/
theorem p1_1 (x0 : (⟨S50000x64, .f32⟩ : BufTy).Contents (Elt Ideal)) (x1 : (⟨S2x800000, .i32⟩ : BufTy).Contents (Elt Ideal)) (x2 : (⟨S8x64x64, .f32⟩ : BufTy).Contents (Elt Ideal)) (n : Fin 50000) (f : Fin 64) :
    val_main_v48 (F := Ideal) x0 x1 x2 (ix2 n f)
      = ∑ j : Fin 64, (val_main_v45 (F := Ideal) x0 x1) (ix2 n j) * x2 (ix3 (1 : Fin 8) j f) := by
  rw [val_main_v48_apply]
  refine Finset.sum_congr rfl fun j _ => ?_
  have hl : lidx_main_v48 (ix2 n f) j = ix2 n j := by
    funext a; match a with | ⟨0, _⟩ => rfl | ⟨1, _⟩ => rfl
  have hr : ridx_main_v48 (ix2 n f) j = ix2 j f := by
    funext a; match a with | ⟨0, _⟩ => rfl | ⟨1, _⟩ => rfl
  rw [hl, hr, w1_1]

/-- The `2`-th product of layer 1 at `(n, f)`: the base's row `n` against column `f` of the `2`-th weight slab. -/
theorem p1_2 (x0 : (⟨S50000x64, .f32⟩ : BufTy).Contents (Elt Ideal)) (x1 : (⟨S2x800000, .i32⟩ : BufTy).Contents (Elt Ideal)) (x2 : (⟨S8x64x64, .f32⟩ : BufTy).Contents (Elt Ideal)) (n : Fin 50000) (f : Fin 64) :
    val_main_v68 (F := Ideal) x0 x1 x2 (ix2 n f)
      = ∑ j : Fin 64, (val_main_v65 (F := Ideal) x0 x1) (ix2 n j) * x2 (ix3 (2 : Fin 8) j f) := by
  rw [val_main_v68_apply]
  refine Finset.sum_congr rfl fun j _ => ?_
  have hl : lidx_main_v68 (ix2 n f) j = ix2 n j := by
    funext a; match a with | ⟨0, _⟩ => rfl | ⟨1, _⟩ => rfl
  have hr : ridx_main_v68 (ix2 n f) j = ix2 j f := by
    funext a; match a with | ⟨0, _⟩ => rfl | ⟨1, _⟩ => rfl
  rw [hl, hr, w1_2]

/-- The `3`-th product of layer 1 at `(n, f)`: the base's row `n` against column `f` of the `3`-th weight slab. -/
theorem p1_3 (x0 : (⟨S50000x64, .f32⟩ : BufTy).Contents (Elt Ideal)) (x1 : (⟨S2x800000, .i32⟩ : BufTy).Contents (Elt Ideal)) (x2 : (⟨S8x64x64, .f32⟩ : BufTy).Contents (Elt Ideal)) (n : Fin 50000) (f : Fin 64) :
    val_main_v88 (F := Ideal) x0 x1 x2 (ix2 n f)
      = ∑ j : Fin 64, (val_main_v85 (F := Ideal) x0 x1) (ix2 n j) * x2 (ix3 (3 : Fin 8) j f) := by
  rw [val_main_v88_apply]
  refine Finset.sum_congr rfl fun j _ => ?_
  have hl : lidx_main_v88 (ix2 n f) j = ix2 n j := by
    funext a; match a with | ⟨0, _⟩ => rfl | ⟨1, _⟩ => rfl
  have hr : ridx_main_v88 (ix2 n f) j = ix2 j f := by
    funext a; match a with | ⟨0, _⟩ => rfl | ⟨1, _⟩ => rfl
  rw [hl, hr, w1_3]

/-- The `4`-th product of layer 1 at `(n, f)`: the base's row `n` against column `f` of the `4`-th weight slab. -/
theorem p1_4 (x0 : (⟨S50000x64, .f32⟩ : BufTy).Contents (Elt Ideal)) (x1 : (⟨S2x800000, .i32⟩ : BufTy).Contents (Elt Ideal)) (x2 : (⟨S8x64x64, .f32⟩ : BufTy).Contents (Elt Ideal)) (n : Fin 50000) (f : Fin 64) :
    val_main_v108 (F := Ideal) x0 x1 x2 (ix2 n f)
      = ∑ j : Fin 64, (val_main_v105 (F := Ideal) x0 x1) (ix2 n j) * x2 (ix3 (4 : Fin 8) j f) := by
  rw [val_main_v108_apply]
  refine Finset.sum_congr rfl fun j _ => ?_
  have hl : lidx_main_v108 (ix2 n f) j = ix2 n j := by
    funext a; match a with | ⟨0, _⟩ => rfl | ⟨1, _⟩ => rfl
  have hr : ridx_main_v108 (ix2 n f) j = ix2 j f := by
    funext a; match a with | ⟨0, _⟩ => rfl | ⟨1, _⟩ => rfl
  rw [hl, hr, w1_4]

/-- The `5`-th product of layer 1 at `(n, f)`: the base's row `n` against column `f` of the `5`-th weight slab. -/
theorem p1_5 (x0 : (⟨S50000x64, .f32⟩ : BufTy).Contents (Elt Ideal)) (x1 : (⟨S2x800000, .i32⟩ : BufTy).Contents (Elt Ideal)) (x2 : (⟨S8x64x64, .f32⟩ : BufTy).Contents (Elt Ideal)) (n : Fin 50000) (f : Fin 64) :
    val_main_v128 (F := Ideal) x0 x1 x2 (ix2 n f)
      = ∑ j : Fin 64, (val_main_v125 (F := Ideal) x0 x1) (ix2 n j) * x2 (ix3 (5 : Fin 8) j f) := by
  rw [val_main_v128_apply]
  refine Finset.sum_congr rfl fun j _ => ?_
  have hl : lidx_main_v128 (ix2 n f) j = ix2 n j := by
    funext a; match a with | ⟨0, _⟩ => rfl | ⟨1, _⟩ => rfl
  have hr : ridx_main_v128 (ix2 n f) j = ix2 j f := by
    funext a; match a with | ⟨0, _⟩ => rfl | ⟨1, _⟩ => rfl
  rw [hl, hr, w1_5]

/-- The `6`-th product of layer 1 at `(n, f)`: the base's row `n` against column `f` of the `6`-th weight slab. -/
theorem p1_6 (x0 : (⟨S50000x64, .f32⟩ : BufTy).Contents (Elt Ideal)) (x1 : (⟨S2x800000, .i32⟩ : BufTy).Contents (Elt Ideal)) (x2 : (⟨S8x64x64, .f32⟩ : BufTy).Contents (Elt Ideal)) (n : Fin 50000) (f : Fin 64) :
    val_main_v148 (F := Ideal) x0 x1 x2 (ix2 n f)
      = ∑ j : Fin 64, (val_main_v145 (F := Ideal) x0 x1) (ix2 n j) * x2 (ix3 (6 : Fin 8) j f) := by
  rw [val_main_v148_apply]
  refine Finset.sum_congr rfl fun j _ => ?_
  have hl : lidx_main_v148 (ix2 n f) j = ix2 n j := by
    funext a; match a with | ⟨0, _⟩ => rfl | ⟨1, _⟩ => rfl
  have hr : ridx_main_v148 (ix2 n f) j = ix2 j f := by
    funext a; match a with | ⟨0, _⟩ => rfl | ⟨1, _⟩ => rfl
  rw [hl, hr, w1_6]

/-- The `7`-th product of layer 1 at `(n, f)`: the base's row `n` against column `f` of the `7`-th weight slab. -/
theorem p1_7 (x0 : (⟨S50000x64, .f32⟩ : BufTy).Contents (Elt Ideal)) (x1 : (⟨S2x800000, .i32⟩ : BufTy).Contents (Elt Ideal)) (x2 : (⟨S8x64x64, .f32⟩ : BufTy).Contents (Elt Ideal)) (n : Fin 50000) (f : Fin 64) :
    val_main_v168 (F := Ideal) x0 x1 x2 (ix2 n f)
      = ∑ j : Fin 64, (val_main_v165 (F := Ideal) x0 x1) (ix2 n j) * x2 (ix3 (7 : Fin 8) j f) := by
  rw [val_main_v168_apply]
  refine Finset.sum_congr rfl fun j _ => ?_
  have hl : lidx_main_v168 (ix2 n f) j = ix2 n j := by
    funext a; match a with | ⟨0, _⟩ => rfl | ⟨1, _⟩ => rfl
  have hr : ridx_main_v168 (ix2 n f) j = ix2 j f := by
    funext a; match a with | ⟨0, _⟩ => rfl | ⟨1, _⟩ => rfl
  rw [hl, hr, w1_7]

/-- The `0`-th weight slab of layer 2 at `(j, f)` is the weight array at `(0, j, f)`. -/
theorem w2_0 (x4 : (⟨S8x64x10, .f32⟩ : BufTy).Contents (Elt Ideal)) (j : Fin 64) (f : Fin 10) :
    val_main_v175 (F := Ideal) x4 (ix2 j f) = x4 (ix3 (0 : Fin 8) j f) := by
  rw [val_main_v175_apply, val_main_v174_apply]
  congr 1
  funext a
  have hj : j.val < 64 := j.isLt
  have hf : f.val < 10 := f.isLt
  match a with
  | ⟨0, _⟩ => exact Fin.ext (by show 0 = 0; rfl)
  | ⟨1, _⟩ => exact Fin.ext (by show (j.val * 10 + f.val) / 10 % 64 = j.val; omega)
  | ⟨2, _⟩ => exact Fin.ext (by show (j.val * 10 + f.val) % 10 = f.val; omega)

/-- The `1`-th weight slab of layer 2 at `(j, f)` is the weight array at `(1, j, f)`. -/
theorem w2_1 (x4 : (⟨S8x64x10, .f32⟩ : BufTy).Contents (Elt Ideal)) (j : Fin 64) (f : Fin 10) :
    val_main_v191 (F := Ideal) x4 (ix2 j f) = x4 (ix3 (1 : Fin 8) j f) := by
  rw [val_main_v191_apply, val_main_v190_apply]
  congr 1
  funext a
  have hj : j.val < 64 := j.isLt
  have hf : f.val < 10 := f.isLt
  match a with
  | ⟨0, _⟩ => exact Fin.ext (by show 1 + 0 = 1; rfl)
  | ⟨1, _⟩ => exact Fin.ext (by show (j.val * 10 + f.val) / 10 % 64 = j.val; omega)
  | ⟨2, _⟩ => exact Fin.ext (by show (j.val * 10 + f.val) % 10 = f.val; omega)

/-- The `2`-th weight slab of layer 2 at `(j, f)` is the weight array at `(2, j, f)`. -/
theorem w2_2 (x4 : (⟨S8x64x10, .f32⟩ : BufTy).Contents (Elt Ideal)) (j : Fin 64) (f : Fin 10) :
    val_main_v211 (F := Ideal) x4 (ix2 j f) = x4 (ix3 (2 : Fin 8) j f) := by
  rw [val_main_v211_apply, val_main_v210_apply]
  congr 1
  funext a
  have hj : j.val < 64 := j.isLt
  have hf : f.val < 10 := f.isLt
  match a with
  | ⟨0, _⟩ => exact Fin.ext (by show 2 + 0 = 2; rfl)
  | ⟨1, _⟩ => exact Fin.ext (by show (j.val * 10 + f.val) / 10 % 64 = j.val; omega)
  | ⟨2, _⟩ => exact Fin.ext (by show (j.val * 10 + f.val) % 10 = f.val; omega)

/-- The `3`-th weight slab of layer 2 at `(j, f)` is the weight array at `(3, j, f)`. -/
theorem w2_3 (x4 : (⟨S8x64x10, .f32⟩ : BufTy).Contents (Elt Ideal)) (j : Fin 64) (f : Fin 10) :
    val_main_v231 (F := Ideal) x4 (ix2 j f) = x4 (ix3 (3 : Fin 8) j f) := by
  rw [val_main_v231_apply, val_main_v230_apply]
  congr 1
  funext a
  have hj : j.val < 64 := j.isLt
  have hf : f.val < 10 := f.isLt
  match a with
  | ⟨0, _⟩ => exact Fin.ext (by show 3 + 0 = 3; rfl)
  | ⟨1, _⟩ => exact Fin.ext (by show (j.val * 10 + f.val) / 10 % 64 = j.val; omega)
  | ⟨2, _⟩ => exact Fin.ext (by show (j.val * 10 + f.val) % 10 = f.val; omega)

/-- The `4`-th weight slab of layer 2 at `(j, f)` is the weight array at `(4, j, f)`. -/
theorem w2_4 (x4 : (⟨S8x64x10, .f32⟩ : BufTy).Contents (Elt Ideal)) (j : Fin 64) (f : Fin 10) :
    val_main_v251 (F := Ideal) x4 (ix2 j f) = x4 (ix3 (4 : Fin 8) j f) := by
  rw [val_main_v251_apply, val_main_v250_apply]
  congr 1
  funext a
  have hj : j.val < 64 := j.isLt
  have hf : f.val < 10 := f.isLt
  match a with
  | ⟨0, _⟩ => exact Fin.ext (by show 4 + 0 = 4; rfl)
  | ⟨1, _⟩ => exact Fin.ext (by show (j.val * 10 + f.val) / 10 % 64 = j.val; omega)
  | ⟨2, _⟩ => exact Fin.ext (by show (j.val * 10 + f.val) % 10 = f.val; omega)

/-- The `5`-th weight slab of layer 2 at `(j, f)` is the weight array at `(5, j, f)`. -/
theorem w2_5 (x4 : (⟨S8x64x10, .f32⟩ : BufTy).Contents (Elt Ideal)) (j : Fin 64) (f : Fin 10) :
    val_main_v271 (F := Ideal) x4 (ix2 j f) = x4 (ix3 (5 : Fin 8) j f) := by
  rw [val_main_v271_apply, val_main_v270_apply]
  congr 1
  funext a
  have hj : j.val < 64 := j.isLt
  have hf : f.val < 10 := f.isLt
  match a with
  | ⟨0, _⟩ => exact Fin.ext (by show 5 + 0 = 5; rfl)
  | ⟨1, _⟩ => exact Fin.ext (by show (j.val * 10 + f.val) / 10 % 64 = j.val; omega)
  | ⟨2, _⟩ => exact Fin.ext (by show (j.val * 10 + f.val) % 10 = f.val; omega)

/-- The `6`-th weight slab of layer 2 at `(j, f)` is the weight array at `(6, j, f)`. -/
theorem w2_6 (x4 : (⟨S8x64x10, .f32⟩ : BufTy).Contents (Elt Ideal)) (j : Fin 64) (f : Fin 10) :
    val_main_v291 (F := Ideal) x4 (ix2 j f) = x4 (ix3 (6 : Fin 8) j f) := by
  rw [val_main_v291_apply, val_main_v290_apply]
  congr 1
  funext a
  have hj : j.val < 64 := j.isLt
  have hf : f.val < 10 := f.isLt
  match a with
  | ⟨0, _⟩ => exact Fin.ext (by show 6 + 0 = 6; rfl)
  | ⟨1, _⟩ => exact Fin.ext (by show (j.val * 10 + f.val) / 10 % 64 = j.val; omega)
  | ⟨2, _⟩ => exact Fin.ext (by show (j.val * 10 + f.val) % 10 = f.val; omega)

/-- The `7`-th weight slab of layer 2 at `(j, f)` is the weight array at `(7, j, f)`. -/
theorem w2_7 (x4 : (⟨S8x64x10, .f32⟩ : BufTy).Contents (Elt Ideal)) (j : Fin 64) (f : Fin 10) :
    val_main_v311 (F := Ideal) x4 (ix2 j f) = x4 (ix3 (7 : Fin 8) j f) := by
  rw [val_main_v311_apply, val_main_v310_apply]
  congr 1
  funext a
  have hj : j.val < 64 := j.isLt
  have hf : f.val < 10 := f.isLt
  match a with
  | ⟨0, _⟩ => exact Fin.ext (by show 7 + 0 = 7; rfl)
  | ⟨1, _⟩ => exact Fin.ext (by show (j.val * 10 + f.val) / 10 % 64 = j.val; omega)
  | ⟨2, _⟩ => exact Fin.ext (by show (j.val * 10 + f.val) % 10 = f.val; omega)

/-- The `0`-th product of layer 2 at `(n, f)`: the base's row `n` against column `f` of the `0`-th weight slab. -/
theorem p2_0 (x0 : (⟨S50000x64, .f32⟩ : BufTy).Contents (Elt Ideal)) (x1 : (⟨S2x800000, .i32⟩ : BufTy).Contents (Elt Ideal)) (x2 : (⟨S8x64x64, .f32⟩ : BufTy).Contents (Elt Ideal)) (x3 : (⟨S64, .f32⟩ : BufTy).Contents (Elt Ideal)) (x4 : (⟨S8x64x10, .f32⟩ : BufTy).Contents (Elt Ideal)) (n : Fin 50000) (f : Fin 10) :
    val_main_v176 (F := Ideal) x0 x1 x2 x3 x4 (ix2 n f)
      = ∑ j : Fin 64, (val_main_v173 (F := Ideal) x0 x1 x2 x3) (ix2 n j) * x4 (ix3 (0 : Fin 8) j f) := by
  rw [val_main_v176_apply]
  refine Finset.sum_congr rfl fun j _ => ?_
  have hl : lidx_main_v176 (ix2 n f) j = ix2 n j := by
    funext a; match a with | ⟨0, _⟩ => rfl | ⟨1, _⟩ => rfl
  have hr : ridx_main_v176 (ix2 n f) j = ix2 j f := by
    funext a; match a with | ⟨0, _⟩ => rfl | ⟨1, _⟩ => rfl
  rw [hl, hr, w2_0]

/-- The `1`-th product of layer 2 at `(n, f)`: the base's row `n` against column `f` of the `1`-th weight slab. -/
theorem p2_1 (x0 : (⟨S50000x64, .f32⟩ : BufTy).Contents (Elt Ideal)) (x1 : (⟨S2x800000, .i32⟩ : BufTy).Contents (Elt Ideal)) (x2 : (⟨S8x64x64, .f32⟩ : BufTy).Contents (Elt Ideal)) (x3 : (⟨S64, .f32⟩ : BufTy).Contents (Elt Ideal)) (x4 : (⟨S8x64x10, .f32⟩ : BufTy).Contents (Elt Ideal)) (n : Fin 50000) (f : Fin 10) :
    val_main_v192 (F := Ideal) x0 x1 x2 x3 x4 (ix2 n f)
      = ∑ j : Fin 64, (val_main_v189 (F := Ideal) x0 x1 x2 x3) (ix2 n j) * x4 (ix3 (1 : Fin 8) j f) := by
  rw [val_main_v192_apply]
  refine Finset.sum_congr rfl fun j _ => ?_
  have hl : lidx_main_v192 (ix2 n f) j = ix2 n j := by
    funext a; match a with | ⟨0, _⟩ => rfl | ⟨1, _⟩ => rfl
  have hr : ridx_main_v192 (ix2 n f) j = ix2 j f := by
    funext a; match a with | ⟨0, _⟩ => rfl | ⟨1, _⟩ => rfl
  rw [hl, hr, w2_1]

/-- The `2`-th product of layer 2 at `(n, f)`: the base's row `n` against column `f` of the `2`-th weight slab. -/
theorem p2_2 (x0 : (⟨S50000x64, .f32⟩ : BufTy).Contents (Elt Ideal)) (x1 : (⟨S2x800000, .i32⟩ : BufTy).Contents (Elt Ideal)) (x2 : (⟨S8x64x64, .f32⟩ : BufTy).Contents (Elt Ideal)) (x3 : (⟨S64, .f32⟩ : BufTy).Contents (Elt Ideal)) (x4 : (⟨S8x64x10, .f32⟩ : BufTy).Contents (Elt Ideal)) (n : Fin 50000) (f : Fin 10) :
    val_main_v212 (F := Ideal) x0 x1 x2 x3 x4 (ix2 n f)
      = ∑ j : Fin 64, (val_main_v209 (F := Ideal) x0 x1 x2 x3) (ix2 n j) * x4 (ix3 (2 : Fin 8) j f) := by
  rw [val_main_v212_apply]
  refine Finset.sum_congr rfl fun j _ => ?_
  have hl : lidx_main_v212 (ix2 n f) j = ix2 n j := by
    funext a; match a with | ⟨0, _⟩ => rfl | ⟨1, _⟩ => rfl
  have hr : ridx_main_v212 (ix2 n f) j = ix2 j f := by
    funext a; match a with | ⟨0, _⟩ => rfl | ⟨1, _⟩ => rfl
  rw [hl, hr, w2_2]

/-- The `3`-th product of layer 2 at `(n, f)`: the base's row `n` against column `f` of the `3`-th weight slab. -/
theorem p2_3 (x0 : (⟨S50000x64, .f32⟩ : BufTy).Contents (Elt Ideal)) (x1 : (⟨S2x800000, .i32⟩ : BufTy).Contents (Elt Ideal)) (x2 : (⟨S8x64x64, .f32⟩ : BufTy).Contents (Elt Ideal)) (x3 : (⟨S64, .f32⟩ : BufTy).Contents (Elt Ideal)) (x4 : (⟨S8x64x10, .f32⟩ : BufTy).Contents (Elt Ideal)) (n : Fin 50000) (f : Fin 10) :
    val_main_v232 (F := Ideal) x0 x1 x2 x3 x4 (ix2 n f)
      = ∑ j : Fin 64, (val_main_v229 (F := Ideal) x0 x1 x2 x3) (ix2 n j) * x4 (ix3 (3 : Fin 8) j f) := by
  rw [val_main_v232_apply]
  refine Finset.sum_congr rfl fun j _ => ?_
  have hl : lidx_main_v232 (ix2 n f) j = ix2 n j := by
    funext a; match a with | ⟨0, _⟩ => rfl | ⟨1, _⟩ => rfl
  have hr : ridx_main_v232 (ix2 n f) j = ix2 j f := by
    funext a; match a with | ⟨0, _⟩ => rfl | ⟨1, _⟩ => rfl
  rw [hl, hr, w2_3]

/-- The `4`-th product of layer 2 at `(n, f)`: the base's row `n` against column `f` of the `4`-th weight slab. -/
theorem p2_4 (x0 : (⟨S50000x64, .f32⟩ : BufTy).Contents (Elt Ideal)) (x1 : (⟨S2x800000, .i32⟩ : BufTy).Contents (Elt Ideal)) (x2 : (⟨S8x64x64, .f32⟩ : BufTy).Contents (Elt Ideal)) (x3 : (⟨S64, .f32⟩ : BufTy).Contents (Elt Ideal)) (x4 : (⟨S8x64x10, .f32⟩ : BufTy).Contents (Elt Ideal)) (n : Fin 50000) (f : Fin 10) :
    val_main_v252 (F := Ideal) x0 x1 x2 x3 x4 (ix2 n f)
      = ∑ j : Fin 64, (val_main_v249 (F := Ideal) x0 x1 x2 x3) (ix2 n j) * x4 (ix3 (4 : Fin 8) j f) := by
  rw [val_main_v252_apply]
  refine Finset.sum_congr rfl fun j _ => ?_
  have hl : lidx_main_v252 (ix2 n f) j = ix2 n j := by
    funext a; match a with | ⟨0, _⟩ => rfl | ⟨1, _⟩ => rfl
  have hr : ridx_main_v252 (ix2 n f) j = ix2 j f := by
    funext a; match a with | ⟨0, _⟩ => rfl | ⟨1, _⟩ => rfl
  rw [hl, hr, w2_4]

/-- The `5`-th product of layer 2 at `(n, f)`: the base's row `n` against column `f` of the `5`-th weight slab. -/
theorem p2_5 (x0 : (⟨S50000x64, .f32⟩ : BufTy).Contents (Elt Ideal)) (x1 : (⟨S2x800000, .i32⟩ : BufTy).Contents (Elt Ideal)) (x2 : (⟨S8x64x64, .f32⟩ : BufTy).Contents (Elt Ideal)) (x3 : (⟨S64, .f32⟩ : BufTy).Contents (Elt Ideal)) (x4 : (⟨S8x64x10, .f32⟩ : BufTy).Contents (Elt Ideal)) (n : Fin 50000) (f : Fin 10) :
    val_main_v272 (F := Ideal) x0 x1 x2 x3 x4 (ix2 n f)
      = ∑ j : Fin 64, (val_main_v269 (F := Ideal) x0 x1 x2 x3) (ix2 n j) * x4 (ix3 (5 : Fin 8) j f) := by
  rw [val_main_v272_apply]
  refine Finset.sum_congr rfl fun j _ => ?_
  have hl : lidx_main_v272 (ix2 n f) j = ix2 n j := by
    funext a; match a with | ⟨0, _⟩ => rfl | ⟨1, _⟩ => rfl
  have hr : ridx_main_v272 (ix2 n f) j = ix2 j f := by
    funext a; match a with | ⟨0, _⟩ => rfl | ⟨1, _⟩ => rfl
  rw [hl, hr, w2_5]

/-- The `6`-th product of layer 2 at `(n, f)`: the base's row `n` against column `f` of the `6`-th weight slab. -/
theorem p2_6 (x0 : (⟨S50000x64, .f32⟩ : BufTy).Contents (Elt Ideal)) (x1 : (⟨S2x800000, .i32⟩ : BufTy).Contents (Elt Ideal)) (x2 : (⟨S8x64x64, .f32⟩ : BufTy).Contents (Elt Ideal)) (x3 : (⟨S64, .f32⟩ : BufTy).Contents (Elt Ideal)) (x4 : (⟨S8x64x10, .f32⟩ : BufTy).Contents (Elt Ideal)) (n : Fin 50000) (f : Fin 10) :
    val_main_v292 (F := Ideal) x0 x1 x2 x3 x4 (ix2 n f)
      = ∑ j : Fin 64, (val_main_v289 (F := Ideal) x0 x1 x2 x3) (ix2 n j) * x4 (ix3 (6 : Fin 8) j f) := by
  rw [val_main_v292_apply]
  refine Finset.sum_congr rfl fun j _ => ?_
  have hl : lidx_main_v292 (ix2 n f) j = ix2 n j := by
    funext a; match a with | ⟨0, _⟩ => rfl | ⟨1, _⟩ => rfl
  have hr : ridx_main_v292 (ix2 n f) j = ix2 j f := by
    funext a; match a with | ⟨0, _⟩ => rfl | ⟨1, _⟩ => rfl
  rw [hl, hr, w2_6]

/-- The `7`-th product of layer 2 at `(n, f)`: the base's row `n` against column `f` of the `7`-th weight slab. -/
theorem p2_7 (x0 : (⟨S50000x64, .f32⟩ : BufTy).Contents (Elt Ideal)) (x1 : (⟨S2x800000, .i32⟩ : BufTy).Contents (Elt Ideal)) (x2 : (⟨S8x64x64, .f32⟩ : BufTy).Contents (Elt Ideal)) (x3 : (⟨S64, .f32⟩ : BufTy).Contents (Elt Ideal)) (x4 : (⟨S8x64x10, .f32⟩ : BufTy).Contents (Elt Ideal)) (n : Fin 50000) (f : Fin 10) :
    val_main_v312 (F := Ideal) x0 x1 x2 x3 x4 (ix2 n f)
      = ∑ j : Fin 64, (val_main_v309 (F := Ideal) x0 x1 x2 x3) (ix2 n j) * x4 (ix3 (7 : Fin 8) j f) := by
  rw [val_main_v312_apply]
  refine Finset.sum_congr rfl fun j _ => ?_
  have hl : lidx_main_v312 (ix2 n f) j = ix2 n j := by
    funext a; match a with | ⟨0, _⟩ => rfl | ⟨1, _⟩ => rfl
  have hr : ridx_main_v312 (ix2 n f) j = ix2 j f := by
    funext a; match a with | ⟨0, _⟩ => rfl | ⟨1, _⟩ => rfl
  rw [hl, hr, w2_7]

/-- The eight bases of layer 1: the input itself, then the reference's seven propagated arrays. -/
def base1 (k : Fin 8) (x0 : (⟨S50000x64, .f32⟩ : BufTy).Contents (Elt Ideal)) (x1 : (⟨S2x800000, .i32⟩ : BufTy).Contents (Elt Ideal)) : (⟨S50000x64, .f32⟩ : BufTy).Contents (Elt Ideal) :=
  match k with
  | ⟨0, _⟩ => x0
  | ⟨1, _⟩ => val_main_v45 (F := Ideal) x0 x1
  | ⟨2, _⟩ => val_main_v65 (F := Ideal) x0 x1
  | ⟨3, _⟩ => val_main_v85 (F := Ideal) x0 x1
  | ⟨4, _⟩ => val_main_v105 (F := Ideal) x0 x1
  | ⟨5, _⟩ => val_main_v125 (F := Ideal) x0 x1
  | ⟨6, _⟩ => val_main_v145 (F := Ideal) x0 x1
  | ⟨7, _⟩ => val_main_v165 (F := Ideal) x0 x1

theorem base1_zero (x0 : (⟨S50000x64, .f32⟩ : BufTy).Contents (Elt Ideal)) (x1 : (⟨S2x800000, .i32⟩ : BufTy).Contents (Elt Ideal)) : base1 0 x0 x1 = x0 := rfl
theorem base1_1 (x0 : (⟨S50000x64, .f32⟩ : BufTy).Contents (Elt Ideal)) (x1 : (⟨S2x800000, .i32⟩ : BufTy).Contents (Elt Ideal)) : base1 1 x0 x1 = val_main_v45 (F := Ideal) x0 x1 := rfl
theorem base1_2 (x0 : (⟨S50000x64, .f32⟩ : BufTy).Contents (Elt Ideal)) (x1 : (⟨S2x800000, .i32⟩ : BufTy).Contents (Elt Ideal)) : base1 2 x0 x1 = val_main_v65 (F := Ideal) x0 x1 := rfl
theorem base1_3 (x0 : (⟨S50000x64, .f32⟩ : BufTy).Contents (Elt Ideal)) (x1 : (⟨S2x800000, .i32⟩ : BufTy).Contents (Elt Ideal)) : base1 3 x0 x1 = val_main_v85 (F := Ideal) x0 x1 := rfl
theorem base1_4 (x0 : (⟨S50000x64, .f32⟩ : BufTy).Contents (Elt Ideal)) (x1 : (⟨S2x800000, .i32⟩ : BufTy).Contents (Elt Ideal)) : base1 4 x0 x1 = val_main_v105 (F := Ideal) x0 x1 := rfl
theorem base1_5 (x0 : (⟨S50000x64, .f32⟩ : BufTy).Contents (Elt Ideal)) (x1 : (⟨S2x800000, .i32⟩ : BufTy).Contents (Elt Ideal)) : base1 5 x0 x1 = val_main_v125 (F := Ideal) x0 x1 := rfl
theorem base1_6 (x0 : (⟨S50000x64, .f32⟩ : BufTy).Contents (Elt Ideal)) (x1 : (⟨S2x800000, .i32⟩ : BufTy).Contents (Elt Ideal)) : base1 6 x0 x1 = val_main_v145 (F := Ideal) x0 x1 := rfl
theorem base1_7 (x0 : (⟨S50000x64, .f32⟩ : BufTy).Contents (Elt Ideal)) (x1 : (⟨S2x800000, .i32⟩ : BufTy).Contents (Elt Ideal)) : base1 7 x0 x1 = val_main_v165 (F := Ideal) x0 x1 := rfl

/-- The eight bases of layer 2: the hidden array (layer 1 after `max · 0`), then the reference's seven propagated arrays. -/
def base2 (k : Fin 8) (x0 : (⟨S50000x64, .f32⟩ : BufTy).Contents (Elt Ideal)) (x1 : (⟨S2x800000, .i32⟩ : BufTy).Contents (Elt Ideal)) (x2 : (⟨S8x64x64, .f32⟩ : BufTy).Contents (Elt Ideal)) (x3 : (⟨S64, .f32⟩ : BufTy).Contents (Elt Ideal)) : (⟨S50000x64, .f32⟩ : BufTy).Contents (Elt Ideal) :=
  match k with
  | ⟨0, _⟩ => val_main_v173 (F := Ideal) x0 x1 x2 x3
  | ⟨1, _⟩ => val_main_v189 (F := Ideal) x0 x1 x2 x3
  | ⟨2, _⟩ => val_main_v209 (F := Ideal) x0 x1 x2 x3
  | ⟨3, _⟩ => val_main_v229 (F := Ideal) x0 x1 x2 x3
  | ⟨4, _⟩ => val_main_v249 (F := Ideal) x0 x1 x2 x3
  | ⟨5, _⟩ => val_main_v269 (F := Ideal) x0 x1 x2 x3
  | ⟨6, _⟩ => val_main_v289 (F := Ideal) x0 x1 x2 x3
  | ⟨7, _⟩ => val_main_v309 (F := Ideal) x0 x1 x2 x3

theorem base2_zero (x0 : (⟨S50000x64, .f32⟩ : BufTy).Contents (Elt Ideal)) (x1 : (⟨S2x800000, .i32⟩ : BufTy).Contents (Elt Ideal)) (x2 : (⟨S8x64x64, .f32⟩ : BufTy).Contents (Elt Ideal)) (x3 : (⟨S64, .f32⟩ : BufTy).Contents (Elt Ideal)) : base2 0 x0 x1 x2 x3 = val_main_v173 (F := Ideal) x0 x1 x2 x3 := rfl
theorem base2_1 (x0 : (⟨S50000x64, .f32⟩ : BufTy).Contents (Elt Ideal)) (x1 : (⟨S2x800000, .i32⟩ : BufTy).Contents (Elt Ideal)) (x2 : (⟨S8x64x64, .f32⟩ : BufTy).Contents (Elt Ideal)) (x3 : (⟨S64, .f32⟩ : BufTy).Contents (Elt Ideal)) : base2 1 x0 x1 x2 x3 = val_main_v189 (F := Ideal) x0 x1 x2 x3 := rfl
theorem base2_2 (x0 : (⟨S50000x64, .f32⟩ : BufTy).Contents (Elt Ideal)) (x1 : (⟨S2x800000, .i32⟩ : BufTy).Contents (Elt Ideal)) (x2 : (⟨S8x64x64, .f32⟩ : BufTy).Contents (Elt Ideal)) (x3 : (⟨S64, .f32⟩ : BufTy).Contents (Elt Ideal)) : base2 2 x0 x1 x2 x3 = val_main_v209 (F := Ideal) x0 x1 x2 x3 := rfl
theorem base2_3 (x0 : (⟨S50000x64, .f32⟩ : BufTy).Contents (Elt Ideal)) (x1 : (⟨S2x800000, .i32⟩ : BufTy).Contents (Elt Ideal)) (x2 : (⟨S8x64x64, .f32⟩ : BufTy).Contents (Elt Ideal)) (x3 : (⟨S64, .f32⟩ : BufTy).Contents (Elt Ideal)) : base2 3 x0 x1 x2 x3 = val_main_v229 (F := Ideal) x0 x1 x2 x3 := rfl
theorem base2_4 (x0 : (⟨S50000x64, .f32⟩ : BufTy).Contents (Elt Ideal)) (x1 : (⟨S2x800000, .i32⟩ : BufTy).Contents (Elt Ideal)) (x2 : (⟨S8x64x64, .f32⟩ : BufTy).Contents (Elt Ideal)) (x3 : (⟨S64, .f32⟩ : BufTy).Contents (Elt Ideal)) : base2 4 x0 x1 x2 x3 = val_main_v249 (F := Ideal) x0 x1 x2 x3 := rfl
theorem base2_5 (x0 : (⟨S50000x64, .f32⟩ : BufTy).Contents (Elt Ideal)) (x1 : (⟨S2x800000, .i32⟩ : BufTy).Contents (Elt Ideal)) (x2 : (⟨S8x64x64, .f32⟩ : BufTy).Contents (Elt Ideal)) (x3 : (⟨S64, .f32⟩ : BufTy).Contents (Elt Ideal)) : base2 5 x0 x1 x2 x3 = val_main_v269 (F := Ideal) x0 x1 x2 x3 := rfl
theorem base2_6 (x0 : (⟨S50000x64, .f32⟩ : BufTy).Contents (Elt Ideal)) (x1 : (⟨S2x800000, .i32⟩ : BufTy).Contents (Elt Ideal)) (x2 : (⟨S8x64x64, .f32⟩ : BufTy).Contents (Elt Ideal)) (x3 : (⟨S64, .f32⟩ : BufTy).Contents (Elt Ideal)) : base2 6 x0 x1 x2 x3 = val_main_v289 (F := Ideal) x0 x1 x2 x3 := rfl
theorem base2_7 (x0 : (⟨S50000x64, .f32⟩ : BufTy).Contents (Elt Ideal)) (x1 : (⟨S2x800000, .i32⟩ : BufTy).Contents (Elt Ideal)) (x2 : (⟨S8x64x64, .f32⟩ : BufTy).Contents (Elt Ideal)) (x3 : (⟨S64, .f32⟩ : BufTy).Contents (Elt Ideal)) : base2 7 x0 x1 x2 x3 = val_main_v309 (F := Ideal) x0 x1 x2 x3 := rfl

/-- The broadcast bias of layer 1 at `(n, f)` is the bias at `f`. -/
theorem bias1 (x3 : (⟨S64, .f32⟩ : BufTy).Contents (Elt Ideal)) (n : Fin 50000) (f : Fin 64) :
    val_main_v171 (F := Ideal) x3 (ix2 n f) = x3 (ix1 f) := by
  rw [val_main_v171_apply, val_main_v170_apply]
  congr 1
  funext a
  match a with
  | ⟨0, _⟩ => rfl

/-- The broadcast bias of layer 2 at `(n, f)` is the bias at `f`. -/
theorem bias2 (x5 : (⟨S10, .f32⟩ : BufTy).Contents (Elt Ideal)) (n : Fin 50000) (f : Fin 10) :
    val_main_v315 (F := Ideal) x5 (ix2 n f) = x5 (ix1 f) := by
  rw [val_main_v315_apply, val_main_v314_apply]
  congr 1
  funext a
  match a with
  | ⟨0, _⟩ => rfl

/-- The broadcast zero that layer 1's maximum is taken against. -/
theorem zero1 (i : S50000x64.Idx) : val_main_call1_v0 (F := Ideal) i = 0 := by
  rw [val_main_call1_v0_apply, val_main_call1_cst_apply, Ideal.ofBits_def, Ideal.ofBits_zero_f32]

/-- Layer 1 of the reference before the bias, at `(n, f)`: the eight products added left to right. -/
theorem ref_sum1_apply (x0 : (⟨S50000x64, .f32⟩ : BufTy).Contents (Elt Ideal)) (x1 : (⟨S2x800000, .i32⟩ : BufTy).Contents (Elt Ideal)) (x2 : (⟨S8x64x64, .f32⟩ : BufTy).Contents (Elt Ideal)) (n : Fin 50000) (f : Fin 64) :
    val_main_v169 (F := Ideal) x0 x1 x2 (ix2 n f)
      = ∑ k : Fin 8, ∑ j : Fin 64, base1 k x0 x1 (ix2 n j) * x2 (ix3 k j f) := by
  rw [val_main_v169_apply, val_main_v149_apply, val_main_v129_apply, val_main_v109_apply, val_main_v89_apply,
    val_main_v69_apply, val_main_v49_apply]
  rw [p1_0, p1_1, p1_2, p1_3, p1_4, p1_5, p1_6, p1_7]
  simp only [Ideal.addf_def]
  exact Cert.Spec.sum8_left (fun k => ∑ j : Fin 64, base1 k x0 x1 (ix2 n j) * x2 (ix3 k j f))

/-- layer 1 of the reference, after the relu, at node n and feature f -/
theorem ref_hidden_apply (x0 : (⟨S50000x64, .f32⟩ : BufTy).Contents (Elt Ideal)) (x1 : (⟨S2x800000, .i32⟩ : BufTy).Contents (Elt Ideal)) (x2 : (⟨S8x64x64, .f32⟩ : BufTy).Contents (Elt Ideal)) (x3 : (⟨S64, .f32⟩ : BufTy).Contents (Elt Ideal)) (n : Fin 50000) (f : Fin 64) :
    Cert.ReferenceIdeal.ReadP.val_main_v173 (F := Ideal) x0 x1 x2 x3 (ValueIdx.ix2 n f)
      = max (Cert.Spec.layer (fun k n j => base1 k x0 x1 (ValueIdx.ix2 n j)) (fun k j f => x2 (ValueIdx.ix3 k j f))
          (fun f => x3 (ValueIdx.ix1 f)) n f) 0 := by
  rw [val_main_v173_apply, val_main_v172_apply, zero1, bias1, ref_sum1_apply, Ideal.maximumf_def, Ideal.addf_def]
  rfl

/-- Layer 2 of the reference before the bias, at `(n, f)`: the eight products added left to right. -/
theorem ref_sum2_apply (x0 : (⟨S50000x64, .f32⟩ : BufTy).Contents (Elt Ideal)) (x1 : (⟨S2x800000, .i32⟩ : BufTy).Contents (Elt Ideal)) (x2 : (⟨S8x64x64, .f32⟩ : BufTy).Contents (Elt Ideal)) (x3 : (⟨S64, .f32⟩ : BufTy).Contents (Elt Ideal)) (x4 : (⟨S8x64x10, .f32⟩ : BufTy).Contents (Elt Ideal)) (n : Fin 50000) (f : Fin 10) :
    val_main_v313 (F := Ideal) x0 x1 x2 x3 x4 (ix2 n f)
      = ∑ k : Fin 8, ∑ j : Fin 64, base2 k x0 x1 x2 x3 (ix2 n j) * x4 (ix3 k j f) := by
  rw [val_main_v313_apply, val_main_v293_apply, val_main_v273_apply, val_main_v253_apply, val_main_v233_apply,
    val_main_v213_apply, val_main_v193_apply]
  rw [p2_0, p2_1, p2_2, p2_3, p2_4, p2_5, p2_6, p2_7]
  simp only [Ideal.addf_def]
  exact Cert.Spec.sum8_left (fun k => ∑ j : Fin 64, base2 k x0 x1 x2 x3 (ix2 n j) * x4 (ix3 k j f))

/-- layer 2 of the reference at node n and class f -/
theorem ref_out_apply (x0 : (⟨S50000x64, .f32⟩ : BufTy).Contents (Elt Ideal)) (x1 : (⟨S2x800000, .i32⟩ : BufTy).Contents (Elt Ideal)) (x2 : (⟨S8x64x64, .f32⟩ : BufTy).Contents (Elt Ideal)) (x3 : (⟨S64, .f32⟩ : BufTy).Contents (Elt Ideal)) (x4 : (⟨S8x64x10, .f32⟩ : BufTy).Contents (Elt Ideal)) (x5 : (⟨S10, .f32⟩ : BufTy).Contents (Elt Ideal)) (n : Fin 50000) (f : Fin 10) :
    Cert.ReferenceIdeal.ReadP.val_main_v316 (F := Ideal) x0 x1 x2 x3 x4 x5 (ValueIdx.ix2 n f)
      = Cert.Spec.layer (fun k n j => base2 k x0 x1 x2 x3 (ValueIdx.ix2 n j)) (fun k j f => x4 (ValueIdx.ix3 k j f))
          (fun f => x5 (ValueIdx.ix1 f)) n f := by
  rw [val_main_v316_apply, bias2, ref_sum2_apply, Ideal.addf_def]
  rfl

end Cert.Bridge.Ref

end
-- ==== Proof.KI.Value.lean ====
/-
  What the kernel's program computes, at the exact instance: its result array is the reference's last stage applied to
  the launch contents of the six arguments.

  Layer by layer.  Before the first kernel the host operations compute the eight Chebyshev bases of the node features
  exactly as the reference does, and stack them; the first kernel's output array is, entry by entry, the clamped layer
  sum of that stack against the weights and the bias, which is the reference's hidden-feature stage.  The second
  stretch of host operations then computes the eight bases of the hidden features, again as the reference does, and the
  second kernel's output array is the layer sum of that stack, the reference's result.
-/
import proofs.«145562_j85014582657503_2_alg».proof.Proof.KI.Frame
import proofs.«145562_j85014582657503_2_alg».proof.Proof.KI.Final
import proofs.«145562_j85014582657503_2_alg».proof.Proof.KI.Chain1a
import proofs.«145562_j85014582657503_2_alg».proof.Proof.KI.Chain1b
import proofs.«145562_j85014582657503_2_alg».proof.Proof.KI.Chain2a
import proofs.«145562_j85014582657503_2_alg».proof.Proof.KI.Chain2b
import proofs.«145562_j85014582657503_2_alg».proof.Proof.KI.StackAt
import proofs.«145562_j85014582657503_2_alg».proof.Proof.Bridge.RefLayers

noncomputable section

namespace Cert.KernelIdeal.Hand

open Cert.KernelIdeal Cert.KernelIdeal.Gen
open Idealize.ShloMosaic Idealize.ShloMosaic.TcCoe Idealize.SL.Sem Idealize.ShloMosaic.StableHlo Idealize.ShloMosaic.ValueIdx

variable (m : (ℓ : Loc nD τ sig) → Buf (Elt Ideal) ℓ) (ρ : Dev nD → PrngReg) (c : Dev nD)

/-- The eight arrays picked one by one are the reference's bases of layer 1, -/
theorem pick_base1 (x0 : (⟨S50000x64, .f32⟩ : BufTy).Contents (Elt Ideal)) (x1 : (⟨S2x800000, .i32⟩ : BufTy).Contents (Elt Ideal)) (k : Fin 8) :
    pick8 x0 (Cert.ReferenceIdeal.ReadP.val_main_v45 (F := Ideal) x0 x1) (Cert.ReferenceIdeal.ReadP.val_main_v65 (F := Ideal) x0 x1)
      (Cert.ReferenceIdeal.ReadP.val_main_v85 (F := Ideal) x0 x1) (Cert.ReferenceIdeal.ReadP.val_main_v105 (F := Ideal) x0 x1)
      (Cert.ReferenceIdeal.ReadP.val_main_v125 (F := Ideal) x0 x1) (Cert.ReferenceIdeal.ReadP.val_main_v145 (F := Ideal) x0 x1)
      (Cert.ReferenceIdeal.ReadP.val_main_v165 (F := Ideal) x0 x1) k = Cert.Bridge.Ref.base1 k x0 x1 := by
  match k with
  | ⟨0, _⟩ => rfl | ⟨1, _⟩ => rfl | ⟨2, _⟩ => rfl | ⟨3, _⟩ => rfl | ⟨4, _⟩ => rfl | ⟨5, _⟩ => rfl | ⟨6, _⟩ => rfl | ⟨7, _⟩ => rfl
/-- and of layer 2. -/
theorem pick_base2 (x0 : (⟨S50000x64, .f32⟩ : BufTy).Contents (Elt Ideal)) (x1 : (⟨S2x800000, .i32⟩ : BufTy).Contents (Elt Ideal))
    (x2 : (⟨S8x64x64, .f32⟩ : BufTy).Contents (Elt Ideal)) (x3 : (⟨S64, .f32⟩ : BufTy).Contents (Elt Ideal)) (k : Fin 8) :
    pick8 (Cert.ReferenceIdeal.ReadP.val_main_v173 (F := Ideal) x0 x1 x2 x3) (Cert.ReferenceIdeal.ReadP.val_main_v189 (F := Ideal) x0 x1 x2 x3)
      (Cert.ReferenceIdeal.ReadP.val_main_v209 (F := Ideal) x0 x1 x2 x3) (Cert.ReferenceIdeal.ReadP.val_main_v229 (F := Ideal) x0 x1 x2 x3)
      (Cert.ReferenceIdeal.ReadP.val_main_v249 (F := Ideal) x0 x1 x2 x3) (Cert.ReferenceIdeal.ReadP.val_main_v269 (F := Ideal) x0 x1 x2 x3)
      (Cert.ReferenceIdeal.ReadP.val_main_v289 (F := Ideal) x0 x1 x2 x3) (Cert.ReferenceIdeal.ReadP.val_main_v309 (F := Ideal) x0 x1 x2 x3) k
      = Cert.Bridge.Ref.base2 k x0 x1 x2 x3 := by
  match k with
  | ⟨0, _⟩ => rfl | ⟨1, _⟩ => rfl | ⟨2, _⟩ => rfl | ⟨3, _⟩ => rfl | ⟨4, _⟩ => rfl | ⟨5, _⟩ => rfl | ⟨6, _⟩ => rfl | ⟨7, _⟩ => rfl

/-- The weights of each layer in the kernel's input format (at the exact instance the same numbers). -/
abbrev round1 (x : (⟨S8x64x64, .f32⟩ : BufTy).Contents (Elt Ideal)) : (⟨S8x64x64, .bf16⟩ : BufTy).Contents (Elt Ideal) :=
  (truncf (F := Ideal) .bf16 (x : FVec Ideal S8x64x64 .f32) bitsLt_bf16_f32 : FVec Ideal S8x64x64 .bf16)
abbrev round2 (x : (⟨S8x64x10, .f32⟩ : BufTy).Contents (Elt Ideal)) : (⟨S8x64x10, .bf16⟩ : BufTy).Contents (Elt Ideal) :=
  (truncf (F := Ideal) .bf16 (x : FVec Ideal S8x64x10 .f32) bitsLt_bf16_f32 : FVec Ideal S8x64x10 .bf16)

/-! ## Layer 1 -/

/-- The first kernel finds, as its first operand, the stack of the reference's eight bases of layer 1, -/
theorem W3_stack : W3 m ρ c (Proc.devRef .tc main_v148)
    = stack8 (m ((c.tc : Thread nD τ).loc main_arg0)) (Cert.ReferenceIdeal.ReadP.val_main_v45 (F := Ideal) (m ((c.tc : Thread nD τ).loc main_arg0)) (m ((c.tc : Thread nD τ).loc main_arg1))) (Cert.ReferenceIdeal.ReadP.val_main_v65 (F := Ideal) (m ((c.tc : Thread nD τ).loc main_arg0)) (m ((c.tc : Thread nD τ).loc main_arg1)))
        (Cert.ReferenceIdeal.ReadP.val_main_v85 (F := Ideal) (m ((c.tc : Thread nD τ).loc main_arg0)) (m ((c.tc : Thread nD τ).loc main_arg1))) (Cert.ReferenceIdeal.ReadP.val_main_v105 (F := Ideal) (m ((c.tc : Thread nD τ).loc main_arg0)) (m ((c.tc : Thread nD τ).loc main_arg1)))
        (Cert.ReferenceIdeal.ReadP.val_main_v125 (F := Ideal) (m ((c.tc : Thread nD τ).loc main_arg0)) (m ((c.tc : Thread nD τ).loc main_arg1))) (Cert.ReferenceIdeal.ReadP.val_main_v145 (F := Ideal) (m ((c.tc : Thread nD τ).loc main_arg0)) (m ((c.tc : Thread nD τ).loc main_arg1)))
        (Cert.ReferenceIdeal.ReadP.val_main_v165 (F := Ideal) (m ((c.tc : Thread nD τ).loc main_arg0)) (m ((c.tc : Thread nD τ).loc main_arg1))) := by
  show entry0 (W0 m ρ c) (Proc.devRef .tc main_v148) = _
  rw [entry0_eq, tail0_stack, mid0_arg0, mid0_b1, mid0_b2, mid0_b3, mid0_b4, mid0_b5, mid0_b6, mid0_b7]
/-- as its second the weights of layer 1 in the kernel's input format, and as its third the bias. -/
theorem W3_weights : W3 m ρ c (Proc.devRef .tc main_v149) = round1 (m ((c.tc : Thread nD τ).loc main_arg2)) := by
  show entry0 (W0 m ρ c) (Proc.devRef .tc main_v149) = _
  rw [entry0_eq, tail0_weights, mid0_arg2]
theorem W3_bias : W3 m ρ c (Proc.devRef .tc main_arg3) = (m ((c.tc : Thread nD τ).loc main_arg3)) := by
  show entry0 (W0 m ρ c) (Proc.devRef .tc main_arg3) = _
  rw [entry0_arg3]

/-- THE HIDDEN FEATURES: what the first kernel leaves in its output array is the reference's hidden-feature stage. -/
theorem W4_hidden : W4 m ρ c (Proc.devRef .tc main_v150) = Cert.ReferenceIdeal.ReadP.val_main_v173 (F := Ideal) (m ((c.tc : Thread nD τ).loc main_arg0)) (m ((c.tc : Thread nD τ).loc main_arg1)) (m ((c.tc : Thread nD τ).loc main_arg2)) (m ((c.tc : Thread nD τ).loc main_arg3)) := by
  refine (W4_arr m ρ c 3).trans ((final0 (V3 m ρ) c).trans ?_)
  show G0 (W3 m ρ c (Proc.devRef .tc main_v148)) (W3 m ρ c (Proc.devRef .tc main_v149)) (W3 m ρ c (Proc.devRef .tc main_arg3)) = _
  rw [W3_stack, W3_weights, W3_bias]
  funext i
  obtain ⟨n, f, rfl⟩ : ∃ (n : Fin 50000) (f : Fin 64), i = ix2 n f := ⟨i 0, i 1, eq_ix2 i⟩
  rw [G0_apply, Cert.Bridge.Ref.ref_hidden_apply]
  refine congrArg (fun z => max z 0) ?_
  refine layer_congr _ _ _ _ _ _ n n f (fun k j => ?_) (fun k j => rfl) rfl
  rw [stack8_apply, pick_base1]

/-! ## Between the kernels -/

/-- The first kernel leaves alone what the second stretch of host operations reads beside the hidden features. -/
theorem entry1Hyp : Entry1Hyp (W4 m ρ c) (m ((c.tc : Thread nD τ).loc main_arg0)) (m ((c.tc : Thread nD τ).loc main_arg1)) (m ((c.tc : Thread nD τ).loc main_arg2)) (m ((c.tc : Thread nD τ).loc main_arg3)) where
  hid := W4_hidden m ρ c
  norm := (W4_of_ne m ρ c main_v29 (by decide)).trans ((entry0_norm (W0 m ρ c)).trans rfl)
  src := (W4_of_ne m ρ c main_v1 (by decide)).trans ((entry0_src (W0 m ρ c)).trans rfl)
  dst := (W4_of_ne m ρ c main_v3 (by decide)).trans ((entry0_dst (W0 m ρ c)).trans rfl)

/-- An argument's buffer after the first kernel holds its launch contents. -/
theorem W4_arg_launch (b : Ref sig .tc) (hb : b ∈ argRefs) : W4 m ρ c (Proc.devRef .tc b) = m ((c : Thread nD τ).loc b) :=
  (W4_arg m ρ c b hb).trans <| (W3_arg m ρ c b hb).trans <| (W2_arg m ρ c b hb).trans <| (W1_arg m ρ c b hb).trans rfl

/-! ## Layer 2 -/

theorem W5_stack : W5 m ρ c (Proc.devRef .tc main_v269)
    = stack8 (Cert.ReferenceIdeal.ReadP.val_main_v173 (F := Ideal) (m ((c.tc : Thread nD τ).loc main_arg0)) (m ((c.tc : Thread nD τ).loc main_arg1)) (m ((c.tc : Thread nD τ).loc main_arg2)) (m ((c.tc : Thread nD τ).loc main_arg3))) (Cert.ReferenceIdeal.ReadP.val_main_v189 (F := Ideal) (m ((c.tc : Thread nD τ).loc main_arg0)) (m ((c.tc : Thread nD τ).loc main_arg1)) (m ((c.tc : Thread nD τ).loc main_arg2)) (m ((c.tc : Thread nD τ).loc main_arg3)))
        (Cert.ReferenceIdeal.ReadP.val_main_v209 (F := Ideal) (m ((c.tc : Thread nD τ).loc main_arg0)) (m ((c.tc : Thread nD τ).loc main_arg1)) (m ((c.tc : Thread nD τ).loc main_arg2)) (m ((c.tc : Thread nD τ).loc main_arg3))) (Cert.ReferenceIdeal.ReadP.val_main_v229 (F := Ideal) (m ((c.tc : Thread nD τ).loc main_arg0)) (m ((c.tc : Thread nD τ).loc main_arg1)) (m ((c.tc : Thread nD τ).loc main_arg2)) (m ((c.tc : Thread nD τ).loc main_arg3)))
        (Cert.ReferenceIdeal.ReadP.val_main_v249 (F := Ideal) (m ((c.tc : Thread nD τ).loc main_arg0)) (m ((c.tc : Thread nD τ).loc main_arg1)) (m ((c.tc : Thread nD τ).loc main_arg2)) (m ((c.tc : Thread nD τ).loc main_arg3))) (Cert.ReferenceIdeal.ReadP.val_main_v269 (F := Ideal) (m ((c.tc : Thread nD τ).loc main_arg0)) (m ((c.tc : Thread nD τ).loc main_arg1)) (m ((c.tc : Thread nD τ).loc main_arg2)) (m ((c.tc : Thread nD τ).loc main_arg3)))
        (Cert.ReferenceIdeal.ReadP.val_main_v289 (F := Ideal) (m ((c.tc : Thread nD τ).loc main_arg0)) (m ((c.tc : Thread nD τ).loc main_arg1)) (m ((c.tc : Thread nD τ).loc main_arg2)) (m ((c.tc : Thread nD τ).loc main_arg3))) (Cert.ReferenceIdeal.ReadP.val_main_v309 (F := Ideal) (m ((c.tc : Thread nD τ).loc main_arg0)) (m ((c.tc : Thread nD τ).loc main_arg1)) (m ((c.tc : Thread nD τ).loc main_arg2)) (m ((c.tc : Thread nD τ).loc main_arg3))) := by
  have h := entry1Hyp m ρ c
  show entry1 (W4 m ρ c) (Proc.devRef .tc main_v269) = _
  rw [entry1_eq, tail1_stack, mid1_hid, h.hid, mid1_b1 _ _ _ _ _ h, mid1_b2 _ _ _ _ _ h, mid1_b3 _ _ _ _ _ h, mid1_b4 _ _ _ _ _ h,
    mid1_b5 _ _ _ _ _ h, mid1_b6 _ _ _ _ _ h, mid1_b7 _ _ _ _ _ h]
theorem W5_weights : W5 m ρ c (Proc.devRef .tc main_v270) = round2 (m ((c.tc : Thread nD τ).loc main_arg4)) := by
  show entry1 (W4 m ρ c) (Proc.devRef .tc main_v270) = _
  rw [entry1_eq, tail1_weights, mid1_arg4, W4_arg_launch m ρ c main_arg4 (by decide)]
theorem W5_bias : W5 m ρ c (Proc.devRef .tc main_arg5) = (m ((c.tc : Thread nD τ).loc main_arg5)) := by
  show entry1 (W4 m ρ c) (Proc.devRef .tc main_arg5) = _
  rw [entry1_arg5, W4_arg_launch m ρ c main_arg5 (by decide)]

/-- THE RESULT: what the second kernel leaves in its output array is the reference's last stage. -/
theorem W6_result : W6 m ρ c (Proc.devRef .tc main_v271)
    = Cert.ReferenceIdeal.ReadP.val_main_v316 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) := by
  refine (W6_arr m ρ c 3).trans ((final1 (V5 m ρ) c).trans ?_)
  show G1 (W5 m ρ c (Proc.devRef .tc main_v269)) (W5 m ρ c (Proc.devRef .tc main_v270)) (W5 m ρ c (Proc.devRef .tc main_arg5)) = _
  rw [W5_stack, W5_weights, W5_bias]
  funext i
  obtain ⟨n, f, rfl⟩ : ∃ (n : Fin 50000) (f : Fin 10), i = ix2 n f := ⟨i 0, i 1, eq_ix2 i⟩
  rw [G1_apply, Cert.Bridge.Ref.ref_out_apply]
  refine layer_congr _ _ _ _ _ _ n n f (fun k j => ?_) (fun k j => rfl) rfl
  rw [stack8_apply, pick_base2]

/-- THE KERNEL'S RUN, READ: every weakly fair execution terminates with the result array at the reference's last stage of
    the launch contents, the arguments unchanged. -/
theorem run_value : θ_run defs (onTc (τ := τ) (main (F := Ideal))) ⟨m, fun _ => 0, ρ⟩ (fun r => ∀ c : Dev nD,
      r.2.mem ((c.tc : Thread nD τ).loc main_v271) = Cert.ReferenceIdeal.ReadP.val_main_v316 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun r h c =>
    ⟨(h c _ (mem_uc main_v271 (by decide))).trans (W6_result m ρ c),
     (h c _ (mem_uc main_arg0 (by decide))).trans (W6_arg_launch m ρ c main_arg0 (by decide)),
     (h c _ (mem_uc main_arg1 (by decide))).trans (W6_arg_launch m ρ c main_arg1 (by decide)),
     (h c _ (mem_uc main_arg2 (by decide))).trans (W6_arg_launch m ρ c main_arg2 (by decide)),
     (h c _ (mem_uc main_arg3 (by decide))).trans (W6_arg_launch m ρ c main_arg3 (by decide)),
     (h c _ (mem_uc main_arg4 (by decide))).trans (W6_arg_launch m ρ c main_arg4 (by decide)),
     (h c _ (mem_uc main_arg5 (by decide))).trans (W6_arg_launch m ρ c main_arg5 (by decide))⟩) (run_main m ρ)

end Cert.KernelIdeal.Hand

end
-- ==== Proof.Bridge.RefPieces.lean ====
/-
  The reference's straight line of operations, cut where a stage is read more than once, each piece read on its own.

  A piece is a stretch of consecutive operations.  Run from ANY contents `V` that hold, at the buffers the piece reads, the
  reference's stages (as functions of the six arguments), the piece leaves at each buffer it writes the stage of that
  buffer, and leaves every other buffer as it was: each operation's result is its function of the operands' contents,
  and a stage is by definition that function of the stages it reads.  Because every stage that is read more than once
  enters a piece as a hypothesis about `V` and not as a term, no piece's term repeats an earlier piece's.
  Chaining the pieces from the launch contents gives the result buffer at the last stage.
-/
import proofs.«145562_j85014582657503_2_alg».proof.Proof.RefReadP
import Idealize.ShloMosaic.Lib.StableHlo.Run

noncomputable section

namespace Cert.Bridge.Ref

open Cert.ReferenceIdeal Cert.ReferenceIdeal.Gen Idealize.ShloMosaic Idealize.ShloMosaic.TcCoe Idealize.SL.Sem Idealize.ShloMosaic.StableHlo

variable {F : FTy → Type} [FloatOps F]

set_option maxHeartbeats 4000000 in
set_option maxRecDepth 8192 in
/-- Operations 0–1 of the reference. -/
abbrev P0 : List (HloOp τ sig (Elt F)) :=
  [ unary main_arg1 main_v0 ((extractStridedSlice S1x800000 ![0, 0] · slices_S2x800000_S1x800000_0_0) : (⟨S2x800000, .i32⟩ : BufTy).Contents (Elt F) → (⟨S1x800000, .i32⟩ : BufTy).Contents (Elt F)),
    reshape main_v0 main_v1 rfl shapeCasts_S1x800000_S800000 ]

set_option maxHeartbeats 4000000 in
set_option maxRecDepth 8192 in
/-- Operations 2–3 of the reference. -/
abbrev P1 : List (HloOp τ sig (Elt F)) :=
  [ unary main_arg1 main_v2 ((extractStridedSlice S1x800000 ![1, 0] · slices_S2x800000_S1x800000_1_0) : (⟨S2x800000, .i32⟩ : BufTy).Contents (Elt F) → (⟨S1x800000, .i32⟩ : BufTy).Contents (Elt F)),
    reshape main_v2 main_v3 rfl shapeCasts_S1x800000_S800000 ]

set_option maxHeartbeats 4000000 in
set_option maxRecDepth 8192 in
/-- Operations 4–9 of the reference. -/
abbrev P2 : List (HloOp τ sig (Elt F)) :=
  [ nullary main_cst (constant S_ .f32 0x3F800000#32),
    unary main_cst main_v4 (broadcastInDim S800000 ![] bcast_S_S800000 : (⟨S_, .f32⟩ : BufTy).Contents (Elt F) → (⟨S800000, .f32⟩ : BufTy).Contents (Elt F)),
    nullary main_cst_0 (constant S_ .f32 0x00000000#32),
    unary main_cst_0 main_v5 (broadcastInDim S50000 ![] bcast_S_S50000 : (⟨S_, .f32⟩ : BufTy).Contents (Elt F) → (⟨S50000, .f32⟩ : BufTy).Contents (Elt F)),
    unary main_v1 main_v6 (broadcastInDim S800000x1 ![0] bcast_S800000_S800000x1_0 : (⟨S800000, .i32⟩ : BufTy).Contents (Elt F) → (⟨S800000x1, .i32⟩ : BufTy).Contents (Elt F)),
    ternary main_v5 main_v6 main_v4 main_v7 ((fun x i u => Host.scatterAdd scatter_S50000_S800000x1_S800000_n_0_0_1 x i u) : (⟨S50000, .f32⟩ : BufTy).Contents (Elt F) → (⟨S800000x1, .i32⟩ : BufTy).Contents (Elt F) → (⟨S800000, .f32⟩ : BufTy).Contents (Elt F) → (⟨S50000, .f32⟩ : BufTy).Contents (Elt F)) ]

set_option maxHeartbeats 4000000 in
set_option maxRecDepth 8192 in
/-- Operations 10–20 of the reference. -/
abbrev P3 : List (HloOp τ sig (Elt F)) :=
  [ nullary main_cst_1 (constant S_ .f32 0x00000000#32),
    unary main_cst_1 main_v8 (broadcastInDim S50000 ![] bcast_S_S50000 : (⟨S_, .f32⟩ : BufTy).Contents (Elt F) → (⟨S50000, .f32⟩ : BufTy).Contents (Elt F)),
    binary main_v7 main_v8 main_v9 (cmpf .ogt : (⟨S50000, .f32⟩ : BufTy).Contents (Elt F) → (⟨S50000, .f32⟩ : BufTy).Contents (Elt F) → (⟨S50000, .i1⟩ : BufTy).Contents (Elt F)),
    nullary main_cst_2 (constant S_ .f32 0x2B8CBCCC#32),
    unary main_cst_2 main_v10 (broadcastInDim S50000 ![] bcast_S_S50000 : (⟨S_, .f32⟩ : BufTy).Contents (Elt F) → (⟨S50000, .f32⟩ : BufTy).Contents (Elt F)),
    binary main_v7 main_v10 main_v11 (maximumf : (⟨S50000, .f32⟩ : BufTy).Contents (Elt F) → (⟨S50000, .f32⟩ : BufTy).Contents (Elt F) → (⟨S50000, .f32⟩ : BufTy).Contents (Elt F)),
    unary main_v11 main_v12 (Host.rsqrt : (⟨S50000, .f32⟩ : BufTy).Contents (Elt F) → (⟨S50000, .f32⟩ : BufTy).Contents (Elt F)),
    nullary main_cst_3 (constant S_ .f32 0x00000000#32),
    TRef.unary (TRef.of (T := ⟨S_, .f32⟩) main_cst_3) (TRef.of (T := ⟨S_, .f32⟩) main_call0_v0) id,
    TRef.unary (TRef.of (T := ⟨S_, .f32⟩) main_call0_v0) (TRef.of (T := ⟨S50000, .f32⟩) main_call0_v1) (broadcastInDim S50000 ![] bcast_S_S50000),
    TRef.ternary (TRef.of (T := ⟨S50000, .i1⟩) main_v9) (TRef.of (T := ⟨S50000, .f32⟩) main_v12) (TRef.of (T := ⟨S50000, .f32⟩) main_call0_v1) (TRef.of (T := ⟨S50000, .f32⟩) main_v13) select ]

set_option maxHeartbeats 4000000 in
set_option maxRecDepth 8192 in
/-- Operations 21–40 of the reference. -/
abbrev P4 : List (HloOp τ sig (Elt F)) :=
  [ nullary main_c (constantI S_ 32 0#32),
    unary main_c main_v14 (broadcastInDim S800000 ![] bcast_S_S800000 : (⟨S_, .i32⟩ : BufTy).Contents (Elt F) → (⟨S800000, .i32⟩ : BufTy).Contents (Elt F)),
    binary main_v1 main_v14 main_v15 (cmpi .slt : (⟨S800000, .i32⟩ : BufTy).Contents (Elt F) → (⟨S800000, .i32⟩ : BufTy).Contents (Elt F) → (⟨S800000, .i1⟩ : BufTy).Contents (Elt F)),
    nullary main_c_4 (constantI S_ 32 50000#32),
    unary main_c_4 main_v16 (broadcastInDim S800000 ![] bcast_S_S800000 : (⟨S_, .i32⟩ : BufTy).Contents (Elt F) → (⟨S800000, .i32⟩ : BufTy).Contents (Elt F)),
    binary main_v1 main_v16 main_v17 (addi : (⟨S800000, .i32⟩ : BufTy).Contents (Elt F) → (⟨S800000, .i32⟩ : BufTy).Contents (Elt F) → (⟨S800000, .i32⟩ : BufTy).Contents (Elt F)),
    ternary main_v15 main_v17 main_v1 main_v18 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    unary main_v18 main_v19 (broadcastInDim S800000x1 ![0] bcast_S800000_S800000x1_0 : (⟨S800000, .i32⟩ : BufTy).Contents (Elt F) → (⟨S800000x1, .i32⟩ : BufTy).Contents (Elt F)),
    binary main_v13 main_v19 main_v20 ((fun x i => Host.gather gather_S50000_S800000x1_S800000_n_0_n_n_0_1_1 x i) : (⟨S50000, .f32⟩ : BufTy).Contents (Elt F) → (⟨S800000x1, .i32⟩ : BufTy).Contents (Elt F) → (⟨S800000, .f32⟩ : BufTy).Contents (Elt F)),
    unary main_v20 main_v21 (Host.negf : (⟨S800000, .f32⟩ : BufTy).Contents (Elt F) → (⟨S800000, .f32⟩ : BufTy).Contents (Elt F)),
    nullary main_c_5 (constantI S_ 32 0#32),
    unary main_c_5 main_v22 (broadcastInDim S800000 ![] bcast_S_S800000 : (⟨S_, .i32⟩ : BufTy).Contents (Elt F) → (⟨S800000, .i32⟩ : BufTy).Contents (Elt F)),
    binary main_v3 main_v22 main_v23 (cmpi .slt : (⟨S800000, .i32⟩ : BufTy).Contents (Elt F) → (⟨S800000, .i32⟩ : BufTy).Contents (Elt F) → (⟨S800000, .i1⟩ : BufTy).Contents (Elt F)),
    nullary main_c_6 (constantI S_ 32 50000#32),
    unary main_c_6 main_v24 (broadcastInDim S800000 ![] bcast_S_S800000 : (⟨S_, .i32⟩ : BufTy).Contents (Elt F) → (⟨S800000, .i32⟩ : BufTy).Contents (Elt F)),
    binary main_v3 main_v24 main_v25 (addi : (⟨S800000, .i32⟩ : BufTy).Contents (Elt F) → (⟨S800000, .i32⟩ : BufTy).Contents (Elt F) → (⟨S800000, .i32⟩ : BufTy).Contents (Elt F)),
    ternary main_v23 main_v25 main_v3 main_v26 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    unary main_v26 main_v27 (broadcastInDim S800000x1 ![0] bcast_S800000_S800000x1_0 : (⟨S800000, .i32⟩ : BufTy).Contents (Elt F) → (⟨S800000x1, .i32⟩ : BufTy).Contents (Elt F)),
    binary main_v13 main_v27 main_v28 ((fun x i => Host.gather gather_S50000_S800000x1_S800000_n_0_n_n_0_1_1 x i) : (⟨S50000, .f32⟩ : BufTy).Contents (Elt F) → (⟨S800000x1, .i32⟩ : BufTy).Contents (Elt F) → (⟨S800000, .f32⟩ : BufTy).Contents (Elt F)),
    binary main_v21 main_v28 main_v29 (mulf : (⟨S800000, .f32⟩ : BufTy).Contents (Elt F) → (⟨S800000, .f32⟩ : BufTy).Contents (Elt F) → (⟨S800000, .f32⟩ : BufTy).Contents (Elt F)) ]

set_option maxHeartbeats 4000000 in
set_option maxRecDepth 8192 in
/-- Operations 41–59 of the reference. -/
abbrev P5 : List (HloOp τ sig (Elt F)) :=
  [ unary main_arg2 main_v30 ((extractStridedSlice S1x64x64 ![0, 0, 0] · slices_S8x64x64_S1x64x64_0_0_0) : (⟨S8x64x64, .f32⟩ : BufTy).Contents (Elt F) → (⟨S1x64x64, .f32⟩ : BufTy).Contents (Elt F)),
    reshape main_v30 main_v31 rfl shapeCasts_S1x64x64_S64x64,
    binary main_arg0 main_v31 main_v32 ((fun l r => Host.dotGeneral dot_S50000x64_S64x64_S50000x64_1_0_0_1_n_n none l r) : (⟨S50000x64, .f32⟩ : BufTy).Contents (Elt F) → (⟨S64x64, .f32⟩ : BufTy).Contents (Elt F) → (⟨S50000x64, .f32⟩ : BufTy).Contents (Elt F)),
    unary main_v29 main_v33 (broadcastInDim S800000x1 ![0] bcast_S800000_S800000x1_0 : (⟨S800000, .f32⟩ : BufTy).Contents (Elt F) → (⟨S800000x1, .f32⟩ : BufTy).Contents (Elt F)),
    nullary main_c_7 (constantI S_ 32 0#32),
    unary main_c_7 main_v34 (broadcastInDim S800000 ![] bcast_S_S800000 : (⟨S_, .i32⟩ : BufTy).Contents (Elt F) → (⟨S800000, .i32⟩ : BufTy).Contents (Elt F)),
    binary main_v1 main_v34 main_v35 (cmpi .slt : (⟨S800000, .i32⟩ : BufTy).Contents (Elt F) → (⟨S800000, .i32⟩ : BufTy).Contents (Elt F) → (⟨S800000, .i1⟩ : BufTy).Contents (Elt F)),
    nullary main_c_8 (constantI S_ 32 50000#32),
    unary main_c_8 main_v36 (broadcastInDim S800000 ![] bcast_S_S800000 : (⟨S_, .i32⟩ : BufTy).Contents (Elt F) → (⟨S800000, .i32⟩ : BufTy).Contents (Elt F)),
    binary main_v1 main_v36 main_v37 (addi : (⟨S800000, .i32⟩ : BufTy).Contents (Elt F) → (⟨S800000, .i32⟩ : BufTy).Contents (Elt F) → (⟨S800000, .i32⟩ : BufTy).Contents (Elt F)),
    ternary main_v35 main_v37 main_v1 main_v38 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    unary main_v38 main_v39 (broadcastInDim S800000x1 ![0] bcast_S800000_S800000x1_0 : (⟨S800000, .i32⟩ : BufTy).Contents (Elt F) → (⟨S800000x1, .i32⟩ : BufTy).Contents (Elt F)),
    binary main_arg0 main_v39 main_v40 ((fun x i => Host.gather gather_S50000x64_S800000x1_S800000x64_1_0_n_n_0_1_164 x i) : (⟨S50000x64, .f32⟩ : BufTy).Contents (Elt F) → (⟨S800000x1, .i32⟩ : BufTy).Contents (Elt F) → (⟨S800000x64, .f32⟩ : BufTy).Contents (Elt F)),
    unary main_v33 main_v41 (broadcastInDim S800000x64 ![0, 1] bcast_S800000x1_S800000x64_0_1 : (⟨S800000x1, .f32⟩ : BufTy).Contents (Elt F) → (⟨S800000x64, .f32⟩ : BufTy).Contents (Elt F)),
    binary main_v41 main_v40 main_v42 (mulf : (⟨S800000x64, .f32⟩ : BufTy).Contents (Elt F) → (⟨S800000x64, .f32⟩ : BufTy).Contents (Elt F) → (⟨S800000x64, .f32⟩ : BufTy).Contents (Elt F)),
    nullary main_cst_9 (constant S_ .f32 0x00000000#32),
    unary main_cst_9 main_v43 (broadcastInDim S50000x64 ![] bcast_S_S50000x64 : (⟨S_, .f32⟩ : BufTy).Contents (Elt F) → (⟨S50000x64, .f32⟩ : BufTy).Contents (Elt F)),
    unary main_v3 main_v44 (broadcastInDim S800000x1 ![0] bcast_S800000_S800000x1_0 : (⟨S800000, .i32⟩ : BufTy).Contents (Elt F) → (⟨S800000x1, .i32⟩ : BufTy).Contents (Elt F)),
    ternary main_v43 main_v44 main_v42 main_v45 ((fun x i u => Host.scatterAdd scatter_S50000x64_S800000x1_S800000x64_1_0_0_1 x i u) : (⟨S50000x64, .f32⟩ : BufTy).Contents (Elt F) → (⟨S800000x1, .i32⟩ : BufTy).Contents (Elt F) → (⟨S800000x64, .f32⟩ : BufTy).Contents (Elt F) → (⟨S50000x64, .f32⟩ : BufTy).Contents (Elt F)) ]

set_option maxHeartbeats 4000000 in
set_option maxRecDepth 8192 in
/-- Operations 60–83 of the reference. -/
abbrev P6 : List (HloOp τ sig (Elt F)) :=
  [ unary main_arg2 main_v46 ((extractStridedSlice S1x64x64 ![1, 0, 0] · slices_S8x64x64_S1x64x64_1_0_0) : (⟨S8x64x64, .f32⟩ : BufTy).Contents (Elt F) → (⟨S1x64x64, .f32⟩ : BufTy).Contents (Elt F)),
    reshape main_v46 main_v47 rfl shapeCasts_S1x64x64_S64x64,
    binary main_v45 main_v47 main_v48 ((fun l r => Host.dotGeneral dot_S50000x64_S64x64_S50000x64_1_0_0_1_n_n none l r) : (⟨S50000x64, .f32⟩ : BufTy).Contents (Elt F) → (⟨S64x64, .f32⟩ : BufTy).Contents (Elt F) → (⟨S50000x64, .f32⟩ : BufTy).Contents (Elt F)),
    binary main_v32 main_v48 main_v49 (addf : (⟨S50000x64, .f32⟩ : BufTy).Contents (Elt F) → (⟨S50000x64, .f32⟩ : BufTy).Contents (Elt F) → (⟨S50000x64, .f32⟩ : BufTy).Contents (Elt F)),
    unary main_v29 main_v50 (broadcastInDim S800000x1 ![0] bcast_S800000_S800000x1_0 : (⟨S800000, .f32⟩ : BufTy).Contents (Elt F) → (⟨S800000x1, .f32⟩ : BufTy).Contents (Elt F)),
    nullary main_c_10 (constantI S_ 32 0#32),
    unary main_c_10 main_v51 (broadcastInDim S800000 ![] bcast_S_S800000 : (⟨S_, .i32⟩ : BufTy).Contents (Elt F) → (⟨S800000, .i32⟩ : BufTy).Contents (Elt F)),
    binary main_v1 main_v51 main_v52 (cmpi .slt : (⟨S800000, .i32⟩ : BufTy).Contents (Elt F) → (⟨S800000, .i32⟩ : BufTy).Contents (Elt F) → (⟨S800000, .i1⟩ : BufTy).Contents (Elt F)),
    nullary main_c_11 (constantI S_ 32 50000#32),
    unary main_c_11 main_v53 (broadcastInDim S800000 ![] bcast_S_S800000 : (⟨S_, .i32⟩ : BufTy).Contents (Elt F) → (⟨S800000, .i32⟩ : BufTy).Contents (Elt F)),
    binary main_v1 main_v53 main_v54 (addi : (⟨S800000, .i32⟩ : BufTy).Contents (Elt F) → (⟨S800000, .i32⟩ : BufTy).Contents (Elt F) → (⟨S800000, .i32⟩ : BufTy).Contents (Elt F)),
    ternary main_v52 main_v54 main_v1 main_v55 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    unary main_v55 main_v56 (broadcastInDim S800000x1 ![0] bcast_S800000_S800000x1_0 : (⟨S800000, .i32⟩ : BufTy).Contents (Elt F) → (⟨S800000x1, .i32⟩ : BufTy).Contents (Elt F)),
    binary main_v45 main_v56 main_v57 ((fun x i => Host.gather gather_S50000x64_S800000x1_S800000x64_1_0_n_n_0_1_164 x i) : (⟨S50000x64, .f32⟩ : BufTy).Contents (Elt F) → (⟨S800000x1, .i32⟩ : BufTy).Contents (Elt F) → (⟨S800000x64, .f32⟩ : BufTy).Contents (Elt F)),
    unary main_v50 main_v58 (broadcastInDim S800000x64 ![0, 1] bcast_S800000x1_S800000x64_0_1 : (⟨S800000x1, .f32⟩ : BufTy).Contents (Elt F) → (⟨S800000x64, .f32⟩ : BufTy).Contents (Elt F)),
    binary main_v58 main_v57 main_v59 (mulf : (⟨S800000x64, .f32⟩ : BufTy).Contents (Elt F) → (⟨S800000x64, .f32⟩ : BufTy).Contents (Elt F) → (⟨S800000x64, .f32⟩ : BufTy).Contents (Elt F)),
    nullary main_cst_12 (constant S_ .f32 0x00000000#32),
    unary main_cst_12 main_v60 (broadcastInDim S50000x64 ![] bcast_S_S50000x64 : (⟨S_, .f32⟩ : BufTy).Contents (Elt F) → (⟨S50000x64, .f32⟩ : BufTy).Contents (Elt F)),
    unary main_v3 main_v61 (broadcastInDim S800000x1 ![0] bcast_S800000_S800000x1_0 : (⟨S800000, .i32⟩ : BufTy).Contents (Elt F) → (⟨S800000x1, .i32⟩ : BufTy).Contents (Elt F)),
    ternary main_v60 main_v61 main_v59 main_v62 ((fun x i u => Host.scatterAdd scatter_S50000x64_S800000x1_S800000x64_1_0_0_1 x i u) : (⟨S50000x64, .f32⟩ : BufTy).Contents (Elt F) → (⟨S800000x1, .i32⟩ : BufTy).Contents (Elt F) → (⟨S800000x64, .f32⟩ : BufTy).Contents (Elt F) → (⟨S50000x64, .f32⟩ : BufTy).Contents (Elt F)),
    nullary main_cst_13 (constant S_ .f32 0x40000000#32),
    unary main_cst_13 main_v63 (broadcastInDim S50000x64 ![] bcast_S_S50000x64 : (⟨S_, .f32⟩ : BufTy).Contents (Elt F) → (⟨S50000x64, .f32⟩ : BufTy).Contents (Elt F)),
    binary main_v63 main_v62 main_v64 (mulf : (⟨S50000x64, .f32⟩ : BufTy).Contents (Elt F) → (⟨S50000x64, .f32⟩ : BufTy).Contents (Elt F) → (⟨S50000x64, .f32⟩ : BufTy).Contents (Elt F)),
    binary main_v64 main_arg0 main_v65 (subf : (⟨S50000x64, .f32⟩ : BufTy).Contents (Elt F) → (⟨S50000x64, .f32⟩ : BufTy).Contents (Elt F) → (⟨S50000x64, .f32⟩ : BufTy).Contents (Elt F)) ]

set_option maxHeartbeats 4000000 in
set_option maxRecDepth 8192 in
/-- Operations 84–107 of the reference. -/
abbrev P7 : List (HloOp τ sig (Elt F)) :=
  [ unary main_arg2 main_v66 ((extractStridedSlice S1x64x64 ![2, 0, 0] · slices_S8x64x64_S1x64x64_2_0_0) : (⟨S8x64x64, .f32⟩ : BufTy).Contents (Elt F) → (⟨S1x64x64, .f32⟩ : BufTy).Contents (Elt F)),
    reshape main_v66 main_v67 rfl shapeCasts_S1x64x64_S64x64,
    binary main_v65 main_v67 main_v68 ((fun l r => Host.dotGeneral dot_S50000x64_S64x64_S50000x64_1_0_0_1_n_n none l r) : (⟨S50000x64, .f32⟩ : BufTy).Contents (Elt F) → (⟨S64x64, .f32⟩ : BufTy).Contents (Elt F) → (⟨S50000x64, .f32⟩ : BufTy).Contents (Elt F)),
    binary main_v49 main_v68 main_v69 (addf : (⟨S50000x64, .f32⟩ : BufTy).Contents (Elt F) → (⟨S50000x64, .f32⟩ : BufTy).Contents (Elt F) → (⟨S50000x64, .f32⟩ : BufTy).Contents (Elt F)),
    unary main_v29 main_v70 (broadcastInDim S800000x1 ![0] bcast_S800000_S800000x1_0 : (⟨S800000, .f32⟩ : BufTy).Contents (Elt F) → (⟨S800000x1, .f32⟩ : BufTy).Contents (Elt F)),
    nullary main_c_14 (constantI S_ 32 0#32),
    unary main_c_14 main_v71 (broadcastInDim S800000 ![] bcast_S_S800000 : (⟨S_, .i32⟩ : BufTy).Contents (Elt F) → (⟨S800000, .i32⟩ : BufTy).Contents (Elt F)),
    binary main_v1 main_v71 main_v72 (cmpi .slt : (⟨S800000, .i32⟩ : BufTy).Contents (Elt F) → (⟨S800000, .i32⟩ : BufTy).Contents (Elt F) → (⟨S800000, .i1⟩ : BufTy).Contents (Elt F)),
    nullary main_c_15 (constantI S_ 32 50000#32),
    unary main_c_15 main_v73 (broadcastInDim S800000 ![] bcast_S_S800000 : (⟨S_, .i32⟩ : BufTy).Contents (Elt F) → (⟨S800000, .i32⟩ : BufTy).Contents (Elt F)),
    binary main_v1 main_v73 main_v74 (addi : (⟨S800000, .i32⟩ : BufTy).Contents (Elt F) → (⟨S800000, .i32⟩ : BufTy).Contents (Elt F) → (⟨S800000, .i32⟩ : BufTy).Contents (Elt F)),
    ternary main_v72 main_v74 main_v1 main_v75 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    unary main_v75 main_v76 (broadcastInDim S800000x1 ![0] bcast_S800000_S800000x1_0 : (⟨S800000, .i32⟩ : BufTy).Contents (Elt F) → (⟨S800000x1, .i32⟩ : BufTy).Contents (Elt F)),
    binary main_v65 main_v76 main_v77 ((fun x i => Host.gather gather_S50000x64_S800000x1_S800000x64_1_0_n_n_0_1_164 x i) : (⟨S50000x64, .f32⟩ : BufTy).Contents (Elt F) → (⟨S800000x1, .i32⟩ : BufTy).Contents (Elt F) → (⟨S800000x64, .f32⟩ : BufTy).Contents (Elt F)),
    unary main_v70 main_v78 (broadcastInDim S800000x64 ![0, 1] bcast_S800000x1_S800000x64_0_1 : (⟨S800000x1, .f32⟩ : BufTy).Contents (Elt F) → (⟨S800000x64, .f32⟩ : BufTy).Contents (Elt F)),
    binary main_v78 main_v77 main_v79 (mulf : (⟨S800000x64, .f32⟩ : BufTy).Contents (Elt F) → (⟨S800000x64, .f32⟩ : BufTy).Contents (Elt F) → (⟨S800000x64, .f32⟩ : BufTy).Contents (Elt F)),
    nullary main_cst_16 (constant S_ .f32 0x00000000#32),
    unary main_cst_16 main_v80 (broadcastInDim S50000x64 ![] bcast_S_S50000x64 : (⟨S_, .f32⟩ : BufTy).Contents (Elt F) → (⟨S50000x64, .f32⟩ : BufTy).Contents (Elt F)),
    unary main_v3 main_v81 (broadcastInDim S800000x1 ![0] bcast_S800000_S800000x1_0 : (⟨S800000, .i32⟩ : BufTy).Contents (Elt F) → (⟨S800000x1, .i32⟩ : BufTy).Contents (Elt F)),
    ternary main_v80 main_v81 main_v79 main_v82 ((fun x i u => Host.scatterAdd scatter_S50000x64_S800000x1_S800000x64_1_0_0_1 x i u) : (⟨S50000x64, .f32⟩ : BufTy).Contents (Elt F) → (⟨S800000x1, .i32⟩ : BufTy).Contents (Elt F) → (⟨S800000x64, .f32⟩ : BufTy).Contents (Elt F) → (⟨S50000x64, .f32⟩ : BufTy).Contents (Elt F)),
    nullary main_cst_17 (constant S_ .f32 0x40000000#32),
    unary main_cst_17 main_v83 (broadcastInDim S50000x64 ![] bcast_S_S50000x64 : (⟨S_, .f32⟩ : BufTy).Contents (Elt F) → (⟨S50000x64, .f32⟩ : BufTy).Contents (Elt F)),
    binary main_v83 main_v82 main_v84 (mulf : (⟨S50000x64, .f32⟩ : BufTy).Contents (Elt F) → (⟨S50000x64, .f32⟩ : BufTy).Contents (Elt F) → (⟨S50000x64, .f32⟩ : BufTy).Contents (Elt F)),
    binary main_v84 main_v45 main_v85 (subf : (⟨S50000x64, .f32⟩ : BufTy).Contents (Elt F) → (⟨S50000x64, .f32⟩ : BufTy).Contents (Elt F) → (⟨S50000x64, .f32⟩ : BufTy).Contents (Elt F)) ]

set_option maxHeartbeats 4000000 in
set_option maxRecDepth 8192 in
/-- Operations 108–131 of the reference. -/
abbrev P8 : List (HloOp τ sig (Elt F)) :=
  [ unary main_arg2 main_v86 ((extractStridedSlice S1x64x64 ![3, 0, 0] · slices_S8x64x64_S1x64x64_3_0_0) : (⟨S8x64x64, .f32⟩ : BufTy).Contents (Elt F) → (⟨S1x64x64, .f32⟩ : BufTy).Contents (Elt F)),
    reshape main_v86 main_v87 rfl shapeCasts_S1x64x64_S64x64,
    binary main_v85 main_v87 main_v88 ((fun l r => Host.dotGeneral dot_S50000x64_S64x64_S50000x64_1_0_0_1_n_n none l r) : (⟨S50000x64, .f32⟩ : BufTy).Contents (Elt F) → (⟨S64x64, .f32⟩ : BufTy).Contents (Elt F) → (⟨S50000x64, .f32⟩ : BufTy).Contents (Elt F)),
    binary main_v69 main_v88 main_v89 (addf : (⟨S50000x64, .f32⟩ : BufTy).Contents (Elt F) → (⟨S50000x64, .f32⟩ : BufTy).Contents (Elt F) → (⟨S50000x64, .f32⟩ : BufTy).Contents (Elt F)),
    unary main_v29 main_v90 (broadcastInDim S800000x1 ![0] bcast_S800000_S800000x1_0 : (⟨S800000, .f32⟩ : BufTy).Contents (Elt F) → (⟨S800000x1, .f32⟩ : BufTy).Contents (Elt F)),
    nullary main_c_18 (constantI S_ 32 0#32),
    unary main_c_18 main_v91 (broadcastInDim S800000 ![] bcast_S_S800000 : (⟨S_, .i32⟩ : BufTy).Contents (Elt F) → (⟨S800000, .i32⟩ : BufTy).Contents (Elt F)),
    binary main_v1 main_v91 main_v92 (cmpi .slt : (⟨S800000, .i32⟩ : BufTy).Contents (Elt F) → (⟨S800000, .i32⟩ : BufTy).Contents (Elt F) → (⟨S800000, .i1⟩ : BufTy).Contents (Elt F)),
    nullary main_c_19 (constantI S_ 32 50000#32),
    unary main_c_19 main_v93 (broadcastInDim S800000 ![] bcast_S_S800000 : (⟨S_, .i32⟩ : BufTy).Contents (Elt F) → (⟨S800000, .i32⟩ : BufTy).Contents (Elt F)),
    binary main_v1 main_v93 main_v94 (addi : (⟨S800000, .i32⟩ : BufTy).Contents (Elt F) → (⟨S800000, .i32⟩ : BufTy).Contents (Elt F) → (⟨S800000, .i32⟩ : BufTy).Contents (Elt F)),
    ternary main_v92 main_v94 main_v1 main_v95 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    unary main_v95 main_v96 (broadcastInDim S800000x1 ![0] bcast_S800000_S800000x1_0 : (⟨S800000, .i32⟩ : BufTy).Contents (Elt F) → (⟨S800000x1, .i32⟩ : BufTy).Contents (Elt F)),
    binary main_v85 main_v96 main_v97 ((fun x i => Host.gather gather_S50000x64_S800000x1_S800000x64_1_0_n_n_0_1_164 x i) : (⟨S50000x64, .f32⟩ : BufTy).Contents (Elt F) → (⟨S800000x1, .i32⟩ : BufTy).Contents (Elt F) → (⟨S800000x64, .f32⟩ : BufTy).Contents (Elt F)),
    unary main_v90 main_v98 (broadcastInDim S800000x64 ![0, 1] bcast_S800000x1_S800000x64_0_1 : (⟨S800000x1, .f32⟩ : BufTy).Contents (Elt F) → (⟨S800000x64, .f32⟩ : BufTy).Contents (Elt F)),
    binary main_v98 main_v97 main_v99 (mulf : (⟨S800000x64, .f32⟩ : BufTy).Contents (Elt F) → (⟨S800000x64, .f32⟩ : BufTy).Contents (Elt F) → (⟨S800000x64, .f32⟩ : BufTy).Contents (Elt F)),
    nullary main_cst_20 (constant S_ .f32 0x00000000#32),
    unary main_cst_20 main_v100 (broadcastInDim S50000x64 ![] bcast_S_S50000x64 : (⟨S_, .f32⟩ : BufTy).Contents (Elt F) → (⟨S50000x64, .f32⟩ : BufTy).Contents (Elt F)),
    unary main_v3 main_v101 (broadcastInDim S800000x1 ![0] bcast_S800000_S800000x1_0 : (⟨S800000, .i32⟩ : BufTy).Contents (Elt F) → (⟨S800000x1, .i32⟩ : BufTy).Contents (Elt F)),
    ternary main_v100 main_v101 main_v99 main_v102 ((fun x i u => Host.scatterAdd scatter_S50000x64_S800000x1_S800000x64_1_0_0_1 x i u) : (⟨S50000x64, .f32⟩ : BufTy).Contents (Elt F) → (⟨S800000x1, .i32⟩ : BufTy).Contents (Elt F) → (⟨S800000x64, .f32⟩ : BufTy).Contents (Elt F) → (⟨S50000x64, .f32⟩ : BufTy).Contents (Elt F)),
    nullary main_cst_21 (constant S_ .f32 0x40000000#32),
    unary main_cst_21 main_v103 (broadcastInDim S50000x64 ![] bcast_S_S50000x64 : (⟨S_, .f32⟩ : BufTy).Contents (Elt F) → (⟨S50000x64, .f32⟩ : BufTy).Contents (Elt F)),
    binary main_v103 main_v102 main_v104 (mulf : (⟨S50000x64, .f32⟩ : BufTy).Contents (Elt F) → (⟨S50000x64, .f32⟩ : BufTy).Contents (Elt F) → (⟨S50000x64, .f32⟩ : BufTy).Contents (Elt F)),
    binary main_v104 main_v65 main_v105 (subf : (⟨S50000x64, .f32⟩ : BufTy).Contents (Elt F) → (⟨S50000x64, .f32⟩ : BufTy).Contents (Elt F) → (⟨S50000x64, .f32⟩ : BufTy).Contents (Elt F)) ]

set_option maxHeartbeats 4000000 in
set_option maxRecDepth 8192 in
/-- Operations 132–155 of the reference. -/
abbrev P9 : List (HloOp τ sig (Elt F)) :=
  [ unary main_arg2 main_v106 ((extractStridedSlice S1x64x64 ![4, 0, 0] · slices_S8x64x64_S1x64x64_4_0_0) : (⟨S8x64x64, .f32⟩ : BufTy).Contents (Elt F) → (⟨S1x64x64, .f32⟩ : BufTy).Contents (Elt F)),
    reshape main_v106 main_v107 rfl shapeCasts_S1x64x64_S64x64,
    binary main_v105 main_v107 main_v108 ((fun l r => Host.dotGeneral dot_S50000x64_S64x64_S50000x64_1_0_0_1_n_n none l r) : (⟨S50000x64, .f32⟩ : BufTy).Contents (Elt F) → (⟨S64x64, .f32⟩ : BufTy).Contents (Elt F) → (⟨S50000x64, .f32⟩ : BufTy).Contents (Elt F)),
    binary main_v89 main_v108 main_v109 (addf : (⟨S50000x64, .f32⟩ : BufTy).Contents (Elt F) → (⟨S50000x64, .f32⟩ : BufTy).Contents (Elt F) → (⟨S50000x64, .f32⟩ : BufTy).Contents (Elt F)),
    unary main_v29 main_v110 (broadcastInDim S800000x1 ![0] bcast_S800000_S800000x1_0 : (⟨S800000, .f32⟩ : BufTy).Contents (Elt F) → (⟨S800000x1, .f32⟩ : BufTy).Contents (Elt F)),
    nullary main_c_22 (constantI S_ 32 0#32),
    unary main_c_22 main_v111 (broadcastInDim S800000 ![] bcast_S_S800000 : (⟨S_, .i32⟩ : BufTy).Contents (Elt F) → (⟨S800000, .i32⟩ : BufTy).Contents (Elt F)),
    binary main_v1 main_v111 main_v112 (cmpi .slt : (⟨S800000, .i32⟩ : BufTy).Contents (Elt F) → (⟨S800000, .i32⟩ : BufTy).Contents (Elt F) → (⟨S800000, .i1⟩ : BufTy).Contents (Elt F)),
    nullary main_c_23 (constantI S_ 32 50000#32),
    unary main_c_23 main_v113 (broadcastInDim S800000 ![] bcast_S_S800000 : (⟨S_, .i32⟩ : BufTy).Contents (Elt F) → (⟨S800000, .i32⟩ : BufTy).Contents (Elt F)),
    binary main_v1 main_v113 main_v114 (addi : (⟨S800000, .i32⟩ : BufTy).Contents (Elt F) → (⟨S800000, .i32⟩ : BufTy).Contents (Elt F) → (⟨S800000, .i32⟩ : BufTy).Contents (Elt F)),
    ternary main_v112 main_v114 main_v1 main_v115 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    unary main_v115 main_v116 (broadcastInDim S800000x1 ![0] bcast_S800000_S800000x1_0 : (⟨S800000, .i32⟩ : BufTy).Contents (Elt F) → (⟨S800000x1, .i32⟩ : BufTy).Contents (Elt F)),
    binary main_v105 main_v116 main_v117 ((fun x i => Host.gather gather_S50000x64_S800000x1_S800000x64_1_0_n_n_0_1_164 x i) : (⟨S50000x64, .f32⟩ : BufTy).Contents (Elt F) → (⟨S800000x1, .i32⟩ : BufTy).Contents (Elt F) → (⟨S800000x64, .f32⟩ : BufTy).Contents (Elt F)),
    unary main_v110 main_v118 (broadcastInDim S800000x64 ![0, 1] bcast_S800000x1_S800000x64_0_1 : (⟨S800000x1, .f32⟩ : BufTy).Contents (Elt F) → (⟨S800000x64, .f32⟩ : BufTy).Contents (Elt F)),
    binary main_v118 main_v117 main_v119 (mulf : (⟨S800000x64, .f32⟩ : BufTy).Contents (Elt F) → (⟨S800000x64, .f32⟩ : BufTy).Contents (Elt F) → (⟨S800000x64, .f32⟩ : BufTy).Contents (Elt F)),
    nullary main_cst_24 (constant S_ .f32 0x00000000#32),
    unary main_cst_24 main_v120 (broadcastInDim S50000x64 ![] bcast_S_S50000x64 : (⟨S_, .f32⟩ : BufTy).Contents (Elt F) → (⟨S50000x64, .f32⟩ : BufTy).Contents (Elt F)),
    unary main_v3 main_v121 (broadcastInDim S800000x1 ![0] bcast_S800000_S800000x1_0 : (⟨S800000, .i32⟩ : BufTy).Contents (Elt F) → (⟨S800000x1, .i32⟩ : BufTy).Contents (Elt F)),
    ternary main_v120 main_v121 main_v119 main_v122 ((fun x i u => Host.scatterAdd scatter_S50000x64_S800000x1_S800000x64_1_0_0_1 x i u) : (⟨S50000x64, .f32⟩ : BufTy).Contents (Elt F) → (⟨S800000x1, .i32⟩ : BufTy).Contents (Elt F) → (⟨S800000x64, .f32⟩ : BufTy).Contents (Elt F) → (⟨S50000x64, .f32⟩ : BufTy).Contents (Elt F)),
    nullary main_cst_25 (constant S_ .f32 0x40000000#32),
    unary main_cst_25 main_v123 (broadcastInDim S50000x64 ![] bcast_S_S50000x64 : (⟨S_, .f32⟩ : BufTy).Contents (Elt F) → (⟨S50000x64, .f32⟩ : BufTy).Contents (Elt F)),
    binary main_v123 main_v122 main_v124 (mulf : (⟨S50000x64, .f32⟩ : BufTy).Contents (Elt F) → (⟨S50000x64, .f32⟩ : BufTy).Contents (Elt F) → (⟨S50000x64, .f32⟩ : BufTy).Contents (Elt F)),
    binary main_v124 main_v85 main_v125 (subf : (⟨S50000x64, .f32⟩ : BufTy).Contents (Elt F) → (⟨S50000x64, .f32⟩ : BufTy).Contents (Elt F) → (⟨S50000x64, .f32⟩ : BufTy).Contents (Elt F)) ]

set_option maxHeartbeats 4000000 in
set_option maxRecDepth 8192 in
/-- Operations 156–179 of the reference. -/
abbrev P10 : List (HloOp τ sig (Elt F)) :=
  [ unary main_arg2 main_v126 ((extractStridedSlice S1x64x64 ![5, 0, 0] · slices_S8x64x64_S1x64x64_5_0_0) : (⟨S8x64x64, .f32⟩ : BufTy).Contents (Elt F) → (⟨S1x64x64, .f32⟩ : BufTy).Contents (Elt F)),
    reshape main_v126 main_v127 rfl shapeCasts_S1x64x64_S64x64,
    binary main_v125 main_v127 main_v128 ((fun l r => Host.dotGeneral dot_S50000x64_S64x64_S50000x64_1_0_0_1_n_n none l r) : (⟨S50000x64, .f32⟩ : BufTy).Contents (Elt F) → (⟨S64x64, .f32⟩ : BufTy).Contents (Elt F) → (⟨S50000x64, .f32⟩ : BufTy).Contents (Elt F)),
    binary main_v109 main_v128 main_v129 (addf : (⟨S50000x64, .f32⟩ : BufTy).Contents (Elt F) → (⟨S50000x64, .f32⟩ : BufTy).Contents (Elt F) → (⟨S50000x64, .f32⟩ : BufTy).Contents (Elt F)),
    unary main_v29 main_v130 (broadcastInDim S800000x1 ![0] bcast_S800000_S800000x1_0 : (⟨S800000, .f32⟩ : BufTy).Contents (Elt F) → (⟨S800000x1, .f32⟩ : BufTy).Contents (Elt F)),
    nullary main_c_26 (constantI S_ 32 0#32),
    unary main_c_26 main_v131 (broadcastInDim S800000 ![] bcast_S_S800000 : (⟨S_, .i32⟩ : BufTy).Contents (Elt F) → (⟨S800000, .i32⟩ : BufTy).Contents (Elt F)),
    binary main_v1 main_v131 main_v132 (cmpi .slt : (⟨S800000, .i32⟩ : BufTy).Contents (Elt F) → (⟨S800000, .i32⟩ : BufTy).Contents (Elt F) → (⟨S800000, .i1⟩ : BufTy).Contents (Elt F)),
    nullary main_c_27 (constantI S_ 32 50000#32),
    unary main_c_27 main_v133 (broadcastInDim S800000 ![] bcast_S_S800000 : (⟨S_, .i32⟩ : BufTy).Contents (Elt F) → (⟨S800000, .i32⟩ : BufTy).Contents (Elt F)),
    binary main_v1 main_v133 main_v134 (addi : (⟨S800000, .i32⟩ : BufTy).Contents (Elt F) → (⟨S800000, .i32⟩ : BufTy).Contents (Elt F) → (⟨S800000, .i32⟩ : BufTy).Contents (Elt F)),
    ternary main_v132 main_v134 main_v1 main_v135 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    unary main_v135 main_v136 (broadcastInDim S800000x1 ![0] bcast_S800000_S800000x1_0 : (⟨S800000, .i32⟩ : BufTy).Contents (Elt F) → (⟨S800000x1, .i32⟩ : BufTy).Contents (Elt F)),
    binary main_v125 main_v136 main_v137 ((fun x i => Host.gather gather_S50000x64_S800000x1_S800000x64_1_0_n_n_0_1_164 x i) : (⟨S50000x64, .f32⟩ : BufTy).Contents (Elt F) → (⟨S800000x1, .i32⟩ : BufTy).Contents (Elt F) → (⟨S800000x64, .f32⟩ : BufTy).Contents (Elt F)),
    unary main_v130 main_v138 (broadcastInDim S800000x64 ![0, 1] bcast_S800000x1_S800000x64_0_1 : (⟨S800000x1, .f32⟩ : BufTy).Contents (Elt F) → (⟨S800000x64, .f32⟩ : BufTy).Contents (Elt F)),
    binary main_v138 main_v137 main_v139 (mulf : (⟨S800000x64, .f32⟩ : BufTy).Contents (Elt F) → (⟨S800000x64, .f32⟩ : BufTy).Contents (Elt F) → (⟨S800000x64, .f32⟩ : BufTy).Contents (Elt F)),
    nullary main_cst_28 (constant S_ .f32 0x00000000#32),
    unary main_cst_28 main_v140 (broadcastInDim S50000x64 ![] bcast_S_S50000x64 : (⟨S_, .f32⟩ : BufTy).Contents (Elt F) → (⟨S50000x64, .f32⟩ : BufTy).Contents (Elt F)),
    unary main_v3 main_v141 (broadcastInDim S800000x1 ![0] bcast_S800000_S800000x1_0 : (⟨S800000, .i32⟩ : BufTy).Contents (Elt F) → (⟨S800000x1, .i32⟩ : BufTy).Contents (Elt F)),
    ternary main_v140 main_v141 main_v139 main_v142 ((fun x i u => Host.scatterAdd scatter_S50000x64_S800000x1_S800000x64_1_0_0_1 x i u) : (⟨S50000x64, .f32⟩ : BufTy).Contents (Elt F) → (⟨S800000x1, .i32⟩ : BufTy).Contents (Elt F) → (⟨S800000x64, .f32⟩ : BufTy).Contents (Elt F) → (⟨S50000x64, .f32⟩ : BufTy).Contents (Elt F)),
    nullary main_cst_29 (constant S_ .f32 0x40000000#32),
    unary main_cst_29 main_v143 (broadcastInDim S50000x64 ![] bcast_S_S50000x64 : (⟨S_, .f32⟩ : BufTy).Contents (Elt F) → (⟨S50000x64, .f32⟩ : BufTy).Contents (Elt F)),
    binary main_v143 main_v142 main_v144 (mulf : (⟨S50000x64, .f32⟩ : BufTy).Contents (Elt F) → (⟨S50000x64, .f32⟩ : BufTy).Contents (Elt F) → (⟨S50000x64, .f32⟩ : BufTy).Contents (Elt F)),
    binary main_v144 main_v105 main_v145 (subf : (⟨S50000x64, .f32⟩ : BufTy).Contents (Elt F) → (⟨S50000x64, .f32⟩ : BufTy).Contents (Elt F) → (⟨S50000x64, .f32⟩ : BufTy).Contents (Elt F)) ]

set_option maxHeartbeats 4000000 in
set_option maxRecDepth 8192 in
/-- Operations 180–213 of the reference. -/
abbrev P11 : List (HloOp τ sig (Elt F)) :=
  [ unary main_arg2 main_v146 ((extractStridedSlice S1x64x64 ![6, 0, 0] · slices_S8x64x64_S1x64x64_6_0_0) : (⟨S8x64x64, .f32⟩ : BufTy).Contents (Elt F) → (⟨S1x64x64, .f32⟩ : BufTy).Contents (Elt F)),
    reshape main_v146 main_v147 rfl shapeCasts_S1x64x64_S64x64,
    binary main_v145 main_v147 main_v148 ((fun l r => Host.dotGeneral dot_S50000x64_S64x64_S50000x64_1_0_0_1_n_n none l r) : (⟨S50000x64, .f32⟩ : BufTy).Contents (Elt F) → (⟨S64x64, .f32⟩ : BufTy).Contents (Elt F) → (⟨S50000x64, .f32⟩ : BufTy).Contents (Elt F)),
    binary main_v129 main_v148 main_v149 (addf : (⟨S50000x64, .f32⟩ : BufTy).Contents (Elt F) → (⟨S50000x64, .f32⟩ : BufTy).Contents (Elt F) → (⟨S50000x64, .f32⟩ : BufTy).Contents (Elt F)),
    unary main_v29 main_v150 (broadcastInDim S800000x1 ![0] bcast_S800000_S800000x1_0 : (⟨S800000, .f32⟩ : BufTy).Contents (Elt F) → (⟨S800000x1, .f32⟩ : BufTy).Contents (Elt F)),
    nullary main_c_30 (constantI S_ 32 0#32),
    unary main_c_30 main_v151 (broadcastInDim S800000 ![] bcast_S_S800000 : (⟨S_, .i32⟩ : BufTy).Contents (Elt F) → (⟨S800000, .i32⟩ : BufTy).Contents (Elt F)),
    binary main_v1 main_v151 main_v152 (cmpi .slt : (⟨S800000, .i32⟩ : BufTy).Contents (Elt F) → (⟨S800000, .i32⟩ : BufTy).Contents (Elt F) → (⟨S800000, .i1⟩ : BufTy).Contents (Elt F)),
    nullary main_c_31 (constantI S_ 32 50000#32),
    unary main_c_31 main_v153 (broadcastInDim S800000 ![] bcast_S_S800000 : (⟨S_, .i32⟩ : BufTy).Contents (Elt F) → (⟨S800000, .i32⟩ : BufTy).Contents (Elt F)),
    binary main_v1 main_v153 main_v154 (addi : (⟨S800000, .i32⟩ : BufTy).Contents (Elt F) → (⟨S800000, .i32⟩ : BufTy).Contents (Elt F) → (⟨S800000, .i32⟩ : BufTy).Contents (Elt F)),
    ternary main_v152 main_v154 main_v1 main_v155 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    unary main_v155 main_v156 (broadcastInDim S800000x1 ![0] bcast_S800000_S800000x1_0 : (⟨S800000, .i32⟩ : BufTy).Contents (Elt F) → (⟨S800000x1, .i32⟩ : BufTy).Contents (Elt F)),
    binary main_v145 main_v156 main_v157 ((fun x i => Host.gather gather_S50000x64_S800000x1_S800000x64_1_0_n_n_0_1_164 x i) : (⟨S50000x64, .f32⟩ : BufTy).Contents (Elt F) → (⟨S800000x1, .i32⟩ : BufTy).Contents (Elt F) → (⟨S800000x64, .f32⟩ : BufTy).Contents (Elt F)),
    unary main_v150 main_v158 (broadcastInDim S800000x64 ![0, 1] bcast_S800000x1_S800000x64_0_1 : (⟨S800000x1, .f32⟩ : BufTy).Contents (Elt F) → (⟨S800000x64, .f32⟩ : BufTy).Contents (Elt F)),
    binary main_v158 main_v157 main_v159 (mulf : (⟨S800000x64, .f32⟩ : BufTy).Contents (Elt F) → (⟨S800000x64, .f32⟩ : BufTy).Contents (Elt F) → (⟨S800000x64, .f32⟩ : BufTy).Contents (Elt F)),
    nullary main_cst_32 (constant S_ .f32 0x00000000#32),
    unary main_cst_32 main_v160 (broadcastInDim S50000x64 ![] bcast_S_S50000x64 : (⟨S_, .f32⟩ : BufTy).Contents (Elt F) → (⟨S50000x64, .f32⟩ : BufTy).Contents (Elt F)),
    unary main_v3 main_v161 (broadcastInDim S800000x1 ![0] bcast_S800000_S800000x1_0 : (⟨S800000, .i32⟩ : BufTy).Contents (Elt F) → (⟨S800000x1, .i32⟩ : BufTy).Contents (Elt F)),
    ternary main_v160 main_v161 main_v159 main_v162 ((fun x i u => Host.scatterAdd scatter_S50000x64_S800000x1_S800000x64_1_0_0_1 x i u) : (⟨S50000x64, .f32⟩ : BufTy).Contents (Elt F) → (⟨S800000x1, .i32⟩ : BufTy).Contents (Elt F) → (⟨S800000x64, .f32⟩ : BufTy).Contents (Elt F) → (⟨S50000x64, .f32⟩ : BufTy).Contents (Elt F)),
    nullary main_cst_33 (constant S_ .f32 0x40000000#32),
    unary main_cst_33 main_v163 (broadcastInDim S50000x64 ![] bcast_S_S50000x64 : (⟨S_, .f32⟩ : BufTy).Contents (Elt F) → (⟨S50000x64, .f32⟩ : BufTy).Contents (Elt F)),
    binary main_v163 main_v162 main_v164 (mulf : (⟨S50000x64, .f32⟩ : BufTy).Contents (Elt F) → (⟨S50000x64, .f32⟩ : BufTy).Contents (Elt F) → (⟨S50000x64, .f32⟩ : BufTy).Contents (Elt F)),
    binary main_v164 main_v125 main_v165 (subf : (⟨S50000x64, .f32⟩ : BufTy).Contents (Elt F) → (⟨S50000x64, .f32⟩ : BufTy).Contents (Elt F) → (⟨S50000x64, .f32⟩ : BufTy).Contents (Elt F)),
    unary main_arg2 main_v166 ((extractStridedSlice S1x64x64 ![7, 0, 0] · slices_S8x64x64_S1x64x64_7_0_0) : (⟨S8x64x64, .f32⟩ : BufTy).Contents (Elt F) → (⟨S1x64x64, .f32⟩ : BufTy).Contents (Elt F)),
    reshape main_v166 main_v167 rfl shapeCasts_S1x64x64_S64x64,
    binary main_v165 main_v167 main_v168 ((fun l r => Host.dotGeneral dot_S50000x64_S64x64_S50000x64_1_0_0_1_n_n none l r) : (⟨S50000x64, .f32⟩ : BufTy).Contents (Elt F) → (⟨S64x64, .f32⟩ : BufTy).Contents (Elt F) → (⟨S50000x64, .f32⟩ : BufTy).Contents (Elt F)),
    binary main_v149 main_v168 main_v169 (addf : (⟨S50000x64, .f32⟩ : BufTy).Contents (Elt F) → (⟨S50000x64, .f32⟩ : BufTy).Contents (Elt F) → (⟨S50000x64, .f32⟩ : BufTy).Contents (Elt F)),
    unary main_arg3 main_v170 (broadcastInDim S1x64 ![1] bcast_S64_S1x64_1 : (⟨S64, .f32⟩ : BufTy).Contents (Elt F) → (⟨S1x64, .f32⟩ : BufTy).Contents (Elt F)),
    unary main_v170 main_v171 (broadcastInDim S50000x64 ![0, 1] bcast_S1x64_S50000x64_0_1 : (⟨S1x64, .f32⟩ : BufTy).Contents (Elt F) → (⟨S50000x64, .f32⟩ : BufTy).Contents (Elt F)),
    binary main_v169 main_v171 main_v172 (addf : (⟨S50000x64, .f32⟩ : BufTy).Contents (Elt F) → (⟨S50000x64, .f32⟩ : BufTy).Contents (Elt F) → (⟨S50000x64, .f32⟩ : BufTy).Contents (Elt F)),
    TRef.nullary (TRef.of (T := ⟨S_, .f32⟩) main_call1_cst) (constant S_ .f32 0x00000000#32),
    TRef.unary (TRef.of (T := ⟨S_, .f32⟩) main_call1_cst) (TRef.of (T := ⟨S50000x64, .f32⟩) main_call1_v0) (broadcastInDim S50000x64 ![] bcast_S_S50000x64),
    TRef.binary (TRef.of (T := ⟨S50000x64, .f32⟩) main_v172) (TRef.of (T := ⟨S50000x64, .f32⟩) main_call1_v0) (TRef.of (T := ⟨S50000x64, .f32⟩) main_v173) maximumf ]

set_option maxHeartbeats 4000000 in
set_option maxRecDepth 8192 in
/-- Operations 214–232 of the reference. -/
abbrev P12 : List (HloOp τ sig (Elt F)) :=
  [ unary main_arg4 main_v174 ((extractStridedSlice S1x64x10 ![0, 0, 0] · slices_S8x64x10_S1x64x10_0_0_0) : (⟨S8x64x10, .f32⟩ : BufTy).Contents (Elt F) → (⟨S1x64x10, .f32⟩ : BufTy).Contents (Elt F)),
    reshape main_v174 main_v175 rfl shapeCasts_S1x64x10_S64x10,
    binary main_v173 main_v175 main_v176 ((fun l r => Host.dotGeneral dot_S50000x64_S64x10_S50000x10_1_0_0_1_n_n none l r) : (⟨S50000x64, .f32⟩ : BufTy).Contents (Elt F) → (⟨S64x10, .f32⟩ : BufTy).Contents (Elt F) → (⟨S50000x10, .f32⟩ : BufTy).Contents (Elt F)),
    unary main_v29 main_v177 (broadcastInDim S800000x1 ![0] bcast_S800000_S800000x1_0 : (⟨S800000, .f32⟩ : BufTy).Contents (Elt F) → (⟨S800000x1, .f32⟩ : BufTy).Contents (Elt F)),
    nullary main_c_34 (constantI S_ 32 0#32),
    unary main_c_34 main_v178 (broadcastInDim S800000 ![] bcast_S_S800000 : (⟨S_, .i32⟩ : BufTy).Contents (Elt F) → (⟨S800000, .i32⟩ : BufTy).Contents (Elt F)),
    binary main_v1 main_v178 main_v179 (cmpi .slt : (⟨S800000, .i32⟩ : BufTy).Contents (Elt F) → (⟨S800000, .i32⟩ : BufTy).Contents (Elt F) → (⟨S800000, .i1⟩ : BufTy).Contents (Elt F)),
    nullary main_c_35 (constantI S_ 32 50000#32),
    unary main_c_35 main_v180 (broadcastInDim S800000 ![] bcast_S_S800000 : (⟨S_, .i32⟩ : BufTy).Contents (Elt F) → (⟨S800000, .i32⟩ : BufTy).Contents (Elt F)),
    binary main_v1 main_v180 main_v181 (addi : (⟨S800000, .i32⟩ : BufTy).Contents (Elt F) → (⟨S800000, .i32⟩ : BufTy).Contents (Elt F) → (⟨S800000, .i32⟩ : BufTy).Contents (Elt F)),
    ternary main_v179 main_v181 main_v1 main_v182 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    unary main_v182 main_v183 (broadcastInDim S800000x1 ![0] bcast_S800000_S800000x1_0 : (⟨S800000, .i32⟩ : BufTy).Contents (Elt F) → (⟨S800000x1, .i32⟩ : BufTy).Contents (Elt F)),
    binary main_v173 main_v183 main_v184 ((fun x i => Host.gather gather_S50000x64_S800000x1_S800000x64_1_0_n_n_0_1_164 x i) : (⟨S50000x64, .f32⟩ : BufTy).Contents (Elt F) → (⟨S800000x1, .i32⟩ : BufTy).Contents (Elt F) → (⟨S800000x64, .f32⟩ : BufTy).Contents (Elt F)),
    unary main_v177 main_v185 (broadcastInDim S800000x64 ![0, 1] bcast_S800000x1_S800000x64_0_1 : (⟨S800000x1, .f32⟩ : BufTy).Contents (Elt F) → (⟨S800000x64, .f32⟩ : BufTy).Contents (Elt F)),
    binary main_v185 main_v184 main_v186 (mulf : (⟨S800000x64, .f32⟩ : BufTy).Contents (Elt F) → (⟨S800000x64, .f32⟩ : BufTy).Contents (Elt F) → (⟨S800000x64, .f32⟩ : BufTy).Contents (Elt F)),
    nullary main_cst_36 (constant S_ .f32 0x00000000#32),
    unary main_cst_36 main_v187 (broadcastInDim S50000x64 ![] bcast_S_S50000x64 : (⟨S_, .f32⟩ : BufTy).Contents (Elt F) → (⟨S50000x64, .f32⟩ : BufTy).Contents (Elt F)),
    unary main_v3 main_v188 (broadcastInDim S800000x1 ![0] bcast_S800000_S800000x1_0 : (⟨S800000, .i32⟩ : BufTy).Contents (Elt F) → (⟨S800000x1, .i32⟩ : BufTy).Contents (Elt F)),
    ternary main_v187 main_v188 main_v186 main_v189 ((fun x i u => Host.scatterAdd scatter_S50000x64_S800000x1_S800000x64_1_0_0_1 x i u) : (⟨S50000x64, .f32⟩ : BufTy).Contents (Elt F) → (⟨S800000x1, .i32⟩ : BufTy).Contents (Elt F) → (⟨S800000x64, .f32⟩ : BufTy).Contents (Elt F) → (⟨S50000x64, .f32⟩ : BufTy).Contents (Elt F)) ]

set_option maxHeartbeats 4000000 in
set_option maxRecDepth 8192 in
/-- Operations 233–256 of the reference. -/
abbrev P13 : List (HloOp τ sig (Elt F)) :=
  [ unary main_arg4 main_v190 ((extractStridedSlice S1x64x10 ![1, 0, 0] · slices_S8x64x10_S1x64x10_1_0_0) : (⟨S8x64x10, .f32⟩ : BufTy).Contents (Elt F) → (⟨S1x64x10, .f32⟩ : BufTy).Contents (Elt F)),
    reshape main_v190 main_v191 rfl shapeCasts_S1x64x10_S64x10,
    binary main_v189 main_v191 main_v192 ((fun l r => Host.dotGeneral dot_S50000x64_S64x10_S50000x10_1_0_0_1_n_n none l r) : (⟨S50000x64, .f32⟩ : BufTy).Contents (Elt F) → (⟨S64x10, .f32⟩ : BufTy).Contents (Elt F) → (⟨S50000x10, .f32⟩ : BufTy).Contents (Elt F)),
    binary main_v176 main_v192 main_v193 (addf : (⟨S50000x10, .f32⟩ : BufTy).Contents (Elt F) → (⟨S50000x10, .f32⟩ : BufTy).Contents (Elt F) → (⟨S50000x10, .f32⟩ : BufTy).Contents (Elt F)),
    unary main_v29 main_v194 (broadcastInDim S800000x1 ![0] bcast_S800000_S800000x1_0 : (⟨S800000, .f32⟩ : BufTy).Contents (Elt F) → (⟨S800000x1, .f32⟩ : BufTy).Contents (Elt F)),
    nullary main_c_37 (constantI S_ 32 0#32),
    unary main_c_37 main_v195 (broadcastInDim S800000 ![] bcast_S_S800000 : (⟨S_, .i32⟩ : BufTy).Contents (Elt F) → (⟨S800000, .i32⟩ : BufTy).Contents (Elt F)),
    binary main_v1 main_v195 main_v196 (cmpi .slt : (⟨S800000, .i32⟩ : BufTy).Contents (Elt F) → (⟨S800000, .i32⟩ : BufTy).Contents (Elt F) → (⟨S800000, .i1⟩ : BufTy).Contents (Elt F)),
    nullary main_c_38 (constantI S_ 32 50000#32),
    unary main_c_38 main_v197 (broadcastInDim S800000 ![] bcast_S_S800000 : (⟨S_, .i32⟩ : BufTy).Contents (Elt F) → (⟨S800000, .i32⟩ : BufTy).Contents (Elt F)),
    binary main_v1 main_v197 main_v198 (addi : (⟨S800000, .i32⟩ : BufTy).Contents (Elt F) → (⟨S800000, .i32⟩ : BufTy).Contents (Elt F) → (⟨S800000, .i32⟩ : BufTy).Contents (Elt F)),
    ternary main_v196 main_v198 main_v1 main_v199 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    unary main_v199 main_v200 (broadcastInDim S800000x1 ![0] bcast_S800000_S800000x1_0 : (⟨S800000, .i32⟩ : BufTy).Contents (Elt F) → (⟨S800000x1, .i32⟩ : BufTy).Contents (Elt F)),
    binary main_v189 main_v200 main_v201 ((fun x i => Host.gather gather_S50000x64_S800000x1_S800000x64_1_0_n_n_0_1_164 x i) : (⟨S50000x64, .f32⟩ : BufTy).Contents (Elt F) → (⟨S800000x1, .i32⟩ : BufTy).Contents (Elt F) → (⟨S800000x64, .f32⟩ : BufTy).Contents (Elt F)),
    unary main_v194 main_v202 (broadcastInDim S800000x64 ![0, 1] bcast_S800000x1_S800000x64_0_1 : (⟨S800000x1, .f32⟩ : BufTy).Contents (Elt F) → (⟨S800000x64, .f32⟩ : BufTy).Contents (Elt F)),
    binary main_v202 main_v201 main_v203 (mulf : (⟨S800000x64, .f32⟩ : BufTy).Contents (Elt F) → (⟨S800000x64, .f32⟩ : BufTy).Contents (Elt F) → (⟨S800000x64, .f32⟩ : BufTy).Contents (Elt F)),
    nullary main_cst_39 (constant S_ .f32 0x00000000#32),
    unary main_cst_39 main_v204 (broadcastInDim S50000x64 ![] bcast_S_S50000x64 : (⟨S_, .f32⟩ : BufTy).Contents (Elt F) → (⟨S50000x64, .f32⟩ : BufTy).Contents (Elt F)),
    unary main_v3 main_v205 (broadcastInDim S800000x1 ![0] bcast_S800000_S800000x1_0 : (⟨S800000, .i32⟩ : BufTy).Contents (Elt F) → (⟨S800000x1, .i32⟩ : BufTy).Contents (Elt F)),
    ternary main_v204 main_v205 main_v203 main_v206 ((fun x i u => Host.scatterAdd scatter_S50000x64_S800000x1_S800000x64_1_0_0_1 x i u) : (⟨S50000x64, .f32⟩ : BufTy).Contents (Elt F) → (⟨S800000x1, .i32⟩ : BufTy).Contents (Elt F) → (⟨S800000x64, .f32⟩ : BufTy).Contents (Elt F) → (⟨S50000x64, .f32⟩ : BufTy).Contents (Elt F)),
    nullary main_cst_40 (constant S_ .f32 0x40000000#32),
    unary main_cst_40 main_v207 (broadcastInDim S50000x64 ![] bcast_S_S50000x64 : (⟨S_, .f32⟩ : BufTy).Contents (Elt F) → (⟨S50000x64, .f32⟩ : BufTy).Contents (Elt F)),
    binary main_v207 main_v206 main_v208 (mulf : (⟨S50000x64, .f32⟩ : BufTy).Contents (Elt F) → (⟨S50000x64, .f32⟩ : BufTy).Contents (Elt F) → (⟨S50000x64, .f32⟩ : BufTy).Contents (Elt F)),
    binary main_v208 main_v173 main_v209 (subf : (⟨S50000x64, .f32⟩ : BufTy).Contents (Elt F) → (⟨S50000x64, .f32⟩ : BufTy).Contents (Elt F) → (⟨S50000x64, .f32⟩ : BufTy).Contents (Elt F)) ]

set_option maxHeartbeats 4000000 in
set_option maxRecDepth 8192 in
/-- Operations 257–280 of the reference. -/
abbrev P14 : List (HloOp τ sig (Elt F)) :=
  [ unary main_arg4 main_v210 ((extractStridedSlice S1x64x10 ![2, 0, 0] · slices_S8x64x10_S1x64x10_2_0_0) : (⟨S8x64x10, .f32⟩ : BufTy).Contents (Elt F) → (⟨S1x64x10, .f32⟩ : BufTy).Contents (Elt F)),
    reshape main_v210 main_v211 rfl shapeCasts_S1x64x10_S64x10,
    binary main_v209 main_v211 main_v212 ((fun l r => Host.dotGeneral dot_S50000x64_S64x10_S50000x10_1_0_0_1_n_n none l r) : (⟨S50000x64, .f32⟩ : BufTy).Contents (Elt F) → (⟨S64x10, .f32⟩ : BufTy).Contents (Elt F) → (⟨S50000x10, .f32⟩ : BufTy).Contents (Elt F)),
    binary main_v193 main_v212 main_v213 (addf : (⟨S50000x10, .f32⟩ : BufTy).Contents (Elt F) → (⟨S50000x10, .f32⟩ : BufTy).Contents (Elt F) → (⟨S50000x10, .f32⟩ : BufTy).Contents (Elt F)),
    unary main_v29 main_v214 (broadcastInDim S800000x1 ![0] bcast_S800000_S800000x1_0 : (⟨S800000, .f32⟩ : BufTy).Contents (Elt F) → (⟨S800000x1, .f32⟩ : BufTy).Contents (Elt F)),
    nullary main_c_41 (constantI S_ 32 0#32),
    unary main_c_41 main_v215 (broadcastInDim S800000 ![] bcast_S_S800000 : (⟨S_, .i32⟩ : BufTy).Contents (Elt F) → (⟨S800000, .i32⟩ : BufTy).Contents (Elt F)),
    binary main_v1 main_v215 main_v216 (cmpi .slt : (⟨S800000, .i32⟩ : BufTy).Contents (Elt F) → (⟨S800000, .i32⟩ : BufTy).Contents (Elt F) → (⟨S800000, .i1⟩ : BufTy).Contents (Elt F)),
    nullary main_c_42 (constantI S_ 32 50000#32),
    unary main_c_42 main_v217 (broadcastInDim S800000 ![] bcast_S_S800000 : (⟨S_, .i32⟩ : BufTy).Contents (Elt F) → (⟨S800000, .i32⟩ : BufTy).Contents (Elt F)),
    binary main_v1 main_v217 main_v218 (addi : (⟨S800000, .i32⟩ : BufTy).Contents (Elt F) → (⟨S800000, .i32⟩ : BufTy).Contents (Elt F) → (⟨S800000, .i32⟩ : BufTy).Contents (Elt F)),
    ternary main_v216 main_v218 main_v1 main_v219 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    unary main_v219 main_v220 (broadcastInDim S800000x1 ![0] bcast_S800000_S800000x1_0 : (⟨S800000, .i32⟩ : BufTy).Contents (Elt F) → (⟨S800000x1, .i32⟩ : BufTy).Contents (Elt F)),
    binary main_v209 main_v220 main_v221 ((fun x i => Host.gather gather_S50000x64_S800000x1_S800000x64_1_0_n_n_0_1_164 x i) : (⟨S50000x64, .f32⟩ : BufTy).Contents (Elt F) → (⟨S800000x1, .i32⟩ : BufTy).Contents (Elt F) → (⟨S800000x64, .f32⟩ : BufTy).Contents (Elt F)),
    unary main_v214 main_v222 (broadcastInDim S800000x64 ![0, 1] bcast_S800000x1_S800000x64_0_1 : (⟨S800000x1, .f32⟩ : BufTy).Contents (Elt F) → (⟨S800000x64, .f32⟩ : BufTy).Contents (Elt F)),
    binary main_v222 main_v221 main_v223 (mulf : (⟨S800000x64, .f32⟩ : BufTy).Contents (Elt F) → (⟨S800000x64, .f32⟩ : BufTy).Contents (Elt F) → (⟨S800000x64, .f32⟩ : BufTy).Contents (Elt F)),
    nullary main_cst_43 (constant S_ .f32 0x00000000#32),
    unary main_cst_43 main_v224 (broadcastInDim S50000x64 ![] bcast_S_S50000x64 : (⟨S_, .f32⟩ : BufTy).Contents (Elt F) → (⟨S50000x64, .f32⟩ : BufTy).Contents (Elt F)),
    unary main_v3 main_v225 (broadcastInDim S800000x1 ![0] bcast_S800000_S800000x1_0 : (⟨S800000, .i32⟩ : BufTy).Contents (Elt F) → (⟨S800000x1, .i32⟩ : BufTy).Contents (Elt F)),
    ternary main_v224 main_v225 main_v223 main_v226 ((fun x i u => Host.scatterAdd scatter_S50000x64_S800000x1_S800000x64_1_0_0_1 x i u) : (⟨S50000x64, .f32⟩ : BufTy).Contents (Elt F) → (⟨S800000x1, .i32⟩ : BufTy).Contents (Elt F) → (⟨S800000x64, .f32⟩ : BufTy).Contents (Elt F) → (⟨S50000x64, .f32⟩ : BufTy).Contents (Elt F)),
    nullary main_cst_44 (constant S_ .f32 0x40000000#32),
    unary main_cst_44 main_v227 (broadcastInDim S50000x64 ![] bcast_S_S50000x64 : (⟨S_, .f32⟩ : BufTy).Contents (Elt F) → (⟨S50000x64, .f32⟩ : BufTy).Contents (Elt F)),
    binary main_v227 main_v226 main_v228 (mulf : (⟨S50000x64, .f32⟩ : BufTy).Contents (Elt F) → (⟨S50000x64, .f32⟩ : BufTy).Contents (Elt F) → (⟨S50000x64, .f32⟩ : BufTy).Contents (Elt F)),
    binary main_v228 main_v189 main_v229 (subf : (⟨S50000x64, .f32⟩ : BufTy).Contents (Elt F) → (⟨S50000x64, .f32⟩ : BufTy).Contents (Elt F) → (⟨S50000x64, .f32⟩ : BufTy).Contents (Elt F)) ]

set_option maxHeartbeats 4000000 in
set_option maxRecDepth 8192 in
/-- Operations 281–304 of the reference. -/
abbrev P15 : List (HloOp τ sig (Elt F)) :=
  [ unary main_arg4 main_v230 ((extractStridedSlice S1x64x10 ![3, 0, 0] · slices_S8x64x10_S1x64x10_3_0_0) : (⟨S8x64x10, .f32⟩ : BufTy).Contents (Elt F) → (⟨S1x64x10, .f32⟩ : BufTy).Contents (Elt F)),
    reshape main_v230 main_v231 rfl shapeCasts_S1x64x10_S64x10,
    binary main_v229 main_v231 main_v232 ((fun l r => Host.dotGeneral dot_S50000x64_S64x10_S50000x10_1_0_0_1_n_n none l r) : (⟨S50000x64, .f32⟩ : BufTy).Contents (Elt F) → (⟨S64x10, .f32⟩ : BufTy).Contents (Elt F) → (⟨S50000x10, .f32⟩ : BufTy).Contents (Elt F)),
    binary main_v213 main_v232 main_v233 (addf : (⟨S50000x10, .f32⟩ : BufTy).Contents (Elt F) → (⟨S50000x10, .f32⟩ : BufTy).Contents (Elt F) → (⟨S50000x10, .f32⟩ : BufTy).Contents (Elt F)),
    unary main_v29 main_v234 (broadcastInDim S800000x1 ![0] bcast_S800000_S800000x1_0 : (⟨S800000, .f32⟩ : BufTy).Contents (Elt F) → (⟨S800000x1, .f32⟩ : BufTy).Contents (Elt F)),
    nullary main_c_45 (constantI S_ 32 0#32),
    unary main_c_45 main_v235 (broadcastInDim S800000 ![] bcast_S_S800000 : (⟨S_, .i32⟩ : BufTy).Contents (Elt F) → (⟨S800000, .i32⟩ : BufTy).Contents (Elt F)),
    binary main_v1 main_v235 main_v236 (cmpi .slt : (⟨S800000, .i32⟩ : BufTy).Contents (Elt F) → (⟨S800000, .i32⟩ : BufTy).Contents (Elt F) → (⟨S800000, .i1⟩ : BufTy).Contents (Elt F)),
    nullary main_c_46 (constantI S_ 32 50000#32),
    unary main_c_46 main_v237 (broadcastInDim S800000 ![] bcast_S_S800000 : (⟨S_, .i32⟩ : BufTy).Contents (Elt F) → (⟨S800000, .i32⟩ : BufTy).Contents (Elt F)),
    binary main_v1 main_v237 main_v238 (addi : (⟨S800000, .i32⟩ : BufTy).Contents (Elt F) → (⟨S800000, .i32⟩ : BufTy).Contents (Elt F) → (⟨S800000, .i32⟩ : BufTy).Contents (Elt F)),
    ternary main_v236 main_v238 main_v1 main_v239 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    unary main_v239 main_v240 (broadcastInDim S800000x1 ![0] bcast_S800000_S800000x1_0 : (⟨S800000, .i32⟩ : BufTy).Contents (Elt F) → (⟨S800000x1, .i32⟩ : BufTy).Contents (Elt F)),
    binary main_v229 main_v240 main_v241 ((fun x i => Host.gather gather_S50000x64_S800000x1_S800000x64_1_0_n_n_0_1_164 x i) : (⟨S50000x64, .f32⟩ : BufTy).Contents (Elt F) → (⟨S800000x1, .i32⟩ : BufTy).Contents (Elt F) → (⟨S800000x64, .f32⟩ : BufTy).Contents (Elt F)),
    unary main_v234 main_v242 (broadcastInDim S800000x64 ![0, 1] bcast_S800000x1_S800000x64_0_1 : (⟨S800000x1, .f32⟩ : BufTy).Contents (Elt F) → (⟨S800000x64, .f32⟩ : BufTy).Contents (Elt F)),
    binary main_v242 main_v241 main_v243 (mulf : (⟨S800000x64, .f32⟩ : BufTy).Contents (Elt F) → (⟨S800000x64, .f32⟩ : BufTy).Contents (Elt F) → (⟨S800000x64, .f32⟩ : BufTy).Contents (Elt F)),
    nullary main_cst_47 (constant S_ .f32 0x00000000#32),
    unary main_cst_47 main_v244 (broadcastInDim S50000x64 ![] bcast_S_S50000x64 : (⟨S_, .f32⟩ : BufTy).Contents (Elt F) → (⟨S50000x64, .f32⟩ : BufTy).Contents (Elt F)),
    unary main_v3 main_v245 (broadcastInDim S800000x1 ![0] bcast_S800000_S800000x1_0 : (⟨S800000, .i32⟩ : BufTy).Contents (Elt F) → (⟨S800000x1, .i32⟩ : BufTy).Contents (Elt F)),
    ternary main_v244 main_v245 main_v243 main_v246 ((fun x i u => Host.scatterAdd scatter_S50000x64_S800000x1_S800000x64_1_0_0_1 x i u) : (⟨S50000x64, .f32⟩ : BufTy).Contents (Elt F) → (⟨S800000x1, .i32⟩ : BufTy).Contents (Elt F) → (⟨S800000x64, .f32⟩ : BufTy).Contents (Elt F) → (⟨S50000x64, .f32⟩ : BufTy).Contents (Elt F)),
    nullary main_cst_48 (constant S_ .f32 0x40000000#32),
    unary main_cst_48 main_v247 (broadcastInDim S50000x64 ![] bcast_S_S50000x64 : (⟨S_, .f32⟩ : BufTy).Contents (Elt F) → (⟨S50000x64, .f32⟩ : BufTy).Contents (Elt F)),
    binary main_v247 main_v246 main_v248 (mulf : (⟨S50000x64, .f32⟩ : BufTy).Contents (Elt F) → (⟨S50000x64, .f32⟩ : BufTy).Contents (Elt F) → (⟨S50000x64, .f32⟩ : BufTy).Contents (Elt F)),
    binary main_v248 main_v209 main_v249 (subf : (⟨S50000x64, .f32⟩ : BufTy).Contents (Elt F) → (⟨S50000x64, .f32⟩ : BufTy).Contents (Elt F) → (⟨S50000x64, .f32⟩ : BufTy).Contents (Elt F)) ]

set_option maxHeartbeats 4000000 in
set_option maxRecDepth 8192 in
/-- Operations 305–328 of the reference. -/
abbrev P16 : List (HloOp τ sig (Elt F)) :=
  [ unary main_arg4 main_v250 ((extractStridedSlice S1x64x10 ![4, 0, 0] · slices_S8x64x10_S1x64x10_4_0_0) : (⟨S8x64x10, .f32⟩ : BufTy).Contents (Elt F) → (⟨S1x64x10, .f32⟩ : BufTy).Contents (Elt F)),
    reshape main_v250 main_v251 rfl shapeCasts_S1x64x10_S64x10,
    binary main_v249 main_v251 main_v252 ((fun l r => Host.dotGeneral dot_S50000x64_S64x10_S50000x10_1_0_0_1_n_n none l r) : (⟨S50000x64, .f32⟩ : BufTy).Contents (Elt F) → (⟨S64x10, .f32⟩ : BufTy).Contents (Elt F) → (⟨S50000x10, .f32⟩ : BufTy).Contents (Elt F)),
    binary main_v233 main_v252 main_v253 (addf : (⟨S50000x10, .f32⟩ : BufTy).Contents (Elt F) → (⟨S50000x10, .f32⟩ : BufTy).Contents (Elt F) → (⟨S50000x10, .f32⟩ : BufTy).Contents (Elt F)),
    unary main_v29 main_v254 (broadcastInDim S800000x1 ![0] bcast_S800000_S800000x1_0 : (⟨S800000, .f32⟩ : BufTy).Contents (Elt F) → (⟨S800000x1, .f32⟩ : BufTy).Contents (Elt F)),
    nullary main_c_49 (constantI S_ 32 0#32),
    unary main_c_49 main_v255 (broadcastInDim S800000 ![] bcast_S_S800000 : (⟨S_, .i32⟩ : BufTy).Contents (Elt F) → (⟨S800000, .i32⟩ : BufTy).Contents (Elt F)),
    binary main_v1 main_v255 main_v256 (cmpi .slt : (⟨S800000, .i32⟩ : BufTy).Contents (Elt F) → (⟨S800000, .i32⟩ : BufTy).Contents (Elt F) → (⟨S800000, .i1⟩ : BufTy).Contents (Elt F)),
    nullary main_c_50 (constantI S_ 32 50000#32),
    unary main_c_50 main_v257 (broadcastInDim S800000 ![] bcast_S_S800000 : (⟨S_, .i32⟩ : BufTy).Contents (Elt F) → (⟨S800000, .i32⟩ : BufTy).Contents (Elt F)),
    binary main_v1 main_v257 main_v258 (addi : (⟨S800000, .i32⟩ : BufTy).Contents (Elt F) → (⟨S800000, .i32⟩ : BufTy).Contents (Elt F) → (⟨S800000, .i32⟩ : BufTy).Contents (Elt F)),
    ternary main_v256 main_v258 main_v1 main_v259 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    unary main_v259 main_v260 (broadcastInDim S800000x1 ![0] bcast_S800000_S800000x1_0 : (⟨S800000, .i32⟩ : BufTy).Contents (Elt F) → (⟨S800000x1, .i32⟩ : BufTy).Contents (Elt F)),
    binary main_v249 main_v260 main_v261 ((fun x i => Host.gather gather_S50000x64_S800000x1_S800000x64_1_0_n_n_0_1_164 x i) : (⟨S50000x64, .f32⟩ : BufTy).Contents (Elt F) → (⟨S800000x1, .i32⟩ : BufTy).Contents (Elt F) → (⟨S800000x64, .f32⟩ : BufTy).Contents (Elt F)),
    unary main_v254 main_v262 (broadcastInDim S800000x64 ![0, 1] bcast_S800000x1_S800000x64_0_1 : (⟨S800000x1, .f32⟩ : BufTy).Contents (Elt F) → (⟨S800000x64, .f32⟩ : BufTy).Contents (Elt F)),
    binary main_v262 main_v261 main_v263 (mulf : (⟨S800000x64, .f32⟩ : BufTy).Contents (Elt F) → (⟨S800000x64, .f32⟩ : BufTy).Contents (Elt F) → (⟨S800000x64, .f32⟩ : BufTy).Contents (Elt F)),
    nullary main_cst_51 (constant S_ .f32 0x00000000#32),
    unary main_cst_51 main_v264 (broadcastInDim S50000x64 ![] bcast_S_S50000x64 : (⟨S_, .f32⟩ : BufTy).Contents (Elt F) → (⟨S50000x64, .f32⟩ : BufTy).Contents (Elt F)),
    unary main_v3 main_v265 (broadcastInDim S800000x1 ![0] bcast_S800000_S800000x1_0 : (⟨S800000, .i32⟩ : BufTy).Contents (Elt F) → (⟨S800000x1, .i32⟩ : BufTy).Contents (Elt F)),
    ternary main_v264 main_v265 main_v263 main_v266 ((fun x i u => Host.scatterAdd scatter_S50000x64_S800000x1_S800000x64_1_0_0_1 x i u) : (⟨S50000x64, .f32⟩ : BufTy).Contents (Elt F) → (⟨S800000x1, .i32⟩ : BufTy).Contents (Elt F) → (⟨S800000x64, .f32⟩ : BufTy).Contents (Elt F) → (⟨S50000x64, .f32⟩ : BufTy).Contents (Elt F)),
    nullary main_cst_52 (constant S_ .f32 0x40000000#32),
    unary main_cst_52 main_v267 (broadcastInDim S50000x64 ![] bcast_S_S50000x64 : (⟨S_, .f32⟩ : BufTy).Contents (Elt F) → (⟨S50000x64, .f32⟩ : BufTy).Contents (Elt F)),
    binary main_v267 main_v266 main_v268 (mulf : (⟨S50000x64, .f32⟩ : BufTy).Contents (Elt F) → (⟨S50000x64, .f32⟩ : BufTy).Contents (Elt F) → (⟨S50000x64, .f32⟩ : BufTy).Contents (Elt F)),
    binary main_v268 main_v229 main_v269 (subf : (⟨S50000x64, .f32⟩ : BufTy).Contents (Elt F) → (⟨S50000x64, .f32⟩ : BufTy).Contents (Elt F) → (⟨S50000x64, .f32⟩ : BufTy).Contents (Elt F)) ]

set_option maxHeartbeats 4000000 in
set_option maxRecDepth 8192 in
/-- Operations 329–352 of the reference. -/
abbrev P17 : List (HloOp τ sig (Elt F)) :=
  [ unary main_arg4 main_v270 ((extractStridedSlice S1x64x10 ![5, 0, 0] · slices_S8x64x10_S1x64x10_5_0_0) : (⟨S8x64x10, .f32⟩ : BufTy).Contents (Elt F) → (⟨S1x64x10, .f32⟩ : BufTy).Contents (Elt F)),
    reshape main_v270 main_v271 rfl shapeCasts_S1x64x10_S64x10,
    binary main_v269 main_v271 main_v272 ((fun l r => Host.dotGeneral dot_S50000x64_S64x10_S50000x10_1_0_0_1_n_n none l r) : (⟨S50000x64, .f32⟩ : BufTy).Contents (Elt F) → (⟨S64x10, .f32⟩ : BufTy).Contents (Elt F) → (⟨S50000x10, .f32⟩ : BufTy).Contents (Elt F)),
    binary main_v253 main_v272 main_v273 (addf : (⟨S50000x10, .f32⟩ : BufTy).Contents (Elt F) → (⟨S50000x10, .f32⟩ : BufTy).Contents (Elt F) → (⟨S50000x10, .f32⟩ : BufTy).Contents (Elt F)),
    unary main_v29 main_v274 (broadcastInDim S800000x1 ![0] bcast_S800000_S800000x1_0 : (⟨S800000, .f32⟩ : BufTy).Contents (Elt F) → (⟨S800000x1, .f32⟩ : BufTy).Contents (Elt F)),
    nullary main_c_53 (constantI S_ 32 0#32),
    unary main_c_53 main_v275 (broadcastInDim S800000 ![] bcast_S_S800000 : (⟨S_, .i32⟩ : BufTy).Contents (Elt F) → (⟨S800000, .i32⟩ : BufTy).Contents (Elt F)),
    binary main_v1 main_v275 main_v276 (cmpi .slt : (⟨S800000, .i32⟩ : BufTy).Contents (Elt F) → (⟨S800000, .i32⟩ : BufTy).Contents (Elt F) → (⟨S800000, .i1⟩ : BufTy).Contents (Elt F)),
    nullary main_c_54 (constantI S_ 32 50000#32),
    unary main_c_54 main_v277 (broadcastInDim S800000 ![] bcast_S_S800000 : (⟨S_, .i32⟩ : BufTy).Contents (Elt F) → (⟨S800000, .i32⟩ : BufTy).Contents (Elt F)),
    binary main_v1 main_v277 main_v278 (addi : (⟨S800000, .i32⟩ : BufTy).Contents (Elt F) → (⟨S800000, .i32⟩ : BufTy).Contents (Elt F) → (⟨S800000, .i32⟩ : BufTy).Contents (Elt F)),
    ternary main_v276 main_v278 main_v1 main_v279 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    unary main_v279 main_v280 (broadcastInDim S800000x1 ![0] bcast_S800000_S800000x1_0 : (⟨S800000, .i32⟩ : BufTy).Contents (Elt F) → (⟨S800000x1, .i32⟩ : BufTy).Contents (Elt F)),
    binary main_v269 main_v280 main_v281 ((fun x i => Host.gather gather_S50000x64_S800000x1_S800000x64_1_0_n_n_0_1_164 x i) : (⟨S50000x64, .f32⟩ : BufTy).Contents (Elt F) → (⟨S800000x1, .i32⟩ : BufTy).Contents (Elt F) → (⟨S800000x64, .f32⟩ : BufTy).Contents (Elt F)),
    unary main_v274 main_v282 (broadcastInDim S800000x64 ![0, 1] bcast_S800000x1_S800000x64_0_1 : (⟨S800000x1, .f32⟩ : BufTy).Contents (Elt F) → (⟨S800000x64, .f32⟩ : BufTy).Contents (Elt F)),
    binary main_v282 main_v281 main_v283 (mulf : (⟨S800000x64, .f32⟩ : BufTy).Contents (Elt F) → (⟨S800000x64, .f32⟩ : BufTy).Contents (Elt F) → (⟨S800000x64, .f32⟩ : BufTy).Contents (Elt F)),
    nullary main_cst_55 (constant S_ .f32 0x00000000#32),
    unary main_cst_55 main_v284 (broadcastInDim S50000x64 ![] bcast_S_S50000x64 : (⟨S_, .f32⟩ : BufTy).Contents (Elt F) → (⟨S50000x64, .f32⟩ : BufTy).Contents (Elt F)),
    unary main_v3 main_v285 (broadcastInDim S800000x1 ![0] bcast_S800000_S800000x1_0 : (⟨S800000, .i32⟩ : BufTy).Contents (Elt F) → (⟨S800000x1, .i32⟩ : BufTy).Contents (Elt F)),
    ternary main_v284 main_v285 main_v283 main_v286 ((fun x i u => Host.scatterAdd scatter_S50000x64_S800000x1_S800000x64_1_0_0_1 x i u) : (⟨S50000x64, .f32⟩ : BufTy).Contents (Elt F) → (⟨S800000x1, .i32⟩ : BufTy).Contents (Elt F) → (⟨S800000x64, .f32⟩ : BufTy).Contents (Elt F) → (⟨S50000x64, .f32⟩ : BufTy).Contents (Elt F)),
    nullary main_cst_56 (constant S_ .f32 0x40000000#32),
    unary main_cst_56 main_v287 (broadcastInDim S50000x64 ![] bcast_S_S50000x64 : (⟨S_, .f32⟩ : BufTy).Contents (Elt F) → (⟨S50000x64, .f32⟩ : BufTy).Contents (Elt F)),
    binary main_v287 main_v286 main_v288 (mulf : (⟨S50000x64, .f32⟩ : BufTy).Contents (Elt F) → (⟨S50000x64, .f32⟩ : BufTy).Contents (Elt F) → (⟨S50000x64, .f32⟩ : BufTy).Contents (Elt F)),
    binary main_v288 main_v249 main_v289 (subf : (⟨S50000x64, .f32⟩ : BufTy).Contents (Elt F) → (⟨S50000x64, .f32⟩ : BufTy).Contents (Elt F) → (⟨S50000x64, .f32⟩ : BufTy).Contents (Elt F)) ]

set_option maxHeartbeats 4000000 in
set_option maxRecDepth 8192 in
/-- Operations 353–383 of the reference. -/
abbrev P18 : List (HloOp τ sig (Elt F)) :=
  [ unary main_arg4 main_v290 ((extractStridedSlice S1x64x10 ![6, 0, 0] · slices_S8x64x10_S1x64x10_6_0_0) : (⟨S8x64x10, .f32⟩ : BufTy).Contents (Elt F) → (⟨S1x64x10, .f32⟩ : BufTy).Contents (Elt F)),
    reshape main_v290 main_v291 rfl shapeCasts_S1x64x10_S64x10,
    binary main_v289 main_v291 main_v292 ((fun l r => Host.dotGeneral dot_S50000x64_S64x10_S50000x10_1_0_0_1_n_n none l r) : (⟨S50000x64, .f32⟩ : BufTy).Contents (Elt F) → (⟨S64x10, .f32⟩ : BufTy).Contents (Elt F) → (⟨S50000x10, .f32⟩ : BufTy).Contents (Elt F)),
    binary main_v273 main_v292 main_v293 (addf : (⟨S50000x10, .f32⟩ : BufTy).Contents (Elt F) → (⟨S50000x10, .f32⟩ : BufTy).Contents (Elt F) → (⟨S50000x10, .f32⟩ : BufTy).Contents (Elt F)),
    unary main_v29 main_v294 (broadcastInDim S800000x1 ![0] bcast_S800000_S800000x1_0 : (⟨S800000, .f32⟩ : BufTy).Contents (Elt F) → (⟨S800000x1, .f32⟩ : BufTy).Contents (Elt F)),
    nullary main_c_57 (constantI S_ 32 0#32),
    unary main_c_57 main_v295 (broadcastInDim S800000 ![] bcast_S_S800000 : (⟨S_, .i32⟩ : BufTy).Contents (Elt F) → (⟨S800000, .i32⟩ : BufTy).Contents (Elt F)),
    binary main_v1 main_v295 main_v296 (cmpi .slt : (⟨S800000, .i32⟩ : BufTy).Contents (Elt F) → (⟨S800000, .i32⟩ : BufTy).Contents (Elt F) → (⟨S800000, .i1⟩ : BufTy).Contents (Elt F)),
    nullary main_c_58 (constantI S_ 32 50000#32),
    unary main_c_58 main_v297 (broadcastInDim S800000 ![] bcast_S_S800000 : (⟨S_, .i32⟩ : BufTy).Contents (Elt F) → (⟨S800000, .i32⟩ : BufTy).Contents (Elt F)),
    binary main_v1 main_v297 main_v298 (addi : (⟨S800000, .i32⟩ : BufTy).Contents (Elt F) → (⟨S800000, .i32⟩ : BufTy).Contents (Elt F) → (⟨S800000, .i32⟩ : BufTy).Contents (Elt F)),
    ternary main_v296 main_v298 main_v1 main_v299 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    unary main_v299 main_v300 (broadcastInDim S800000x1 ![0] bcast_S800000_S800000x1_0 : (⟨S800000, .i32⟩ : BufTy).Contents (Elt F) → (⟨S800000x1, .i32⟩ : BufTy).Contents (Elt F)),
    binary main_v289 main_v300 main_v301 ((fun x i => Host.gather gather_S50000x64_S800000x1_S800000x64_1_0_n_n_0_1_164 x i) : (⟨S50000x64, .f32⟩ : BufTy).Contents (Elt F) → (⟨S800000x1, .i32⟩ : BufTy).Contents (Elt F) → (⟨S800000x64, .f32⟩ : BufTy).Contents (Elt F)),
    unary main_v294 main_v302 (broadcastInDim S800000x64 ![0, 1] bcast_S800000x1_S800000x64_0_1 : (⟨S800000x1, .f32⟩ : BufTy).Contents (Elt F) → (⟨S800000x64, .f32⟩ : BufTy).Contents (Elt F)),
    binary main_v302 main_v301 main_v303 (mulf : (⟨S800000x64, .f32⟩ : BufTy).Contents (Elt F) → (⟨S800000x64, .f32⟩ : BufTy).Contents (Elt F) → (⟨S800000x64, .f32⟩ : BufTy).Contents (Elt F)),
    nullary main_cst_59 (constant S_ .f32 0x00000000#32),
    unary main_cst_59 main_v304 (broadcastInDim S50000x64 ![] bcast_S_S50000x64 : (⟨S_, .f32⟩ : BufTy).Contents (Elt F) → (⟨S50000x64, .f32⟩ : BufTy).Contents (Elt F)),
    unary main_v3 main_v305 (broadcastInDim S800000x1 ![0] bcast_S800000_S800000x1_0 : (⟨S800000, .i32⟩ : BufTy).Contents (Elt F) → (⟨S800000x1, .i32⟩ : BufTy).Contents (Elt F)),
    ternary main_v304 main_v305 main_v303 main_v306 ((fun x i u => Host.scatterAdd scatter_S50000x64_S800000x1_S800000x64_1_0_0_1 x i u) : (⟨S50000x64, .f32⟩ : BufTy).Contents (Elt F) → (⟨S800000x1, .i32⟩ : BufTy).Contents (Elt F) → (⟨S800000x64, .f32⟩ : BufTy).Contents (Elt F) → (⟨S50000x64, .f32⟩ : BufTy).Contents (Elt F)),
    nullary main_cst_60 (constant S_ .f32 0x40000000#32),
    unary main_cst_60 main_v307 (broadcastInDim S50000x64 ![] bcast_S_S50000x64 : (⟨S_, .f32⟩ : BufTy).Contents (Elt F) → (⟨S50000x64, .f32⟩ : BufTy).Contents (Elt F)),
    binary main_v307 main_v306 main_v308 (mulf : (⟨S50000x64, .f32⟩ : BufTy).Contents (Elt F) → (⟨S50000x64, .f32⟩ : BufTy).Contents (Elt F) → (⟨S50000x64, .f32⟩ : BufTy).Contents (Elt F)),
    binary main_v308 main_v269 main_v309 (subf : (⟨S50000x64, .f32⟩ : BufTy).Contents (Elt F) → (⟨S50000x64, .f32⟩ : BufTy).Contents (Elt F) → (⟨S50000x64, .f32⟩ : BufTy).Contents (Elt F)),
    unary main_arg4 main_v310 ((extractStridedSlice S1x64x10 ![7, 0, 0] · slices_S8x64x10_S1x64x10_7_0_0) : (⟨S8x64x10, .f32⟩ : BufTy).Contents (Elt F) → (⟨S1x64x10, .f32⟩ : BufTy).Contents (Elt F)),
    reshape main_v310 main_v311 rfl shapeCasts_S1x64x10_S64x10,
    binary main_v309 main_v311 main_v312 ((fun l r => Host.dotGeneral dot_S50000x64_S64x10_S50000x10_1_0_0_1_n_n none l r) : (⟨S50000x64, .f32⟩ : BufTy).Contents (Elt F) → (⟨S64x10, .f32⟩ : BufTy).Contents (Elt F) → (⟨S50000x10, .f32⟩ : BufTy).Contents (Elt F)),
    binary main_v293 main_v312 main_v313 (addf : (⟨S50000x10, .f32⟩ : BufTy).Contents (Elt F) → (⟨S50000x10, .f32⟩ : BufTy).Contents (Elt F) → (⟨S50000x10, .f32⟩ : BufTy).Contents (Elt F)),
    unary main_arg5 main_v314 (broadcastInDim S1x10 ![1] bcast_S10_S1x10_1 : (⟨S10, .f32⟩ : BufTy).Contents (Elt F) → (⟨S1x10, .f32⟩ : BufTy).Contents (Elt F)),
    unary main_v314 main_v315 (broadcastInDim S50000x10 ![0, 1] bcast_S1x10_S50000x10_0_1 : (⟨S1x10, .f32⟩ : BufTy).Contents (Elt F) → (⟨S50000x10, .f32⟩ : BufTy).Contents (Elt F)),
    binary main_v313 main_v315 main_v316 (addf : (⟨S50000x10, .f32⟩ : BufTy).Contents (Elt F) → (⟨S50000x10, .f32⟩ : BufTy).Contents (Elt F) → (⟨S50000x10, .f32⟩ : BufTy).Contents (Elt F)) ]

set_option maxHeartbeats 32000000 in
set_option maxRecDepth 8192 in
/-- Operations 0–1 of the reference, run from any contents that hold the stages they read: the stages they write, and the stages kept for later. -/
theorem piece0 (x0 : (⟨S50000x64, .f32⟩ : BufTy).Contents (Elt F)) (x1 : (⟨S2x800000, .i32⟩ : BufTy).Contents (Elt F)) (x2 : (⟨S8x64x64, .f32⟩ : BufTy).Contents (Elt F)) (x3 : (⟨S64, .f32⟩ : BufTy).Contents (Elt F)) (x4 : (⟨S8x64x10, .f32⟩ : BufTy).Contents (Elt F)) (x5 : (⟨S10, .f32⟩ : BufTy).Contents (Elt F)) (V : Valuation τ sig (Elt F))
    (h_arg1 : V (Proc.devRef .tc main_arg1) = x1)
    (h_arg0 : V (Proc.devRef .tc main_arg0) = x0)
    (h_arg2 : V (Proc.devRef .tc main_arg2) = x2)
    (h_arg3 : V (Proc.devRef .tc main_arg3) = x3)
    (h_arg4 : V (Proc.devRef .tc main_arg4) = x4)
    (h_arg5 : V (Proc.devRef .tc main_arg5) = x5) :
    after P0 V (Proc.devRef .tc main_v1) = Cert.ReferenceIdeal.ReadP.val_main_v1 (F := F) x1
    ∧ after P0 V (Proc.devRef .tc main_arg0) = x0
    ∧ after P0 V (Proc.devRef .tc main_arg1) = x1
    ∧ after P0 V (Proc.devRef .tc main_arg2) = x2
    ∧ after P0 V (Proc.devRef .tc main_arg3) = x3
    ∧ after P0 V (Proc.devRef .tc main_arg4) = x4
    ∧ after P0 V (Proc.devRef .tc main_arg5) = x5 := by
  refine ⟨?_, ?_, ?_, ?_, ?_, ?_, ?_⟩
  · after_results_simp
    simp only [h_arg1] <;> rfl
  · after_results_simp
    exact h_arg0
  · after_results_simp
    exact h_arg1
  · after_results_simp
    exact h_arg2
  · after_results_simp
    exact h_arg3
  · after_results_simp
    exact h_arg4
  · after_results_simp
    exact h_arg5

set_option maxHeartbeats 32000000 in
set_option maxRecDepth 8192 in
/-- Operations 2–3 of the reference, run from any contents that hold the stages they read: the stages they write, and the stages kept for later. -/
theorem piece1 (x0 : (⟨S50000x64, .f32⟩ : BufTy).Contents (Elt F)) (x1 : (⟨S2x800000, .i32⟩ : BufTy).Contents (Elt F)) (x2 : (⟨S8x64x64, .f32⟩ : BufTy).Contents (Elt F)) (x3 : (⟨S64, .f32⟩ : BufTy).Contents (Elt F)) (x4 : (⟨S8x64x10, .f32⟩ : BufTy).Contents (Elt F)) (x5 : (⟨S10, .f32⟩ : BufTy).Contents (Elt F)) (V : Valuation τ sig (Elt F))
    (h_arg1 : V (Proc.devRef .tc main_arg1) = x1)
    (h_arg0 : V (Proc.devRef .tc main_arg0) = x0)
    (h_arg2 : V (Proc.devRef .tc main_arg2) = x2)
    (h_arg3 : V (Proc.devRef .tc main_arg3) = x3)
    (h_arg4 : V (Proc.devRef .tc main_arg4) = x4)
    (h_arg5 : V (Proc.devRef .tc main_arg5) = x5)
    (h_v1 : V (Proc.devRef .tc main_v1) = Cert.ReferenceIdeal.ReadP.val_main_v1 (F := F) x1) :
    after P1 V (Proc.devRef .tc main_v3) = Cert.ReferenceIdeal.ReadP.val_main_v3 (F := F) x1
    ∧ after P1 V (Proc.devRef .tc main_arg0) = x0
    ∧ after P1 V (Proc.devRef .tc main_arg1) = x1
    ∧ after P1 V (Proc.devRef .tc main_arg2) = x2
    ∧ after P1 V (Proc.devRef .tc main_arg3) = x3
    ∧ after P1 V (Proc.devRef .tc main_arg4) = x4
    ∧ after P1 V (Proc.devRef .tc main_arg5) = x5
    ∧ after P1 V (Proc.devRef .tc main_v1) = Cert.ReferenceIdeal.ReadP.val_main_v1 (F := F) x1 := by
  refine ⟨?_, ?_, ?_, ?_, ?_, ?_, ?_, ?_⟩
  · after_results_simp
    simp only [h_arg1] <;> rfl
  · after_results_simp
    exact h_arg0
  · after_results_simp
    exact h_arg1
  · after_results_simp
    exact h_arg2
  · after_results_simp
    exact h_arg3
  · after_results_simp
    exact h_arg4
  · after_results_simp
    exact h_arg5
  · after_results_simp
    exact h_v1

set_option maxHeartbeats 32000000 in
set_option maxRecDepth 8192 in
/-- Operations 4–9 of the reference, run from any contents that hold the stages they read: the stages they write, and the stages kept for later. -/
theorem piece2 (x0 : (⟨S50000x64, .f32⟩ : BufTy).Contents (Elt F)) (x1 : (⟨S2x800000, .i32⟩ : BufTy).Contents (Elt F)) (x2 : (⟨S8x64x64, .f32⟩ : BufTy).Contents (Elt F)) (x3 : (⟨S64, .f32⟩ : BufTy).Contents (Elt F)) (x4 : (⟨S8x64x10, .f32⟩ : BufTy).Contents (Elt F)) (x5 : (⟨S10, .f32⟩ : BufTy).Contents (Elt F)) (V : Valuation τ sig (Elt F))
    (h_v1 : V (Proc.devRef .tc main_v1) = Cert.ReferenceIdeal.ReadP.val_main_v1 (F := F) x1)
    (h_arg0 : V (Proc.devRef .tc main_arg0) = x0)
    (h_arg1 : V (Proc.devRef .tc main_arg1) = x1)
    (h_arg2 : V (Proc.devRef .tc main_arg2) = x2)
    (h_arg3 : V (Proc.devRef .tc main_arg3) = x3)
    (h_arg4 : V (Proc.devRef .tc main_arg4) = x4)
    (h_arg5 : V (Proc.devRef .tc main_arg5) = x5)
    (h_v3 : V (Proc.devRef .tc main_v3) = Cert.ReferenceIdeal.ReadP.val_main_v3 (F := F) x1) :
    after P2 V (Proc.devRef .tc main_v7) = Cert.ReferenceIdeal.ReadP.val_main_v7 (F := F) x1
    ∧ after P2 V (Proc.devRef .tc main_arg0) = x0
    ∧ after P2 V (Proc.devRef .tc main_arg1) = x1
    ∧ after P2 V (Proc.devRef .tc main_arg2) = x2
    ∧ after P2 V (Proc.devRef .tc main_arg3) = x3
    ∧ after P2 V (Proc.devRef .tc main_arg4) = x4
    ∧ after P2 V (Proc.devRef .tc main_arg5) = x5
    ∧ after P2 V (Proc.devRef .tc main_v1) = Cert.ReferenceIdeal.ReadP.val_main_v1 (F := F) x1
    ∧ after P2 V (Proc.devRef .tc main_v3) = Cert.ReferenceIdeal.ReadP.val_main_v3 (F := F) x1 := by
  refine ⟨?_, ?_, ?_, ?_, ?_, ?_, ?_, ?_, ?_⟩
  · after_results_simp
    simp only [h_v1] <;> rfl
  · after_results_simp
    exact h_arg0
  · after_results_simp
    exact h_arg1
  · after_results_simp
    exact h_arg2
  · after_results_simp
    exact h_arg3
  · after_results_simp
    exact h_arg4
  · after_results_simp
    exact h_arg5
  · after_results_simp
    exact h_v1
  · after_results_simp
    exact h_v3

set_option maxHeartbeats 32000000 in
set_option maxRecDepth 8192 in
/-- Operations 10–20 of the reference, run from any contents that hold the stages they read: the stages they write, and the stages kept for later. -/
theorem piece3 (x0 : (⟨S50000x64, .f32⟩ : BufTy).Contents (Elt F)) (x1 : (⟨S2x800000, .i32⟩ : BufTy).Contents (Elt F)) (x2 : (⟨S8x64x64, .f32⟩ : BufTy).Contents (Elt F)) (x3 : (⟨S64, .f32⟩ : BufTy).Contents (Elt F)) (x4 : (⟨S8x64x10, .f32⟩ : BufTy).Contents (Elt F)) (x5 : (⟨S10, .f32⟩ : BufTy).Contents (Elt F)) (V : Valuation τ sig (Elt F))
    (h_v7 : V (Proc.devRef .tc main_v7) = Cert.ReferenceIdeal.ReadP.val_main_v7 (F := F) x1)
    (h_arg0 : V (Proc.devRef .tc main_arg0) = x0)
    (h_arg1 : V (Proc.devRef .tc main_arg1) = x1)
    (h_arg2 : V (Proc.devRef .tc main_arg2) = x2)
    (h_arg3 : V (Proc.devRef .tc main_arg3) = x3)
    (h_arg4 : V (Proc.devRef .tc main_arg4) = x4)
    (h_arg5 : V (Proc.devRef .tc main_arg5) = x5)
    (h_v1 : V (Proc.devRef .tc main_v1) = Cert.ReferenceIdeal.ReadP.val_main_v1 (F := F) x1)
    (h_v3 : V (Proc.devRef .tc main_v3) = Cert.ReferenceIdeal.ReadP.val_main_v3 (F := F) x1) :
    after P3 V (Proc.devRef .tc main_v13) = Cert.ReferenceIdeal.ReadP.val_main_v13 (F := F) x1
    ∧ after P3 V (Proc.devRef .tc main_arg0) = x0
    ∧ after P3 V (Proc.devRef .tc main_arg1) = x1
    ∧ after P3 V (Proc.devRef .tc main_arg2) = x2
    ∧ after P3 V (Proc.devRef .tc main_arg3) = x3
    ∧ after P3 V (Proc.devRef .tc main_arg4) = x4
    ∧ after P3 V (Proc.devRef .tc main_arg5) = x5
    ∧ after P3 V (Proc.devRef .tc main_v1) = Cert.ReferenceIdeal.ReadP.val_main_v1 (F := F) x1
    ∧ after P3 V (Proc.devRef .tc main_v3) = Cert.ReferenceIdeal.ReadP.val_main_v3 (F := F) x1 := by
  refine ⟨?_, ?_, ?_, ?_, ?_, ?_, ?_, ?_, ?_⟩
  · after_results_simp
    simp only [h_v7] <;> rfl
  · after_results_simp
    exact h_arg0
  · after_results_simp
    exact h_arg1
  · after_results_simp
    exact h_arg2
  · after_results_simp
    exact h_arg3
  · after_results_simp
    exact h_arg4
  · after_results_simp
    exact h_arg5
  · after_results_simp
    exact h_v1
  · after_results_simp
    exact h_v3

set_option maxHeartbeats 32000000 in
set_option maxRecDepth 8192 in
/-- Operations 21–40 of the reference, run from any contents that hold the stages they read: the stages they write, and the stages kept for later. -/
theorem piece4 (x0 : (⟨S50000x64, .f32⟩ : BufTy).Contents (Elt F)) (x1 : (⟨S2x800000, .i32⟩ : BufTy).Contents (Elt F)) (x2 : (⟨S8x64x64, .f32⟩ : BufTy).Contents (Elt F)) (x3 : (⟨S64, .f32⟩ : BufTy).Contents (Elt F)) (x4 : (⟨S8x64x10, .f32⟩ : BufTy).Contents (Elt F)) (x5 : (⟨S10, .f32⟩ : BufTy).Contents (Elt F)) (V : Valuation τ sig (Elt F))
    (h_v1 : V (Proc.devRef .tc main_v1) = Cert.ReferenceIdeal.ReadP.val_main_v1 (F := F) x1)
    (h_v13 : V (Proc.devRef .tc main_v13) = Cert.ReferenceIdeal.ReadP.val_main_v13 (F := F) x1)
    (h_v3 : V (Proc.devRef .tc main_v3) = Cert.ReferenceIdeal.ReadP.val_main_v3 (F := F) x1)
    (h_arg0 : V (Proc.devRef .tc main_arg0) = x0)
    (h_arg1 : V (Proc.devRef .tc main_arg1) = x1)
    (h_arg2 : V (Proc.devRef .tc main_arg2) = x2)
    (h_arg3 : V (Proc.devRef .tc main_arg3) = x3)
    (h_arg4 : V (Proc.devRef .tc main_arg4) = x4)
    (h_arg5 : V (Proc.devRef .tc main_arg5) = x5) :
    after P4 V (Proc.devRef .tc main_v29) = Cert.ReferenceIdeal.ReadP.val_main_v29 (F := F) x1
    ∧ after P4 V (Proc.devRef .tc main_arg0) = x0
    ∧ after P4 V (Proc.devRef .tc main_arg1) = x1
    ∧ after P4 V (Proc.devRef .tc main_arg2) = x2
    ∧ after P4 V (Proc.devRef .tc main_arg3) = x3
    ∧ after P4 V (Proc.devRef .tc main_arg4) = x4
    ∧ after P4 V (Proc.devRef .tc main_arg5) = x5
    ∧ after P4 V (Proc.devRef .tc main_v1) = Cert.ReferenceIdeal.ReadP.val_main_v1 (F := F) x1
    ∧ after P4 V (Proc.devRef .tc main_v3) = Cert.ReferenceIdeal.ReadP.val_main_v3 (F := F) x1 := by
  refine ⟨?_, ?_, ?_, ?_, ?_, ?_, ?_, ?_, ?_⟩
  · after_results_simp
    simp only [h_v1, h_v13, h_v3] <;> rfl
  · after_results_simp
    exact h_arg0
  · after_results_simp
    exact h_arg1
  · after_results_simp
    exact h_arg2
  · after_results_simp
    exact h_arg3
  · after_results_simp
    exact h_arg4
  · after_results_simp
    exact h_arg5
  · after_results_simp
    exact h_v1
  · after_results_simp
    exact h_v3

set_option maxHeartbeats 32000000 in
set_option maxRecDepth 8192 in
/-- Operations 41–59 of the reference, run from any contents that hold the stages they read: the stages they write, and the stages kept for later. -/
theorem piece5 (x0 : (⟨S50000x64, .f32⟩ : BufTy).Contents (Elt F)) (x1 : (⟨S2x800000, .i32⟩ : BufTy).Contents (Elt F)) (x2 : (⟨S8x64x64, .f32⟩ : BufTy).Contents (Elt F)) (x3 : (⟨S64, .f32⟩ : BufTy).Contents (Elt F)) (x4 : (⟨S8x64x10, .f32⟩ : BufTy).Contents (Elt F)) (x5 : (⟨S10, .f32⟩ : BufTy).Contents (Elt F)) (V : Valuation τ sig (Elt F))
    (h_arg2 : V (Proc.devRef .tc main_arg2) = x2)
    (h_arg0 : V (Proc.devRef .tc main_arg0) = x0)
    (h_v29 : V (Proc.devRef .tc main_v29) = Cert.ReferenceIdeal.ReadP.val_main_v29 (F := F) x1)
    (h_v1 : V (Proc.devRef .tc main_v1) = Cert.ReferenceIdeal.ReadP.val_main_v1 (F := F) x1)
    (h_v3 : V (Proc.devRef .tc main_v3) = Cert.ReferenceIdeal.ReadP.val_main_v3 (F := F) x1)
    (h_arg1 : V (Proc.devRef .tc main_arg1) = x1)
    (h_arg3 : V (Proc.devRef .tc main_arg3) = x3)
    (h_arg4 : V (Proc.devRef .tc main_arg4) = x4)
    (h_arg5 : V (Proc.devRef .tc main_arg5) = x5) :
    after P5 V (Proc.devRef .tc main_v32) = Cert.ReferenceIdeal.ReadP.val_main_v32 (F := F) x0 x2
    ∧ after P5 V (Proc.devRef .tc main_v45) = Cert.ReferenceIdeal.ReadP.val_main_v45 (F := F) x0 x1
    ∧ after P5 V (Proc.devRef .tc main_arg0) = x0
    ∧ after P5 V (Proc.devRef .tc main_arg1) = x1
    ∧ after P5 V (Proc.devRef .tc main_arg2) = x2
    ∧ after P5 V (Proc.devRef .tc main_arg3) = x3
    ∧ after P5 V (Proc.devRef .tc main_arg4) = x4
    ∧ after P5 V (Proc.devRef .tc main_arg5) = x5
    ∧ after P5 V (Proc.devRef .tc main_v29) = Cert.ReferenceIdeal.ReadP.val_main_v29 (F := F) x1
    ∧ after P5 V (Proc.devRef .tc main_v1) = Cert.ReferenceIdeal.ReadP.val_main_v1 (F := F) x1
    ∧ after P5 V (Proc.devRef .tc main_v3) = Cert.ReferenceIdeal.ReadP.val_main_v3 (F := F) x1 := by
  refine ⟨?_, ?_, ?_, ?_, ?_, ?_, ?_, ?_, ?_, ?_, ?_⟩
  · after_results_simp
    simp only [h_arg2, h_arg0, h_v29, h_v1, h_v3] <;> rfl
  · after_results_simp
    simp only [h_arg2, h_arg0, h_v29, h_v1, h_v3] <;> rfl
  · after_results_simp
    exact h_arg0
  · after_results_simp
    exact h_arg1
  · after_results_simp
    exact h_arg2
  · after_results_simp
    exact h_arg3
  · after_results_simp
    exact h_arg4
  · after_results_simp
    exact h_arg5
  · after_results_simp
    exact h_v29
  · after_results_simp
    exact h_v1
  · after_results_simp
    exact h_v3

set_option maxHeartbeats 32000000 in
set_option maxRecDepth 8192 in
/-- Operations 60–83 of the reference, run from any contents that hold the stages they read: the stages they write, and the stages kept for later. -/
theorem piece6 (x0 : (⟨S50000x64, .f32⟩ : BufTy).Contents (Elt F)) (x1 : (⟨S2x800000, .i32⟩ : BufTy).Contents (Elt F)) (x2 : (⟨S8x64x64, .f32⟩ : BufTy).Contents (Elt F)) (x3 : (⟨S64, .f32⟩ : BufTy).Contents (Elt F)) (x4 : (⟨S8x64x10, .f32⟩ : BufTy).Contents (Elt F)) (x5 : (⟨S10, .f32⟩ : BufTy).Contents (Elt F)) (V : Valuation τ sig (Elt F))
    (h_arg2 : V (Proc.devRef .tc main_arg2) = x2)
    (h_v45 : V (Proc.devRef .tc main_v45) = Cert.ReferenceIdeal.ReadP.val_main_v45 (F := F) x0 x1)
    (h_v32 : V (Proc.devRef .tc main_v32) = Cert.ReferenceIdeal.ReadP.val_main_v32 (F := F) x0 x2)
    (h_v29 : V (Proc.devRef .tc main_v29) = Cert.ReferenceIdeal.ReadP.val_main_v29 (F := F) x1)
    (h_v1 : V (Proc.devRef .tc main_v1) = Cert.ReferenceIdeal.ReadP.val_main_v1 (F := F) x1)
    (h_v3 : V (Proc.devRef .tc main_v3) = Cert.ReferenceIdeal.ReadP.val_main_v3 (F := F) x1)
    (h_arg0 : V (Proc.devRef .tc main_arg0) = x0)
    (h_arg1 : V (Proc.devRef .tc main_arg1) = x1)
    (h_arg3 : V (Proc.devRef .tc main_arg3) = x3)
    (h_arg4 : V (Proc.devRef .tc main_arg4) = x4)
    (h_arg5 : V (Proc.devRef .tc main_arg5) = x5) :
    after P6 V (Proc.devRef .tc main_v49) = Cert.ReferenceIdeal.ReadP.val_main_v49 (F := F) x0 x1 x2
    ∧ after P6 V (Proc.devRef .tc main_v65) = Cert.ReferenceIdeal.ReadP.val_main_v65 (F := F) x0 x1
    ∧ after P6 V (Proc.devRef .tc main_arg0) = x0
    ∧ after P6 V (Proc.devRef .tc main_arg1) = x1
    ∧ after P6 V (Proc.devRef .tc main_arg2) = x2
    ∧ after P6 V (Proc.devRef .tc main_arg3) = x3
    ∧ after P6 V (Proc.devRef .tc main_arg4) = x4
    ∧ after P6 V (Proc.devRef .tc main_arg5) = x5
    ∧ after P6 V (Proc.devRef .tc main_v29) = Cert.ReferenceIdeal.ReadP.val_main_v29 (F := F) x1
    ∧ after P6 V (Proc.devRef .tc main_v1) = Cert.ReferenceIdeal.ReadP.val_main_v1 (F := F) x1
    ∧ after P6 V (Proc.devRef .tc main_v3) = Cert.ReferenceIdeal.ReadP.val_main_v3 (F := F) x1
    ∧ after P6 V (Proc.devRef .tc main_v45) = Cert.ReferenceIdeal.ReadP.val_main_v45 (F := F) x0 x1 := by
  refine ⟨?_, ?_, ?_, ?_, ?_, ?_, ?_, ?_, ?_, ?_, ?_, ?_⟩
  · after_results_simp
    simp only [h_arg2, h_v45, h_v32, h_v29, h_v1, h_v3, h_arg0] <;> rfl
  · after_results_simp
    simp only [h_arg2, h_v45, h_v32, h_v29, h_v1, h_v3, h_arg0] <;> rfl
  · after_results_simp
    exact h_arg0
  · after_results_simp
    exact h_arg1
  · after_results_simp
    exact h_arg2
  · after_results_simp
    exact h_arg3
  · after_results_simp
    exact h_arg4
  · after_results_simp
    exact h_arg5
  · after_results_simp
    exact h_v29
  · after_results_simp
    exact h_v1
  · after_results_simp
    exact h_v3
  · after_results_simp
    exact h_v45

set_option maxHeartbeats 32000000 in
set_option maxRecDepth 8192 in
/-- Operations 84–107 of the reference, run from any contents that hold the stages they read: the stages they write, and the stages kept for later. -/
theorem piece7 (x0 : (⟨S50000x64, .f32⟩ : BufTy).Contents (Elt F)) (x1 : (⟨S2x800000, .i32⟩ : BufTy).Contents (Elt F)) (x2 : (⟨S8x64x64, .f32⟩ : BufTy).Contents (Elt F)) (x3 : (⟨S64, .f32⟩ : BufTy).Contents (Elt F)) (x4 : (⟨S8x64x10, .f32⟩ : BufTy).Contents (Elt F)) (x5 : (⟨S10, .f32⟩ : BufTy).Contents (Elt F)) (V : Valuation τ sig (Elt F))
    (h_arg2 : V (Proc.devRef .tc main_arg2) = x2)
    (h_v65 : V (Proc.devRef .tc main_v65) = Cert.ReferenceIdeal.ReadP.val_main_v65 (F := F) x0 x1)
    (h_v49 : V (Proc.devRef .tc main_v49) = Cert.ReferenceIdeal.ReadP.val_main_v49 (F := F) x0 x1 x2)
    (h_v29 : V (Proc.devRef .tc main_v29) = Cert.ReferenceIdeal.ReadP.val_main_v29 (F := F) x1)
    (h_v1 : V (Proc.devRef .tc main_v1) = Cert.ReferenceIdeal.ReadP.val_main_v1 (F := F) x1)
    (h_v3 : V (Proc.devRef .tc main_v3) = Cert.ReferenceIdeal.ReadP.val_main_v3 (F := F) x1)
    (h_v45 : V (Proc.devRef .tc main_v45) = Cert.ReferenceIdeal.ReadP.val_main_v45 (F := F) x0 x1)
    (h_arg0 : V (Proc.devRef .tc main_arg0) = x0)
    (h_arg1 : V (Proc.devRef .tc main_arg1) = x1)
    (h_arg3 : V (Proc.devRef .tc main_arg3) = x3)
    (h_arg4 : V (Proc.devRef .tc main_arg4) = x4)
    (h_arg5 : V (Proc.devRef .tc main_arg5) = x5) :
    after P7 V (Proc.devRef .tc main_v69) = Cert.ReferenceIdeal.ReadP.val_main_v69 (F := F) x0 x1 x2
    ∧ after P7 V (Proc.devRef .tc main_v85) = Cert.ReferenceIdeal.ReadP.val_main_v85 (F := F) x0 x1
    ∧ after P7 V (Proc.devRef .tc main_arg0) = x0
    ∧ after P7 V (Proc.devRef .tc main_arg1) = x1
    ∧ after P7 V (Proc.devRef .tc main_arg2) = x2
    ∧ after P7 V (Proc.devRef .tc main_arg3) = x3
    ∧ after P7 V (Proc.devRef .tc main_arg4) = x4
    ∧ after P7 V (Proc.devRef .tc main_arg5) = x5
    ∧ after P7 V (Proc.devRef .tc main_v29) = Cert.ReferenceIdeal.ReadP.val_main_v29 (F := F) x1
    ∧ after P7 V (Proc.devRef .tc main_v1) = Cert.ReferenceIdeal.ReadP.val_main_v1 (F := F) x1
    ∧ after P7 V (Proc.devRef .tc main_v3) = Cert.ReferenceIdeal.ReadP.val_main_v3 (F := F) x1
    ∧ after P7 V (Proc.devRef .tc main_v65) = Cert.ReferenceIdeal.ReadP.val_main_v65 (F := F) x0 x1 := by
  refine ⟨?_, ?_, ?_, ?_, ?_, ?_, ?_, ?_, ?_, ?_, ?_, ?_⟩
  · after_results_simp
    simp only [h_arg2, h_v65, h_v49, h_v29, h_v1, h_v3, h_v45] <;> rfl
  · after_results_simp
    simp only [h_arg2, h_v65, h_v49, h_v29, h_v1, h_v3, h_v45] <;> rfl
  · after_results_simp
    exact h_arg0
  · after_results_simp
    exact h_arg1
  · after_results_simp
    exact h_arg2
  · after_results_simp
    exact h_arg3
  · after_results_simp
    exact h_arg4
  · after_results_simp
    exact h_arg5
  · after_results_simp
    exact h_v29
  · after_results_simp
    exact h_v1
  · after_results_simp
    exact h_v3
  · after_results_simp
    exact h_v65

set_option maxHeartbeats 32000000 in
set_option maxRecDepth 8192 in
/-- Operations 108–131 of the reference, run from any contents that hold the stages they read: the stages they write, and the stages kept for later. -/
theorem piece8 (x0 : (⟨S50000x64, .f32⟩ : BufTy).Contents (Elt F)) (x1 : (⟨S2x800000, .i32⟩ : BufTy).Contents (Elt F)) (x2 : (⟨S8x64x64, .f32⟩ : BufTy).Contents (Elt F)) (x3 : (⟨S64, .f32⟩ : BufTy).Contents (Elt F)) (x4 : (⟨S8x64x10, .f32⟩ : BufTy).Contents (Elt F)) (x5 : (⟨S10, .f32⟩ : BufTy).Contents (Elt F)) (V : Valuation τ sig (Elt F))
    (h_arg2 : V (Proc.devRef .tc main_arg2) = x2)
    (h_v85 : V (Proc.devRef .tc main_v85) = Cert.ReferenceIdeal.ReadP.val_main_v85 (F := F) x0 x1)
    (h_v69 : V (Proc.devRef .tc main_v69) = Cert.ReferenceIdeal.ReadP.val_main_v69 (F := F) x0 x1 x2)
    (h_v29 : V (Proc.devRef .tc main_v29) = Cert.ReferenceIdeal.ReadP.val_main_v29 (F := F) x1)
    (h_v1 : V (Proc.devRef .tc main_v1) = Cert.ReferenceIdeal.ReadP.val_main_v1 (F := F) x1)
    (h_v3 : V (Proc.devRef .tc main_v3) = Cert.ReferenceIdeal.ReadP.val_main_v3 (F := F) x1)
    (h_v65 : V (Proc.devRef .tc main_v65) = Cert.ReferenceIdeal.ReadP.val_main_v65 (F := F) x0 x1)
    (h_arg0 : V (Proc.devRef .tc main_arg0) = x0)
    (h_arg1 : V (Proc.devRef .tc main_arg1) = x1)
    (h_arg3 : V (Proc.devRef .tc main_arg3) = x3)
    (h_arg4 : V (Proc.devRef .tc main_arg4) = x4)
    (h_arg5 : V (Proc.devRef .tc main_arg5) = x5) :
    after P8 V (Proc.devRef .tc main_v89) = Cert.ReferenceIdeal.ReadP.val_main_v89 (F := F) x0 x1 x2
    ∧ after P8 V (Proc.devRef .tc main_v105) = Cert.ReferenceIdeal.ReadP.val_main_v105 (F := F) x0 x1
    ∧ after P8 V (Proc.devRef .tc main_arg0) = x0
    ∧ after P8 V (Proc.devRef .tc main_arg1) = x1
    ∧ after P8 V (Proc.devRef .tc main_arg2) = x2
    ∧ after P8 V (Proc.devRef .tc main_arg3) = x3
    ∧ after P8 V (Proc.devRef .tc main_arg4) = x4
    ∧ after P8 V (Proc.devRef .tc main_arg5) = x5
    ∧ after P8 V (Proc.devRef .tc main_v29) = Cert.ReferenceIdeal.ReadP.val_main_v29 (F := F) x1
    ∧ after P8 V (Proc.devRef .tc main_v1) = Cert.ReferenceIdeal.ReadP.val_main_v1 (F := F) x1
    ∧ after P8 V (Proc.devRef .tc main_v3) = Cert.ReferenceIdeal.ReadP.val_main_v3 (F := F) x1
    ∧ after P8 V (Proc.devRef .tc main_v85) = Cert.ReferenceIdeal.ReadP.val_main_v85 (F := F) x0 x1 := by
  refine ⟨?_, ?_, ?_, ?_, ?_, ?_, ?_, ?_, ?_, ?_, ?_, ?_⟩
  · after_results_simp
    simp only [h_arg2, h_v85, h_v69, h_v29, h_v1, h_v3, h_v65] <;> rfl
  · after_results_simp
    simp only [h_arg2, h_v85, h_v69, h_v29, h_v1, h_v3, h_v65] <;> rfl
  · after_results_simp
    exact h_arg0
  · after_results_simp
    exact h_arg1
  · after_results_simp
    exact h_arg2
  · after_results_simp
    exact h_arg3
  · after_results_simp
    exact h_arg4
  · after_results_simp
    exact h_arg5
  · after_results_simp
    exact h_v29
  · after_results_simp
    exact h_v1
  · after_results_simp
    exact h_v3
  · after_results_simp
    exact h_v85

set_option maxHeartbeats 32000000 in
set_option maxRecDepth 8192 in
/-- Operations 132–155 of the reference, run from any contents that hold the stages they read: the stages they write, and the stages kept for later. -/
theorem piece9 (x0 : (⟨S50000x64, .f32⟩ : BufTy).Contents (Elt F)) (x1 : (⟨S2x800000, .i32⟩ : BufTy).Contents (Elt F)) (x2 : (⟨S8x64x64, .f32⟩ : BufTy).Contents (Elt F)) (x3 : (⟨S64, .f32⟩ : BufTy).Contents (Elt F)) (x4 : (⟨S8x64x10, .f32⟩ : BufTy).Contents (Elt F)) (x5 : (⟨S10, .f32⟩ : BufTy).Contents (Elt F)) (V : Valuation τ sig (Elt F))
    (h_arg2 : V (Proc.devRef .tc main_arg2) = x2)
    (h_v105 : V (Proc.devRef .tc main_v105) = Cert.ReferenceIdeal.ReadP.val_main_v105 (F := F) x0 x1)
    (h_v89 : V (Proc.devRef .tc main_v89) = Cert.ReferenceIdeal.ReadP.val_main_v89 (F := F) x0 x1 x2)
    (h_v29 : V (Proc.devRef .tc main_v29) = Cert.ReferenceIdeal.ReadP.val_main_v29 (F := F) x1)
    (h_v1 : V (Proc.devRef .tc main_v1) = Cert.ReferenceIdeal.ReadP.val_main_v1 (F := F) x1)
    (h_v3 : V (Proc.devRef .tc main_v3) = Cert.ReferenceIdeal.ReadP.val_main_v3 (F := F) x1)
    (h_v85 : V (Proc.devRef .tc main_v85) = Cert.ReferenceIdeal.ReadP.val_main_v85 (F := F) x0 x1)
    (h_arg0 : V (Proc.devRef .tc main_arg0) = x0)
    (h_arg1 : V (Proc.devRef .tc main_arg1) = x1)
    (h_arg3 : V (Proc.devRef .tc main_arg3) = x3)
    (h_arg4 : V (Proc.devRef .tc main_arg4) = x4)
    (h_arg5 : V (Proc.devRef .tc main_arg5) = x5) :
    after P9 V (Proc.devRef .tc main_v109) = Cert.ReferenceIdeal.ReadP.val_main_v109 (F := F) x0 x1 x2
    ∧ after P9 V (Proc.devRef .tc main_v125) = Cert.ReferenceIdeal.ReadP.val_main_v125 (F := F) x0 x1
    ∧ after P9 V (Proc.devRef .tc main_arg0) = x0
    ∧ after P9 V (Proc.devRef .tc main_arg1) = x1
    ∧ after P9 V (Proc.devRef .tc main_arg2) = x2
    ∧ after P9 V (Proc.devRef .tc main_arg3) = x3
    ∧ after P9 V (Proc.devRef .tc main_arg4) = x4
    ∧ after P9 V (Proc.devRef .tc main_arg5) = x5
    ∧ after P9 V (Proc.devRef .tc main_v29) = Cert.ReferenceIdeal.ReadP.val_main_v29 (F := F) x1
    ∧ after P9 V (Proc.devRef .tc main_v1) = Cert.ReferenceIdeal.ReadP.val_main_v1 (F := F) x1
    ∧ after P9 V (Proc.devRef .tc main_v3) = Cert.ReferenceIdeal.ReadP.val_main_v3 (F := F) x1
    ∧ after P9 V (Proc.devRef .tc main_v105) = Cert.ReferenceIdeal.ReadP.val_main_v105 (F := F) x0 x1 := by
  refine ⟨?_, ?_, ?_, ?_, ?_, ?_, ?_, ?_, ?_, ?_, ?_, ?_⟩
  · after_results_simp
    simp only [h_arg2, h_v105, h_v89, h_v29, h_v1, h_v3, h_v85] <;> rfl
  · after_results_simp
    simp only [h_arg2, h_v105, h_v89, h_v29, h_v1, h_v3, h_v85] <;> rfl
  · after_results_simp
    exact h_arg0
  · after_results_simp
    exact h_arg1
  · after_results_simp
    exact h_arg2
  · after_results_simp
    exact h_arg3
  · after_results_simp
    exact h_arg4
  · after_results_simp
    exact h_arg5
  · after_results_simp
    exact h_v29
  · after_results_simp
    exact h_v1
  · after_results_simp
    exact h_v3
  · after_results_simp
    exact h_v105

set_option maxHeartbeats 32000000 in
set_option maxRecDepth 8192 in
/-- Operations 156–179 of the reference, run from any contents that hold the stages they read: the stages they write, and the stages kept for later. -/
theorem piece10 (x0 : (⟨S50000x64, .f32⟩ : BufTy).Contents (Elt F)) (x1 : (⟨S2x800000, .i32⟩ : BufTy).Contents (Elt F)) (x2 : (⟨S8x64x64, .f32⟩ : BufTy).Contents (Elt F)) (x3 : (⟨S64, .f32⟩ : BufTy).Contents (Elt F)) (x4 : (⟨S8x64x10, .f32⟩ : BufTy).Contents (Elt F)) (x5 : (⟨S10, .f32⟩ : BufTy).Contents (Elt F)) (V : Valuation τ sig (Elt F))
    (h_arg2 : V (Proc.devRef .tc main_arg2) = x2)
    (h_v125 : V (Proc.devRef .tc main_v125) = Cert.ReferenceIdeal.ReadP.val_main_v125 (F := F) x0 x1)
    (h_v109 : V (Proc.devRef .tc main_v109) = Cert.ReferenceIdeal.ReadP.val_main_v109 (F := F) x0 x1 x2)
    (h_v29 : V (Proc.devRef .tc main_v29) = Cert.ReferenceIdeal.ReadP.val_main_v29 (F := F) x1)
    (h_v1 : V (Proc.devRef .tc main_v1) = Cert.ReferenceIdeal.ReadP.val_main_v1 (F := F) x1)
    (h_v3 : V (Proc.devRef .tc main_v3) = Cert.ReferenceIdeal.ReadP.val_main_v3 (F := F) x1)
    (h_v105 : V (Proc.devRef .tc main_v105) = Cert.ReferenceIdeal.ReadP.val_main_v105 (F := F) x0 x1)
    (h_arg0 : V (Proc.devRef .tc main_arg0) = x0)
    (h_arg1 : V (Proc.devRef .tc main_arg1) = x1)
    (h_arg3 : V (Proc.devRef .tc main_arg3) = x3)
    (h_arg4 : V (Proc.devRef .tc main_arg4) = x4)
    (h_arg5 : V (Proc.devRef .tc main_arg5) = x5) :
    after P10 V (Proc.devRef .tc main_v129) = Cert.ReferenceIdeal.ReadP.val_main_v129 (F := F) x0 x1 x2
    ∧ after P10 V (Proc.devRef .tc main_v145) = Cert.ReferenceIdeal.ReadP.val_main_v145 (F := F) x0 x1
    ∧ after P10 V (Proc.devRef .tc main_arg0) = x0
    ∧ after P10 V (Proc.devRef .tc main_arg1) = x1
    ∧ after P10 V (Proc.devRef .tc main_arg2) = x2
    ∧ after P10 V (Proc.devRef .tc main_arg3) = x3
    ∧ after P10 V (Proc.devRef .tc main_arg4) = x4
    ∧ after P10 V (Proc.devRef .tc main_arg5) = x5
    ∧ after P10 V (Proc.devRef .tc main_v29) = Cert.ReferenceIdeal.ReadP.val_main_v29 (F := F) x1
    ∧ after P10 V (Proc.devRef .tc main_v1) = Cert.ReferenceIdeal.ReadP.val_main_v1 (F := F) x1
    ∧ after P10 V (Proc.devRef .tc main_v3) = Cert.ReferenceIdeal.ReadP.val_main_v3 (F := F) x1
    ∧ after P10 V (Proc.devRef .tc main_v125) = Cert.ReferenceIdeal.ReadP.val_main_v125 (F := F) x0 x1 := by
  refine ⟨?_, ?_, ?_, ?_, ?_, ?_, ?_, ?_, ?_, ?_, ?_, ?_⟩
  · after_results_simp
    simp only [h_arg2, h_v125, h_v109, h_v29, h_v1, h_v3, h_v105] <;> rfl
  · after_results_simp
    simp only [h_arg2, h_v125, h_v109, h_v29, h_v1, h_v3, h_v105] <;> rfl
  · after_results_simp
    exact h_arg0
  · after_results_simp
    exact h_arg1
  · after_results_simp
    exact h_arg2
  · after_results_simp
    exact h_arg3
  · after_results_simp
    exact h_arg4
  · after_results_simp
    exact h_arg5
  · after_results_simp
    exact h_v29
  · after_results_simp
    exact h_v1
  · after_results_simp
    exact h_v3
  · after_results_simp
    exact h_v125

set_option maxHeartbeats 32000000 in
set_option maxRecDepth 8192 in
/-- Operations 180–213 of the reference, run from any contents that hold the stages they read: the stages they write, and the stages kept for later. -/
theorem piece11 (x0 : (⟨S50000x64, .f32⟩ : BufTy).Contents (Elt F)) (x1 : (⟨S2x800000, .i32⟩ : BufTy).Contents (Elt F)) (x2 : (⟨S8x64x64, .f32⟩ : BufTy).Contents (Elt F)) (x3 : (⟨S64, .f32⟩ : BufTy).Contents (Elt F)) (x4 : (⟨S8x64x10, .f32⟩ : BufTy).Contents (Elt F)) (x5 : (⟨S10, .f32⟩ : BufTy).Contents (Elt F)) (V : Valuation τ sig (Elt F))
    (h_arg2 : V (Proc.devRef .tc main_arg2) = x2)
    (h_v145 : V (Proc.devRef .tc main_v145) = Cert.ReferenceIdeal.ReadP.val_main_v145 (F := F) x0 x1)
    (h_v129 : V (Proc.devRef .tc main_v129) = Cert.ReferenceIdeal.ReadP.val_main_v129 (F := F) x0 x1 x2)
    (h_v29 : V (Proc.devRef .tc main_v29) = Cert.ReferenceIdeal.ReadP.val_main_v29 (F := F) x1)
    (h_v1 : V (Proc.devRef .tc main_v1) = Cert.ReferenceIdeal.ReadP.val_main_v1 (F := F) x1)
    (h_v3 : V (Proc.devRef .tc main_v3) = Cert.ReferenceIdeal.ReadP.val_main_v3 (F := F) x1)
    (h_v125 : V (Proc.devRef .tc main_v125) = Cert.ReferenceIdeal.ReadP.val_main_v125 (F := F) x0 x1)
    (h_arg3 : V (Proc.devRef .tc main_arg3) = x3)
    (h_arg0 : V (Proc.devRef .tc main_arg0) = x0)
    (h_arg1 : V (Proc.devRef .tc main_arg1) = x1)
    (h_arg4 : V (Proc.devRef .tc main_arg4) = x4)
    (h_arg5 : V (Proc.devRef .tc main_arg5) = x5) :
    after P11 V (Proc.devRef .tc main_v173) = Cert.ReferenceIdeal.ReadP.val_main_v173 (F := F) x0 x1 x2 x3
    ∧ after P11 V (Proc.devRef .tc main_arg0) = x0
    ∧ after P11 V (Proc.devRef .tc main_arg1) = x1
    ∧ after P11 V (Proc.devRef .tc main_arg2) = x2
    ∧ after P11 V (Proc.devRef .tc main_arg3) = x3
    ∧ after P11 V (Proc.devRef .tc main_arg4) = x4
    ∧ after P11 V (Proc.devRef .tc main_arg5) = x5
    ∧ after P11 V (Proc.devRef .tc main_v29) = Cert.ReferenceIdeal.ReadP.val_main_v29 (F := F) x1
    ∧ after P11 V (Proc.devRef .tc main_v1) = Cert.ReferenceIdeal.ReadP.val_main_v1 (F := F) x1
    ∧ after P11 V (Proc.devRef .tc main_v3) = Cert.ReferenceIdeal.ReadP.val_main_v3 (F := F) x1 := by
  refine ⟨?_, ?_, ?_, ?_, ?_, ?_, ?_, ?_, ?_, ?_⟩
  · after_results_simp
    simp only [h_arg2, h_v145, h_v129, h_v29, h_v1, h_v3, h_v125, h_arg3] <;> rfl
  · after_results_simp
    exact h_arg0
  · after_results_simp
    exact h_arg1
  · after_results_simp
    exact h_arg2
  · after_results_simp
    exact h_arg3
  · after_results_simp
    exact h_arg4
  · after_results_simp
    exact h_arg5
  · after_results_simp
    exact h_v29
  · after_results_simp
    exact h_v1
  · after_results_simp
    exact h_v3

set_option maxHeartbeats 32000000 in
set_option maxRecDepth 8192 in
/-- Operations 214–232 of the reference, run from any contents that hold the stages they read: the stages they write, and the stages kept for later. -/
theorem piece12 (x0 : (⟨S50000x64, .f32⟩ : BufTy).Contents (Elt F)) (x1 : (⟨S2x800000, .i32⟩ : BufTy).Contents (Elt F)) (x2 : (⟨S8x64x64, .f32⟩ : BufTy).Contents (Elt F)) (x3 : (⟨S64, .f32⟩ : BufTy).Contents (Elt F)) (x4 : (⟨S8x64x10, .f32⟩ : BufTy).Contents (Elt F)) (x5 : (⟨S10, .f32⟩ : BufTy).Contents (Elt F)) (V : Valuation τ sig (Elt F))
    (h_arg4 : V (Proc.devRef .tc main_arg4) = x4)
    (h_v173 : V (Proc.devRef .tc main_v173) = Cert.ReferenceIdeal.ReadP.val_main_v173 (F := F) x0 x1 x2 x3)
    (h_v29 : V (Proc.devRef .tc main_v29) = Cert.ReferenceIdeal.ReadP.val_main_v29 (F := F) x1)
    (h_v1 : V (Proc.devRef .tc main_v1) = Cert.ReferenceIdeal.ReadP.val_main_v1 (F := F) x1)
    (h_v3 : V (Proc.devRef .tc main_v3) = Cert.ReferenceIdeal.ReadP.val_main_v3 (F := F) x1)
    (h_arg0 : V (Proc.devRef .tc main_arg0) = x0)
    (h_arg1 : V (Proc.devRef .tc main_arg1) = x1)
    (h_arg2 : V (Proc.devRef .tc main_arg2) = x2)
    (h_arg3 : V (Proc.devRef .tc main_arg3) = x3)
    (h_arg5 : V (Proc.devRef .tc main_arg5) = x5) :
    after P12 V (Proc.devRef .tc main_v176) = Cert.ReferenceIdeal.ReadP.val_main_v176 (F := F) x0 x1 x2 x3 x4
    ∧ after P12 V (Proc.devRef .tc main_v189) = Cert.ReferenceIdeal.ReadP.val_main_v189 (F := F) x0 x1 x2 x3
    ∧ after P12 V (Proc.devRef .tc main_arg0) = x0
    ∧ after P12 V (Proc.devRef .tc main_arg1) = x1
    ∧ after P12 V (Proc.devRef .tc main_arg2) = x2
    ∧ after P12 V (Proc.devRef .tc main_arg3) = x3
    ∧ after P12 V (Proc.devRef .tc main_arg4) = x4
    ∧ after P12 V (Proc.devRef .tc main_arg5) = x5
    ∧ after P12 V (Proc.devRef .tc main_v29) = Cert.ReferenceIdeal.ReadP.val_main_v29 (F := F) x1
    ∧ after P12 V (Proc.devRef .tc main_v1) = Cert.ReferenceIdeal.ReadP.val_main_v1 (F := F) x1
    ∧ after P12 V (Proc.devRef .tc main_v3) = Cert.ReferenceIdeal.ReadP.val_main_v3 (F := F) x1
    ∧ after P12 V (Proc.devRef .tc main_v173) = Cert.ReferenceIdeal.ReadP.val_main_v173 (F := F) x0 x1 x2 x3 := by
  refine ⟨?_, ?_, ?_, ?_, ?_, ?_, ?_, ?_, ?_, ?_, ?_, ?_⟩
  · after_results_simp
    simp only [h_arg4, h_v173, h_v29, h_v1, h_v3] <;> rfl
  · after_results_simp
    simp only [h_arg4, h_v173, h_v29, h_v1, h_v3] <;> rfl
  · after_results_simp
    exact h_arg0
  · after_results_simp
    exact h_arg1
  · after_results_simp
    exact h_arg2
  · after_results_simp
    exact h_arg3
  · after_results_simp
    exact h_arg4
  · after_results_simp
    exact h_arg5
  · after_results_simp
    exact h_v29
  · after_results_simp
    exact h_v1
  · after_results_simp
    exact h_v3
  · after_results_simp
    exact h_v173

set_option maxHeartbeats 32000000 in
set_option maxRecDepth 8192 in
/-- Operations 233–256 of the reference, run from any contents that hold the stages they read: the stages they write, and the stages kept for later. -/
theorem piece13 (x0 : (⟨S50000x64, .f32⟩ : BufTy).Contents (Elt F)) (x1 : (⟨S2x800000, .i32⟩ : BufTy).Contents (Elt F)) (x2 : (⟨S8x64x64, .f32⟩ : BufTy).Contents (Elt F)) (x3 : (⟨S64, .f32⟩ : BufTy).Contents (Elt F)) (x4 : (⟨S8x64x10, .f32⟩ : BufTy).Contents (Elt F)) (x5 : (⟨S10, .f32⟩ : BufTy).Contents (Elt F)) (V : Valuation τ sig (Elt F))
    (h_arg4 : V (Proc.devRef .tc main_arg4) = x4)
    (h_v189 : V (Proc.devRef .tc main_v189) = Cert.ReferenceIdeal.ReadP.val_main_v189 (F := F) x0 x1 x2 x3)
    (h_v176 : V (Proc.devRef .tc main_v176) = Cert.ReferenceIdeal.ReadP.val_main_v176 (F := F) x0 x1 x2 x3 x4)
    (h_v29 : V (Proc.devRef .tc main_v29) = Cert.ReferenceIdeal.ReadP.val_main_v29 (F := F) x1)
    (h_v1 : V (Proc.devRef .tc main_v1) = Cert.ReferenceIdeal.ReadP.val_main_v1 (F := F) x1)
    (h_v3 : V (Proc.devRef .tc main_v3) = Cert.ReferenceIdeal.ReadP.val_main_v3 (F := F) x1)
    (h_v173 : V (Proc.devRef .tc main_v173) = Cert.ReferenceIdeal.ReadP.val_main_v173 (F := F) x0 x1 x2 x3)
    (h_arg0 : V (Proc.devRef .tc main_arg0) = x0)
    (h_arg1 : V (Proc.devRef .tc main_arg1) = x1)
    (h_arg2 : V (Proc.devRef .tc main_arg2) = x2)
    (h_arg3 : V (Proc.devRef .tc main_arg3) = x3)
    (h_arg5 : V (Proc.devRef .tc main_arg5) = x5) :
    after P13 V (Proc.devRef .tc main_v193) = Cert.ReferenceIdeal.ReadP.val_main_v193 (F := F) x0 x1 x2 x3 x4
    ∧ after P13 V (Proc.devRef .tc main_v209) = Cert.ReferenceIdeal.ReadP.val_main_v209 (F := F) x0 x1 x2 x3
    ∧ after P13 V (Proc.devRef .tc main_arg0) = x0
    ∧ after P13 V (Proc.devRef .tc main_arg1) = x1
    ∧ after P13 V (Proc.devRef .tc main_arg2) = x2
    ∧ after P13 V (Proc.devRef .tc main_arg3) = x3
    ∧ after P13 V (Proc.devRef .tc main_arg4) = x4
    ∧ after P13 V (Proc.devRef .tc main_arg5) = x5
    ∧ after P13 V (Proc.devRef .tc main_v29) = Cert.ReferenceIdeal.ReadP.val_main_v29 (F := F) x1
    ∧ after P13 V (Proc.devRef .tc main_v1) = Cert.ReferenceIdeal.ReadP.val_main_v1 (F := F) x1
    ∧ after P13 V (Proc.devRef .tc main_v3) = Cert.ReferenceIdeal.ReadP.val_main_v3 (F := F) x1
    ∧ after P13 V (Proc.devRef .tc main_v189) = Cert.ReferenceIdeal.ReadP.val_main_v189 (F := F) x0 x1 x2 x3 := by
  refine ⟨?_, ?_, ?_, ?_, ?_, ?_, ?_, ?_, ?_, ?_, ?_, ?_⟩
  · after_results_simp
    simp only [h_arg4, h_v189, h_v176, h_v29, h_v1, h_v3, h_v173] <;> rfl
  · after_results_simp
    simp only [h_arg4, h_v189, h_v176, h_v29, h_v1, h_v3, h_v173] <;> rfl
  · after_results_simp
    exact h_arg0
  · after_results_simp
    exact h_arg1
  · after_results_simp
    exact h_arg2
  · after_results_simp
    exact h_arg3
  · after_results_simp
    exact h_arg4
  · after_results_simp
    exact h_arg5
  · after_results_simp
    exact h_v29
  · after_results_simp
    exact h_v1
  · after_results_simp
    exact h_v3
  · after_results_simp
    exact h_v189

set_option maxHeartbeats 32000000 in
set_option maxRecDepth 8192 in
/-- Operations 257–280 of the reference, run from any contents that hold the stages they read: the stages they write, and the stages kept for later. -/
theorem piece14 (x0 : (⟨S50000x64, .f32⟩ : BufTy).Contents (Elt F)) (x1 : (⟨S2x800000, .i32⟩ : BufTy).Contents (Elt F)) (x2 : (⟨S8x64x64, .f32⟩ : BufTy).Contents (Elt F)) (x3 : (⟨S64, .f32⟩ : BufTy).Contents (Elt F)) (x4 : (⟨S8x64x10, .f32⟩ : BufTy).Contents (Elt F)) (x5 : (⟨S10, .f32⟩ : BufTy).Contents (Elt F)) (V : Valuation τ sig (Elt F))
    (h_arg4 : V (Proc.devRef .tc main_arg4) = x4)
    (h_v209 : V (Proc.devRef .tc main_v209) = Cert.ReferenceIdeal.ReadP.val_main_v209 (F := F) x0 x1 x2 x3)
    (h_v193 : V (Proc.devRef .tc main_v193) = Cert.ReferenceIdeal.ReadP.val_main_v193 (F := F) x0 x1 x2 x3 x4)
    (h_v29 : V (Proc.devRef .tc main_v29) = Cert.ReferenceIdeal.ReadP.val_main_v29 (F := F) x1)
    (h_v1 : V (Proc.devRef .tc main_v1) = Cert.ReferenceIdeal.ReadP.val_main_v1 (F := F) x1)
    (h_v3 : V (Proc.devRef .tc main_v3) = Cert.ReferenceIdeal.ReadP.val_main_v3 (F := F) x1)
    (h_v189 : V (Proc.devRef .tc main_v189) = Cert.ReferenceIdeal.ReadP.val_main_v189 (F := F) x0 x1 x2 x3)
    (h_arg0 : V (Proc.devRef .tc main_arg0) = x0)
    (h_arg1 : V (Proc.devRef .tc main_arg1) = x1)
    (h_arg2 : V (Proc.devRef .tc main_arg2) = x2)
    (h_arg3 : V (Proc.devRef .tc main_arg3) = x3)
    (h_arg5 : V (Proc.devRef .tc main_arg5) = x5) :
    after P14 V (Proc.devRef .tc main_v213) = Cert.ReferenceIdeal.ReadP.val_main_v213 (F := F) x0 x1 x2 x3 x4
    ∧ after P14 V (Proc.devRef .tc main_v229) = Cert.ReferenceIdeal.ReadP.val_main_v229 (F := F) x0 x1 x2 x3
    ∧ after P14 V (Proc.devRef .tc main_arg0) = x0
    ∧ after P14 V (Proc.devRef .tc main_arg1) = x1
    ∧ after P14 V (Proc.devRef .tc main_arg2) = x2
    ∧ after P14 V (Proc.devRef .tc main_arg3) = x3
    ∧ after P14 V (Proc.devRef .tc main_arg4) = x4
    ∧ after P14 V (Proc.devRef .tc main_arg5) = x5
    ∧ after P14 V (Proc.devRef .tc main_v29) = Cert.ReferenceIdeal.ReadP.val_main_v29 (F := F) x1
    ∧ after P14 V (Proc.devRef .tc main_v1) = Cert.ReferenceIdeal.ReadP.val_main_v1 (F := F) x1
    ∧ after P14 V (Proc.devRef .tc main_v3) = Cert.ReferenceIdeal.ReadP.val_main_v3 (F := F) x1
    ∧ after P14 V (Proc.devRef .tc main_v209) = Cert.ReferenceIdeal.ReadP.val_main_v209 (F := F) x0 x1 x2 x3 := by
  refine ⟨?_, ?_, ?_, ?_, ?_, ?_, ?_, ?_, ?_, ?_, ?_, ?_⟩
  · after_results_simp
    simp only [h_arg4, h_v209, h_v193, h_v29, h_v1, h_v3, h_v189] <;> rfl
  · after_results_simp
    simp only [h_arg4, h_v209, h_v193, h_v29, h_v1, h_v3, h_v189] <;> rfl
  · after_results_simp
    exact h_arg0
  · after_results_simp
    exact h_arg1
  · after_results_simp
    exact h_arg2
  · after_results_simp
    exact h_arg3
  · after_results_simp
    exact h_arg4
  · after_results_simp
    exact h_arg5
  · after_results_simp
    exact h_v29
  · after_results_simp
    exact h_v1
  · after_results_simp
    exact h_v3
  · after_results_simp
    exact h_v209

set_option maxHeartbeats 32000000 in
set_option maxRecDepth 8192 in
/-- Operations 281–304 of the reference, run from any contents that hold the stages they read: the stages they write, and the stages kept for later. -/
theorem piece15 (x0 : (⟨S50000x64, .f32⟩ : BufTy).Contents (Elt F)) (x1 : (⟨S2x800000, .i32⟩ : BufTy).Contents (Elt F)) (x2 : (⟨S8x64x64, .f32⟩ : BufTy).Contents (Elt F)) (x3 : (⟨S64, .f32⟩ : BufTy).Contents (Elt F)) (x4 : (⟨S8x64x10, .f32⟩ : BufTy).Contents (Elt F)) (x5 : (⟨S10, .f32⟩ : BufTy).Contents (Elt F)) (V : Valuation τ sig (Elt F))
    (h_arg4 : V (Proc.devRef .tc main_arg4) = x4)
    (h_v229 : V (Proc.devRef .tc main_v229) = Cert.ReferenceIdeal.ReadP.val_main_v229 (F := F) x0 x1 x2 x3)
    (h_v213 : V (Proc.devRef .tc main_v213) = Cert.ReferenceIdeal.ReadP.val_main_v213 (F := F) x0 x1 x2 x3 x4)
    (h_v29 : V (Proc.devRef .tc main_v29) = Cert.ReferenceIdeal.ReadP.val_main_v29 (F := F) x1)
    (h_v1 : V (Proc.devRef .tc main_v1) = Cert.ReferenceIdeal.ReadP.val_main_v1 (F := F) x1)
    (h_v3 : V (Proc.devRef .tc main_v3) = Cert.ReferenceIdeal.ReadP.val_main_v3 (F := F) x1)
    (h_v209 : V (Proc.devRef .tc main_v209) = Cert.ReferenceIdeal.ReadP.val_main_v209 (F := F) x0 x1 x2 x3)
    (h_arg0 : V (Proc.devRef .tc main_arg0) = x0)
    (h_arg1 : V (Proc.devRef .tc main_arg1) = x1)
    (h_arg2 : V (Proc.devRef .tc main_arg2) = x2)
    (h_arg3 : V (Proc.devRef .tc main_arg3) = x3)
    (h_arg5 : V (Proc.devRef .tc main_arg5) = x5) :
    after P15 V (Proc.devRef .tc main_v233) = Cert.ReferenceIdeal.ReadP.val_main_v233 (F := F) x0 x1 x2 x3 x4
    ∧ after P15 V (Proc.devRef .tc main_v249) = Cert.ReferenceIdeal.ReadP.val_main_v249 (F := F) x0 x1 x2 x3
    ∧ after P15 V (Proc.devRef .tc main_arg0) = x0
    ∧ after P15 V (Proc.devRef .tc main_arg1) = x1
    ∧ after P15 V (Proc.devRef .tc main_arg2) = x2
    ∧ after P15 V (Proc.devRef .tc main_arg3) = x3
    ∧ after P15 V (Proc.devRef .tc main_arg4) = x4
    ∧ after P15 V (Proc.devRef .tc main_arg5) = x5
    ∧ after P15 V (Proc.devRef .tc main_v29) = Cert.ReferenceIdeal.ReadP.val_main_v29 (F := F) x1
    ∧ after P15 V (Proc.devRef .tc main_v1) = Cert.ReferenceIdeal.ReadP.val_main_v1 (F := F) x1
    ∧ after P15 V (Proc.devRef .tc main_v3) = Cert.ReferenceIdeal.ReadP.val_main_v3 (F := F) x1
    ∧ after P15 V (Proc.devRef .tc main_v229) = Cert.ReferenceIdeal.ReadP.val_main_v229 (F := F) x0 x1 x2 x3 := by
  refine ⟨?_, ?_, ?_, ?_, ?_, ?_, ?_, ?_, ?_, ?_, ?_, ?_⟩
  · after_results_simp
    simp only [h_arg4, h_v229, h_v213, h_v29, h_v1, h_v3, h_v209] <;> rfl
  · after_results_simp
    simp only [h_arg4, h_v229, h_v213, h_v29, h_v1, h_v3, h_v209] <;> rfl
  · after_results_simp
    exact h_arg0
  · after_results_simp
    exact h_arg1
  · after_results_simp
    exact h_arg2
  · after_results_simp
    exact h_arg3
  · after_results_simp
    exact h_arg4
  · after_results_simp
    exact h_arg5
  · after_results_simp
    exact h_v29
  · after_results_simp
    exact h_v1
  · after_results_simp
    exact h_v3
  · after_results_simp
    exact h_v229

set_option maxHeartbeats 32000000 in
set_option maxRecDepth 8192 in
/-- Operations 305–328 of the reference, run from any contents that hold the stages they read: the stages they write, and the stages kept for later. -/
theorem piece16 (x0 : (⟨S50000x64, .f32⟩ : BufTy).Contents (Elt F)) (x1 : (⟨S2x800000, .i32⟩ : BufTy).Contents (Elt F)) (x2 : (⟨S8x64x64, .f32⟩ : BufTy).Contents (Elt F)) (x3 : (⟨S64, .f32⟩ : BufTy).Contents (Elt F)) (x4 : (⟨S8x64x10, .f32⟩ : BufTy).Contents (Elt F)) (x5 : (⟨S10, .f32⟩ : BufTy).Contents (Elt F)) (V : Valuation τ sig (Elt F))
    (h_arg4 : V (Proc.devRef .tc main_arg4) = x4)
    (h_v249 : V (Proc.devRef .tc main_v249) = Cert.ReferenceIdeal.ReadP.val_main_v249 (F := F) x0 x1 x2 x3)
    (h_v233 : V (Proc.devRef .tc main_v233) = Cert.ReferenceIdeal.ReadP.val_main_v233 (F := F) x0 x1 x2 x3 x4)
    (h_v29 : V (Proc.devRef .tc main_v29) = Cert.ReferenceIdeal.ReadP.val_main_v29 (F := F) x1)
    (h_v1 : V (Proc.devRef .tc main_v1) = Cert.ReferenceIdeal.ReadP.val_main_v1 (F := F) x1)
    (h_v3 : V (Proc.devRef .tc main_v3) = Cert.ReferenceIdeal.ReadP.val_main_v3 (F := F) x1)
    (h_v229 : V (Proc.devRef .tc main_v229) = Cert.ReferenceIdeal.ReadP.val_main_v229 (F := F) x0 x1 x2 x3)
    (h_arg0 : V (Proc.devRef .tc main_arg0) = x0)
    (h_arg1 : V (Proc.devRef .tc main_arg1) = x1)
    (h_arg2 : V (Proc.devRef .tc main_arg2) = x2)
    (h_arg3 : V (Proc.devRef .tc main_arg3) = x3)
    (h_arg5 : V (Proc.devRef .tc main_arg5) = x5) :
    after P16 V (Proc.devRef .tc main_v253) = Cert.ReferenceIdeal.ReadP.val_main_v253 (F := F) x0 x1 x2 x3 x4
    ∧ after P16 V (Proc.devRef .tc main_v269) = Cert.ReferenceIdeal.ReadP.val_main_v269 (F := F) x0 x1 x2 x3
    ∧ after P16 V (Proc.devRef .tc main_arg0) = x0
    ∧ after P16 V (Proc.devRef .tc main_arg1) = x1
    ∧ after P16 V (Proc.devRef .tc main_arg2) = x2
    ∧ after P16 V (Proc.devRef .tc main_arg3) = x3
    ∧ after P16 V (Proc.devRef .tc main_arg4) = x4
    ∧ after P16 V (Proc.devRef .tc main_arg5) = x5
    ∧ after P16 V (Proc.devRef .tc main_v29) = Cert.ReferenceIdeal.ReadP.val_main_v29 (F := F) x1
    ∧ after P16 V (Proc.devRef .tc main_v1) = Cert.ReferenceIdeal.ReadP.val_main_v1 (F := F) x1
    ∧ after P16 V (Proc.devRef .tc main_v3) = Cert.ReferenceIdeal.ReadP.val_main_v3 (F := F) x1
    ∧ after P16 V (Proc.devRef .tc main_v249) = Cert.ReferenceIdeal.ReadP.val_main_v249 (F := F) x0 x1 x2 x3 := by
  refine ⟨?_, ?_, ?_, ?_, ?_, ?_, ?_, ?_, ?_, ?_, ?_, ?_⟩
  · after_results_simp
    simp only [h_arg4, h_v249, h_v233, h_v29, h_v1, h_v3, h_v229] <;> rfl
  · after_results_simp
    simp only [h_arg4, h_v249, h_v233, h_v29, h_v1, h_v3, h_v229] <;> rfl
  · after_results_simp
    exact h_arg0
  · after_results_simp
    exact h_arg1
  · after_results_simp
    exact h_arg2
  · after_results_simp
    exact h_arg3
  · after_results_simp
    exact h_arg4
  · after_results_simp
    exact h_arg5
  · after_results_simp
    exact h_v29
  · after_results_simp
    exact h_v1
  · after_results_simp
    exact h_v3
  · after_results_simp
    exact h_v249

set_option maxHeartbeats 32000000 in
set_option maxRecDepth 8192 in
/-- Operations 329–352 of the reference, run from any contents that hold the stages they read: the stages they write, and the stages kept for later. -/
theorem piece17 (x0 : (⟨S50000x64, .f32⟩ : BufTy).Contents (Elt F)) (x1 : (⟨S2x800000, .i32⟩ : BufTy).Contents (Elt F)) (x2 : (⟨S8x64x64, .f32⟩ : BufTy).Contents (Elt F)) (x3 : (⟨S64, .f32⟩ : BufTy).Contents (Elt F)) (x4 : (⟨S8x64x10, .f32⟩ : BufTy).Contents (Elt F)) (x5 : (⟨S10, .f32⟩ : BufTy).Contents (Elt F)) (V : Valuation τ sig (Elt F))
    (h_arg4 : V (Proc.devRef .tc main_arg4) = x4)
    (h_v269 : V (Proc.devRef .tc main_v269) = Cert.ReferenceIdeal.ReadP.val_main_v269 (F := F) x0 x1 x2 x3)
    (h_v253 : V (Proc.devRef .tc main_v253) = Cert.ReferenceIdeal.ReadP.val_main_v253 (F := F) x0 x1 x2 x3 x4)
    (h_v29 : V (Proc.devRef .tc main_v29) = Cert.ReferenceIdeal.ReadP.val_main_v29 (F := F) x1)
    (h_v1 : V (Proc.devRef .tc main_v1) = Cert.ReferenceIdeal.ReadP.val_main_v1 (F := F) x1)
    (h_v3 : V (Proc.devRef .tc main_v3) = Cert.ReferenceIdeal.ReadP.val_main_v3 (F := F) x1)
    (h_v249 : V (Proc.devRef .tc main_v249) = Cert.ReferenceIdeal.ReadP.val_main_v249 (F := F) x0 x1 x2 x3)
    (h_arg0 : V (Proc.devRef .tc main_arg0) = x0)
    (h_arg1 : V (Proc.devRef .tc main_arg1) = x1)
    (h_arg2 : V (Proc.devRef .tc main_arg2) = x2)
    (h_arg3 : V (Proc.devRef .tc main_arg3) = x3)
    (h_arg5 : V (Proc.devRef .tc main_arg5) = x5) :
    after P17 V (Proc.devRef .tc main_v273) = Cert.ReferenceIdeal.ReadP.val_main_v273 (F := F) x0 x1 x2 x3 x4
    ∧ after P17 V (Proc.devRef .tc main_v289) = Cert.ReferenceIdeal.ReadP.val_main_v289 (F := F) x0 x1 x2 x3
    ∧ after P17 V (Proc.devRef .tc main_arg0) = x0
    ∧ after P17 V (Proc.devRef .tc main_arg1) = x1
    ∧ after P17 V (Proc.devRef .tc main_arg2) = x2
    ∧ after P17 V (Proc.devRef .tc main_arg3) = x3
    ∧ after P17 V (Proc.devRef .tc main_arg4) = x4
    ∧ after P17 V (Proc.devRef .tc main_arg5) = x5
    ∧ after P17 V (Proc.devRef .tc main_v29) = Cert.ReferenceIdeal.ReadP.val_main_v29 (F := F) x1
    ∧ after P17 V (Proc.devRef .tc main_v1) = Cert.ReferenceIdeal.ReadP.val_main_v1 (F := F) x1
    ∧ after P17 V (Proc.devRef .tc main_v3) = Cert.ReferenceIdeal.ReadP.val_main_v3 (F := F) x1
    ∧ after P17 V (Proc.devRef .tc main_v269) = Cert.ReferenceIdeal.ReadP.val_main_v269 (F := F) x0 x1 x2 x3 := by
  refine ⟨?_, ?_, ?_, ?_, ?_, ?_, ?_, ?_, ?_, ?_, ?_, ?_⟩
  · after_results_simp
    simp only [h_arg4, h_v269, h_v253, h_v29, h_v1, h_v3, h_v249] <;> rfl
  · after_results_simp
    simp only [h_arg4, h_v269, h_v253, h_v29, h_v1, h_v3, h_v249] <;> rfl
  · after_results_simp
    exact h_arg0
  · after_results_simp
    exact h_arg1
  · after_results_simp
    exact h_arg2
  · after_results_simp
    exact h_arg3
  · after_results_simp
    exact h_arg4
  · after_results_simp
    exact h_arg5
  · after_results_simp
    exact h_v29
  · after_results_simp
    exact h_v1
  · after_results_simp
    exact h_v3
  · after_results_simp
    exact h_v269

set_option maxHeartbeats 32000000 in
set_option maxRecDepth 8192 in
/-- Operations 353–383 of the reference, run from any contents that hold the stages they read: the stages they write, and the stages kept for later. -/
theorem piece18 (x0 : (⟨S50000x64, .f32⟩ : BufTy).Contents (Elt F)) (x1 : (⟨S2x800000, .i32⟩ : BufTy).Contents (Elt F)) (x2 : (⟨S8x64x64, .f32⟩ : BufTy).Contents (Elt F)) (x3 : (⟨S64, .f32⟩ : BufTy).Contents (Elt F)) (x4 : (⟨S8x64x10, .f32⟩ : BufTy).Contents (Elt F)) (x5 : (⟨S10, .f32⟩ : BufTy).Contents (Elt F)) (V : Valuation τ sig (Elt F))
    (h_arg4 : V (Proc.devRef .tc main_arg4) = x4)
    (h_v289 : V (Proc.devRef .tc main_v289) = Cert.ReferenceIdeal.ReadP.val_main_v289 (F := F) x0 x1 x2 x3)
    (h_v273 : V (Proc.devRef .tc main_v273) = Cert.ReferenceIdeal.ReadP.val_main_v273 (F := F) x0 x1 x2 x3 x4)
    (h_v29 : V (Proc.devRef .tc main_v29) = Cert.ReferenceIdeal.ReadP.val_main_v29 (F := F) x1)
    (h_v1 : V (Proc.devRef .tc main_v1) = Cert.ReferenceIdeal.ReadP.val_main_v1 (F := F) x1)
    (h_v3 : V (Proc.devRef .tc main_v3) = Cert.ReferenceIdeal.ReadP.val_main_v3 (F := F) x1)
    (h_v269 : V (Proc.devRef .tc main_v269) = Cert.ReferenceIdeal.ReadP.val_main_v269 (F := F) x0 x1 x2 x3)
    (h_arg5 : V (Proc.devRef .tc main_arg5) = x5)
    (h_arg0 : V (Proc.devRef .tc main_arg0) = x0)
    (h_arg1 : V (Proc.devRef .tc main_arg1) = x1)
    (h_arg2 : V (Proc.devRef .tc main_arg2) = x2)
    (h_arg3 : V (Proc.devRef .tc main_arg3) = x3) :
    after P18 V (Proc.devRef .tc main_v316) = Cert.ReferenceIdeal.ReadP.val_main_v316 (F := F) x0 x1 x2 x3 x4 x5
    ∧ after P18 V (Proc.devRef .tc main_arg0) = x0
    ∧ after P18 V (Proc.devRef .tc main_arg1) = x1
    ∧ after P18 V (Proc.devRef .tc main_arg2) = x2
    ∧ after P18 V (Proc.devRef .tc main_arg3) = x3
    ∧ after P18 V (Proc.devRef .tc main_arg4) = x4
    ∧ after P18 V (Proc.devRef .tc main_arg5) = x5 := by
  refine ⟨?_, ?_, ?_, ?_, ?_, ?_, ?_⟩
  · after_results_simp
    simp only [h_arg4, h_v289, h_v273, h_v29, h_v1, h_v3, h_v269, h_arg5] <;> rfl
  · after_results_simp
    exact h_arg0
  · after_results_simp
    exact h_arg1
  · after_results_simp
    exact h_arg2
  · after_results_simp
    exact h_arg3
  · after_results_simp
    exact h_arg4
  · after_results_simp
    exact h_arg5

/-- The contents after all the pieces, run one after the other from the launch contents. -/
abbrev afterPieces (m : (ℓ : Loc nD τ sig) → Buf (Elt F) ℓ) (c : Dev nD) : Valuation τ sig (Elt F) :=
  after P18 (after P17 (after P16 (after P15 (after P14 (after P13 (after P12 (after P11 (after P10 (after P9 (after P8 (after P7 (after P6 (after P5 (after P4 (after P3 (after P2 (after P1 (after P0 (launchContents m c)))))))))))))))))))

set_option maxHeartbeats 32000000 in
set_option maxRecDepth 8192 in
/-- The pieces run one after the other from the launch contents: the result buffer ends at the reference's last stage, and
    the six arguments keep their launch contents. -/
theorem pieces_result (m : (ℓ : Loc nD τ sig) → Buf (Elt F) ℓ) (c : Dev nD) :
    afterPieces m c (Proc.devRef .tc main_v316) = Cert.ReferenceIdeal.ReadP.val_main_v316 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5))
    ∧ afterPieces m c (Proc.devRef .tc main_arg0) = (m ((c.tc : Thread nD τ).loc main_arg0))
    ∧ afterPieces m c (Proc.devRef .tc main_arg1) = (m ((c.tc : Thread nD τ).loc main_arg1))
    ∧ afterPieces m c (Proc.devRef .tc main_arg2) = (m ((c.tc : Thread nD τ).loc main_arg2))
    ∧ afterPieces m c (Proc.devRef .tc main_arg3) = (m ((c.tc : Thread nD τ).loc main_arg3))
    ∧ afterPieces m c (Proc.devRef .tc main_arg4) = (m ((c.tc : Thread nD τ).loc main_arg4))
    ∧ afterPieces m c (Proc.devRef .tc main_arg5) = (m ((c.tc : Thread nD τ).loc main_arg5)) := by
  have e0_arg0 : launchContents m c (Proc.devRef .tc main_arg0) = m ((c.tc : Thread nD τ).loc main_arg0) := rfl
  have e0_arg1 : launchContents m c (Proc.devRef .tc main_arg1) = m ((c.tc : Thread nD τ).loc main_arg1) := rfl
  have e0_arg2 : launchContents m c (Proc.devRef .tc main_arg2) = m ((c.tc : Thread nD τ).loc main_arg2) := rfl
  have e0_arg3 : launchContents m c (Proc.devRef .tc main_arg3) = m ((c.tc : Thread nD τ).loc main_arg3) := rfl
  have e0_arg4 : launchContents m c (Proc.devRef .tc main_arg4) = m ((c.tc : Thread nD τ).loc main_arg4) := rfl
  have e0_arg5 : launchContents m c (Proc.devRef .tc main_arg5) = m ((c.tc : Thread nD τ).loc main_arg5) := rfl
  obtain ⟨e1_v1, e1_arg0, e1_arg1, e1_arg2, e1_arg3, e1_arg4, e1_arg5⟩ := piece0 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (launchContents m c) e0_arg1 e0_arg0 e0_arg2 e0_arg3 e0_arg4 e0_arg5
  obtain ⟨e2_v3, e2_arg0, e2_arg1, e2_arg2, e2_arg3, e2_arg4, e2_arg5, e2_v1⟩ := piece1 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (after P0 (launchContents m c)) e1_arg1 e1_arg0 e1_arg2 e1_arg3 e1_arg4 e1_arg5 e1_v1
  obtain ⟨e3_v7, e3_arg0, e3_arg1, e3_arg2, e3_arg3, e3_arg4, e3_arg5, e3_v1, e3_v3⟩ := piece2 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (after P1 (after P0 (launchContents m c))) e2_v1 e2_arg0 e2_arg1 e2_arg2 e2_arg3 e2_arg4 e2_arg5 e2_v3
  obtain ⟨e4_v13, e4_arg0, e4_arg1, e4_arg2, e4_arg3, e4_arg4, e4_arg5, e4_v1, e4_v3⟩ := piece3 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (after P2 (after P1 (after P0 (launchContents m c)))) e3_v7 e3_arg0 e3_arg1 e3_arg2 e3_arg3 e3_arg4 e3_arg5 e3_v1 e3_v3
  obtain ⟨e5_v29, e5_arg0, e5_arg1, e5_arg2, e5_arg3, e5_arg4, e5_arg5, e5_v1, e5_v3⟩ := piece4 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (after P3 (after P2 (after P1 (after P0 (launchContents m c))))) e4_v1 e4_v13 e4_v3 e4_arg0 e4_arg1 e4_arg2 e4_arg3 e4_arg4 e4_arg5
  obtain ⟨e6_v32, e6_v45, e6_arg0, e6_arg1, e6_arg2, e6_arg3, e6_arg4, e6_arg5, e6_v29, e6_v1, e6_v3⟩ := piece5 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (after P4 (after P3 (after P2 (after P1 (after P0 (launchContents m c)))))) e5_arg2 e5_arg0 e5_v29 e5_v1 e5_v3 e5_arg1 e5_arg3 e5_arg4 e5_arg5
  obtain ⟨e7_v49, e7_v65, e7_arg0, e7_arg1, e7_arg2, e7_arg3, e7_arg4, e7_arg5, e7_v29, e7_v1, e7_v3, e7_v45⟩ := piece6 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (after P5 (after P4 (after P3 (after P2 (after P1 (after P0 (launchContents m c))))))) e6_arg2 e6_v45 e6_v32 e6_v29 e6_v1 e6_v3 e6_arg0 e6_arg1 e6_arg3 e6_arg4 e6_arg5
  obtain ⟨e8_v69, e8_v85, e8_arg0, e8_arg1, e8_arg2, e8_arg3, e8_arg4, e8_arg5, e8_v29, e8_v1, e8_v3, e8_v65⟩ := piece7 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (after P6 (after P5 (after P4 (after P3 (after P2 (after P1 (after P0 (launchContents m c)))))))) e7_arg2 e7_v65 e7_v49 e7_v29 e7_v1 e7_v3 e7_v45 e7_arg0 e7_arg1 e7_arg3 e7_arg4 e7_arg5
  obtain ⟨e9_v89, e9_v105, e9_arg0, e9_arg1, e9_arg2, e9_arg3, e9_arg4, e9_arg5, e9_v29, e9_v1, e9_v3, e9_v85⟩ := piece8 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (after P7 (after P6 (after P5 (after P4 (after P3 (after P2 (after P1 (after P0 (launchContents m c))))))))) e8_arg2 e8_v85 e8_v69 e8_v29 e8_v1 e8_v3 e8_v65 e8_arg0 e8_arg1 e8_arg3 e8_arg4 e8_arg5
  obtain ⟨e10_v109, e10_v125, e10_arg0, e10_arg1, e10_arg2, e10_arg3, e10_arg4, e10_arg5, e10_v29, e10_v1, e10_v3, e10_v105⟩ := piece9 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (after P8 (after P7 (after P6 (after P5 (after P4 (after P3 (after P2 (after P1 (after P0 (launchContents m c)))))))))) e9_arg2 e9_v105 e9_v89 e9_v29 e9_v1 e9_v3 e9_v85 e9_arg0 e9_arg1 e9_arg3 e9_arg4 e9_arg5
  obtain ⟨e11_v129, e11_v145, e11_arg0, e11_arg1, e11_arg2, e11_arg3, e11_arg4, e11_arg5, e11_v29, e11_v1, e11_v3, e11_v125⟩ := piece10 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (after P9 (after P8 (after P7 (after P6 (after P5 (after P4 (after P3 (after P2 (after P1 (after P0 (launchContents m c))))))))))) e10_arg2 e10_v125 e10_v109 e10_v29 e10_v1 e10_v3 e10_v105 e10_arg0 e10_arg1 e10_arg3 e10_arg4 e10_arg5
  obtain ⟨e12_v173, e12_arg0, e12_arg1, e12_arg2, e12_arg3, e12_arg4, e12_arg5, e12_v29, e12_v1, e12_v3⟩ := piece11 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (after P10 (after P9 (after P8 (after P7 (after P6 (after P5 (after P4 (after P3 (after P2 (after P1 (after P0 (launchContents m c)))))))))))) e11_arg2 e11_v145 e11_v129 e11_v29 e11_v1 e11_v3 e11_v125 e11_arg3 e11_arg0 e11_arg1 e11_arg4 e11_arg5
  obtain ⟨e13_v176, e13_v189, e13_arg0, e13_arg1, e13_arg2, e13_arg3, e13_arg4, e13_arg5, e13_v29, e13_v1, e13_v3, e13_v173⟩ := piece12 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (after P11 (after P10 (after P9 (after P8 (after P7 (after P6 (after P5 (after P4 (after P3 (after P2 (after P1 (after P0 (launchContents m c))))))))))))) e12_arg4 e12_v173 e12_v29 e12_v1 e12_v3 e12_arg0 e12_arg1 e12_arg2 e12_arg3 e12_arg5
  obtain ⟨e14_v193, e14_v209, e14_arg0, e14_arg1, e14_arg2, e14_arg3, e14_arg4, e14_arg5, e14_v29, e14_v1, e14_v3, e14_v189⟩ := piece13 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (after P12 (after P11 (after P10 (after P9 (after P8 (after P7 (after P6 (after P5 (after P4 (after P3 (after P2 (after P1 (after P0 (launchContents m c)))))))))))))) e13_arg4 e13_v189 e13_v176 e13_v29 e13_v1 e13_v3 e13_v173 e13_arg0 e13_arg1 e13_arg2 e13_arg3 e13_arg5
  obtain ⟨e15_v213, e15_v229, e15_arg0, e15_arg1, e15_arg2, e15_arg3, e15_arg4, e15_arg5, e15_v29, e15_v1, e15_v3, e15_v209⟩ := piece14 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (after P13 (after P12 (after P11 (after P10 (after P9 (after P8 (after P7 (after P6 (after P5 (after P4 (after P3 (after P2 (after P1 (after P0 (launchContents m c))))))))))))))) e14_arg4 e14_v209 e14_v193 e14_v29 e14_v1 e14_v3 e14_v189 e14_arg0 e14_arg1 e14_arg2 e14_arg3 e14_arg5
  obtain ⟨e16_v233, e16_v249, e16_arg0, e16_arg1, e16_arg2, e16_arg3, e16_arg4, e16_arg5, e16_v29, e16_v1, e16_v3, e16_v229⟩ := piece15 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (after P14 (after P13 (after P12 (after P11 (after P10 (after P9 (after P8 (after P7 (after P6 (after P5 (after P4 (after P3 (after P2 (after P1 (after P0 (launchContents m c)))))))))))))))) e15_arg4 e15_v229 e15_v213 e15_v29 e15_v1 e15_v3 e15_v209 e15_arg0 e15_arg1 e15_arg2 e15_arg3 e15_arg5
  obtain ⟨e17_v253, e17_v269, e17_arg0, e17_arg1, e17_arg2, e17_arg3, e17_arg4, e17_arg5, e17_v29, e17_v1, e17_v3, e17_v249⟩ := piece16 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (after P15 (after P14 (after P13 (after P12 (after P11 (after P10 (after P9 (after P8 (after P7 (after P6 (after P5 (after P4 (after P3 (after P2 (after P1 (after P0 (launchContents m c))))))))))))))))) e16_arg4 e16_v249 e16_v233 e16_v29 e16_v1 e16_v3 e16_v229 e16_arg0 e16_arg1 e16_arg2 e16_arg3 e16_arg5
  obtain ⟨e18_v273, e18_v289, e18_arg0, e18_arg1, e18_arg2, e18_arg3, e18_arg4, e18_arg5, e18_v29, e18_v1, e18_v3, e18_v269⟩ := piece17 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (after P16 (after P15 (after P14 (after P13 (after P12 (after P11 (after P10 (after P9 (after P8 (after P7 (after P6 (after P5 (after P4 (after P3 (after P2 (after P1 (after P0 (launchContents m c)))))))))))))))))) e17_arg4 e17_v269 e17_v253 e17_v29 e17_v1 e17_v3 e17_v249 e17_arg0 e17_arg1 e17_arg2 e17_arg3 e17_arg5
  obtain ⟨e19_v316, e19_arg0, e19_arg1, e19_arg2, e19_arg3, e19_arg4, e19_arg5⟩ := piece18 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (after P17 (after P16 (after P15 (after P14 (after P13 (after P12 (after P11 (after P10 (after P9 (after P8 (after P7 (after P6 (after P5 (after P4 (after P3 (after P2 (after P1 (after P0 (launchContents m c))))))))))))))))))) e18_arg4 e18_v289 e18_v273 e18_v29 e18_v1 e18_v3 e18_v269 e18_arg5 e18_arg0 e18_arg1 e18_arg2 e18_arg3
  exact ⟨e19_v316, e19_arg0, e19_arg1, e19_arg2, e19_arg3, e19_arg4, e19_arg5⟩

end Cert.Bridge.Ref

end
-- ==== Proof.Bridge.RefRun.lean ====
/-
  The reference program's run, its result stated through the stages.

  The reference's @main is a straight line of host operations; run from any memory with zero counters it terminates with
  every buffer at the fold of the operations' results over the launch contents.  The line is the concatenation of the
  pieces read one by one in the pieces' module, and a fold over a concatenation is the fold over the second list of the fold over
  the first; so the result buffer ends at the last stage of the reference as a function of the six arguments,
  `val_main_v316`, and the arguments, which no operation writes, keep their contents.
-/
import proofs.«145562_j85014582657503_2_alg».proof.Proof.Bridge.RefPieces
import Idealize.ShloMosaic.Lib.StableHlo.Run

noncomputable section

namespace Cert.Bridge.Ref

open Cert.ReferenceIdeal Cert.ReferenceIdeal.Gen Idealize.ShloMosaic Idealize.ShloMosaic.TcCoe Idealize.SL.Sem Idealize.ShloMosaic.StableHlo

variable {F : FTy → Type} [FloatOps F]

set_option maxHeartbeats 8000000 in
set_option maxRecDepth 8192 in
/-- The reference's 384 operations, in order (a called function's operations stand in its call's place). -/
abbrev ops : List (HloOp τ sig (Elt F)) :=
  [ unary main_arg1 main_v0 ((extractStridedSlice S1x800000 ![0, 0] · slices_S2x800000_S1x800000_0_0) : (⟨S2x800000, .i32⟩ : BufTy).Contents (Elt F) → (⟨S1x800000, .i32⟩ : BufTy).Contents (Elt F)),
    reshape main_v0 main_v1 rfl shapeCasts_S1x800000_S800000,
    unary main_arg1 main_v2 ((extractStridedSlice S1x800000 ![1, 0] · slices_S2x800000_S1x800000_1_0) : (⟨S2x800000, .i32⟩ : BufTy).Contents (Elt F) → (⟨S1x800000, .i32⟩ : BufTy).Contents (Elt F)),
    reshape main_v2 main_v3 rfl shapeCasts_S1x800000_S800000,
    nullary main_cst (constant S_ .f32 0x3F800000#32),
    unary main_cst main_v4 (broadcastInDim S800000 ![] bcast_S_S800000 : (⟨S_, .f32⟩ : BufTy).Contents (Elt F) → (⟨S800000, .f32⟩ : BufTy).Contents (Elt F)),
    nullary main_cst_0 (constant S_ .f32 0x00000000#32),
    unary main_cst_0 main_v5 (broadcastInDim S50000 ![] bcast_S_S50000 : (⟨S_, .f32⟩ : BufTy).Contents (Elt F) → (⟨S50000, .f32⟩ : BufTy).Contents (Elt F)),
    unary main_v1 main_v6 (broadcastInDim S800000x1 ![0] bcast_S800000_S800000x1_0 : (⟨S800000, .i32⟩ : BufTy).Contents (Elt F) → (⟨S800000x1, .i32⟩ : BufTy).Contents (Elt F)),
    ternary main_v5 main_v6 main_v4 main_v7 ((fun x i u => Host.scatterAdd scatter_S50000_S800000x1_S800000_n_0_0_1 x i u) : (⟨S50000, .f32⟩ : BufTy).Contents (Elt F) → (⟨S800000x1, .i32⟩ : BufTy).Contents (Elt F) → (⟨S800000, .f32⟩ : BufTy).Contents (Elt F) → (⟨S50000, .f32⟩ : BufTy).Contents (Elt F)),
    nullary main_cst_1 (constant S_ .f32 0x00000000#32),
    unary main_cst_1 main_v8 (broadcastInDim S50000 ![] bcast_S_S50000 : (⟨S_, .f32⟩ : BufTy).Contents (Elt F) → (⟨S50000, .f32⟩ : BufTy).Contents (Elt F)),
    binary main_v7 main_v8 main_v9 (cmpf .ogt : (⟨S50000, .f32⟩ : BufTy).Contents (Elt F) → (⟨S50000, .f32⟩ : BufTy).Contents (Elt F) → (⟨S50000, .i1⟩ : BufTy).Contents (Elt F)),
    nullary main_cst_2 (constant S_ .f32 0x2B8CBCCC#32),
    unary main_cst_2 main_v10 (broadcastInDim S50000 ![] bcast_S_S50000 : (⟨S_, .f32⟩ : BufTy).Contents (Elt F) → (⟨S50000, .f32⟩ : BufTy).Contents (Elt F)),
    binary main_v7 main_v10 main_v11 (maximumf : (⟨S50000, .f32⟩ : BufTy).Contents (Elt F) → (⟨S50000, .f32⟩ : BufTy).Contents (Elt F) → (⟨S50000, .f32⟩ : BufTy).Contents (Elt F)),
    unary main_v11 main_v12 (Host.rsqrt : (⟨S50000, .f32⟩ : BufTy).Contents (Elt F) → (⟨S50000, .f32⟩ : BufTy).Contents (Elt F)),
    nullary main_cst_3 (constant S_ .f32 0x00000000#32),
    TRef.unary (TRef.of (T := ⟨S_, .f32⟩) main_cst_3) (TRef.of (T := ⟨S_, .f32⟩) main_call0_v0) id,
    TRef.unary (TRef.of (T := ⟨S_, .f32⟩) main_call0_v0) (TRef.of (T := ⟨S50000, .f32⟩) main_call0_v1) (broadcastInDim S50000 ![] bcast_S_S50000),
    TRef.ternary (TRef.of (T := ⟨S50000, .i1⟩) main_v9) (TRef.of (T := ⟨S50000, .f32⟩) main_v12) (TRef.of (T := ⟨S50000, .f32⟩) main_call0_v1) (TRef.of (T := ⟨S50000, .f32⟩) main_v13) select,
    nullary main_c (constantI S_ 32 0#32),
    unary main_c main_v14 (broadcastInDim S800000 ![] bcast_S_S800000 : (⟨S_, .i32⟩ : BufTy).Contents (Elt F) → (⟨S800000, .i32⟩ : BufTy).Contents (Elt F)),
    binary main_v1 main_v14 main_v15 (cmpi .slt : (⟨S800000, .i32⟩ : BufTy).Contents (Elt F) → (⟨S800000, .i32⟩ : BufTy).Contents (Elt F) → (⟨S800000, .i1⟩ : BufTy).Contents (Elt F)),
    nullary main_c_4 (constantI S_ 32 50000#32),
    unary main_c_4 main_v16 (broadcastInDim S800000 ![] bcast_S_S800000 : (⟨S_, .i32⟩ : BufTy).Contents (Elt F) → (⟨S800000, .i32⟩ : BufTy).Contents (Elt F)),
    binary main_v1 main_v16 main_v17 (addi : (⟨S800000, .i32⟩ : BufTy).Contents (Elt F) → (⟨S800000, .i32⟩ : BufTy).Contents (Elt F) → (⟨S800000, .i32⟩ : BufTy).Contents (Elt F)),
    ternary main_v15 main_v17 main_v1 main_v18 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    unary main_v18 main_v19 (broadcastInDim S800000x1 ![0] bcast_S800000_S800000x1_0 : (⟨S800000, .i32⟩ : BufTy).Contents (Elt F) → (⟨S800000x1, .i32⟩ : BufTy).Contents (Elt F)),
    binary main_v13 main_v19 main_v20 ((fun x i => Host.gather gather_S50000_S800000x1_S800000_n_0_n_n_0_1_1 x i) : (⟨S50000, .f32⟩ : BufTy).Contents (Elt F) → (⟨S800000x1, .i32⟩ : BufTy).Contents (Elt F) → (⟨S800000, .f32⟩ : BufTy).Contents (Elt F)),
    unary main_v20 main_v21 (Host.negf : (⟨S800000, .f32⟩ : BufTy).Contents (Elt F) → (⟨S800000, .f32⟩ : BufTy).Contents (Elt F)),
    nullary main_c_5 (constantI S_ 32 0#32),
    unary main_c_5 main_v22 (broadcastInDim S800000 ![] bcast_S_S800000 : (⟨S_, .i32⟩ : BufTy).Contents (Elt F) → (⟨S800000, .i32⟩ : BufTy).Contents (Elt F)),
    binary main_v3 main_v22 main_v23 (cmpi .slt : (⟨S800000, .i32⟩ : BufTy).Contents (Elt F) → (⟨S800000, .i32⟩ : BufTy).Contents (Elt F) → (⟨S800000, .i1⟩ : BufTy).Contents (Elt F)),
    nullary main_c_6 (constantI S_ 32 50000#32),
    unary main_c_6 main_v24 (broadcastInDim S800000 ![] bcast_S_S800000 : (⟨S_, .i32⟩ : BufTy).Contents (Elt F) → (⟨S800000, .i32⟩ : BufTy).Contents (Elt F)),
    binary main_v3 main_v24 main_v25 (addi : (⟨S800000, .i32⟩ : BufTy).Contents (Elt F) → (⟨S800000, .i32⟩ : BufTy).Contents (Elt F) → (⟨S800000, .i32⟩ : BufTy).Contents (Elt F)),
    ternary main_v23 main_v25 main_v3 main_v26 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    unary main_v26 main_v27 (broadcastInDim S800000x1 ![0] bcast_S800000_S800000x1_0 : (⟨S800000, .i32⟩ : BufTy).Contents (Elt F) → (⟨S800000x1, .i32⟩ : BufTy).Contents (Elt F)),
    binary main_v13 main_v27 main_v28 ((fun x i => Host.gather gather_S50000_S800000x1_S800000_n_0_n_n_0_1_1 x i) : (⟨S50000, .f32⟩ : BufTy).Contents (Elt F) → (⟨S800000x1, .i32⟩ : BufTy).Contents (Elt F) → (⟨S800000, .f32⟩ : BufTy).Contents (Elt F)),
    binary main_v21 main_v28 main_v29 (mulf : (⟨S800000, .f32⟩ : BufTy).Contents (Elt F) → (⟨S800000, .f32⟩ : BufTy).Contents (Elt F) → (⟨S800000, .f32⟩ : BufTy).Contents (Elt F)),
    unary main_arg2 main_v30 ((extractStridedSlice S1x64x64 ![0, 0, 0] · slices_S8x64x64_S1x64x64_0_0_0) : (⟨S8x64x64, .f32⟩ : BufTy).Contents (Elt F) → (⟨S1x64x64, .f32⟩ : BufTy).Contents (Elt F)),
    reshape main_v30 main_v31 rfl shapeCasts_S1x64x64_S64x64,
    binary main_arg0 main_v31 main_v32 ((fun l r => Host.dotGeneral dot_S50000x64_S64x64_S50000x64_1_0_0_1_n_n none l r) : (⟨S50000x64, .f32⟩ : BufTy).Contents (Elt F) → (⟨S64x64, .f32⟩ : BufTy).Contents (Elt F) → (⟨S50000x64, .f32⟩ : BufTy).Contents (Elt F)),
    unary main_v29 main_v33 (broadcastInDim S800000x1 ![0] bcast_S800000_S800000x1_0 : (⟨S800000, .f32⟩ : BufTy).Contents (Elt F) → (⟨S800000x1, .f32⟩ : BufTy).Contents (Elt F)),
    nullary main_c_7 (constantI S_ 32 0#32),
    unary main_c_7 main_v34 (broadcastInDim S800000 ![] bcast_S_S800000 : (⟨S_, .i32⟩ : BufTy).Contents (Elt F) → (⟨S800000, .i32⟩ : BufTy).Contents (Elt F)),
    binary main_v1 main_v34 main_v35 (cmpi .slt : (⟨S800000, .i32⟩ : BufTy).Contents (Elt F) → (⟨S800000, .i32⟩ : BufTy).Contents (Elt F) → (⟨S800000, .i1⟩ : BufTy).Contents (Elt F)),
    nullary main_c_8 (constantI S_ 32 50000#32),
    unary main_c_8 main_v36 (broadcastInDim S800000 ![] bcast_S_S800000 : (⟨S_, .i32⟩ : BufTy).Contents (Elt F) → (⟨S800000, .i32⟩ : BufTy).Contents (Elt F)),
    binary main_v1 main_v36 main_v37 (addi : (⟨S800000, .i32⟩ : BufTy).Contents (Elt F) → (⟨S800000, .i32⟩ : BufTy).Contents (Elt F) → (⟨S800000, .i32⟩ : BufTy).Contents (Elt F)),
    ternary main_v35 main_v37 main_v1 main_v38 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    unary main_v38 main_v39 (broadcastInDim S800000x1 ![0] bcast_S800000_S800000x1_0 : (⟨S800000, .i32⟩ : BufTy).Contents (Elt F) → (⟨S800000x1, .i32⟩ : BufTy).Contents (Elt F)),
    binary main_arg0 main_v39 main_v40 ((fun x i => Host.gather gather_S50000x64_S800000x1_S800000x64_1_0_n_n_0_1_164 x i) : (⟨S50000x64, .f32⟩ : BufTy).Contents (Elt F) → (⟨S800000x1, .i32⟩ : BufTy).Contents (Elt F) → (⟨S800000x64, .f32⟩ : BufTy).Contents (Elt F)),
    unary main_v33 main_v41 (broadcastInDim S800000x64 ![0, 1] bcast_S800000x1_S800000x64_0_1 : (⟨S800000x1, .f32⟩ : BufTy).Contents (Elt F) → (⟨S800000x64, .f32⟩ : BufTy).Contents (Elt F)),
    binary main_v41 main_v40 main_v42 (mulf : (⟨S800000x64, .f32⟩ : BufTy).Contents (Elt F) → (⟨S800000x64, .f32⟩ : BufTy).Contents (Elt F) → (⟨S800000x64, .f32⟩ : BufTy).Contents (Elt F)),
    nullary main_cst_9 (constant S_ .f32 0x00000000#32),
    unary main_cst_9 main_v43 (broadcastInDim S50000x64 ![] bcast_S_S50000x64 : (⟨S_, .f32⟩ : BufTy).Contents (Elt F) → (⟨S50000x64, .f32⟩ : BufTy).Contents (Elt F)),
    unary main_v3 main_v44 (broadcastInDim S800000x1 ![0] bcast_S800000_S800000x1_0 : (⟨S800000, .i32⟩ : BufTy).Contents (Elt F) → (⟨S800000x1, .i32⟩ : BufTy).Contents (Elt F)),
    ternary main_v43 main_v44 main_v42 main_v45 ((fun x i u => Host.scatterAdd scatter_S50000x64_S800000x1_S800000x64_1_0_0_1 x i u) : (⟨S50000x64, .f32⟩ : BufTy).Contents (Elt F) → (⟨S800000x1, .i32⟩ : BufTy).Contents (Elt F) → (⟨S800000x64, .f32⟩ : BufTy).Contents (Elt F) → (⟨S50000x64, .f32⟩ : BufTy).Contents (Elt F)),
    unary main_arg2 main_v46 ((extractStridedSlice S1x64x64 ![1, 0, 0] · slices_S8x64x64_S1x64x64_1_0_0) : (⟨S8x64x64, .f32⟩ : BufTy).Contents (Elt F) → (⟨S1x64x64, .f32⟩ : BufTy).Contents (Elt F)),
    reshape main_v46 main_v47 rfl shapeCasts_S1x64x64_S64x64,
    binary main_v45 main_v47 main_v48 ((fun l r => Host.dotGeneral dot_S50000x64_S64x64_S50000x64_1_0_0_1_n_n none l r) : (⟨S50000x64, .f32⟩ : BufTy).Contents (Elt F) → (⟨S64x64, .f32⟩ : BufTy).Contents (Elt F) → (⟨S50000x64, .f32⟩ : BufTy).Contents (Elt F)),
    binary main_v32 main_v48 main_v49 (addf : (⟨S50000x64, .f32⟩ : BufTy).Contents (Elt F) → (⟨S50000x64, .f32⟩ : BufTy).Contents (Elt F) → (⟨S50000x64, .f32⟩ : BufTy).Contents (Elt F)),
    unary main_v29 main_v50 (broadcastInDim S800000x1 ![0] bcast_S800000_S800000x1_0 : (⟨S800000, .f32⟩ : BufTy).Contents (Elt F) → (⟨S800000x1, .f32⟩ : BufTy).Contents (Elt F)),
    nullary main_c_10 (constantI S_ 32 0#32),
    unary main_c_10 main_v51 (broadcastInDim S800000 ![] bcast_S_S800000 : (⟨S_, .i32⟩ : BufTy).Contents (Elt F) → (⟨S800000, .i32⟩ : BufTy).Contents (Elt F)),
    binary main_v1 main_v51 main_v52 (cmpi .slt : (⟨S800000, .i32⟩ : BufTy).Contents (Elt F) → (⟨S800000, .i32⟩ : BufTy).Contents (Elt F) → (⟨S800000, .i1⟩ : BufTy).Contents (Elt F)),
    nullary main_c_11 (constantI S_ 32 50000#32),
    unary main_c_11 main_v53 (broadcastInDim S800000 ![] bcast_S_S800000 : (⟨S_, .i32⟩ : BufTy).Contents (Elt F) → (⟨S800000, .i32⟩ : BufTy).Contents (Elt F)),
    binary main_v1 main_v53 main_v54 (addi : (⟨S800000, .i32⟩ : BufTy).Contents (Elt F) → (⟨S800000, .i32⟩ : BufTy).Contents (Elt F) → (⟨S800000, .i32⟩ : BufTy).Contents (Elt F)),
    ternary main_v52 main_v54 main_v1 main_v55 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    unary main_v55 main_v56 (broadcastInDim S800000x1 ![0] bcast_S800000_S800000x1_0 : (⟨S800000, .i32⟩ : BufTy).Contents (Elt F) → (⟨S800000x1, .i32⟩ : BufTy).Contents (Elt F)),
    binary main_v45 main_v56 main_v57 ((fun x i => Host.gather gather_S50000x64_S800000x1_S800000x64_1_0_n_n_0_1_164 x i) : (⟨S50000x64, .f32⟩ : BufTy).Contents (Elt F) → (⟨S800000x1, .i32⟩ : BufTy).Contents (Elt F) → (⟨S800000x64, .f32⟩ : BufTy).Contents (Elt F)),
    unary main_v50 main_v58 (broadcastInDim S800000x64 ![0, 1] bcast_S800000x1_S800000x64_0_1 : (⟨S800000x1, .f32⟩ : BufTy).Contents (Elt F) → (⟨S800000x64, .f32⟩ : BufTy).Contents (Elt F)),
    binary main_v58 main_v57 main_v59 (mulf : (⟨S800000x64, .f32⟩ : BufTy).Contents (Elt F) → (⟨S800000x64, .f32⟩ : BufTy).Contents (Elt F) → (⟨S800000x64, .f32⟩ : BufTy).Contents (Elt F)),
    nullary main_cst_12 (constant S_ .f32 0x00000000#32),
    unary main_cst_12 main_v60 (broadcastInDim S50000x64 ![] bcast_S_S50000x64 : (⟨S_, .f32⟩ : BufTy).Contents (Elt F) → (⟨S50000x64, .f32⟩ : BufTy).Contents (Elt F)),
    unary main_v3 main_v61 (broadcastInDim S800000x1 ![0] bcast_S800000_S800000x1_0 : (⟨S800000, .i32⟩ : BufTy).Contents (Elt F) → (⟨S800000x1, .i32⟩ : BufTy).Contents (Elt F)),
    ternary main_v60 main_v61 main_v59 main_v62 ((fun x i u => Host.scatterAdd scatter_S50000x64_S800000x1_S800000x64_1_0_0_1 x i u) : (⟨S50000x64, .f32⟩ : BufTy).Contents (Elt F) → (⟨S800000x1, .i32⟩ : BufTy).Contents (Elt F) → (⟨S800000x64, .f32⟩ : BufTy).Contents (Elt F) → (⟨S50000x64, .f32⟩ : BufTy).Contents (Elt F)),
    nullary main_cst_13 (constant S_ .f32 0x40000000#32),
    unary main_cst_13 main_v63 (broadcastInDim S50000x64 ![] bcast_S_S50000x64 : (⟨S_, .f32⟩ : BufTy).Contents (Elt F) → (⟨S50000x64, .f32⟩ : BufTy).Contents (Elt F)),
    binary main_v63 main_v62 main_v64 (mulf : (⟨S50000x64, .f32⟩ : BufTy).Contents (Elt F) → (⟨S50000x64, .f32⟩ : BufTy).Contents (Elt F) → (⟨S50000x64, .f32⟩ : BufTy).Contents (Elt F)),
    binary main_v64 main_arg0 main_v65 (subf : (⟨S50000x64, .f32⟩ : BufTy).Contents (Elt F) → (⟨S50000x64, .f32⟩ : BufTy).Contents (Elt F) → (⟨S50000x64, .f32⟩ : BufTy).Contents (Elt F)),
    unary main_arg2 main_v66 ((extractStridedSlice S1x64x64 ![2, 0, 0] · slices_S8x64x64_S1x64x64_2_0_0) : (⟨S8x64x64, .f32⟩ : BufTy).Contents (Elt F) → (⟨S1x64x64, .f32⟩ : BufTy).Contents (Elt F)),
    reshape main_v66 main_v67 rfl shapeCasts_S1x64x64_S64x64,
    binary main_v65 main_v67 main_v68 ((fun l r => Host.dotGeneral dot_S50000x64_S64x64_S50000x64_1_0_0_1_n_n none l r) : (⟨S50000x64, .f32⟩ : BufTy).Contents (Elt F) → (⟨S64x64, .f32⟩ : BufTy).Contents (Elt F) → (⟨S50000x64, .f32⟩ : BufTy).Contents (Elt F)),
    binary main_v49 main_v68 main_v69 (addf : (⟨S50000x64, .f32⟩ : BufTy).Contents (Elt F) → (⟨S50000x64, .f32⟩ : BufTy).Contents (Elt F) → (⟨S50000x64, .f32⟩ : BufTy).Contents (Elt F)),
    unary main_v29 main_v70 (broadcastInDim S800000x1 ![0] bcast_S800000_S800000x1_0 : (⟨S800000, .f32⟩ : BufTy).Contents (Elt F) → (⟨S800000x1, .f32⟩ : BufTy).Contents (Elt F)),
    nullary main_c_14 (constantI S_ 32 0#32),
    unary main_c_14 main_v71 (broadcastInDim S800000 ![] bcast_S_S800000 : (⟨S_, .i32⟩ : BufTy).Contents (Elt F) → (⟨S800000, .i32⟩ : BufTy).Contents (Elt F)),
    binary main_v1 main_v71 main_v72 (cmpi .slt : (⟨S800000, .i32⟩ : BufTy).Contents (Elt F) → (⟨S800000, .i32⟩ : BufTy).Contents (Elt F) → (⟨S800000, .i1⟩ : BufTy).Contents (Elt F)),
    nullary main_c_15 (constantI S_ 32 50000#32),
    unary main_c_15 main_v73 (broadcastInDim S800000 ![] bcast_S_S800000 : (⟨S_, .i32⟩ : BufTy).Contents (Elt F) → (⟨S800000, .i32⟩ : BufTy).Contents (Elt F)),
    binary main_v1 main_v73 main_v74 (addi : (⟨S800000, .i32⟩ : BufTy).Contents (Elt F) → (⟨S800000, .i32⟩ : BufTy).Contents (Elt F) → (⟨S800000, .i32⟩ : BufTy).Contents (Elt F)),
    ternary main_v72 main_v74 main_v1 main_v75 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    unary main_v75 main_v76 (broadcastInDim S800000x1 ![0] bcast_S800000_S800000x1_0 : (⟨S800000, .i32⟩ : BufTy).Contents (Elt F) → (⟨S800000x1, .i32⟩ : BufTy).Contents (Elt F)),
    binary main_v65 main_v76 main_v77 ((fun x i => Host.gather gather_S50000x64_S800000x1_S800000x64_1_0_n_n_0_1_164 x i) : (⟨S50000x64, .f32⟩ : BufTy).Contents (Elt F) → (⟨S800000x1, .i32⟩ : BufTy).Contents (Elt F) → (⟨S800000x64, .f32⟩ : BufTy).Contents (Elt F)),
    unary main_v70 main_v78 (broadcastInDim S800000x64 ![0, 1] bcast_S800000x1_S800000x64_0_1 : (⟨S800000x1, .f32⟩ : BufTy).Contents (Elt F) → (⟨S800000x64, .f32⟩ : BufTy).Contents (Elt F)),
    binary main_v78 main_v77 main_v79 (mulf : (⟨S800000x64, .f32⟩ : BufTy).Contents (Elt F) → (⟨S800000x64, .f32⟩ : BufTy).Contents (Elt F) → (⟨S800000x64, .f32⟩ : BufTy).Contents (Elt F)),
    nullary main_cst_16 (constant S_ .f32 0x00000000#32),
    unary main_cst_16 main_v80 (broadcastInDim S50000x64 ![] bcast_S_S50000x64 : (⟨S_, .f32⟩ : BufTy).Contents (Elt F) → (⟨S50000x64, .f32⟩ : BufTy).Contents (Elt F)),
    unary main_v3 main_v81 (broadcastInDim S800000x1 ![0] bcast_S800000_S800000x1_0 : (⟨S800000, .i32⟩ : BufTy).Contents (Elt F) → (⟨S800000x1, .i32⟩ : BufTy).Contents (Elt F)),
    ternary main_v80 main_v81 main_v79 main_v82 ((fun x i u => Host.scatterAdd scatter_S50000x64_S800000x1_S800000x64_1_0_0_1 x i u) : (⟨S50000x64, .f32⟩ : BufTy).Contents (Elt F) → (⟨S800000x1, .i32⟩ : BufTy).Contents (Elt F) → (⟨S800000x64, .f32⟩ : BufTy).Contents (Elt F) → (⟨S50000x64, .f32⟩ : BufTy).Contents (Elt F)),
    nullary main_cst_17 (constant S_ .f32 0x40000000#32),
    unary main_cst_17 main_v83 (broadcastInDim S50000x64 ![] bcast_S_S50000x64 : (⟨S_, .f32⟩ : BufTy).Contents (Elt F) → (⟨S50000x64, .f32⟩ : BufTy).Contents (Elt F)),
    binary main_v83 main_v82 main_v84 (mulf : (⟨S50000x64, .f32⟩ : BufTy).Contents (Elt F) → (⟨S50000x64, .f32⟩ : BufTy).Contents (Elt F) → (⟨S50000x64, .f32⟩ : BufTy).Contents (Elt F)),
    binary main_v84 main_v45 main_v85 (subf : (⟨S50000x64, .f32⟩ : BufTy).Contents (Elt F) → (⟨S50000x64, .f32⟩ : BufTy).Contents (Elt F) → (⟨S50000x64, .f32⟩ : BufTy).Contents (Elt F)),
    unary main_arg2 main_v86 ((extractStridedSlice S1x64x64 ![3, 0, 0] · slices_S8x64x64_S1x64x64_3_0_0) : (⟨S8x64x64, .f32⟩ : BufTy).Contents (Elt F) → (⟨S1x64x64, .f32⟩ : BufTy).Contents (Elt F)),
    reshape main_v86 main_v87 rfl shapeCasts_S1x64x64_S64x64,
    binary main_v85 main_v87 main_v88 ((fun l r => Host.dotGeneral dot_S50000x64_S64x64_S50000x64_1_0_0_1_n_n none l r) : (⟨S50000x64, .f32⟩ : BufTy).Contents (Elt F) → (⟨S64x64, .f32⟩ : BufTy).Contents (Elt F) → (⟨S50000x64, .f32⟩ : BufTy).Contents (Elt F)),
    binary main_v69 main_v88 main_v89 (addf : (⟨S50000x64, .f32⟩ : BufTy).Contents (Elt F) → (⟨S50000x64, .f32⟩ : BufTy).Contents (Elt F) → (⟨S50000x64, .f32⟩ : BufTy).Contents (Elt F)),
    unary main_v29 main_v90 (broadcastInDim S800000x1 ![0] bcast_S800000_S800000x1_0 : (⟨S800000, .f32⟩ : BufTy).Contents (Elt F) → (⟨S800000x1, .f32⟩ : BufTy).Contents (Elt F)),
    nullary main_c_18 (constantI S_ 32 0#32),
    unary main_c_18 main_v91 (broadcastInDim S800000 ![] bcast_S_S800000 : (⟨S_, .i32⟩ : BufTy).Contents (Elt F) → (⟨S800000, .i32⟩ : BufTy).Contents (Elt F)),
    binary main_v1 main_v91 main_v92 (cmpi .slt : (⟨S800000, .i32⟩ : BufTy).Contents (Elt F) → (⟨S800000, .i32⟩ : BufTy).Contents (Elt F) → (⟨S800000, .i1⟩ : BufTy).Contents (Elt F)),
    nullary main_c_19 (constantI S_ 32 50000#32),
    unary main_c_19 main_v93 (broadcastInDim S800000 ![] bcast_S_S800000 : (⟨S_, .i32⟩ : BufTy).Contents (Elt F) → (⟨S800000, .i32⟩ : BufTy).Contents (Elt F)),
    binary main_v1 main_v93 main_v94 (addi : (⟨S800000, .i32⟩ : BufTy).Contents (Elt F) → (⟨S800000, .i32⟩ : BufTy).Contents (Elt F) → (⟨S800000, .i32⟩ : BufTy).Contents (Elt F)),
    ternary main_v92 main_v94 main_v1 main_v95 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    unary main_v95 main_v96 (broadcastInDim S800000x1 ![0] bcast_S800000_S800000x1_0 : (⟨S800000, .i32⟩ : BufTy).Contents (Elt F) → (⟨S800000x1, .i32⟩ : BufTy).Contents (Elt F)),
    binary main_v85 main_v96 main_v97 ((fun x i => Host.gather gather_S50000x64_S800000x1_S800000x64_1_0_n_n_0_1_164 x i) : (⟨S50000x64, .f32⟩ : BufTy).Contents (Elt F) → (⟨S800000x1, .i32⟩ : BufTy).Contents (Elt F) → (⟨S800000x64, .f32⟩ : BufTy).Contents (Elt F)),
    unary main_v90 main_v98 (broadcastInDim S800000x64 ![0, 1] bcast_S800000x1_S800000x64_0_1 : (⟨S800000x1, .f32⟩ : BufTy).Contents (Elt F) → (⟨S800000x64, .f32⟩ : BufTy).Contents (Elt F)),
    binary main_v98 main_v97 main_v99 (mulf : (⟨S800000x64, .f32⟩ : BufTy).Contents (Elt F) → (⟨S800000x64, .f32⟩ : BufTy).Contents (Elt F) → (⟨S800000x64, .f32⟩ : BufTy).Contents (Elt F)),
    nullary main_cst_20 (constant S_ .f32 0x00000000#32),
    unary main_cst_20 main_v100 (broadcastInDim S50000x64 ![] bcast_S_S50000x64 : (⟨S_, .f32⟩ : BufTy).Contents (Elt F) → (⟨S50000x64, .f32⟩ : BufTy).Contents (Elt F)),
    unary main_v3 main_v101 (broadcastInDim S800000x1 ![0] bcast_S800000_S800000x1_0 : (⟨S800000, .i32⟩ : BufTy).Contents (Elt F) → (⟨S800000x1, .i32⟩ : BufTy).Contents (Elt F)),
    ternary main_v100 main_v101 main_v99 main_v102 ((fun x i u => Host.scatterAdd scatter_S50000x64_S800000x1_S800000x64_1_0_0_1 x i u) : (⟨S50000x64, .f32⟩ : BufTy).Contents (Elt F) → (⟨S800000x1, .i32⟩ : BufTy).Contents (Elt F) → (⟨S800000x64, .f32⟩ : BufTy).Contents (Elt F) → (⟨S50000x64, .f32⟩ : BufTy).Contents (Elt F)),
    nullary main_cst_21 (constant S_ .f32 0x40000000#32),
    unary main_cst_21 main_v103 (broadcastInDim S50000x64 ![] bcast_S_S50000x64 : (⟨S_, .f32⟩ : BufTy).Contents (Elt F) → (⟨S50000x64, .f32⟩ : BufTy).Contents (Elt F)),
    binary main_v103 main_v102 main_v104 (mulf : (⟨S50000x64, .f32⟩ : BufTy).Contents (Elt F) → (⟨S50000x64, .f32⟩ : BufTy).Contents (Elt F) → (⟨S50000x64, .f32⟩ : BufTy).Contents (Elt F)),
    binary main_v104 main_v65 main_v105 (subf : (⟨S50000x64, .f32⟩ : BufTy).Contents (Elt F) → (⟨S50000x64, .f32⟩ : BufTy).Contents (Elt F) → (⟨S50000x64, .f32⟩ : BufTy).Contents (Elt F)),
    unary main_arg2 main_v106 ((extractStridedSlice S1x64x64 ![4, 0, 0] · slices_S8x64x64_S1x64x64_4_0_0) : (⟨S8x64x64, .f32⟩ : BufTy).Contents (Elt F) → (⟨S1x64x64, .f32⟩ : BufTy).Contents (Elt F)),
    reshape main_v106 main_v107 rfl shapeCasts_S1x64x64_S64x64,
    binary main_v105 main_v107 main_v108 ((fun l r => Host.dotGeneral dot_S50000x64_S64x64_S50000x64_1_0_0_1_n_n none l r) : (⟨S50000x64, .f32⟩ : BufTy).Contents (Elt F) → (⟨S64x64, .f32⟩ : BufTy).Contents (Elt F) → (⟨S50000x64, .f32⟩ : BufTy).Contents (Elt F)),
    binary main_v89 main_v108 main_v109 (addf : (⟨S50000x64, .f32⟩ : BufTy).Contents (Elt F) → (⟨S50000x64, .f32⟩ : BufTy).Contents (Elt F) → (⟨S50000x64, .f32⟩ : BufTy).Contents (Elt F)),
    unary main_v29 main_v110 (broadcastInDim S800000x1 ![0] bcast_S800000_S800000x1_0 : (⟨S800000, .f32⟩ : BufTy).Contents (Elt F) → (⟨S800000x1, .f32⟩ : BufTy).Contents (Elt F)),
    nullary main_c_22 (constantI S_ 32 0#32),
    unary main_c_22 main_v111 (broadcastInDim S800000 ![] bcast_S_S800000 : (⟨S_, .i32⟩ : BufTy).Contents (Elt F) → (⟨S800000, .i32⟩ : BufTy).Contents (Elt F)),
    binary main_v1 main_v111 main_v112 (cmpi .slt : (⟨S800000, .i32⟩ : BufTy).Contents (Elt F) → (⟨S800000, .i32⟩ : BufTy).Contents (Elt F) → (⟨S800000, .i1⟩ : BufTy).Contents (Elt F)),
    nullary main_c_23 (constantI S_ 32 50000#32),
    unary main_c_23 main_v113 (broadcastInDim S800000 ![] bcast_S_S800000 : (⟨S_, .i32⟩ : BufTy).Contents (Elt F) → (⟨S800000, .i32⟩ : BufTy).Contents (Elt F)),
    binary main_v1 main_v113 main_v114 (addi : (⟨S800000, .i32⟩ : BufTy).Contents (Elt F) → (⟨S800000, .i32⟩ : BufTy).Contents (Elt F) → (⟨S800000, .i32⟩ : BufTy).Contents (Elt F)),
    ternary main_v112 main_v114 main_v1 main_v115 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    unary main_v115 main_v116 (broadcastInDim S800000x1 ![0] bcast_S800000_S800000x1_0 : (⟨S800000, .i32⟩ : BufTy).Contents (Elt F) → (⟨S800000x1, .i32⟩ : BufTy).Contents (Elt F)),
    binary main_v105 main_v116 main_v117 ((fun x i => Host.gather gather_S50000x64_S800000x1_S800000x64_1_0_n_n_0_1_164 x i) : (⟨S50000x64, .f32⟩ : BufTy).Contents (Elt F) → (⟨S800000x1, .i32⟩ : BufTy).Contents (Elt F) → (⟨S800000x64, .f32⟩ : BufTy).Contents (Elt F)),
    unary main_v110 main_v118 (broadcastInDim S800000x64 ![0, 1] bcast_S800000x1_S800000x64_0_1 : (⟨S800000x1, .f32⟩ : BufTy).Contents (Elt F) → (⟨S800000x64, .f32⟩ : BufTy).Contents (Elt F)),
    binary main_v118 main_v117 main_v119 (mulf : (⟨S800000x64, .f32⟩ : BufTy).Contents (Elt F) → (⟨S800000x64, .f32⟩ : BufTy).Contents (Elt F) → (⟨S800000x64, .f32⟩ : BufTy).Contents (Elt F)),
    nullary main_cst_24 (constant S_ .f32 0x00000000#32),
    unary main_cst_24 main_v120 (broadcastInDim S50000x64 ![] bcast_S_S50000x64 : (⟨S_, .f32⟩ : BufTy).Contents (Elt F) → (⟨S50000x64, .f32⟩ : BufTy).Contents (Elt F)),
    unary main_v3 main_v121 (broadcastInDim S800000x1 ![0] bcast_S800000_S800000x1_0 : (⟨S800000, .i32⟩ : BufTy).Contents (Elt F) → (⟨S800000x1, .i32⟩ : BufTy).Contents (Elt F)),
    ternary main_v120 main_v121 main_v119 main_v122 ((fun x i u => Host.scatterAdd scatter_S50000x64_S800000x1_S800000x64_1_0_0_1 x i u) : (⟨S50000x64, .f32⟩ : BufTy).Contents (Elt F) → (⟨S800000x1, .i32⟩ : BufTy).Contents (Elt F) → (⟨S800000x64, .f32⟩ : BufTy).Contents (Elt F) → (⟨S50000x64, .f32⟩ : BufTy).Contents (Elt F)),
    nullary main_cst_25 (constant S_ .f32 0x40000000#32),
    unary main_cst_25 main_v123 (broadcastInDim S50000x64 ![] bcast_S_S50000x64 : (⟨S_, .f32⟩ : BufTy).Contents (Elt F) → (⟨S50000x64, .f32⟩ : BufTy).Contents (Elt F)),
    binary main_v123 main_v122 main_v124 (mulf : (⟨S50000x64, .f32⟩ : BufTy).Contents (Elt F) → (⟨S50000x64, .f32⟩ : BufTy).Contents (Elt F) → (⟨S50000x64, .f32⟩ : BufTy).Contents (Elt F)),
    binary main_v124 main_v85 main_v125 (subf : (⟨S50000x64, .f32⟩ : BufTy).Contents (Elt F) → (⟨S50000x64, .f32⟩ : BufTy).Contents (Elt F) → (⟨S50000x64, .f32⟩ : BufTy).Contents (Elt F)),
    unary main_arg2 main_v126 ((extractStridedSlice S1x64x64 ![5, 0, 0] · slices_S8x64x64_S1x64x64_5_0_0) : (⟨S8x64x64, .f32⟩ : BufTy).Contents (Elt F) → (⟨S1x64x64, .f32⟩ : BufTy).Contents (Elt F)),
    reshape main_v126 main_v127 rfl shapeCasts_S1x64x64_S64x64,
    binary main_v125 main_v127 main_v128 ((fun l r => Host.dotGeneral dot_S50000x64_S64x64_S50000x64_1_0_0_1_n_n none l r) : (⟨S50000x64, .f32⟩ : BufTy).Contents (Elt F) → (⟨S64x64, .f32⟩ : BufTy).Contents (Elt F) → (⟨S50000x64, .f32⟩ : BufTy).Contents (Elt F)),
    binary main_v109 main_v128 main_v129 (addf : (⟨S50000x64, .f32⟩ : BufTy).Contents (Elt F) → (⟨S50000x64, .f32⟩ : BufTy).Contents (Elt F) → (⟨S50000x64, .f32⟩ : BufTy).Contents (Elt F)),
    unary main_v29 main_v130 (broadcastInDim S800000x1 ![0] bcast_S800000_S800000x1_0 : (⟨S800000, .f32⟩ : BufTy).Contents (Elt F) → (⟨S800000x1, .f32⟩ : BufTy).Contents (Elt F)),
    nullary main_c_26 (constantI S_ 32 0#32),
    unary main_c_26 main_v131 (broadcastInDim S800000 ![] bcast_S_S800000 : (⟨S_, .i32⟩ : BufTy).Contents (Elt F) → (⟨S800000, .i32⟩ : BufTy).Contents (Elt F)),
    binary main_v1 main_v131 main_v132 (cmpi .slt : (⟨S800000, .i32⟩ : BufTy).Contents (Elt F) → (⟨S800000, .i32⟩ : BufTy).Contents (Elt F) → (⟨S800000, .i1⟩ : BufTy).Contents (Elt F)),
    nullary main_c_27 (constantI S_ 32 50000#32),
    unary main_c_27 main_v133 (broadcastInDim S800000 ![] bcast_S_S800000 : (⟨S_, .i32⟩ : BufTy).Contents (Elt F) → (⟨S800000, .i32⟩ : BufTy).Contents (Elt F)),
    binary main_v1 main_v133 main_v134 (addi : (⟨S800000, .i32⟩ : BufTy).Contents (Elt F) → (⟨S800000, .i32⟩ : BufTy).Contents (Elt F) → (⟨S800000, .i32⟩ : BufTy).Contents (Elt F)),
    ternary main_v132 main_v134 main_v1 main_v135 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    unary main_v135 main_v136 (broadcastInDim S800000x1 ![0] bcast_S800000_S800000x1_0 : (⟨S800000, .i32⟩ : BufTy).Contents (Elt F) → (⟨S800000x1, .i32⟩ : BufTy).Contents (Elt F)),
    binary main_v125 main_v136 main_v137 ((fun x i => Host.gather gather_S50000x64_S800000x1_S800000x64_1_0_n_n_0_1_164 x i) : (⟨S50000x64, .f32⟩ : BufTy).Contents (Elt F) → (⟨S800000x1, .i32⟩ : BufTy).Contents (Elt F) → (⟨S800000x64, .f32⟩ : BufTy).Contents (Elt F)),
    unary main_v130 main_v138 (broadcastInDim S800000x64 ![0, 1] bcast_S800000x1_S800000x64_0_1 : (⟨S800000x1, .f32⟩ : BufTy).Contents (Elt F) → (⟨S800000x64, .f32⟩ : BufTy).Contents (Elt F)),
    binary main_v138 main_v137 main_v139 (mulf : (⟨S800000x64, .f32⟩ : BufTy).Contents (Elt F) → (⟨S800000x64, .f32⟩ : BufTy).Contents (Elt F) → (⟨S800000x64, .f32⟩ : BufTy).Contents (Elt F)),
    nullary main_cst_28 (constant S_ .f32 0x00000000#32),
    unary main_cst_28 main_v140 (broadcastInDim S50000x64 ![] bcast_S_S50000x64 : (⟨S_, .f32⟩ : BufTy).Contents (Elt F) → (⟨S50000x64, .f32⟩ : BufTy).Contents (Elt F)),
    unary main_v3 main_v141 (broadcastInDim S800000x1 ![0] bcast_S800000_S800000x1_0 : (⟨S800000, .i32⟩ : BufTy).Contents (Elt F) → (⟨S800000x1, .i32⟩ : BufTy).Contents (Elt F)),
    ternary main_v140 main_v141 main_v139 main_v142 ((fun x i u => Host.scatterAdd scatter_S50000x64_S800000x1_S800000x64_1_0_0_1 x i u) : (⟨S50000x64, .f32⟩ : BufTy).Contents (Elt F) → (⟨S800000x1, .i32⟩ : BufTy).Contents (Elt F) → (⟨S800000x64, .f32⟩ : BufTy).Contents (Elt F) → (⟨S50000x64, .f32⟩ : BufTy).Contents (Elt F)),
    nullary main_cst_29 (constant S_ .f32 0x40000000#32),
    unary main_cst_29 main_v143 (broadcastInDim S50000x64 ![] bcast_S_S50000x64 : (⟨S_, .f32⟩ : BufTy).Contents (Elt F) → (⟨S50000x64, .f32⟩ : BufTy).Contents (Elt F)),
    binary main_v143 main_v142 main_v144 (mulf : (⟨S50000x64, .f32⟩ : BufTy).Contents (Elt F) → (⟨S50000x64, .f32⟩ : BufTy).Contents (Elt F) → (⟨S50000x64, .f32⟩ : BufTy).Contents (Elt F)),
    binary main_v144 main_v105 main_v145 (subf : (⟨S50000x64, .f32⟩ : BufTy).Contents (Elt F) → (⟨S50000x64, .f32⟩ : BufTy).Contents (Elt F) → (⟨S50000x64, .f32⟩ : BufTy).Contents (Elt F)),
    unary main_arg2 main_v146 ((extractStridedSlice S1x64x64 ![6, 0, 0] · slices_S8x64x64_S1x64x64_6_0_0) : (⟨S8x64x64, .f32⟩ : BufTy).Contents (Elt F) → (⟨S1x64x64, .f32⟩ : BufTy).Contents (Elt F)),
    reshape main_v146 main_v147 rfl shapeCasts_S1x64x64_S64x64,
    binary main_v145 main_v147 main_v148 ((fun l r => Host.dotGeneral dot_S50000x64_S64x64_S50000x64_1_0_0_1_n_n none l r) : (⟨S50000x64, .f32⟩ : BufTy).Contents (Elt F) → (⟨S64x64, .f32⟩ : BufTy).Contents (Elt F) → (⟨S50000x64, .f32⟩ : BufTy).Contents (Elt F)),
    binary main_v129 main_v148 main_v149 (addf : (⟨S50000x64, .f32⟩ : BufTy).Contents (Elt F) → (⟨S50000x64, .f32⟩ : BufTy).Contents (Elt F) → (⟨S50000x64, .f32⟩ : BufTy).Contents (Elt F)),
    unary main_v29 main_v150 (broadcastInDim S800000x1 ![0] bcast_S800000_S800000x1_0 : (⟨S800000, .f32⟩ : BufTy).Contents (Elt F) → (⟨S800000x1, .f32⟩ : BufTy).Contents (Elt F)),
    nullary main_c_30 (constantI S_ 32 0#32),
    unary main_c_30 main_v151 (broadcastInDim S800000 ![] bcast_S_S800000 : (⟨S_, .i32⟩ : BufTy).Contents (Elt F) → (⟨S800000, .i32⟩ : BufTy).Contents (Elt F)),
    binary main_v1 main_v151 main_v152 (cmpi .slt : (⟨S800000, .i32⟩ : BufTy).Contents (Elt F) → (⟨S800000, .i32⟩ : BufTy).Contents (Elt F) → (⟨S800000, .i1⟩ : BufTy).Contents (Elt F)),
    nullary main_c_31 (constantI S_ 32 50000#32),
    unary main_c_31 main_v153 (broadcastInDim S800000 ![] bcast_S_S800000 : (⟨S_, .i32⟩ : BufTy).Contents (Elt F) → (⟨S800000, .i32⟩ : BufTy).Contents (Elt F)),
    binary main_v1 main_v153 main_v154 (addi : (⟨S800000, .i32⟩ : BufTy).Contents (Elt F) → (⟨S800000, .i32⟩ : BufTy).Contents (Elt F) → (⟨S800000, .i32⟩ : BufTy).Contents (Elt F)),
    ternary main_v152 main_v154 main_v1 main_v155 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    unary main_v155 main_v156 (broadcastInDim S800000x1 ![0] bcast_S800000_S800000x1_0 : (⟨S800000, .i32⟩ : BufTy).Contents (Elt F) → (⟨S800000x1, .i32⟩ : BufTy).Contents (Elt F)),
    binary main_v145 main_v156 main_v157 ((fun x i => Host.gather gather_S50000x64_S800000x1_S800000x64_1_0_n_n_0_1_164 x i) : (⟨S50000x64, .f32⟩ : BufTy).Contents (Elt F) → (⟨S800000x1, .i32⟩ : BufTy).Contents (Elt F) → (⟨S800000x64, .f32⟩ : BufTy).Contents (Elt F)),
    unary main_v150 main_v158 (broadcastInDim S800000x64 ![0, 1] bcast_S800000x1_S800000x64_0_1 : (⟨S800000x1, .f32⟩ : BufTy).Contents (Elt F) → (⟨S800000x64, .f32⟩ : BufTy).Contents (Elt F)),
    binary main_v158 main_v157 main_v159 (mulf : (⟨S800000x64, .f32⟩ : BufTy).Contents (Elt F) → (⟨S800000x64, .f32⟩ : BufTy).Contents (Elt F) → (⟨S800000x64, .f32⟩ : BufTy).Contents (Elt F)),
    nullary main_cst_32 (constant S_ .f32 0x00000000#32),
    unary main_cst_32 main_v160 (broadcastInDim S50000x64 ![] bcast_S_S50000x64 : (⟨S_, .f32⟩ : BufTy).Contents (Elt F) → (⟨S50000x64, .f32⟩ : BufTy).Contents (Elt F)),
    unary main_v3 main_v161 (broadcastInDim S800000x1 ![0] bcast_S800000_S800000x1_0 : (⟨S800000, .i32⟩ : BufTy).Contents (Elt F) → (⟨S800000x1, .i32⟩ : BufTy).Contents (Elt F)),
    ternary main_v160 main_v161 main_v159 main_v162 ((fun x i u => Host.scatterAdd scatter_S50000x64_S800000x1_S800000x64_1_0_0_1 x i u) : (⟨S50000x64, .f32⟩ : BufTy).Contents (Elt F) → (⟨S800000x1, .i32⟩ : BufTy).Contents (Elt F) → (⟨S800000x64, .f32⟩ : BufTy).Contents (Elt F) → (⟨S50000x64, .f32⟩ : BufTy).Contents (Elt F)),
    nullary main_cst_33 (constant S_ .f32 0x40000000#32),
    unary main_cst_33 main_v163 (broadcastInDim S50000x64 ![] bcast_S_S50000x64 : (⟨S_, .f32⟩ : BufTy).Contents (Elt F) → (⟨S50000x64, .f32⟩ : BufTy).Contents (Elt F)),
    binary main_v163 main_v162 main_v164 (mulf : (⟨S50000x64, .f32⟩ : BufTy).Contents (Elt F) → (⟨S50000x64, .f32⟩ : BufTy).Contents (Elt F) → (⟨S50000x64, .f32⟩ : BufTy).Contents (Elt F)),
    binary main_v164 main_v125 main_v165 (subf : (⟨S50000x64, .f32⟩ : BufTy).Contents (Elt F) → (⟨S50000x64, .f32⟩ : BufTy).Contents (Elt F) → (⟨S50000x64, .f32⟩ : BufTy).Contents (Elt F)),
    unary main_arg2 main_v166 ((extractStridedSlice S1x64x64 ![7, 0, 0] · slices_S8x64x64_S1x64x64_7_0_0) : (⟨S8x64x64, .f32⟩ : BufTy).Contents (Elt F) → (⟨S1x64x64, .f32⟩ : BufTy).Contents (Elt F)),
    reshape main_v166 main_v167 rfl shapeCasts_S1x64x64_S64x64,
    binary main_v165 main_v167 main_v168 ((fun l r => Host.dotGeneral dot_S50000x64_S64x64_S50000x64_1_0_0_1_n_n none l r) : (⟨S50000x64, .f32⟩ : BufTy).Contents (Elt F) → (⟨S64x64, .f32⟩ : BufTy).Contents (Elt F) → (⟨S50000x64, .f32⟩ : BufTy).Contents (Elt F)),
    binary main_v149 main_v168 main_v169 (addf : (⟨S50000x64, .f32⟩ : BufTy).Contents (Elt F) → (⟨S50000x64, .f32⟩ : BufTy).Contents (Elt F) → (⟨S50000x64, .f32⟩ : BufTy).Contents (Elt F)),
    unary main_arg3 main_v170 (broadcastInDim S1x64 ![1] bcast_S64_S1x64_1 : (⟨S64, .f32⟩ : BufTy).Contents (Elt F) → (⟨S1x64, .f32⟩ : BufTy).Contents (Elt F)),
    unary main_v170 main_v171 (broadcastInDim S50000x64 ![0, 1] bcast_S1x64_S50000x64_0_1 : (⟨S1x64, .f32⟩ : BufTy).Contents (Elt F) → (⟨S50000x64, .f32⟩ : BufTy).Contents (Elt F)),
    binary main_v169 main_v171 main_v172 (addf : (⟨S50000x64, .f32⟩ : BufTy).Contents (Elt F) → (⟨S50000x64, .f32⟩ : BufTy).Contents (Elt F) → (⟨S50000x64, .f32⟩ : BufTy).Contents (Elt F)),
    TRef.nullary (TRef.of (T := ⟨S_, .f32⟩) main_call1_cst) (constant S_ .f32 0x00000000#32),
    TRef.unary (TRef.of (T := ⟨S_, .f32⟩) main_call1_cst) (TRef.of (T := ⟨S50000x64, .f32⟩) main_call1_v0) (broadcastInDim S50000x64 ![] bcast_S_S50000x64),
    TRef.binary (TRef.of (T := ⟨S50000x64, .f32⟩) main_v172) (TRef.of (T := ⟨S50000x64, .f32⟩) main_call1_v0) (TRef.of (T := ⟨S50000x64, .f32⟩) main_v173) maximumf,
    unary main_arg4 main_v174 ((extractStridedSlice S1x64x10 ![0, 0, 0] · slices_S8x64x10_S1x64x10_0_0_0) : (⟨S8x64x10, .f32⟩ : BufTy).Contents (Elt F) → (⟨S1x64x10, .f32⟩ : BufTy).Contents (Elt F)),
    reshape main_v174 main_v175 rfl shapeCasts_S1x64x10_S64x10,
    binary main_v173 main_v175 main_v176 ((fun l r => Host.dotGeneral dot_S50000x64_S64x10_S50000x10_1_0_0_1_n_n none l r) : (⟨S50000x64, .f32⟩ : BufTy).Contents (Elt F) → (⟨S64x10, .f32⟩ : BufTy).Contents (Elt F) → (⟨S50000x10, .f32⟩ : BufTy).Contents (Elt F)),
    unary main_v29 main_v177 (broadcastInDim S800000x1 ![0] bcast_S800000_S800000x1_0 : (⟨S800000, .f32⟩ : BufTy).Contents (Elt F) → (⟨S800000x1, .f32⟩ : BufTy).Contents (Elt F)),
    nullary main_c_34 (constantI S_ 32 0#32),
    unary main_c_34 main_v178 (broadcastInDim S800000 ![] bcast_S_S800000 : (⟨S_, .i32⟩ : BufTy).Contents (Elt F) → (⟨S800000, .i32⟩ : BufTy).Contents (Elt F)),
    binary main_v1 main_v178 main_v179 (cmpi .slt : (⟨S800000, .i32⟩ : BufTy).Contents (Elt F) → (⟨S800000, .i32⟩ : BufTy).Contents (Elt F) → (⟨S800000, .i1⟩ : BufTy).Contents (Elt F)),
    nullary main_c_35 (constantI S_ 32 50000#32),
    unary main_c_35 main_v180 (broadcastInDim S800000 ![] bcast_S_S800000 : (⟨S_, .i32⟩ : BufTy).Contents (Elt F) → (⟨S800000, .i32⟩ : BufTy).Contents (Elt F)),
    binary main_v1 main_v180 main_v181 (addi : (⟨S800000, .i32⟩ : BufTy).Contents (Elt F) → (⟨S800000, .i32⟩ : BufTy).Contents (Elt F) → (⟨S800000, .i32⟩ : BufTy).Contents (Elt F)),
    ternary main_v179 main_v181 main_v1 main_v182 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    unary main_v182 main_v183 (broadcastInDim S800000x1 ![0] bcast_S800000_S800000x1_0 : (⟨S800000, .i32⟩ : BufTy).Contents (Elt F) → (⟨S800000x1, .i32⟩ : BufTy).Contents (Elt F)),
    binary main_v173 main_v183 main_v184 ((fun x i => Host.gather gather_S50000x64_S800000x1_S800000x64_1_0_n_n_0_1_164 x i) : (⟨S50000x64, .f32⟩ : BufTy).Contents (Elt F) → (⟨S800000x1, .i32⟩ : BufTy).Contents (Elt F) → (⟨S800000x64, .f32⟩ : BufTy).Contents (Elt F)),
    unary main_v177 main_v185 (broadcastInDim S800000x64 ![0, 1] bcast_S800000x1_S800000x64_0_1 : (⟨S800000x1, .f32⟩ : BufTy).Contents (Elt F) → (⟨S800000x64, .f32⟩ : BufTy).Contents (Elt F)),
    binary main_v185 main_v184 main_v186 (mulf : (⟨S800000x64, .f32⟩ : BufTy).Contents (Elt F) → (⟨S800000x64, .f32⟩ : BufTy).Contents (Elt F) → (⟨S800000x64, .f32⟩ : BufTy).Contents (Elt F)),
    nullary main_cst_36 (constant S_ .f32 0x00000000#32),
    unary main_cst_36 main_v187 (broadcastInDim S50000x64 ![] bcast_S_S50000x64 : (⟨S_, .f32⟩ : BufTy).Contents (Elt F) → (⟨S50000x64, .f32⟩ : BufTy).Contents (Elt F)),
    unary main_v3 main_v188 (broadcastInDim S800000x1 ![0] bcast_S800000_S800000x1_0 : (⟨S800000, .i32⟩ : BufTy).Contents (Elt F) → (⟨S800000x1, .i32⟩ : BufTy).Contents (Elt F)),
    ternary main_v187 main_v188 main_v186 main_v189 ((fun x i u => Host.scatterAdd scatter_S50000x64_S800000x1_S800000x64_1_0_0_1 x i u) : (⟨S50000x64, .f32⟩ : BufTy).Contents (Elt F) → (⟨S800000x1, .i32⟩ : BufTy).Contents (Elt F) → (⟨S800000x64, .f32⟩ : BufTy).Contents (Elt F) → (⟨S50000x64, .f32⟩ : BufTy).Contents (Elt F)),
    unary main_arg4 main_v190 ((extractStridedSlice S1x64x10 ![1, 0, 0] · slices_S8x64x10_S1x64x10_1_0_0) : (⟨S8x64x10, .f32⟩ : BufTy).Contents (Elt F) → (⟨S1x64x10, .f32⟩ : BufTy).Contents (Elt F)),
    reshape main_v190 main_v191 rfl shapeCasts_S1x64x10_S64x10,
    binary main_v189 main_v191 main_v192 ((fun l r => Host.dotGeneral dot_S50000x64_S64x10_S50000x10_1_0_0_1_n_n none l r) : (⟨S50000x64, .f32⟩ : BufTy).Contents (Elt F) → (⟨S64x10, .f32⟩ : BufTy).Contents (Elt F) → (⟨S50000x10, .f32⟩ : BufTy).Contents (Elt F)),
    binary main_v176 main_v192 main_v193 (addf : (⟨S50000x10, .f32⟩ : BufTy).Contents (Elt F) → (⟨S50000x10, .f32⟩ : BufTy).Contents (Elt F) → (⟨S50000x10, .f32⟩ : BufTy).Contents (Elt F)),
    unary main_v29 main_v194 (broadcastInDim S800000x1 ![0] bcast_S800000_S800000x1_0 : (⟨S800000, .f32⟩ : BufTy).Contents (Elt F) → (⟨S800000x1, .f32⟩ : BufTy).Contents (Elt F)),
    nullary main_c_37 (constantI S_ 32 0#32),
    unary main_c_37 main_v195 (broadcastInDim S800000 ![] bcast_S_S800000 : (⟨S_, .i32⟩ : BufTy).Contents (Elt F) → (⟨S800000, .i32⟩ : BufTy).Contents (Elt F)),
    binary main_v1 main_v195 main_v196 (cmpi .slt : (⟨S800000, .i32⟩ : BufTy).Contents (Elt F) → (⟨S800000, .i32⟩ : BufTy).Contents (Elt F) → (⟨S800000, .i1⟩ : BufTy).Contents (Elt F)),
    nullary main_c_38 (constantI S_ 32 50000#32),
    unary main_c_38 main_v197 (broadcastInDim S800000 ![] bcast_S_S800000 : (⟨S_, .i32⟩ : BufTy).Contents (Elt F) → (⟨S800000, .i32⟩ : BufTy).Contents (Elt F)),
    binary main_v1 main_v197 main_v198 (addi : (⟨S800000, .i32⟩ : BufTy).Contents (Elt F) → (⟨S800000, .i32⟩ : BufTy).Contents (Elt F) → (⟨S800000, .i32⟩ : BufTy).Contents (Elt F)),
    ternary main_v196 main_v198 main_v1 main_v199 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    unary main_v199 main_v200 (broadcastInDim S800000x1 ![0] bcast_S800000_S800000x1_0 : (⟨S800000, .i32⟩ : BufTy).Contents (Elt F) → (⟨S800000x1, .i32⟩ : BufTy).Contents (Elt F)),
    binary main_v189 main_v200 main_v201 ((fun x i => Host.gather gather_S50000x64_S800000x1_S800000x64_1_0_n_n_0_1_164 x i) : (⟨S50000x64, .f32⟩ : BufTy).Contents (Elt F) → (⟨S800000x1, .i32⟩ : BufTy).Contents (Elt F) → (⟨S800000x64, .f32⟩ : BufTy).Contents (Elt F)),
    unary main_v194 main_v202 (broadcastInDim S800000x64 ![0, 1] bcast_S800000x1_S800000x64_0_1 : (⟨S800000x1, .f32⟩ : BufTy).Contents (Elt F) → (⟨S800000x64, .f32⟩ : BufTy).Contents (Elt F)),
    binary main_v202 main_v201 main_v203 (mulf : (⟨S800000x64, .f32⟩ : BufTy).Contents (Elt F) → (⟨S800000x64, .f32⟩ : BufTy).Contents (Elt F) → (⟨S800000x64, .f32⟩ : BufTy).Contents (Elt F)),
    nullary main_cst_39 (constant S_ .f32 0x00000000#32),
    unary main_cst_39 main_v204 (broadcastInDim S50000x64 ![] bcast_S_S50000x64 : (⟨S_, .f32⟩ : BufTy).Contents (Elt F) → (⟨S50000x64, .f32⟩ : BufTy).Contents (Elt F)),
    unary main_v3 main_v205 (broadcastInDim S800000x1 ![0] bcast_S800000_S800000x1_0 : (⟨S800000, .i32⟩ : BufTy).Contents (Elt F) → (⟨S800000x1, .i32⟩ : BufTy).Contents (Elt F)),
    ternary main_v204 main_v205 main_v203 main_v206 ((fun x i u => Host.scatterAdd scatter_S50000x64_S800000x1_S800000x64_1_0_0_1 x i u) : (⟨S50000x64, .f32⟩ : BufTy).Contents (Elt F) → (⟨S800000x1, .i32⟩ : BufTy).Contents (Elt F) → (⟨S800000x64, .f32⟩ : BufTy).Contents (Elt F) → (⟨S50000x64, .f32⟩ : BufTy).Contents (Elt F)),
    nullary main_cst_40 (constant S_ .f32 0x40000000#32),
    unary main_cst_40 main_v207 (broadcastInDim S50000x64 ![] bcast_S_S50000x64 : (⟨S_, .f32⟩ : BufTy).Contents (Elt F) → (⟨S50000x64, .f32⟩ : BufTy).Contents (Elt F)),
    binary main_v207 main_v206 main_v208 (mulf : (⟨S50000x64, .f32⟩ : BufTy).Contents (Elt F) → (⟨S50000x64, .f32⟩ : BufTy).Contents (Elt F) → (⟨S50000x64, .f32⟩ : BufTy).Contents (Elt F)),
    binary main_v208 main_v173 main_v209 (subf : (⟨S50000x64, .f32⟩ : BufTy).Contents (Elt F) → (⟨S50000x64, .f32⟩ : BufTy).Contents (Elt F) → (⟨S50000x64, .f32⟩ : BufTy).Contents (Elt F)),
    unary main_arg4 main_v210 ((extractStridedSlice S1x64x10 ![2, 0, 0] · slices_S8x64x10_S1x64x10_2_0_0) : (⟨S8x64x10, .f32⟩ : BufTy).Contents (Elt F) → (⟨S1x64x10, .f32⟩ : BufTy).Contents (Elt F)),
    reshape main_v210 main_v211 rfl shapeCasts_S1x64x10_S64x10,
    binary main_v209 main_v211 main_v212 ((fun l r => Host.dotGeneral dot_S50000x64_S64x10_S50000x10_1_0_0_1_n_n none l r) : (⟨S50000x64, .f32⟩ : BufTy).Contents (Elt F) → (⟨S64x10, .f32⟩ : BufTy).Contents (Elt F) → (⟨S50000x10, .f32⟩ : BufTy).Contents (Elt F)),
    binary main_v193 main_v212 main_v213 (addf : (⟨S50000x10, .f32⟩ : BufTy).Contents (Elt F) → (⟨S50000x10, .f32⟩ : BufTy).Contents (Elt F) → (⟨S50000x10, .f32⟩ : BufTy).Contents (Elt F)),
    unary main_v29 main_v214 (broadcastInDim S800000x1 ![0] bcast_S800000_S800000x1_0 : (⟨S800000, .f32⟩ : BufTy).Contents (Elt F) → (⟨S800000x1, .f32⟩ : BufTy).Contents (Elt F)),
    nullary main_c_41 (constantI S_ 32 0#32),
    unary main_c_41 main_v215 (broadcastInDim S800000 ![] bcast_S_S800000 : (⟨S_, .i32⟩ : BufTy).Contents (Elt F) → (⟨S800000, .i32⟩ : BufTy).Contents (Elt F)),
    binary main_v1 main_v215 main_v216 (cmpi .slt : (⟨S800000, .i32⟩ : BufTy).Contents (Elt F) → (⟨S800000, .i32⟩ : BufTy).Contents (Elt F) → (⟨S800000, .i1⟩ : BufTy).Contents (Elt F)),
    nullary main_c_42 (constantI S_ 32 50000#32),
    unary main_c_42 main_v217 (broadcastInDim S800000 ![] bcast_S_S800000 : (⟨S_, .i32⟩ : BufTy).Contents (Elt F) → (⟨S800000, .i32⟩ : BufTy).Contents (Elt F)),
    binary main_v1 main_v217 main_v218 (addi : (⟨S800000, .i32⟩ : BufTy).Contents (Elt F) → (⟨S800000, .i32⟩ : BufTy).Contents (Elt F) → (⟨S800000, .i32⟩ : BufTy).Contents (Elt F)),
    ternary main_v216 main_v218 main_v1 main_v219 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    unary main_v219 main_v220 (broadcastInDim S800000x1 ![0] bcast_S800000_S800000x1_0 : (⟨S800000, .i32⟩ : BufTy).Contents (Elt F) → (⟨S800000x1, .i32⟩ : BufTy).Contents (Elt F)),
    binary main_v209 main_v220 main_v221 ((fun x i => Host.gather gather_S50000x64_S800000x1_S800000x64_1_0_n_n_0_1_164 x i) : (⟨S50000x64, .f32⟩ : BufTy).Contents (Elt F) → (⟨S800000x1, .i32⟩ : BufTy).Contents (Elt F) → (⟨S800000x64, .f32⟩ : BufTy).Contents (Elt F)),
    unary main_v214 main_v222 (broadcastInDim S800000x64 ![0, 1] bcast_S800000x1_S800000x64_0_1 : (⟨S800000x1, .f32⟩ : BufTy).Contents (Elt F) → (⟨S800000x64, .f32⟩ : BufTy).Contents (Elt F)),
    binary main_v222 main_v221 main_v223 (mulf : (⟨S800000x64, .f32⟩ : BufTy).Contents (Elt F) → (⟨S800000x64, .f32⟩ : BufTy).Contents (Elt F) → (⟨S800000x64, .f32⟩ : BufTy).Contents (Elt F)),
    nullary main_cst_43 (constant S_ .f32 0x00000000#32),
    unary main_cst_43 main_v224 (broadcastInDim S50000x64 ![] bcast_S_S50000x64 : (⟨S_, .f32⟩ : BufTy).Contents (Elt F) → (⟨S50000x64, .f32⟩ : BufTy).Contents (Elt F)),
    unary main_v3 main_v225 (broadcastInDim S800000x1 ![0] bcast_S800000_S800000x1_0 : (⟨S800000, .i32⟩ : BufTy).Contents (Elt F) → (⟨S800000x1, .i32⟩ : BufTy).Contents (Elt F)),
    ternary main_v224 main_v225 main_v223 main_v226 ((fun x i u => Host.scatterAdd scatter_S50000x64_S800000x1_S800000x64_1_0_0_1 x i u) : (⟨S50000x64, .f32⟩ : BufTy).Contents (Elt F) → (⟨S800000x1, .i32⟩ : BufTy).Contents (Elt F) → (⟨S800000x64, .f32⟩ : BufTy).Contents (Elt F) → (⟨S50000x64, .f32⟩ : BufTy).Contents (Elt F)),
    nullary main_cst_44 (constant S_ .f32 0x40000000#32),
    unary main_cst_44 main_v227 (broadcastInDim S50000x64 ![] bcast_S_S50000x64 : (⟨S_, .f32⟩ : BufTy).Contents (Elt F) → (⟨S50000x64, .f32⟩ : BufTy).Contents (Elt F)),
    binary main_v227 main_v226 main_v228 (mulf : (⟨S50000x64, .f32⟩ : BufTy).Contents (Elt F) → (⟨S50000x64, .f32⟩ : BufTy).Contents (Elt F) → (⟨S50000x64, .f32⟩ : BufTy).Contents (Elt F)),
    binary main_v228 main_v189 main_v229 (subf : (⟨S50000x64, .f32⟩ : BufTy).Contents (Elt F) → (⟨S50000x64, .f32⟩ : BufTy).Contents (Elt F) → (⟨S50000x64, .f32⟩ : BufTy).Contents (Elt F)),
    unary main_arg4 main_v230 ((extractStridedSlice S1x64x10 ![3, 0, 0] · slices_S8x64x10_S1x64x10_3_0_0) : (⟨S8x64x10, .f32⟩ : BufTy).Contents (Elt F) → (⟨S1x64x10, .f32⟩ : BufTy).Contents (Elt F)),
    reshape main_v230 main_v231 rfl shapeCasts_S1x64x10_S64x10,
    binary main_v229 main_v231 main_v232 ((fun l r => Host.dotGeneral dot_S50000x64_S64x10_S50000x10_1_0_0_1_n_n none l r) : (⟨S50000x64, .f32⟩ : BufTy).Contents (Elt F) → (⟨S64x10, .f32⟩ : BufTy).Contents (Elt F) → (⟨S50000x10, .f32⟩ : BufTy).Contents (Elt F)),
    binary main_v213 main_v232 main_v233 (addf : (⟨S50000x10, .f32⟩ : BufTy).Contents (Elt F) → (⟨S50000x10, .f32⟩ : BufTy).Contents (Elt F) → (⟨S50000x10, .f32⟩ : BufTy).Contents (Elt F)),
    unary main_v29 main_v234 (broadcastInDim S800000x1 ![0] bcast_S800000_S800000x1_0 : (⟨S800000, .f32⟩ : BufTy).Contents (Elt F) → (⟨S800000x1, .f32⟩ : BufTy).Contents (Elt F)),
    nullary main_c_45 (constantI S_ 32 0#32),
    unary main_c_45 main_v235 (broadcastInDim S800000 ![] bcast_S_S800000 : (⟨S_, .i32⟩ : BufTy).Contents (Elt F) → (⟨S800000, .i32⟩ : BufTy).Contents (Elt F)),
    binary main_v1 main_v235 main_v236 (cmpi .slt : (⟨S800000, .i32⟩ : BufTy).Contents (Elt F) → (⟨S800000, .i32⟩ : BufTy).Contents (Elt F) → (⟨S800000, .i1⟩ : BufTy).Contents (Elt F)),
    nullary main_c_46 (constantI S_ 32 50000#32),
    unary main_c_46 main_v237 (broadcastInDim S800000 ![] bcast_S_S800000 : (⟨S_, .i32⟩ : BufTy).Contents (Elt F) → (⟨S800000, .i32⟩ : BufTy).Contents (Elt F)),
    binary main_v1 main_v237 main_v238 (addi : (⟨S800000, .i32⟩ : BufTy).Contents (Elt F) → (⟨S800000, .i32⟩ : BufTy).Contents (Elt F) → (⟨S800000, .i32⟩ : BufTy).Contents (Elt F)),
    ternary main_v236 main_v238 main_v1 main_v239 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    unary main_v239 main_v240 (broadcastInDim S800000x1 ![0] bcast_S800000_S800000x1_0 : (⟨S800000, .i32⟩ : BufTy).Contents (Elt F) → (⟨S800000x1, .i32⟩ : BufTy).Contents (Elt F)),
    binary main_v229 main_v240 main_v241 ((fun x i => Host.gather gather_S50000x64_S800000x1_S800000x64_1_0_n_n_0_1_164 x i) : (⟨S50000x64, .f32⟩ : BufTy).Contents (Elt F) → (⟨S800000x1, .i32⟩ : BufTy).Contents (Elt F) → (⟨S800000x64, .f32⟩ : BufTy).Contents (Elt F)),
    unary main_v234 main_v242 (broadcastInDim S800000x64 ![0, 1] bcast_S800000x1_S800000x64_0_1 : (⟨S800000x1, .f32⟩ : BufTy).Contents (Elt F) → (⟨S800000x64, .f32⟩ : BufTy).Contents (Elt F)),
    binary main_v242 main_v241 main_v243 (mulf : (⟨S800000x64, .f32⟩ : BufTy).Contents (Elt F) → (⟨S800000x64, .f32⟩ : BufTy).Contents (Elt F) → (⟨S800000x64, .f32⟩ : BufTy).Contents (Elt F)),
    nullary main_cst_47 (constant S_ .f32 0x00000000#32),
    unary main_cst_47 main_v244 (broadcastInDim S50000x64 ![] bcast_S_S50000x64 : (⟨S_, .f32⟩ : BufTy).Contents (Elt F) → (⟨S50000x64, .f32⟩ : BufTy).Contents (Elt F)),
    unary main_v3 main_v245 (broadcastInDim S800000x1 ![0] bcast_S800000_S800000x1_0 : (⟨S800000, .i32⟩ : BufTy).Contents (Elt F) → (⟨S800000x1, .i32⟩ : BufTy).Contents (Elt F)),
    ternary main_v244 main_v245 main_v243 main_v246 ((fun x i u => Host.scatterAdd scatter_S50000x64_S800000x1_S800000x64_1_0_0_1 x i u) : (⟨S50000x64, .f32⟩ : BufTy).Contents (Elt F) → (⟨S800000x1, .i32⟩ : BufTy).Contents (Elt F) → (⟨S800000x64, .f32⟩ : BufTy).Contents (Elt F) → (⟨S50000x64, .f32⟩ : BufTy).Contents (Elt F)),
    nullary main_cst_48 (constant S_ .f32 0x40000000#32),
    unary main_cst_48 main_v247 (broadcastInDim S50000x64 ![] bcast_S_S50000x64 : (⟨S_, .f32⟩ : BufTy).Contents (Elt F) → (⟨S50000x64, .f32⟩ : BufTy).Contents (Elt F)),
    binary main_v247 main_v246 main_v248 (mulf : (⟨S50000x64, .f32⟩ : BufTy).Contents (Elt F) → (⟨S50000x64, .f32⟩ : BufTy).Contents (Elt F) → (⟨S50000x64, .f32⟩ : BufTy).Contents (Elt F)),
    binary main_v248 main_v209 main_v249 (subf : (⟨S50000x64, .f32⟩ : BufTy).Contents (Elt F) → (⟨S50000x64, .f32⟩ : BufTy).Contents (Elt F) → (⟨S50000x64, .f32⟩ : BufTy).Contents (Elt F)),
    unary main_arg4 main_v250 ((extractStridedSlice S1x64x10 ![4, 0, 0] · slices_S8x64x10_S1x64x10_4_0_0) : (⟨S8x64x10, .f32⟩ : BufTy).Contents (Elt F) → (⟨S1x64x10, .f32⟩ : BufTy).Contents (Elt F)),
    reshape main_v250 main_v251 rfl shapeCasts_S1x64x10_S64x10,
    binary main_v249 main_v251 main_v252 ((fun l r => Host.dotGeneral dot_S50000x64_S64x10_S50000x10_1_0_0_1_n_n none l r) : (⟨S50000x64, .f32⟩ : BufTy).Contents (Elt F) → (⟨S64x10, .f32⟩ : BufTy).Contents (Elt F) → (⟨S50000x10, .f32⟩ : BufTy).Contents (Elt F)),
    binary main_v233 main_v252 main_v253 (addf : (⟨S50000x10, .f32⟩ : BufTy).Contents (Elt F) → (⟨S50000x10, .f32⟩ : BufTy).Contents (Elt F) → (⟨S50000x10, .f32⟩ : BufTy).Contents (Elt F)),
    unary main_v29 main_v254 (broadcastInDim S800000x1 ![0] bcast_S800000_S800000x1_0 : (⟨S800000, .f32⟩ : BufTy).Contents (Elt F) → (⟨S800000x1, .f32⟩ : BufTy).Contents (Elt F)),
    nullary main_c_49 (constantI S_ 32 0#32),
    unary main_c_49 main_v255 (broadcastInDim S800000 ![] bcast_S_S800000 : (⟨S_, .i32⟩ : BufTy).Contents (Elt F) → (⟨S800000, .i32⟩ : BufTy).Contents (Elt F)),
    binary main_v1 main_v255 main_v256 (cmpi .slt : (⟨S800000, .i32⟩ : BufTy).Contents (Elt F) → (⟨S800000, .i32⟩ : BufTy).Contents (Elt F) → (⟨S800000, .i1⟩ : BufTy).Contents (Elt F)),
    nullary main_c_50 (constantI S_ 32 50000#32),
    unary main_c_50 main_v257 (broadcastInDim S800000 ![] bcast_S_S800000 : (⟨S_, .i32⟩ : BufTy).Contents (Elt F) → (⟨S800000, .i32⟩ : BufTy).Contents (Elt F)),
    binary main_v1 main_v257 main_v258 (addi : (⟨S800000, .i32⟩ : BufTy).Contents (Elt F) → (⟨S800000, .i32⟩ : BufTy).Contents (Elt F) → (⟨S800000, .i32⟩ : BufTy).Contents (Elt F)),
    ternary main_v256 main_v258 main_v1 main_v259 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    unary main_v259 main_v260 (broadcastInDim S800000x1 ![0] bcast_S800000_S800000x1_0 : (⟨S800000, .i32⟩ : BufTy).Contents (Elt F) → (⟨S800000x1, .i32⟩ : BufTy).Contents (Elt F)),
    binary main_v249 main_v260 main_v261 ((fun x i => Host.gather gather_S50000x64_S800000x1_S800000x64_1_0_n_n_0_1_164 x i) : (⟨S50000x64, .f32⟩ : BufTy).Contents (Elt F) → (⟨S800000x1, .i32⟩ : BufTy).Contents (Elt F) → (⟨S800000x64, .f32⟩ : BufTy).Contents (Elt F)),
    unary main_v254 main_v262 (broadcastInDim S800000x64 ![0, 1] bcast_S800000x1_S800000x64_0_1 : (⟨S800000x1, .f32⟩ : BufTy).Contents (Elt F) → (⟨S800000x64, .f32⟩ : BufTy).Contents (Elt F)),
    binary main_v262 main_v261 main_v263 (mulf : (⟨S800000x64, .f32⟩ : BufTy).Contents (Elt F) → (⟨S800000x64, .f32⟩ : BufTy).Contents (Elt F) → (⟨S800000x64, .f32⟩ : BufTy).Contents (Elt F)),
    nullary main_cst_51 (constant S_ .f32 0x00000000#32),
    unary main_cst_51 main_v264 (broadcastInDim S50000x64 ![] bcast_S_S50000x64 : (⟨S_, .f32⟩ : BufTy).Contents (Elt F) → (⟨S50000x64, .f32⟩ : BufTy).Contents (Elt F)),
    unary main_v3 main_v265 (broadcastInDim S800000x1 ![0] bcast_S800000_S800000x1_0 : (⟨S800000, .i32⟩ : BufTy).Contents (Elt F) → (⟨S800000x1, .i32⟩ : BufTy).Contents (Elt F)),
    ternary main_v264 main_v265 main_v263 main_v266 ((fun x i u => Host.scatterAdd scatter_S50000x64_S800000x1_S800000x64_1_0_0_1 x i u) : (⟨S50000x64, .f32⟩ : BufTy).Contents (Elt F) → (⟨S800000x1, .i32⟩ : BufTy).Contents (Elt F) → (⟨S800000x64, .f32⟩ : BufTy).Contents (Elt F) → (⟨S50000x64, .f32⟩ : BufTy).Contents (Elt F)),
    nullary main_cst_52 (constant S_ .f32 0x40000000#32),
    unary main_cst_52 main_v267 (broadcastInDim S50000x64 ![] bcast_S_S50000x64 : (⟨S_, .f32⟩ : BufTy).Contents (Elt F) → (⟨S50000x64, .f32⟩ : BufTy).Contents (Elt F)),
    binary main_v267 main_v266 main_v268 (mulf : (⟨S50000x64, .f32⟩ : BufTy).Contents (Elt F) → (⟨S50000x64, .f32⟩ : BufTy).Contents (Elt F) → (⟨S50000x64, .f32⟩ : BufTy).Contents (Elt F)),
    binary main_v268 main_v229 main_v269 (subf : (⟨S50000x64, .f32⟩ : BufTy).Contents (Elt F) → (⟨S50000x64, .f32⟩ : BufTy).Contents (Elt F) → (⟨S50000x64, .f32⟩ : BufTy).Contents (Elt F)),
    unary main_arg4 main_v270 ((extractStridedSlice S1x64x10 ![5, 0, 0] · slices_S8x64x10_S1x64x10_5_0_0) : (⟨S8x64x10, .f32⟩ : BufTy).Contents (Elt F) → (⟨S1x64x10, .f32⟩ : BufTy).Contents (Elt F)),
    reshape main_v270 main_v271 rfl shapeCasts_S1x64x10_S64x10,
    binary main_v269 main_v271 main_v272 ((fun l r => Host.dotGeneral dot_S50000x64_S64x10_S50000x10_1_0_0_1_n_n none l r) : (⟨S50000x64, .f32⟩ : BufTy).Contents (Elt F) → (⟨S64x10, .f32⟩ : BufTy).Contents (Elt F) → (⟨S50000x10, .f32⟩ : BufTy).Contents (Elt F)),
    binary main_v253 main_v272 main_v273 (addf : (⟨S50000x10, .f32⟩ : BufTy).Contents (Elt F) → (⟨S50000x10, .f32⟩ : BufTy).Contents (Elt F) → (⟨S50000x10, .f32⟩ : BufTy).Contents (Elt F)),
    unary main_v29 main_v274 (broadcastInDim S800000x1 ![0] bcast_S800000_S800000x1_0 : (⟨S800000, .f32⟩ : BufTy).Contents (Elt F) → (⟨S800000x1, .f32⟩ : BufTy).Contents (Elt F)),
    nullary main_c_53 (constantI S_ 32 0#32),
    unary main_c_53 main_v275 (broadcastInDim S800000 ![] bcast_S_S800000 : (⟨S_, .i32⟩ : BufTy).Contents (Elt F) → (⟨S800000, .i32⟩ : BufTy).Contents (Elt F)),
    binary main_v1 main_v275 main_v276 (cmpi .slt : (⟨S800000, .i32⟩ : BufTy).Contents (Elt F) → (⟨S800000, .i32⟩ : BufTy).Contents (Elt F) → (⟨S800000, .i1⟩ : BufTy).Contents (Elt F)),
    nullary main_c_54 (constantI S_ 32 50000#32),
    unary main_c_54 main_v277 (broadcastInDim S800000 ![] bcast_S_S800000 : (⟨S_, .i32⟩ : BufTy).Contents (Elt F) → (⟨S800000, .i32⟩ : BufTy).Contents (Elt F)),
    binary main_v1 main_v277 main_v278 (addi : (⟨S800000, .i32⟩ : BufTy).Contents (Elt F) → (⟨S800000, .i32⟩ : BufTy).Contents (Elt F) → (⟨S800000, .i32⟩ : BufTy).Contents (Elt F)),
    ternary main_v276 main_v278 main_v1 main_v279 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    unary main_v279 main_v280 (broadcastInDim S800000x1 ![0] bcast_S800000_S800000x1_0 : (⟨S800000, .i32⟩ : BufTy).Contents (Elt F) → (⟨S800000x1, .i32⟩ : BufTy).Contents (Elt F)),
    binary main_v269 main_v280 main_v281 ((fun x i => Host.gather gather_S50000x64_S800000x1_S800000x64_1_0_n_n_0_1_164 x i) : (⟨S50000x64, .f32⟩ : BufTy).Contents (Elt F) → (⟨S800000x1, .i32⟩ : BufTy).Contents (Elt F) → (⟨S800000x64, .f32⟩ : BufTy).Contents (Elt F)),
    unary main_v274 main_v282 (broadcastInDim S800000x64 ![0, 1] bcast_S800000x1_S800000x64_0_1 : (⟨S800000x1, .f32⟩ : BufTy).Contents (Elt F) → (⟨S800000x64, .f32⟩ : BufTy).Contents (Elt F)),
    binary main_v282 main_v281 main_v283 (mulf : (⟨S800000x64, .f32⟩ : BufTy).Contents (Elt F) → (⟨S800000x64, .f32⟩ : BufTy).Contents (Elt F) → (⟨S800000x64, .f32⟩ : BufTy).Contents (Elt F)),
    nullary main_cst_55 (constant S_ .f32 0x00000000#32),
    unary main_cst_55 main_v284 (broadcastInDim S50000x64 ![] bcast_S_S50000x64 : (⟨S_, .f32⟩ : BufTy).Contents (Elt F) → (⟨S50000x64, .f32⟩ : BufTy).Contents (Elt F)),
    unary main_v3 main_v285 (broadcastInDim S800000x1 ![0] bcast_S800000_S800000x1_0 : (⟨S800000, .i32⟩ : BufTy).Contents (Elt F) → (⟨S800000x1, .i32⟩ : BufTy).Contents (Elt F)),
    ternary main_v284 main_v285 main_v283 main_v286 ((fun x i u => Host.scatterAdd scatter_S50000x64_S800000x1_S800000x64_1_0_0_1 x i u) : (⟨S50000x64, .f32⟩ : BufTy).Contents (Elt F) → (⟨S800000x1, .i32⟩ : BufTy).Contents (Elt F) → (⟨S800000x64, .f32⟩ : BufTy).Contents (Elt F) → (⟨S50000x64, .f32⟩ : BufTy).Contents (Elt F)),
    nullary main_cst_56 (constant S_ .f32 0x40000000#32),
    unary main_cst_56 main_v287 (broadcastInDim S50000x64 ![] bcast_S_S50000x64 : (⟨S_, .f32⟩ : BufTy).Contents (Elt F) → (⟨S50000x64, .f32⟩ : BufTy).Contents (Elt F)),
    binary main_v287 main_v286 main_v288 (mulf : (⟨S50000x64, .f32⟩ : BufTy).Contents (Elt F) → (⟨S50000x64, .f32⟩ : BufTy).Contents (Elt F) → (⟨S50000x64, .f32⟩ : BufTy).Contents (Elt F)),
    binary main_v288 main_v249 main_v289 (subf : (⟨S50000x64, .f32⟩ : BufTy).Contents (Elt F) → (⟨S50000x64, .f32⟩ : BufTy).Contents (Elt F) → (⟨S50000x64, .f32⟩ : BufTy).Contents (Elt F)),
    unary main_arg4 main_v290 ((extractStridedSlice S1x64x10 ![6, 0, 0] · slices_S8x64x10_S1x64x10_6_0_0) : (⟨S8x64x10, .f32⟩ : BufTy).Contents (Elt F) → (⟨S1x64x10, .f32⟩ : BufTy).Contents (Elt F)),
    reshape main_v290 main_v291 rfl shapeCasts_S1x64x10_S64x10,
    binary main_v289 main_v291 main_v292 ((fun l r => Host.dotGeneral dot_S50000x64_S64x10_S50000x10_1_0_0_1_n_n none l r) : (⟨S50000x64, .f32⟩ : BufTy).Contents (Elt F) → (⟨S64x10, .f32⟩ : BufTy).Contents (Elt F) → (⟨S50000x10, .f32⟩ : BufTy).Contents (Elt F)),
    binary main_v273 main_v292 main_v293 (addf : (⟨S50000x10, .f32⟩ : BufTy).Contents (Elt F) → (⟨S50000x10, .f32⟩ : BufTy).Contents (Elt F) → (⟨S50000x10, .f32⟩ : BufTy).Contents (Elt F)),
    unary main_v29 main_v294 (broadcastInDim S800000x1 ![0] bcast_S800000_S800000x1_0 : (⟨S800000, .f32⟩ : BufTy).Contents (Elt F) → (⟨S800000x1, .f32⟩ : BufTy).Contents (Elt F)),
    nullary main_c_57 (constantI S_ 32 0#32),
    unary main_c_57 main_v295 (broadcastInDim S800000 ![] bcast_S_S800000 : (⟨S_, .i32⟩ : BufTy).Contents (Elt F) → (⟨S800000, .i32⟩ : BufTy).Contents (Elt F)),
    binary main_v1 main_v295 main_v296 (cmpi .slt : (⟨S800000, .i32⟩ : BufTy).Contents (Elt F) → (⟨S800000, .i32⟩ : BufTy).Contents (Elt F) → (⟨S800000, .i1⟩ : BufTy).Contents (Elt F)),
    nullary main_c_58 (constantI S_ 32 50000#32),
    unary main_c_58 main_v297 (broadcastInDim S800000 ![] bcast_S_S800000 : (⟨S_, .i32⟩ : BufTy).Contents (Elt F) → (⟨S800000, .i32⟩ : BufTy).Contents (Elt F)),
    binary main_v1 main_v297 main_v298 (addi : (⟨S800000, .i32⟩ : BufTy).Contents (Elt F) → (⟨S800000, .i32⟩ : BufTy).Contents (Elt F) → (⟨S800000, .i32⟩ : BufTy).Contents (Elt F)),
    ternary main_v296 main_v298 main_v1 main_v299 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    unary main_v299 main_v300 (broadcastInDim S800000x1 ![0] bcast_S800000_S800000x1_0 : (⟨S800000, .i32⟩ : BufTy).Contents (Elt F) → (⟨S800000x1, .i32⟩ : BufTy).Contents (Elt F)),
    binary main_v289 main_v300 main_v301 ((fun x i => Host.gather gather_S50000x64_S800000x1_S800000x64_1_0_n_n_0_1_164 x i) : (⟨S50000x64, .f32⟩ : BufTy).Contents (Elt F) → (⟨S800000x1, .i32⟩ : BufTy).Contents (Elt F) → (⟨S800000x64, .f32⟩ : BufTy).Contents (Elt F)),
    unary main_v294 main_v302 (broadcastInDim S800000x64 ![0, 1] bcast_S800000x1_S800000x64_0_1 : (⟨S800000x1, .f32⟩ : BufTy).Contents (Elt F) → (⟨S800000x64, .f32⟩ : BufTy).Contents (Elt F)),
    binary main_v302 main_v301 main_v303 (mulf : (⟨S800000x64, .f32⟩ : BufTy).Contents (Elt F) → (⟨S800000x64, .f32⟩ : BufTy).Contents (Elt F) → (⟨S800000x64, .f32⟩ : BufTy).Contents (Elt F)),
    nullary main_cst_59 (constant S_ .f32 0x00000000#32),
    unary main_cst_59 main_v304 (broadcastInDim S50000x64 ![] bcast_S_S50000x64 : (⟨S_, .f32⟩ : BufTy).Contents (Elt F) → (⟨S50000x64, .f32⟩ : BufTy).Contents (Elt F)),
    unary main_v3 main_v305 (broadcastInDim S800000x1 ![0] bcast_S800000_S800000x1_0 : (⟨S800000, .i32⟩ : BufTy).Contents (Elt F) → (⟨S800000x1, .i32⟩ : BufTy).Contents (Elt F)),
    ternary main_v304 main_v305 main_v303 main_v306 ((fun x i u => Host.scatterAdd scatter_S50000x64_S800000x1_S800000x64_1_0_0_1 x i u) : (⟨S50000x64, .f32⟩ : BufTy).Contents (Elt F) → (⟨S800000x1, .i32⟩ : BufTy).Contents (Elt F) → (⟨S800000x64, .f32⟩ : BufTy).Contents (Elt F) → (⟨S50000x64, .f32⟩ : BufTy).Contents (Elt F)),
    nullary main_cst_60 (constant S_ .f32 0x40000000#32),
    unary main_cst_60 main_v307 (broadcastInDim S50000x64 ![] bcast_S_S50000x64 : (⟨S_, .f32⟩ : BufTy).Contents (Elt F) → (⟨S50000x64, .f32⟩ : BufTy).Contents (Elt F)),
    binary main_v307 main_v306 main_v308 (mulf : (⟨S50000x64, .f32⟩ : BufTy).Contents (Elt F) → (⟨S50000x64, .f32⟩ : BufTy).Contents (Elt F) → (⟨S50000x64, .f32⟩ : BufTy).Contents (Elt F)),
    binary main_v308 main_v269 main_v309 (subf : (⟨S50000x64, .f32⟩ : BufTy).Contents (Elt F) → (⟨S50000x64, .f32⟩ : BufTy).Contents (Elt F) → (⟨S50000x64, .f32⟩ : BufTy).Contents (Elt F)),
    unary main_arg4 main_v310 ((extractStridedSlice S1x64x10 ![7, 0, 0] · slices_S8x64x10_S1x64x10_7_0_0) : (⟨S8x64x10, .f32⟩ : BufTy).Contents (Elt F) → (⟨S1x64x10, .f32⟩ : BufTy).Contents (Elt F)),
    reshape main_v310 main_v311 rfl shapeCasts_S1x64x10_S64x10,
    binary main_v309 main_v311 main_v312 ((fun l r => Host.dotGeneral dot_S50000x64_S64x10_S50000x10_1_0_0_1_n_n none l r) : (⟨S50000x64, .f32⟩ : BufTy).Contents (Elt F) → (⟨S64x10, .f32⟩ : BufTy).Contents (Elt F) → (⟨S50000x10, .f32⟩ : BufTy).Contents (Elt F)),
    binary main_v293 main_v312 main_v313 (addf : (⟨S50000x10, .f32⟩ : BufTy).Contents (Elt F) → (⟨S50000x10, .f32⟩ : BufTy).Contents (Elt F) → (⟨S50000x10, .f32⟩ : BufTy).Contents (Elt F)),
    unary main_arg5 main_v314 (broadcastInDim S1x10 ![1] bcast_S10_S1x10_1 : (⟨S10, .f32⟩ : BufTy).Contents (Elt F) → (⟨S1x10, .f32⟩ : BufTy).Contents (Elt F)),
    unary main_v314 main_v315 (broadcastInDim S50000x10 ![0, 1] bcast_S1x10_S50000x10_0_1 : (⟨S1x10, .f32⟩ : BufTy).Contents (Elt F) → (⟨S50000x10, .f32⟩ : BufTy).Contents (Elt F)),
    binary main_v313 main_v315 main_v316 (addf : (⟨S50000x10, .f32⟩ : BufTy).Contents (Elt F) → (⟨S50000x10, .f32⟩ : BufTy).Contents (Elt F) → (⟨S50000x10, .f32⟩ : BufTy).Contents (Elt F)) ]

set_option maxRecDepth 8192 in
set_option maxHeartbeats 4000000 in
theorem main_eq (c : Dev nD) : main (F := F) c = seq ops := rfl
theorem scopedRefs_eq : (Finset.univ.filter fun b : Ref sig .tc => b.isScoped) = ∅ := by decide
theorem scopedSems_eq : (Finset.univ.filter fun sm : SemLoc sig => sm.isScoped .tc) = ∅ := by decide
set_option maxRecDepth 8192 in
theorem ops_sub : (ops : List (HloOp τ sig (Elt F))).Forall fun op => op.bufs ⊆ tcRefs τ sig :=
  ⟨unary_bufs_sub .., reshape_bufs_sub .., unary_bufs_sub .., reshape_bufs_sub .., nullary_bufs_sub .., unary_bufs_sub .., nullary_bufs_sub .., unary_bufs_sub .., unary_bufs_sub .., ternary_bufs_sub .., nullary_bufs_sub .., unary_bufs_sub .., binary_bufs_sub .., nullary_bufs_sub .., unary_bufs_sub .., binary_bufs_sub .., unary_bufs_sub .., nullary_bufs_sub .., unary_bufs_sub .., unary_bufs_sub .., ternary_bufs_sub .., nullary_bufs_sub .., unary_bufs_sub .., binary_bufs_sub .., nullary_bufs_sub .., unary_bufs_sub .., binary_bufs_sub .., ternary_bufs_sub .., unary_bufs_sub .., binary_bufs_sub .., unary_bufs_sub .., nullary_bufs_sub .., unary_bufs_sub .., binary_bufs_sub .., nullary_bufs_sub .., unary_bufs_sub .., binary_bufs_sub .., ternary_bufs_sub .., unary_bufs_sub .., binary_bufs_sub .., binary_bufs_sub .., unary_bufs_sub .., reshape_bufs_sub .., binary_bufs_sub .., unary_bufs_sub .., nullary_bufs_sub .., unary_bufs_sub .., binary_bufs_sub .., nullary_bufs_sub .., unary_bufs_sub .., binary_bufs_sub .., ternary_bufs_sub .., unary_bufs_sub .., binary_bufs_sub .., unary_bufs_sub .., binary_bufs_sub .., nullary_bufs_sub .., unary_bufs_sub .., unary_bufs_sub .., ternary_bufs_sub .., unary_bufs_sub .., reshape_bufs_sub .., binary_bufs_sub .., binary_bufs_sub .., unary_bufs_sub .., nullary_bufs_sub .., unary_bufs_sub .., binary_bufs_sub .., nullary_bufs_sub .., unary_bufs_sub .., binary_bufs_sub .., ternary_bufs_sub .., unary_bufs_sub .., binary_bufs_sub .., unary_bufs_sub .., binary_bufs_sub .., nullary_bufs_sub .., unary_bufs_sub .., unary_bufs_sub .., ternary_bufs_sub .., nullary_bufs_sub .., unary_bufs_sub .., binary_bufs_sub .., binary_bufs_sub .., unary_bufs_sub .., reshape_bufs_sub .., binary_bufs_sub .., binary_bufs_sub .., unary_bufs_sub .., nullary_bufs_sub .., unary_bufs_sub .., binary_bufs_sub .., nullary_bufs_sub .., unary_bufs_sub .., binary_bufs_sub .., ternary_bufs_sub .., unary_bufs_sub .., binary_bufs_sub .., unary_bufs_sub .., binary_bufs_sub .., nullary_bufs_sub .., unary_bufs_sub .., unary_bufs_sub .., ternary_bufs_sub .., nullary_bufs_sub .., unary_bufs_sub .., binary_bufs_sub .., binary_bufs_sub .., unary_bufs_sub .., reshape_bufs_sub .., binary_bufs_sub .., binary_bufs_sub .., unary_bufs_sub .., nullary_bufs_sub .., unary_bufs_sub .., binary_bufs_sub .., nullary_bufs_sub .., unary_bufs_sub .., binary_bufs_sub .., ternary_bufs_sub .., unary_bufs_sub .., binary_bufs_sub .., unary_bufs_sub .., binary_bufs_sub .., nullary_bufs_sub .., unary_bufs_sub .., unary_bufs_sub .., ternary_bufs_sub .., nullary_bufs_sub .., unary_bufs_sub .., binary_bufs_sub .., binary_bufs_sub .., unary_bufs_sub .., reshape_bufs_sub .., binary_bufs_sub .., binary_bufs_sub .., unary_bufs_sub .., nullary_bufs_sub .., unary_bufs_sub .., binary_bufs_sub .., nullary_bufs_sub .., unary_bufs_sub .., binary_bufs_sub .., ternary_bufs_sub .., unary_bufs_sub .., binary_bufs_sub .., unary_bufs_sub .., binary_bufs_sub .., nullary_bufs_sub .., unary_bufs_sub .., unary_bufs_sub .., ternary_bufs_sub .., nullary_bufs_sub .., unary_bufs_sub .., binary_bufs_sub .., binary_bufs_sub .., unary_bufs_sub .., reshape_bufs_sub .., binary_bufs_sub .., binary_bufs_sub .., unary_bufs_sub .., nullary_bufs_sub .., unary_bufs_sub .., binary_bufs_sub .., nullary_bufs_sub .., unary_bufs_sub .., binary_bufs_sub .., ternary_bufs_sub .., unary_bufs_sub .., binary_bufs_sub .., unary_bufs_sub .., binary_bufs_sub .., nullary_bufs_sub .., unary_bufs_sub .., unary_bufs_sub .., ternary_bufs_sub .., nullary_bufs_sub .., unary_bufs_sub .., binary_bufs_sub .., binary_bufs_sub .., unary_bufs_sub .., reshape_bufs_sub .., binary_bufs_sub .., binary_bufs_sub .., unary_bufs_sub .., nullary_bufs_sub .., unary_bufs_sub .., binary_bufs_sub .., nullary_bufs_sub .., unary_bufs_sub .., binary_bufs_sub .., ternary_bufs_sub .., unary_bufs_sub .., binary_bufs_sub .., unary_bufs_sub .., binary_bufs_sub .., nullary_bufs_sub .., unary_bufs_sub .., unary_bufs_sub .., ternary_bufs_sub .., nullary_bufs_sub .., unary_bufs_sub .., binary_bufs_sub .., binary_bufs_sub .., unary_bufs_sub .., reshape_bufs_sub .., binary_bufs_sub .., binary_bufs_sub .., unary_bufs_sub .., unary_bufs_sub .., binary_bufs_sub .., nullary_bufs_sub .., unary_bufs_sub .., binary_bufs_sub .., unary_bufs_sub .., reshape_bufs_sub .., binary_bufs_sub .., unary_bufs_sub .., nullary_bufs_sub .., unary_bufs_sub .., binary_bufs_sub .., nullary_bufs_sub .., unary_bufs_sub .., binary_bufs_sub .., ternary_bufs_sub .., unary_bufs_sub .., binary_bufs_sub .., unary_bufs_sub .., binary_bufs_sub .., nullary_bufs_sub .., unary_bufs_sub .., unary_bufs_sub .., ternary_bufs_sub .., unary_bufs_sub .., reshape_bufs_sub .., binary_bufs_sub .., binary_bufs_sub .., unary_bufs_sub .., nullary_bufs_sub .., unary_bufs_sub .., binary_bufs_sub .., nullary_bufs_sub .., unary_bufs_sub .., binary_bufs_sub .., ternary_bufs_sub .., unary_bufs_sub .., binary_bufs_sub .., unary_bufs_sub .., binary_bufs_sub .., nullary_bufs_sub .., unary_bufs_sub .., unary_bufs_sub .., ternary_bufs_sub .., nullary_bufs_sub .., unary_bufs_sub .., binary_bufs_sub .., binary_bufs_sub .., unary_bufs_sub .., reshape_bufs_sub .., binary_bufs_sub .., binary_bufs_sub .., unary_bufs_sub .., nullary_bufs_sub .., unary_bufs_sub .., binary_bufs_sub .., nullary_bufs_sub .., unary_bufs_sub .., binary_bufs_sub .., ternary_bufs_sub .., unary_bufs_sub .., binary_bufs_sub .., unary_bufs_sub .., binary_bufs_sub .., nullary_bufs_sub .., unary_bufs_sub .., unary_bufs_sub .., ternary_bufs_sub .., nullary_bufs_sub .., unary_bufs_sub .., binary_bufs_sub .., binary_bufs_sub .., unary_bufs_sub .., reshape_bufs_sub .., binary_bufs_sub .., binary_bufs_sub .., unary_bufs_sub .., nullary_bufs_sub .., unary_bufs_sub .., binary_bufs_sub .., nullary_bufs_sub .., unary_bufs_sub .., binary_bufs_sub .., ternary_bufs_sub .., unary_bufs_sub .., binary_bufs_sub .., unary_bufs_sub .., binary_bufs_sub .., nullary_bufs_sub .., unary_bufs_sub .., unary_bufs_sub .., ternary_bufs_sub .., nullary_bufs_sub .., unary_bufs_sub .., binary_bufs_sub .., binary_bufs_sub .., unary_bufs_sub .., reshape_bufs_sub .., binary_bufs_sub .., binary_bufs_sub .., unary_bufs_sub .., nullary_bufs_sub .., unary_bufs_sub .., binary_bufs_sub .., nullary_bufs_sub .., unary_bufs_sub .., binary_bufs_sub .., ternary_bufs_sub .., unary_bufs_sub .., binary_bufs_sub .., unary_bufs_sub .., binary_bufs_sub .., nullary_bufs_sub .., unary_bufs_sub .., unary_bufs_sub .., ternary_bufs_sub .., nullary_bufs_sub .., unary_bufs_sub .., binary_bufs_sub .., binary_bufs_sub .., unary_bufs_sub .., reshape_bufs_sub .., binary_bufs_sub .., binary_bufs_sub .., unary_bufs_sub .., nullary_bufs_sub .., unary_bufs_sub .., binary_bufs_sub .., nullary_bufs_sub .., unary_bufs_sub .., binary_bufs_sub .., ternary_bufs_sub .., unary_bufs_sub .., binary_bufs_sub .., unary_bufs_sub .., binary_bufs_sub .., nullary_bufs_sub .., unary_bufs_sub .., unary_bufs_sub .., ternary_bufs_sub .., nullary_bufs_sub .., unary_bufs_sub .., binary_bufs_sub .., binary_bufs_sub .., unary_bufs_sub .., reshape_bufs_sub .., binary_bufs_sub .., binary_bufs_sub .., unary_bufs_sub .., nullary_bufs_sub .., unary_bufs_sub .., binary_bufs_sub .., nullary_bufs_sub .., unary_bufs_sub .., binary_bufs_sub .., ternary_bufs_sub .., unary_bufs_sub .., binary_bufs_sub .., unary_bufs_sub .., binary_bufs_sub .., nullary_bufs_sub .., unary_bufs_sub .., unary_bufs_sub .., ternary_bufs_sub .., nullary_bufs_sub .., unary_bufs_sub .., binary_bufs_sub .., binary_bufs_sub .., unary_bufs_sub .., reshape_bufs_sub .., binary_bufs_sub .., binary_bufs_sub .., unary_bufs_sub .., unary_bufs_sub .., binary_bufs_sub ..⟩

/-- The fold over two lines in a row is the fold over the second of the fold over the first. -/
theorem after_app (l₁ l₂ : List (HloOp τ sig (Elt F))) (V : Valuation τ sig (Elt F)) :
    after (l₁ ++ l₂) V = after l₂ (after l₁ V) := by
  induction l₁ generalizing V with
  | nil => rfl
  | cons op l ih => rw [List.cons_append, after_cons, after_cons]; exact ih _

set_option maxRecDepth 16384 in
set_option maxHeartbeats 32000000 in
/-- The line of operations is the pieces, one after the other. -/
theorem ops_split : (ops : List (HloOp τ sig (Elt F))) = P0 ++ (P1 ++ (P2 ++ (P3 ++ (P4 ++ (P5 ++ (P6 ++ (P7 ++ (P8 ++ (P9 ++ (P10 ++ (P11 ++ (P12 ++ (P13 ++ (P14 ++ (P15 ++ (P16 ++ (P17 ++ (P18)))))))))))))))))) := rfl

/-- The contents after the whole line are the contents after the pieces in order. -/
theorem after_ops (m : (ℓ : Loc nD τ sig) → Buf (Elt F) ℓ) (c : Dev nD) :
    after ops (launchContents m c) = afterPieces m c := by
  rw [ops_split]
  simp only [after_app]

set_option maxRecDepth 8192 in
set_option maxHeartbeats 32000000 in
/-- On every device, from any memory with zero counters: every weakly fair execution of the reference's @main terminates
    with the result buffer at the last stage of the reference, as a function of the arguments' launch contents, and the
    arguments unchanged. -/
theorem ref_run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v316) = Cert.ReferenceIdeal.ReadP.val_main_v316 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun _ h c => by
      have hp := pieces_result (F := F) m c
      have ha : ∀ b : Ref sig .tc, after ops (launchContents m c) (Proc.devRef .tc b) = afterPieces m c (Proc.devRef .tc b) :=
        fun b => congrFun (after_ops m c) _
      exact ⟨(h c main_v316).trans ((ha main_v316).trans hp.1),
        (h c main_arg0).trans ((ha main_arg0).trans hp.2.1),
        (h c main_arg1).trans ((ha main_arg1).trans hp.2.2.1),
        (h c main_arg2).trans ((ha main_arg2).trans hp.2.2.2.1),
        (h c main_arg3).trans ((ha main_arg3).trans hp.2.2.2.2.1),
        (h c main_arg4).trans ((ha main_arg4).trans hp.2.2.2.2.2.1),
        (h c main_arg5).trans ((ha main_arg5).trans hp.2.2.2.2.2.2)⟩)
    (run_seq scopedRefs_eq scopedSems_eq defs main (fun _ => ops) main_eq (fun _ => ops_sub) m ρ)

end Cert.Bridge.Ref

end
-- ==== Proof.lean ====
/-
  The certificate of the two-layer Chebyshev graph network: the kernel's program against its reference.

  Both programs compute, per layer, the eight Chebyshev bases T_0 … T_7 of the layer's input over the normalised graph
  (T_0 the input, T_1 one propagation of it, T_k = 2·(propagation of T_{k-1}) − T_{k-2}), then the layer sum
  (∑_k T_k · W_k) + b, layer 1 clamped at zero.  The reference adds the eight products left to right; the kernel stacks
  the eight bases, and a blocked kernel over ten row blocks zeroes an accumulator, adds the eight products to it one by
  one and adds the bias.  At the exact instance the roundings to the kernel's input format are the identity and the two
  orders of addition agree (addition of extended reals is commutative and associative, zero is neutral): no finiteness
  is needed, and the precondition is never opened.

  The three frames: the kernel's program at the word level and at the exact instance by the same proof (its host
  stretches step by step, each kernel region through its body run once on whole staging buffers); the reference by its
  run with the result dropped.  The idealisation rewrote nothing.  The value claim: the kernel's run ends at the
  reference's last stage of the arguments, and so does the reference's.
-/
import proofs.«145562_j85014582657503_2_alg».proof.Defs
import proofs.«145562_j85014582657503_2_alg».proof.Proof.Gen.Kernel
import proofs.«145562_j85014582657503_2_alg».proof.Proof.Gen.KernelIdeal
import proofs.«145562_j85014582657503_2_alg».proof.Proof.Gen.ReferenceIdeal
import proofs.«145562_j85014582657503_2_alg».proof.Proof.Gen.Pre_finite_inputs
import proofs.«145562_j85014582657503_2_alg».proof.Proof.K.Frame
import proofs.«145562_j85014582657503_2_alg».proof.Proof.KI.Value
import proofs.«145562_j85014582657503_2_alg».proof.Proof.Bridge.RefRun

noncomputable section

namespace Cert.Proof

open Idealize.ShloMosaic Idealize.ShloMosaic.TcCoe Idealize.SL.Sem

/-- The kernel's program, as printed, runs and leaves its arguments as launched. -/
theorem frame_k : Cert.frame_Kernel (hKernel := Cert.Kernel.Gen.facts) (hPre_finite_inputs := Cert.Pre_finite_inputs.Gen.facts) :=
  fun m ρ _ => Cert.Kernel.Hand.frame (F := Bits) m ρ

/-- So does its idealisation. -/
theorem frame_ki : Cert.frame_KernelIdeal (hKernelIdeal := Cert.KernelIdeal.Gen.facts) (hPre_finite_inputs := Cert.Pre_finite_inputs.Gen.facts) :=
  fun m ρ _ => Cert.KernelIdeal.Hand.frame (F := Ideal) m ρ

/-- And the reference: its run, the result dropped. -/
theorem frame_ri : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2) (Cert.Bridge.Ref.ref_run m ρ)

/-- Both idealised programs end at the reference's last stage of the (agreeing) arguments. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' _ hagree
  refine ⟨fun c => Cert.ReferenceIdeal.ReadP.val_main_v316 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)),
    Cert.KernelIdeal.Hand.run_value m ρ, ?_⟩
  refine (θ_run Cert.ReferenceIdeal.defs _ _).mono (fun _ h c => ⟨(h c).1.trans ?_, (h c).2⟩) (Cert.Bridge.Ref.ref_run m' ρ')
  rw [(hagree c).1, (hagree c).2.1, (hagree c).2.2.1, (hagree c).2.2.2.1, (hagree c).2.2.2.2.1, (hagree c).2.2.2.2.2]

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
